-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S47x128 : Shape := ⟨2, ![47, 128]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S47x128 : S_.BroadcastsInDim S47x128 (![] : Fin 0 → Fin S47x128.rank)
  reducesTo_S47x128_S_d0_1 : S47x128.ReducesTo [0, 1] S_
  bcast_S_S47 : S_.BroadcastsInDim S47 (![] : Fin 0 → Fin S47.rank)
  reducesTo_S47_S_d0 : S47.ReducesTo [0] S_

variable [Facts]

def fn_part3 {F : FTy → Type} [FloatOps F] (main_v48 : IVec S_ 1) (main_v49 : FVec F S47 .f32) (main_v50 : FVec F S47 .f32) : IVec S_ 1 :=
  let main_v51 : IVec S47 1 := cmpf .olt main_v49 main_v50
  let main_c_19 : IVec S_ 1 := constantI S_ 1 1#1
  let main_v52 : IVec S_ 1 := (fun x v => Host.reduce IntOp.andi x v reducesTo_S47_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S47x128 .f32) (main_arg11 : FVec F S47 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S47x128 .f32 := Host.absf main_arg10
  let main_cst_16 : FVec F S_ .f32 := constant S_ .f32 0x7F800000#32
  let main_v45 : FVec F S47x128 .f32 := broadcastInDim S47x128 ![] bcast_S_S47x128 main_cst_16
  let main_v46 : IVec S47x128 1 := cmpf .olt main_v44 main_v45
  let main_c_17 : IVec S_ 1 := constantI S_ 1 1#1
  let main_v47 : IVec S_ 1 := (fun x v => Host.reduce IntOp.andi x v reducesTo_S47x128_S_d0_1 h_S_) main_v46 main_c_17
  let main_v48 : IVec S_ 1 := andi main_v43 main_v47
  let main_v49 : FVec F S47 .f32 := Host.absf main_arg11
  let main_cst_18 : FVec F S_ .f32 := constant S_ .f32 0x7F800000#32
  let main_v50 : FVec F S47 .f32 := broadcastInDim S47 ![] bcast_S_S47 main_cst_18
  fn_part3 (F := F) main_v48 main_v49 main_v50

def fn_part1 {F : FTy → Type} [FloatOps F] (main_arg5 : FVec F S3x128 .f32) (main_arg6 : FVec F S3x128 .f32) (main_arg7 : FVec F S3x128 .f32) (main_arg8 : FVec F S128x128 .f32) (main_arg9 : FVec F S128 .f32) (main_arg10 : FVec F S47x128 .f32) (main_arg11 : FVec F S47 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) (main_arg8 : FVec F S128x128 .f32) (main_arg9 : FVec F S128 .f32) (main_arg10 : FVec F S47x128 .f32) (main_arg11 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x1600000 : Shape := ⟨2, ![1, 1600000]⟩
abbrev S1600000 : Shape := ⟨1, ![1600000]⟩
abbrev S1x128 : Shape := ⟨2, ![1, 128]⟩
abbrev S128x47 : Shape := ⟨2, ![128, 47]⟩
abbrev S1x47 : Shape := ⟨2, ![1, 47]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S5000x128 : Shape := ⟨2, ![5000, 128]⟩
abbrev S4000x128 : Shape := ⟨2, ![4000, 128]⟩
abbrev S4000 : Shape := ⟨1, ![4000]⟩
abbrev S4000x1 : Shape := ⟨2, ![4000, 1]⟩
abbrev S100000x47 : Shape := ⟨2, ![100000, 47]⟩
abbrev S4000x47 : Shape := ⟨2, ![4000, 47]⟩

abbrev nBuf : Space → Nat
  | .hbm => 151
  | .vmem => 64
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S128x128, .f32⟩
  | 9 => ⟨S128, .f32⟩
  | 10 => ⟨S47x128, .f32⟩
  | 11 => ⟨S47, .f32⟩
  | 12 => ⟨S1x1600000, .i32⟩
  | 13 => ⟨S1600000, .i32⟩
  | 14 => ⟨S1x1600000, .i32⟩
  | 15 => ⟨S1600000, .i32⟩
  | 16 => ⟨S3x128x128, .f32⟩
  | 17 => ⟨S3x128x128, .f32⟩
  | 18 => ⟨S128x128, .f32⟩
  | 19 => ⟨S1x128, .f32⟩
  | 20 => ⟨S128x47, .f32⟩
  | 21 => ⟨S1x47, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S1x128x128, .f32⟩
  | 84 => ⟨S128x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S1x128, .f32⟩
  | 92 => ⟨S128, .f32⟩
  | 93 => ⟨S1x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S1x128x128, .f32⟩
  | 122 => ⟨S128x128, .f32⟩
  | 123 => ⟨S1x128, .f32⟩
  | 124 => ⟨S128, .f32⟩
  | 125 => ⟨S1x128, .f32⟩
  | 126 => ⟨S1x128x128, .f32⟩
  | 127 => ⟨S128x128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S128, .f32⟩
  | 5 => ⟨S1x128, .f32⟩
  | 6 => ⟨S1x128, .f32⟩
  | 7 => ⟨S128, .f32⟩
  | 8 => ⟨S1x128, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S128x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S128x47, .f32⟩
  | .local _ .vmem, ⟨61, _⟩ => ⟨S1x47, .f32⟩
  | .local _ .vmem, ⟨62, _⟩ => ⟨S4000x47, .f32⟩
  | .local _ .vmem, ⟨63, _⟩ => ⟨S4000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev main_cst_1 : Ref sig .tc := ⟨.hbm, 53, rfl⟩
abbrev main_v37 : Ref sig .tc := ⟨.hbm, 54, rfl⟩
abbrev main_v38 : Ref sig .tc := ⟨.hbm, 55, rfl⟩
abbrev main_cst_2 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_4 : Ref sig .tc := ⟨.hbm, 65, rfl⟩
abbrev main_v46 : Ref sig .tc := ⟨.hbm, 66, rfl⟩
abbrev main_v47 : Ref sig .tc := ⟨.hbm, 67, rfl⟩
abbrev main_c_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72_0 : Ref sig .tc := ⟨.hbm, 94, rfl⟩
abbrev main_v72_1 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_cst_8 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_9 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_10 : Ref sig .tc := ⟨.hbm, 108, rfl⟩
abbrev main_v82 : Ref sig .tc := ⟨.hbm, 109, rfl⟩
abbrev main_v83 : Ref sig .tc := ⟨.hbm, 110, rfl⟩
abbrev main_c_11 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_12 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108_0 : Ref sig .tc := ⟨.hbm, 137, rfl⟩
abbrev main_v108_1 : Ref sig .tc := ⟨.hbm, 138, rfl⟩
abbrev main_cst_13 : Ref sig .tc := ⟨.hbm, 139, rfl⟩
abbrev main_v109 : Ref sig .tc := ⟨.hbm, 140, rfl⟩
abbrev main_v110 : Ref sig .tc := ⟨.hbm, 141, rfl⟩
abbrev main_cst_14 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_15 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg10_0 : Ref sig .tc := ⟨.vmem, 38, rfl⟩
abbrev cc3_stg10_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg7_0 : Ref sig .tc := ⟨.vmem, 55, rfl⟩
abbrev cc5_stg8_0 : Ref sig .tc := ⟨.vmem, 56, rfl⟩
abbrev cc5_stg9_0 : Ref sig .tc := ⟨.vmem, 57, rfl⟩
abbrev cc5_stg10_0 : Ref sig .tc := ⟨.vmem, 58, rfl⟩
abbrev cc5_stg11_0 : Ref sig .tc := ⟨.vmem, 59, rfl⟩
abbrev cc5_stg12_0 : Ref sig .tc := ⟨.vmem, 60, rfl⟩
abbrev cc5_stg13_0 : Ref sig .tc := ⟨.vmem, 61, rfl⟩
abbrev cc5_stg14_0 : Ref sig .tc := ⟨.vmem, 62, rfl⟩
abbrev cc5_stg14_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem10_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc5_sem8_0 : DmaSem sig := 56
abbrev cc5_sem9_0 : DmaSem sig := 57
abbrev cc5_sem10_0 : DmaSem sig := 58
abbrev cc5_sem11_0 : DmaSem sig := 59
abbrev cc5_sem12_0 : DmaSem sig := 60
abbrev cc5_sem13_0 : DmaSem sig := 61
abbrev cc5_sem14_0 : DmaSem sig := 62
abbrev cc5_sem14_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S4000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S128x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S128x47 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x47 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 2 → Memref sig .tc .vmem S4000x47 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S3x128x128_S3x128x128_0_2_1 : S3x128x128.Transposes [0, 2, 1] S3x128x128
  transposes_S128x128_S128x128_1_0 : S128x128.Transposes [1, 0] S128x128
  bcast_S128_S1x128_1 : S128.BroadcastsInDim S1x128 (![1] : Fin 1 → Fin S1x128.rank)
  transposes_S47x128_S128x47_1_0 : S47x128.Transposes [1, 0] S128x47
  bcast_S47_S1x47_1 : S47.BroadcastsInDim S1x47 (![1] : Fin 1 → Fin S1x47.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  bitsLt_bf16_f32 : FTy.bits .bf16 < FTy.bits .f32
  broadcasts_S1x128_S5000x128 : S1x128.Broadcasts S5000x128
  reduces_S5000x128_S128 : S5000x128.Reduces [0] S128
  shapeCasts_S128_S1x128 : S128.ShapeCasts S1x128
  bcast_S_S1x128 : S_.BroadcastsInDim S1x128 (![] : Fin 0 → Fin S1x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x47_S128x47_0_0 : ∀ a, (![0, 0] : Fin 2 → Nat) a + S128x47.size a ≤ S128x47.size a
  h_S128x47 : 0 < S128x47.numel
  shapeCasts_S128x47_S128x47 : S128x47.ShapeCasts S128x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S4000x47 : S1x47.Broadcasts S4000x47
  reduces_S4000x47_S4000 : S4000x47.Reduces [1] S4000
  broadcasts_S4000x1_S4000x47 : S4000x1.Broadcasts S4000x47
  inb_S4000x47_S4000x47_0_0 : ∀ a, (![0, 0] : Fin 2 → Nat) a + S4000x47.size a ≤ S4000x47.size a
  h_S4000x47 : 0 < S4000x47.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S4000x128_S128x128_S4000x128_1_0_0_1_n_n_wf : DotDims.WF S4000x128 S128x128 S4000x128 [1] [0] [0] [1] [] []
  dot_S4000x128_S128x47_S4000x47_1_0_0_1_n_n_wf : DotDims.WF S4000x128 S128x47 S4000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S100000x128.size a
  hwx1_10 : ∀ i : grid1.Coords, EltTy.bits .f32 = 32 ∨ (Rect.block (s := S100000x128) S4000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4000x128.size a ≤ S100000x128.size a
  hwx3_10 : ∀ i : grid3.Coords, EltTy.bits .f32 = 32 ∨ (Rect.block (s := S100000x128) S4000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S128x128.size a ≤ S128x128.size a
  hwx5_10 : ∀ i : grid5.Coords, EltTy.bits .f32 = 32 ∨ (Rect.block (s := S128x128) S128x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x128.size a ≤ S1x128.size a
  hwx5_11 : ∀ i : grid5.Coords, EltTy.bits .f32 = 32 ∨ (Rect.block (s := S1x128) S1x128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S128x47.size a ≤ S128x47.size a
  hwx5_12 : ∀ i : grid5.Coords, EltTy.bits .f32 = 32 ∨ (Rect.block (s := S128x47) S128x47.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S1x47.size a ≤ S1x47.size a
  hwx5_13 : ∀ i : grid5.Coords, EltTy.bits .f32 = 32 ∨ (Rect.block (s := S1x47) S1x47.size (cc5_transform_13 i) (hinb5_13 i)).WholeWords (EltTy.packing .f32)
  hstage5_14 : ∀ j, (stage5_14 j).IsWhole
  nbuf5_14 : grid5.bufCount reads5_14 false = 2
  hreads5_14 : ∀ i i' : grid5.Coords, (∀ a, reads5_14 a = true → i a = i' a) → cc5_transform_14 i = cc5_transform_14 i'
  hinb5_14 : ∀ (i : grid5.Coords) a, (cc5_transform_14 i a + 1) * S4000x47.size a ≤ S100000x47.size a
  hwx5_14 : ∀ i : grid5.Coords, EltTy.bits .f32 = 32 ∨ (Rect.block (s := S100000x47) S4000x47.size (cc5_transform_14 i) (hinb5_14 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x47_S4000x47_1_0_0_1_n_n : DotDims S4000x128 S128x47 S4000x47 where
  lhsContracting := [1]
  rhsContracting := [0]
  lhsNonContracting := [0]
  rhsNonContracting := [1]
  lhsBatch := []
  rhsBatch := []
  wf := dot_S4000x128_S128x47_S4000x47_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v45) S4000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72_0) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72_1) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v55) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v71) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v74) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v80) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v81) S4000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v91) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108_0) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108_1) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v91) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v93) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v101) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v104) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v107) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v110) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v116) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v6) S128x128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v7) S1x128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v8) S128x47.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v9) S1x47.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v117) S4000x47.size cc5_transform_14 reads5_14 true false 2 stage5_14 sem5_14
    hrank5 hreads5_14 hinb5_14 nbuf5_14 (Memref.isWhole_whole _) hwx5_14 hstage5_14

abbrev win5 : Fin 15 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | ⟨_ + 15, h⟩ => absurd h (Nat.not_lt.2 (Nat.le_add_left _ _))
abbrev spec5 : Fin 15 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S100000 : Shape := ⟨1, ![100000]⟩
abbrev S100000x1 : Shape := ⟨2, ![100000, 1]⟩
abbrev S128x47 : Shape := ⟨2, ![128, 47]⟩
abbrev S100000x47 : Shape := ⟨2, ![100000, 47]⟩
abbrev S1x47 : Shape := ⟨2, ![1, 47]⟩

abbrev nBuf : Space → Nat
  | .hbm => 290
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S128x128, .f32⟩
  | 9 => ⟨S128, .f32⟩
  | 10 => ⟨S47x128, .f32⟩
  | 11 => ⟨S47, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S1x128x128, .f32⟩
  | 30 => ⟨S128x128, .f32⟩
  | 31 => ⟨S128x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S_, .f32⟩
  | 42 => ⟨S128, .f32⟩
  | 43 => ⟨S_, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S100000x128, .f32⟩
  | 50 => ⟨S_, .f32⟩
  | 51 => ⟨S128, .f32⟩
  | 52 => ⟨S_, .f32⟩
  | 53 => ⟨S128, .f32⟩
  | 54 => ⟨S128, .f32⟩
  | 55 => ⟨S1x128, .f32⟩
  | 56 => ⟨S100000x128, .f32⟩
  | 57 => ⟨S100000x128, .f32⟩
  | 58 => ⟨S_, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S1x128x128, .f32⟩
  | 76 => ⟨S128x128, .f32⟩
  | 77 => ⟨S128x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | 87 => ⟨S_, .f32⟩
  | 88 => ⟨S100000, .f32⟩
  | 89 => ⟨S100000x1, .f32⟩
  | 90 => ⟨S100000x1, .f32⟩
  | 91 => ⟨S_, .f32⟩
  | 92 => ⟨S100000x1, .f32⟩
  | 93 => ⟨S100000x1, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S1x128x128, .f32⟩
  | 113 => ⟨S128x128, .f32⟩
  | 114 => ⟨S128x128, .f32⟩
  | 115 => ⟨S100000x128, .f32⟩
  | 116 => ⟨S1x128, .f32⟩
  | 117 => ⟨S128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .f32⟩
  | 125 => ⟨S128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S_, .f32⟩
  | 14 => ⟨S128, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S1x128, .f32⟩
  | 21 => ⟨S128, .f32⟩
  | 22 => ⟨S1x128, .f32⟩
  | 23 => ⟨S100000x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S1x128x128, .f32⟩
  | 31 => ⟨S128x128, .f32⟩
  | 32 => ⟨S128x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S100000x128, .f32⟩
  | 40 => ⟨S100000x128, .f32⟩
  | 41 => ⟨S100000x128, .f32⟩
  | 42 => ⟨S_, .f32⟩
  | 43 => ⟨S100000, .f32⟩
  | 44 => ⟨S100000x1, .f32⟩
  | 45 => ⟨S100000x1, .f32⟩
  | 46 => ⟨S_, .f32⟩
  | 47 => ⟨S100000x1, .f32⟩
  | 48 => ⟨S100000x1, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S1x128x128, .f32⟩
  | 68 => ⟨S128x128, .f32⟩
  | 69 => ⟨S128x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S_, .f32⟩
  | 97 => ⟨S128, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S128, .f32⟩
  | 110 => ⟨S1x128, .f32⟩
  | 111 => ⟨S100000x128, .f32⟩
  | 112 => ⟨S100000x128, .f32⟩
  | 113 => ⟨S1x128x128, .f32⟩
  | 114 => ⟨S128x128, .f32⟩
  | 115 => ⟨S128x128, .f32⟩
  | 116 => ⟨S100000x128, .f32⟩
  | 117 => ⟨S1x128, .f32⟩
  | 118 => ⟨S128, .f32⟩
  | 119 => ⟨S1x128, .f32⟩
  | 120 => ⟨S100000x128, .f32⟩
  | 121 => ⟨S100000x128, .f32⟩
  | 122 => ⟨S100000x128, .f32⟩
  | 123 => ⟨S100000x128, .f32⟩
  | 124 => ⟨S100000x128, .f32⟩
  | 125 => ⟨S_, .f32⟩
  | 126 => ⟨S100000, .f32⟩
  | 127 => ⟨S100000x1, .f32⟩
  | _ => ⟨S100000x128, .f32⟩

abbrev hbmTy0_2 (i : Nat) : BufTy := match i % 128 with
  | 0 => ⟨S100000x1, .f32⟩
  | 1 => ⟨S_, .f32⟩
  | 2 => ⟨S100000x1, .f32⟩
  | 3 => ⟨S100000x1, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S128x128, .f32⟩
  | 10 => ⟨S100000x128, .f32⟩
  | 11 => ⟨S1x128, .f32⟩
  | 12 => ⟨S100000x128, .f32⟩
  | 13 => ⟨S100000x128, .f32⟩
  | 14 => ⟨S128x47, .f32⟩
  | 15 => ⟨S100000x47, .f32⟩
  | 16 => ⟨S1x47, .f32⟩
  | 17 => ⟨S100000x47, .f32⟩
  | 18 => ⟨S100000x47, .f32⟩
  | 19 => ⟨S_, .f32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x47, .f32⟩
  | 26 => ⟨S100000x47, .f32⟩
  | 27 => ⟨S100000x47, .f32⟩
  | 28 => ⟨S_, .f32⟩
  | 29 => ⟨S100000, .f32⟩
  | 30 => ⟨S100000x1, .f32⟩
  | 31 => ⟨S100000x1, .f32⟩
  | 32 => ⟨S100000x47, .f32⟩
  | 33 => ⟨S100000x47, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_c_8 : Ref sig .tc := ⟨.hbm, 99, rfl⟩
abbrev main_v73 : Ref sig .tc := ⟨.hbm, 100, rfl⟩
abbrev main_v74 : Ref sig .tc := ⟨.hbm, 101, rfl⟩
abbrev main_c_9 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_10 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_call2_cst : Ref sig .tc := ⟨.hbm, 121, rfl⟩
abbrev main_call2_v0 : Ref sig .tc := ⟨.hbm, 122, rfl⟩
abbrev main_v92 : Ref sig .tc := ⟨.hbm, 123, rfl⟩
abbrev main_cst_11 : Ref sig .tc := ⟨.hbm, 124, rfl⟩
abbrev main_v93 : Ref sig .tc := ⟨.hbm, 125, rfl⟩
abbrev main_cst_12 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_13 : Ref sig .tc := ⟨.hbm, 133, rfl⟩
abbrev main_v100 : Ref sig .tc := ⟨.hbm, 134, rfl⟩
abbrev main_cst_14 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_15 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_16 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_17 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_call3_cst : Ref sig .tc := ⟨.hbm, 179, rfl⟩
abbrev main_call3_v0 : Ref sig .tc := ⟨.hbm, 180, rfl⟩
abbrev main_v141 : Ref sig .tc := ⟨.hbm, 181, rfl⟩
abbrev main_c_18 : Ref sig .tc := ⟨.hbm, 182, rfl⟩
abbrev main_v142 : Ref sig .tc := ⟨.hbm, 183, rfl⟩
abbrev main_v143 : Ref sig .tc := ⟨.hbm, 184, rfl⟩
abbrev main_c_19 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_20 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_call4_cst : Ref sig .tc := ⟨.hbm, 204, rfl⟩
abbrev main_call4_v0 : Ref sig .tc := ⟨.hbm, 205, rfl⟩
abbrev main_v161 : Ref sig .tc := ⟨.hbm, 206, rfl⟩
abbrev main_cst_21 : Ref sig .tc := ⟨.hbm, 207, rfl⟩
abbrev main_v162 : Ref sig .tc := ⟨.hbm, 208, rfl⟩
abbrev main_cst_22 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_23 : Ref sig .tc := ⟨.hbm, 216, rfl⟩
abbrev main_v169 : Ref sig .tc := ⟨.hbm, 217, rfl⟩
abbrev main_cst_24 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_25 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_cst_26 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_cst_27 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_call5_cst : Ref sig .tc := ⟨.hbm, 262, rfl⟩
abbrev main_call5_v0 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_call6_cst : Ref sig .tc := ⟨.hbm, 275, rfl⟩
abbrev main_call6_v0 : Ref sig .tc := ⟨.hbm, 276, rfl⟩
abbrev main_call6_cst_0 : Ref sig .tc := ⟨.hbm, 277, rfl⟩
abbrev main_call6_v1 : Ref sig .tc := ⟨.hbm, 278, rfl⟩
abbrev main_call6_v2 : Ref sig .tc := ⟨.hbm, 279, rfl⟩
abbrev main_call6_v3 : Ref sig .tc := ⟨.hbm, 280, rfl⟩
abbrev main_call6_v4 : Ref sig .tc := ⟨.hbm, 281, rfl⟩
abbrev main_call6_v5 : Ref sig .tc := ⟨.hbm, 282, rfl⟩
abbrev main_call6_v6 : Ref sig .tc := ⟨.hbm, 283, rfl⟩
abbrev main_call6_cst_1 : Ref sig .tc := ⟨.hbm, 284, rfl⟩
abbrev main_call6_v7 : Ref sig .tc := ⟨.hbm, 285, rfl⟩
abbrev main_call6_v8 : Ref sig .tc := ⟨.hbm, 286, rfl⟩
abbrev main_call6_v9 : Ref sig .tc := ⟨.hbm, 287, rfl⟩
abbrev main_call6_v10 : Ref sig .tc := ⟨.hbm, 288, rfl⟩
abbrev main_v221 : Ref sig .tc := ⟨.hbm, 289, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S47x128_S128x47_1_0 : S47x128.Transposes [1, 0] S128x47
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  bcast_S_S100000 : S_.BroadcastsInDim S100000 (![] : Fin 0 → Fin S100000.rank)
  bcast_S100000x1_S100000x47_0_1 : S100000x1.BroadcastsInDim S100000x47 (![0, 1] : Fin 2 → Fin S100000x47.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.Spec.lean ====
/-
  The network both programs compute, written once over the extended reals, entry by entry.

  Nodes are the rows of an N × 128 feature matrix. One layer: z = S x (a segment sum of neighbour rows, kept as a
  parameter S since both programs form it with the same operations); h = max (z·Wr + br) 0; the column mean μ and a
  column variance v of h over the N rows; o = (x·Wl + bl) + (((h − μ)·rsqrt (v + ε))·γ + β + z); each row of o divided
  by max (‖row‖₂) ε′ and clamped at 0. After three layers a two-step affine head and a row-wise log-softmax.
  The two programs differ in ONE place: the variance. One accumulates Σh and Σh² and takes
  max (Σh²/n − μ², 0); the other takes Σ(h − μ)²/n. On real data these agree, the second being a mean of squares.
-/
import Idealize.ShloMosaic.PureOps.Ideal
import Idealize.ShloMosaic.Lib.ValueIdx

noncomputable section

namespace Cert.Net

open Idealize.ShloMosaic Idealize.ShloMosaic.ValueIdx

/-- The words both programs spell literally: 0, the row count 100000, the two epsilons, minus infinity. -/
abbrev zeroW : EReal := Ideal.ofBits .f32 0x00000000#32
abbrev cntW : EReal := Ideal.ofBits .f32 0x47C35000#32
abbrev epsVar : EReal := Ideal.ofBits .f32 0x3727C5AC#32
abbrev epsNorm : EReal := Ideal.ofBits .f32 0x2B8CBCCC#32
abbrev negInfW : EReal := Ideal.ofBits .f32 0xFF800000#32

abbrev Mat (a b : ℕ) := Fin a → Fin b → EReal
abbrev Row (b : ℕ) := Fin b → EReal

variable {n : ℕ}

/-- A rank-2 array read by its two coordinates. -/
def cur {a b : ℕ} (X : (⟨2, ![a, b]⟩ : Shape).Idx → EReal) : Mat a b := fun r j => X (ix2 r j)

/-- Two coordinates back to a rank-2 array. -/
def uncur {a b : ℕ} (X : Mat a b) : (⟨2, ![a, b]⟩ : Shape).Idx → EReal := fun i => X (i 0) (i 1)

theorem cur_uncur {a b : ℕ} (X : Mat a b) : cur (uncur X) = X := rfl

theorem uncur_cur {a b : ℕ} (X : (⟨2, ![a, b]⟩ : Shape).Idx → EReal) : uncur (cur X) = X :=
  funext fun i => congrArg X (eq_ix2 i).symm

/-- Layer i's weight matrix, transposed: entry (k, j) is W[i, j, k]. -/
def wT (W : (⟨3, ![3, 128, 128]⟩ : Shape).Idx → EReal) (i : Fin 3) : Mat 128 128 := fun k j => W (ix3 i j k)
/-- Layer i's row of a [3, 128] parameter. -/
def rowOf (B : (⟨2, ![3, 128]⟩ : Shape).Idx → EReal) (i : Fin 3) : Row 128 := fun j => B (ix2 i j)
/-- A matrix transposed: entry (k, j) is W[j, k]. -/
def tr {a b : ℕ} (W : (⟨2, ![a, b]⟩ : Shape).Idx → EReal) : Mat b a := fun k j => W (ix2 j k)
/-- A vector read by its coordinate. -/
def vec {a : ℕ} (B : (⟨1, ![a]⟩ : Shape).Idx → EReal) : Row a := fun j => B (ix1 j)

/-- The hidden activations max (z·W + b) 0. -/
def hid (z : Mat n 128) (w : Mat 128 128) (b : Row 128) : Mat n 128 :=
  fun r j => max (∑ e : Fin 128, z r e * w e j + b j) zeroW

/-- Column sums and column sums of squares. -/
def colSum (h : Mat n 128) : Row 128 := fun j => ∑ r : Fin n, h r j
def colSumSq (h : Mat n 128) : Row 128 := fun j => ∑ r : Fin n, h r j * h r j

/-- The column mean. -/
def mean (h : Mat n 128) : Row 128 := fun j => Ideal.div (colSum h j) cntW
/-- The variance in one pass, clamped at zero. -/
def varOne (h : Mat n 128) : Row 128 :=
  fun j => max (Ideal.div (colSumSq h j) cntW - mean h j * mean h j) zeroW
/-- The variance in two passes. -/
def varTwo (h : Mat n 128) : Row 128 :=
  fun j => Ideal.div (∑ r : Fin n, (h r j - mean h j) * (h r j - mean h j)) cntW

/-- The layer before the row normalisation. -/
def pre (z x : Mat n 128) (wr : Mat 128 128) (br : Row 128) (wl : Mat 128 128) (bl γ β μ v : Row 128) : Mat n 128 :=
  fun r j => (∑ e : Fin 128, x r e * wl e j + bl j)
    + ((((hid z wr br r j - μ j) * Ideal.rsqrt (v j + epsVar)) * γ j + β j) + z r j)

/-- Each row divided by max (its Euclidean norm) ε′, then clamped at zero. -/
def normRelu (o : Mat n 128) : Mat n 128 :=
  fun r j => max (Ideal.div (o r j) (max (Ideal.sqrt (∑ q : Fin 128, o r q * o r q)) epsNorm)) zeroW

/-- One layer given the segment sum z, the mean μ and a variance v. -/
def layerOf (z x : Mat n 128) (wr : Mat 128 128) (br : Row 128) (wl : Mat 128 128) (bl γ β μ v : Row 128) : Mat n 128 :=
  normRelu (pre z x wr br wl bl γ β μ v)

/-- The parameters of one layer. -/
structure LayerW where
  wr : Mat 128 128
  br : Row 128
  wl : Mat 128 128
  bl : Row 128
  γ : Row 128
  β : Row 128

/-- One layer with the one-pass clamped variance. -/
def layerOne (S : Mat n 128 → Mat n 128) (x : Mat n 128) (P : LayerW) : Mat n 128 :=
  layerOf (S x) x P.wr P.br P.wl P.bl P.γ P.β (mean (hid (S x) P.wr P.br)) (varOne (hid (S x) P.wr P.br))
/-- One layer with the two-pass variance. -/
def layerTwo (S : Mat n 128 → Mat n 128) (x : Mat n 128) (P : LayerW) : Mat n 128 :=
  layerOf (S x) x P.wr P.br P.wl P.bl P.γ P.β (mean (hid (S x) P.wr P.br)) (varTwo (hid (S x) P.wr P.br))

/-- The first affine step of the head. -/
def head1 (x : Mat n 128) (w1 : Mat 128 128) (b1 : Row 128) : Mat n 128 :=
  fun r e => ∑ d : Fin 128, x r d * w1 d e + b1 e
/-- The second affine step of the head. -/
def head2 (y : Mat n 128) (w2 : Mat 128 47) (b2 : Row 47) : Mat n 47 :=
  fun r j => ∑ e : Fin 128, y r e * w2 e j + b2 j

/-- Row-wise log-softmax: (y − m) − log Σ exp (y − m), m the row maximum folded from minus infinity. -/
def logSoftmax (y : Mat n 47) : Mat n 47 :=
  fun r j => (y r j - (Finset.univ : Finset (Fin 47)).fold max negInfW fun d => y r d)
    - Ideal.log (∑ d : Fin 47, Ideal.exp (y r d - (Finset.univ : Finset (Fin 47)).fold max negInfW fun d => y r d))

/-- The head after the last layer. -/
def headOf (x : Mat n 128) (w1 : Mat 128 128) (b1 : Row 128) (w2 : Mat 128 47) (b2 : Row 47) : Mat n 47 :=
  logSoftmax (head2 (head1 x w1 b1) w2 b2)

/-- The whole network with the one-pass variance in every layer. -/
def netOne (S : Mat n 128 → Mat n 128) (x : Mat n 128) (P0 P1 P2 : LayerW)
    (w1 : Mat 128 128) (b1 : Row 128) (w2 : Mat 128 47) (b2 : Row 47) : Mat n 47 :=
  headOf (layerOne S (layerOne S (layerOne S x P0) P1) P2) w1 b1 w2 b2
/-- The whole network with the two-pass variance in every layer. -/
def netTwo (S : Mat n 128 → Mat n 128) (x : Mat n 128) (P0 P1 P2 : LayerW)
    (w1 : Mat 128 128) (b1 : Row 128) (w2 : Mat 128 47) (b2 : Row 47) : Mat n 47 :=
  headOf (layerTwo S (layerTwo S (layerTwo S x P0) P1) P2) w1 b1 w2 b2

/-- Layer i's parameters read off the argument arrays. -/
def layerW (Wl : (⟨3, ![3, 128, 128]⟩ : Shape).Idx → EReal) (bl : (⟨2, ![3, 128]⟩ : Shape).Idx → EReal)
    (Wr : (⟨3, ![3, 128, 128]⟩ : Shape).Idx → EReal) (br γ β : (⟨2, ![3, 128]⟩ : Shape).Idx → EReal) (i : Fin 3) : LayerW :=
  ⟨wT Wr i, rowOf br i, wT Wl i, rowOf bl i, rowOf γ i, rowOf β i⟩

end Cert.Net

end
-- ==== Proof.SpecRow.lean ====
/-
  A one-row matrix read by its lane; and the locality of a layer and of the head: row r of the result depends only on
  row r of the node features (and of their segment sums), so a block of rows computes exactly its rows of the whole.
-/
import proofs.«140366_j72610717106485_2_alg».proof.Proof.Spec

noncomputable section

namespace Cert.Net

open Idealize.ShloMosaic Idealize.ShloMosaic.ValueIdx

/-- Row 0 of a [1, b] array, by lane. -/
def row1 {b : ℕ} (B : (⟨2, ![1, b]⟩ : Shape).Idx → EReal) : Row b := fun j => B (ix2 (0 : Fin 1) j)

variable {n n' : ℕ}

/-- The layer before normalisation at row p of a block is the same at row r of the whole, when the rows agree. -/
theorem pre_row (z x : Mat n 128) (z' x' : Mat n' 128) (wr : Mat 128 128) (br : Row 128) (wl : Mat 128 128)
    (bl γ β μ v : Row 128) (p : Fin n) (r : Fin n') (hz : ∀ e, z p e = z' r e) (hx : ∀ e, x p e = x' r e) (q : Fin 128) :
    pre z x wr br wl bl γ β μ v p q = pre z' x' wr br wl bl γ β μ v r q := by
  unfold pre hid
  simp only [hz, hx]

/-- One layer at row p of a block is the layer at row r of the whole, when the rows agree. -/
theorem layerOf_row (z x : Mat n 128) (z' x' : Mat n' 128) (wr : Mat 128 128) (br : Row 128) (wl : Mat 128 128)
    (bl γ β μ v : Row 128) (p : Fin n) (r : Fin n') (hz : ∀ e, z p e = z' r e) (hx : ∀ e, x p e = x' r e) (q : Fin 128) :
    layerOf z x wr br wl bl γ β μ v p q = layerOf z' x' wr br wl bl γ β μ v r q := by
  unfold layerOf normRelu
  simp only [pre_row z x z' x' wr br wl bl γ β μ v p r hz hx]

/-- The head at row p of a block is the head at row r of the whole, when the rows agree. -/
theorem headOf_row (x : Mat n 128) (x' : Mat n' 128) (w1 : Mat 128 128) (b1 : Row 128) (w2 : Mat 128 47) (b2 : Row 47)
    (p : Fin n) (r : Fin n') (hx : ∀ e, x p e = x' r e) (q : Fin 47) :
    headOf x w1 b1 w2 b2 p q = headOf x' w1 b1 w2 b2 r q := by
  unfold headOf logSoftmax head2 head1
  simp only [hx]

end Cert.Net

end
-- ==== Proof.HostReads.lean ====
/-
  The host's preparation of each region's operands, read entry by entry.

  Before every region the host forms its small operands from the argument arrays by short chains of layout
  operations: a transpose of all three weight matrices, a slice of one layer, a reshape that drops the unit axis;
  a slice of one parameter row, a reshape to a vector, a broadcast back to a one-row matrix; a transpose of each
  head matrix; a broadcast of each head bias to a one-row matrix. Each such chain reads, at every entry of its
  result, ONE entry of the argument array, and that entry is the one the network's extractors name
  (the transposed layer matrix, the layer's row, the transposed matrix, the vector).
  Last, the host's column mean and clamped one-pass variance of two accumulated rows Σh and Σh²:
  Σh / n and max (Σh² / n − (Σh / n)², 0), with n and 0 spelled as broadcast scalar constants.
-/
import proofs.«140366_j72610717106485_2_alg».proof.Proof.Spec
import proofs.«140366_j72610717106485_2_alg».proof.Proof.SpecRow
import Idealize.ShloMosaic.Lib.Pipeline.Value
import Idealize.ShloMosaic.Lib.ValueIdx

noncomputable section

namespace Cert.HostReads

open Idealize.ShloMosaic Idealize.ShloMosaic.ValueIdx Cert.Net

/-! ## The offsets of layer i are the literal ones -/

example : (![(0 : Fin 3).val, 0, 0] : Fin 3 → ℕ) = ![0, 0, 0] := rfl
example : (![(1 : Fin 3).val, 0, 0] : Fin 3 → ℕ) = ![1, 0, 0] := rfl
example : (![(2 : Fin 3).val, 0, 0] : Fin 3 → ℕ) = ![2, 0, 0] := rfl
example : (![(0 : Fin 3).val, 0] : Fin 2 → ℕ) = ![0, 0] := rfl
example : (![(1 : Fin 3).val, 0] : Fin 2 → ℕ) = ![1, 0] := rfl
example : (![(2 : Fin 3).val, 0] : Fin 2 → ℕ) = ![2, 0] := rfl

/-! ## (H1) A layer's weight matrix -/

/-- All three matrices transposed, layer i sliced out, the unit axis dropped: entry (k, j) is W[i, j, k]. -/
theorem weight_slice (W : (⟨3, ![3, 128, 128]⟩ : Shape).Idx → EReal) (i : Fin 3)
    (ht : (⟨3, ![3, 128, 128]⟩ : Shape).Transposes [0, 2, 1] ⟨3, ![3, 128, 128]⟩)
    (hs : (⟨3, ![3, 128, 128]⟩ : Shape).Slices ![i.val, 0, 0] ⟨3, ![1, 128, 128]⟩)
    (hc : (⟨3, ![1, 128, 128]⟩ : Shape).ShapeCasts ⟨2, ![128, 128]⟩) :
    cur (shapeCast ⟨2, ![128, 128]⟩ (extractStridedSlice ⟨3, ![1, 128, 128]⟩ ![i.val, 0, 0]
      (transpose ⟨3, ![3, 128, 128]⟩ [0, 2, 1] W ht) hs) hc) = wT W i := by
  funext k j
  show shapeCast ⟨2, ![128, 128]⟩ _ hc (ix2 k j) = W (ix3 i j k)
  -- the reshape keeps the row-major position: (k, j) is (0, k, j)
  refine (shapeCast_apply _ hc (ix2 k j) (ix3 (0 : Fin 1) k j) ?_).trans ?_
  · rw [Shape.rowMajor_val_three, Shape.rowMajor_val_two]
    show (0 * 128 + k.val) * 128 + j.val = k.val * 128 + j.val
    omega
  -- the slice shifts the leading coordinate by i
  refine (extractStridedSlice_apply ![i.val, 0, 0] _ hs (ix3 (0 : Fin 1) k j) (ix3 i k j) (fun a => ?_)).trans ?_
  · match a with
    | ⟨0, _⟩ => show i.val = i.val + 0; omega
    | ⟨1, _⟩ => show k.val = 0 + k.val; omega
    | ⟨2, _⟩ => show j.val = 0 + j.val; omega
  -- the transpose swaps the last two coordinates
  exact transpose_apply [0, 2, 1] W ht (ix3 i k j) (ix3 i j k) (fun b => match b with
    | ⟨0, _⟩ => rfl
    | ⟨1, _⟩ => rfl
    | ⟨2, _⟩ => rfl)

/-! ## (H2) A layer's parameter row -/

/-- Row i sliced out, reshaped to a vector, broadcast back to one row: lane j is B[i, j]. -/
theorem param_row (B : (⟨2, ![3, 128]⟩ : Shape).Idx → EReal) (i : Fin 3)
    (hs : (⟨2, ![3, 128]⟩ : Shape).Slices ![i.val, 0] ⟨2, ![1, 128]⟩)
    (hc : (⟨2, ![1, 128]⟩ : Shape).ShapeCasts ⟨1, ![128]⟩)
    (hb : (⟨1, ![128]⟩ : Shape).BroadcastsInDim ⟨2, ![1, 128]⟩ ![1]) :
    row1 (broadcastInDim ⟨2, ![1, 128]⟩ ![1] hb
      (shapeCast ⟨1, ![128]⟩ (extractStridedSlice ⟨2, ![1, 128]⟩ ![i.val, 0] B hs) hc)) = rowOf B i := by
  funext j
  show broadcastInDim ⟨2, ![1, 128]⟩ ![1] hb
    (shapeCast ⟨1, ![128]⟩ (extractStridedSlice ⟨2, ![1, 128]⟩ ![i.val, 0] B hs) hc) (ix2 (0 : Fin 1) j) = B (ix2 i j)
  -- the broadcast reads the vector at the lane
  refine (broadcastInDim_apply _ hb _ (ix2 (0 : Fin 1) j) (ix1 j) (fun a => ?_)).trans ?_
  · match a with
    | ⟨0, _⟩ => show j.val = if (128 : Nat) = 1 then 0 else j.val; rw [if_neg (by decide)]
  -- the reshape keeps the row-major position: j is (0, j)
  refine (shapeCast_apply _ hc (ix1 j) (ix2 (0 : Fin 1) j) ?_).trans ?_
  · rw [Shape.rowMajor_val_two, Shape.rowMajor_val_one]
    show 0 * 128 + j.val = j.val
    omega
  -- the slice shifts the leading coordinate by i
  exact extractStridedSlice_apply ![i.val, 0] B hs (ix2 (0 : Fin 1) j) (ix2 i j) (fun a => match a with
    | ⟨0, _⟩ => by show i.val = i.val + 0; omega
    | ⟨1, _⟩ => by show j.val = 0 + j.val; omega)

/-! ## (H1), (H2) at each layer, with the offsets written as literals -/

/-- Layer 0's weight matrix. -/
theorem weight_slice_0 (W : (⟨3, ![3, 128, 128]⟩ : Shape).Idx → EReal)
    (ht : (⟨3, ![3, 128, 128]⟩ : Shape).Transposes [0, 2, 1] ⟨3, ![3, 128, 128]⟩)
    (hs : (⟨3, ![3, 128, 128]⟩ : Shape).Slices ![0, 0, 0] ⟨3, ![1, 128, 128]⟩)
    (hc : (⟨3, ![1, 128, 128]⟩ : Shape).ShapeCasts ⟨2, ![128, 128]⟩) :
    cur (shapeCast ⟨2, ![128, 128]⟩ (extractStridedSlice ⟨3, ![1, 128, 128]⟩ ![0, 0, 0]
      (transpose ⟨3, ![3, 128, 128]⟩ [0, 2, 1] W ht) hs) hc) = wT W 0 :=
  weight_slice W 0 ht hs hc

/-- Layer 1's weight matrix. -/
theorem weight_slice_1 (W : (⟨3, ![3, 128, 128]⟩ : Shape).Idx → EReal)
    (ht : (⟨3, ![3, 128, 128]⟩ : Shape).Transposes [0, 2, 1] ⟨3, ![3, 128, 128]⟩)
    (hs : (⟨3, ![3, 128, 128]⟩ : Shape).Slices ![1, 0, 0] ⟨3, ![1, 128, 128]⟩)
    (hc : (⟨3, ![1, 128, 128]⟩ : Shape).ShapeCasts ⟨2, ![128, 128]⟩) :
    cur (shapeCast ⟨2, ![128, 128]⟩ (extractStridedSlice ⟨3, ![1, 128, 128]⟩ ![1, 0, 0]
      (transpose ⟨3, ![3, 128, 128]⟩ [0, 2, 1] W ht) hs) hc) = wT W 1 :=
  weight_slice W 1 ht hs hc

/-- Layer 2's weight matrix. -/
theorem weight_slice_2 (W : (⟨3, ![3, 128, 128]⟩ : Shape).Idx → EReal)
    (ht : (⟨3, ![3, 128, 128]⟩ : Shape).Transposes [0, 2, 1] ⟨3, ![3, 128, 128]⟩)
    (hs : (⟨3, ![3, 128, 128]⟩ : Shape).Slices ![2, 0, 0] ⟨3, ![1, 128, 128]⟩)
    (hc : (⟨3, ![1, 128, 128]⟩ : Shape).ShapeCasts ⟨2, ![128, 128]⟩) :
    cur (shapeCast ⟨2, ![128, 128]⟩ (extractStridedSlice ⟨3, ![1, 128, 128]⟩ ![2, 0, 0]
      (transpose ⟨3, ![3, 128, 128]⟩ [0, 2, 1] W ht) hs) hc) = wT W 2 :=
  weight_slice W 2 ht hs hc

/-- Layer 0's parameter row. -/
theorem param_row_0 (B : (⟨2, ![3, 128]⟩ : Shape).Idx → EReal)
    (hs : (⟨2, ![3, 128]⟩ : Shape).Slices ![0, 0] ⟨2, ![1, 128]⟩)
    (hc : (⟨2, ![1, 128]⟩ : Shape).ShapeCasts ⟨1, ![128]⟩)
    (hb : (⟨1, ![128]⟩ : Shape).BroadcastsInDim ⟨2, ![1, 128]⟩ ![1]) :
    row1 (broadcastInDim ⟨2, ![1, 128]⟩ ![1] hb
      (shapeCast ⟨1, ![128]⟩ (extractStridedSlice ⟨2, ![1, 128]⟩ ![0, 0] B hs) hc)) = rowOf B 0 :=
  param_row B 0 hs hc hb

/-- Layer 1's parameter row. -/
theorem param_row_1 (B : (⟨2, ![3, 128]⟩ : Shape).Idx → EReal)
    (hs : (⟨2, ![3, 128]⟩ : Shape).Slices ![1, 0] ⟨2, ![1, 128]⟩)
    (hc : (⟨2, ![1, 128]⟩ : Shape).ShapeCasts ⟨1, ![128]⟩)
    (hb : (⟨1, ![128]⟩ : Shape).BroadcastsInDim ⟨2, ![1, 128]⟩ ![1]) :
    row1 (broadcastInDim ⟨2, ![1, 128]⟩ ![1] hb
      (shapeCast ⟨1, ![128]⟩ (extractStridedSlice ⟨2, ![1, 128]⟩ ![1, 0] B hs) hc)) = rowOf B 1 :=
  param_row B 1 hs hc hb

/-- Layer 2's parameter row. -/
theorem param_row_2 (B : (⟨2, ![3, 128]⟩ : Shape).Idx → EReal)
    (hs : (⟨2, ![3, 128]⟩ : Shape).Slices ![2, 0] ⟨2, ![1, 128]⟩)
    (hc : (⟨2, ![1, 128]⟩ : Shape).ShapeCasts ⟨1, ![128]⟩)
    (hb : (⟨1, ![128]⟩ : Shape).BroadcastsInDim ⟨2, ![1, 128]⟩ ![1]) :
    row1 (broadcastInDim ⟨2, ![1, 128]⟩ ![1] hb
      (shapeCast ⟨1, ![128]⟩ (extractStridedSlice ⟨2, ![1, 128]⟩ ![2, 0] B hs) hc)) = rowOf B 2 :=
  param_row B 2 hs hc hb

/-! ## (H3) The head's matrices -/

/-- A square head matrix transposed: entry (k, j) is W[j, k]. -/
theorem head_matrix (W : (⟨2, ![128, 128]⟩ : Shape).Idx → EReal)
    (ht : (⟨2, ![128, 128]⟩ : Shape).Transposes [1, 0] ⟨2, ![128, 128]⟩) :
    cur (transpose ⟨2, ![128, 128]⟩ [1, 0] W ht) = tr W := by
  funext k j
  show transpose ⟨2, ![128, 128]⟩ [1, 0] W ht (ix2 k j) = W (ix2 j k)
  exact transpose_apply [1, 0] W ht (ix2 k j) (ix2 j k) (fun b => match b with
    | ⟨0, _⟩ => rfl
    | ⟨1, _⟩ => rfl)

/-- The 47 × 128 head matrix transposed to 128 × 47: entry (k, j) is W[j, k]. -/
theorem head_matrix_47 (W : (⟨2, ![47, 128]⟩ : Shape).Idx → EReal)
    (ht : (⟨2, ![47, 128]⟩ : Shape).Transposes [1, 0] ⟨2, ![128, 47]⟩) :
    cur (transpose ⟨2, ![128, 47]⟩ [1, 0] W ht) = tr W := by
  funext k j
  show transpose ⟨2, ![128, 47]⟩ [1, 0] W ht (ix2 k j) = W (ix2 j k)
  exact transpose_apply [1, 0] W ht (ix2 k j) (ix2 j k) (fun b => match b with
    | ⟨0, _⟩ => rfl
    | ⟨1, _⟩ => rfl)

/-! ## (H4) The head's biases -/

/-- A 128-vector broadcast to one row: lane j is b[j]. -/
theorem head_bias (b : (⟨1, ![128]⟩ : Shape).Idx → EReal)
    (hb : (⟨1, ![128]⟩ : Shape).BroadcastsInDim ⟨2, ![1, 128]⟩ ![1]) :
    row1 (broadcastInDim ⟨2, ![1, 128]⟩ ![1] hb b) = vec b := by
  funext j
  show broadcastInDim ⟨2, ![1, 128]⟩ ![1] hb b (ix2 (0 : Fin 1) j) = b (ix1 j)
  exact broadcastInDim_apply _ hb b (ix2 (0 : Fin 1) j) (ix1 j) (fun a => match a with
    | ⟨0, _⟩ => by show j.val = if (128 : Nat) = 1 then 0 else j.val; rw [if_neg (by decide)])

/-- A 47-vector broadcast to one row: lane j is b[j]. -/
theorem head_bias_47 (b : (⟨1, ![47]⟩ : Shape).Idx → EReal)
    (hb : (⟨1, ![47]⟩ : Shape).BroadcastsInDim ⟨2, ![1, 47]⟩ ![1]) :
    row1 (broadcastInDim ⟨2, ![1, 47]⟩ ![1] hb b) = vec b := by
  funext j
  show broadcastInDim ⟨2, ![1, 47]⟩ ![1] hb b (ix2 (0 : Fin 1) j) = b (ix1 j)
  exact broadcastInDim_apply _ hb b (ix2 (0 : Fin 1) j) (ix1 j) (fun a => match a with
    | ⟨0, _⟩ => by show j.val = if (47 : Nat) = 1 then 0 else j.val; rw [if_neg (by decide)])

/-! ## (H5) The column mean and the clamped one-pass variance, as the host spells them -/

/-- The accumulated row of sums divided by the broadcast row count: lane j is Σ / n. -/
theorem host_mean (S1 : FVec Ideal ⟨2, ![1, 128]⟩ .f32)
    (h0 : (⟨0, ![]⟩ : Shape).BroadcastsInDim ⟨2, ![1, 128]⟩ ![]) :
    row1 (Host.divf S1 (broadcastInDim ⟨2, ![1, 128]⟩ ![] h0 (constant (F := Ideal) ⟨0, ![]⟩ .f32 0x47C35000#32)))
      = fun j => Ideal.div (row1 S1 j) cntW := rfl

/-- max (Σ² / n − (Σ / n)·(Σ / n), 0) with n and 0 broadcast scalar constants, lane by lane. -/
theorem host_varOne (S1 S2 : FVec Ideal ⟨2, ![1, 128]⟩ .f32)
    (h0 : (⟨0, ![]⟩ : Shape).BroadcastsInDim ⟨2, ![1, 128]⟩ ![]) :
    row1 (maximumf
        (subf (Host.divf S2 (broadcastInDim ⟨2, ![1, 128]⟩ ![] h0 (constant (F := Ideal) ⟨0, ![]⟩ .f32 0x47C35000#32)))
          (mulf (Host.divf S1 (broadcastInDim ⟨2, ![1, 128]⟩ ![] h0 (constant (F := Ideal) ⟨0, ![]⟩ .f32 0x47C35000#32)))
            (Host.divf S1 (broadcastInDim ⟨2, ![1, 128]⟩ ![] h0 (constant (F := Ideal) ⟨0, ![]⟩ .f32 0x47C35000#32)))))
        (broadcastInDim ⟨2, ![1, 128]⟩ ![] h0 (constant (F := Ideal) ⟨0, ![]⟩ .f32 0x00000000#32)))
      = fun j => max (Ideal.div (row1 S2 j) cntW - Ideal.div (row1 S1 j) cntW * Ideal.div (row1 S1 j) cntW) zeroW := rfl

variable {n : ℕ}

/-- When the accumulated row is the column sums of h, the host's quotient is the column mean of h. -/
theorem host_mean_eq (h : Mat n 128) (S1 : FVec Ideal ⟨2, ![1, 128]⟩ .f32)
    (h0 : (⟨0, ![]⟩ : Shape).BroadcastsInDim ⟨2, ![1, 128]⟩ ![])
    (e1 : row1 S1 = colSum h) :
    row1 (Host.divf S1 (broadcastInDim ⟨2, ![1, 128]⟩ ![] h0 (constant (F := Ideal) ⟨0, ![]⟩ .f32 0x47C35000#32)))
      = mean h := by
  rw [host_mean S1 h0, e1]
  rfl

/-- When the two accumulated rows are the column sums and the column sums of squares of h, the host's clamped
    difference is the one-pass variance of h. -/
theorem host_varOne_eq (h : Mat n 128) (S1 S2 : FVec Ideal ⟨2, ![1, 128]⟩ .f32)
    (h0 : (⟨0, ![]⟩ : Shape).BroadcastsInDim ⟨2, ![1, 128]⟩ ![])
    (e1 : row1 S1 = colSum h) (e2 : row1 S2 = colSumSq h) :
    row1 (maximumf
        (subf (Host.divf S2 (broadcastInDim ⟨2, ![1, 128]⟩ ![] h0 (constant (F := Ideal) ⟨0, ![]⟩ .f32 0x47C35000#32)))
          (mulf (Host.divf S1 (broadcastInDim ⟨2, ![1, 128]⟩ ![] h0 (constant (F := Ideal) ⟨0, ![]⟩ .f32 0x47C35000#32)))
            (Host.divf S1 (broadcastInDim ⟨2, ![1, 128]⟩ ![] h0 (constant (F := Ideal) ⟨0, ![]⟩ .f32 0x47C35000#32)))))
        (broadcastInDim ⟨2, ![1, 128]⟩ ![] h0 (constant (F := Ideal) ⟨0, ![]⟩ .f32 0x00000000#32)))
      = varOne h := by
  rw [host_varOne S1 S2 h0, e1, e2]
  rfl

/-! ## A one-row matrix given lane by lane -/

/-- A one-row matrix whose entry depends on the lane only, read by its lane, is that function of the lane. -/
theorem row1_of_lane {b : ℕ} (f : Fin b → EReal) :
    row1 (fun i : (⟨2, ![1, b]⟩ : Shape).Idx => f (i 1)) = f := rfl

end Cert.HostReads

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibMinAxis.lean ====
/-
  Minima and sums along one axis of an array of extended reals, read at an index written by its coordinates.

  A minimum taken along one axis, started from a given value, is the fold of `min` from that value over the axis's
  coordinates; started from the top element it is the infimum.  This is proved for the host's reduction of a rank-3 array
  along its last or its middle axis, and for a vector reduction along any one axis; the sum of a matrix along its first
  axis is the sum over the row coordinate.  Last, the infimum of a function over the first `(j + 1) * w` indices is the
  smaller of its infimum over the first `j * w` and its infimum over the next run of `w`.
-/
import Idealize.ShloMosaic.PureOps.Ideal
import Idealize.ShloMosaic.PureOps.Ideal.Laws
import Idealize.ShloMosaic.PureOps.Reduce
import Idealize.ShloMosaic.Lib.ValueIdx

noncomputable section

namespace Idealize.ShloMosaic.MinAxis

open Idealize.ShloMosaic Idealize.ShloMosaic.ValueIdx

/-! ## The index with the reduced coordinate inserted -/

section Lift
variable {a b c : ℕ}

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

end Lift

/-! ## The host's minimum along one axis of a rank-3 array -/

section Host
variable {a b c : ℕ} {φ : FTy}

/-- The host's minimum along the last axis, at `(i, j)`: the fold of `min` from the initial value over `k`. -/
theorem hostReduce_min_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.minimumf (F := Ideal) (φ := φ)) x init h' hu (ix2 i j)
      = (Finset.univ : Finset (Fin c)).fold min (init (Shape.Idx.first hu)) fun k => x (ix3 i j k) := by
  refine (Host.reduce_eq_fold_single (FloatOps.minimumf (F := Ideal) (φ := φ)) x init h' h hu (ix2 i j)).trans ?_
  refine congrArg (Finset.fold min (init (Shape.Idx.first hu)) · Finset.univ) (funext fun k => ?_)
  exact congrArg x (lift_last h i j k)

/-- The host's minimum along the middle axis, at `(i, k)`: the fold of `min` from the initial value over `j`. -/
theorem hostReduce_min_middle {u : Shape} (x : (⟨3, ![a, b, c]⟩ : Shape).Idx → Ideal φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce (FloatOps.minimumf (F := Ideal) (φ := φ)) x init h' hu (ix2 i k)
      = (Finset.univ : Finset (Fin b)).fold min (init (Shape.Idx.first hu)) fun j => x (ix3 i j k) := by
  refine (Host.reduce_eq_fold_single (FloatOps.minimumf (F := Ideal) (φ := φ)) x init h' h hu (ix2 i k)).trans ?_
  refine congrArg (Finset.fold min (init (Shape.Idx.first hu)) · Finset.univ) (funext fun j => ?_)
  exact congrArg x (lift_middle h i j k)

end Host

/-- A fold of `min` from the top of the extended reals is the infimum. -/
theorem fold_min_top {ι : Type} (s : Finset ι) (f : ι → EReal) : s.fold min ⊤ f = s.inf f := rfl

/-! ## A vector reduction along one axis -/

/-- A vector minimum along one axis, read on the extended reals: the fold of `min` from the accumulator's value over
    that axis's coordinates. -/
theorem min_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum of a `[b, a]` matrix along its first axis, read at lane `q` on the extended reals, is the sum over the
    row coordinate of that lane's entries (the accumulator word is the neutral one, zero). -/
theorem sum_first_apply {a b : ℕ} (x : FVec Ideal ⟨2, ![b, a]⟩ .f32) (h : (⟨2, ![b, a]⟩ : Shape).Reduces [0] ⟨1, ![a]⟩)
    (hφ : FKind.Formats .f32) (hacc : (0x00000000#32 : BitVec 32) = FKind.add.neutral .f32 hφ) (q : Fin a) :
    multiReduction .add [0] ⟨1, ![a]⟩ x 0x00000000#32 h hφ hacc (ix1 q) = ∑ d : Fin b, x (ix2 d q) := by
  refine (Ideal.multiReduction_add_single x 0x00000000#32 h hφ hacc (ix1 q)).trans ?_
  show ∑ d : Fin b, x (h.lift (ix1 q) d) = ∑ d : Fin b, x (ix2 d q)
  refine Finset.sum_congr rfl fun d _ => congrArg x (funext fun c => Fin.ext ?_)
  match c with
  | ⟨0, _⟩ => rfl
  | ⟨1, _⟩ => rfl

/-! ## An infimum over the indices below a bound, one run of `w` at a time -/

section Runs
variable {N w : ℕ}

/-- Below zero there is no index: the infimum is the top. -/
theorem inf_below_zero (f : Fin N → EReal) : (Finset.univ.filter fun q : Fin N => q.val < 0).inf f = ⊤ := by
  have e : (Finset.univ.filter fun q : Fin N => q.val < 0) = ∅ :=
    Finset.filter_false_of_mem fun q _ => Nat.not_lt_zero _
  rw [e, Finset.inf_empty]

/-- Below `N` there is every index. -/
theorem inf_below_all (f : Fin N → EReal) :
    (Finset.univ.filter fun q : Fin N => q.val < N).inf f = Finset.univ.inf f := by
  rw [Finset.filter_true_of_mem fun q _ => q.isLt]

/-- Index `r` of run `j` is below `N` when the first `j + 1` runs are. -/
theorem run_lt (j : ℕ) (hj : (j + 1) * w ≤ N) (r : Fin w) : j * w + r.val < N := by
  have h : (j + 1) * w = j * w + w := Nat.succ_mul j w
  have := r.isLt
  omega

/-- The indices below `(j + 1) * w` are those below `j * w` and the run `j * w + r`, `r` below `w`. -/
theorem below_succ (j : ℕ) (hj : (j + 1) * w ≤ N) :
    (Finset.univ.filter fun q : Fin N => q.val < (j + 1) * w)
      = (Finset.univ.filter fun q : Fin N => q.val < j * w)
          ∪ Finset.univ.image fun r : Fin w => (⟨j * w + r.val, run_lt j hj r⟩ : Fin N) := by
  have h : (j + 1) * w = j * w + w := Nat.succ_mul j w
  ext q
  simp only [Finset.mem_filter, Finset.mem_univ, true_and, Finset.mem_union, Finset.mem_image]
  constructor
  · intro hq
    by_cases hq' : q.val < j * w
    · exact Or.inl hq'
    · exact Or.inr ⟨⟨q.val - j * w, by omega⟩, Fin.ext (by show j * w + (q.val - j * w) = q.val; omega)⟩
  · rintro (hq | ⟨r, rfl⟩)
    · omega
    · show j * w + r.val < (j + 1) * w
      have := r.isLt
      omega

/-- So the infimum below `(j + 1) * w` is the smaller of the infimum below `j * w` and the infimum over run `j`. -/
theorem inf_below_succ (f : Fin N → EReal) (j : ℕ) (hj : (j + 1) * w ≤ N) :
    (Finset.univ.filter fun q : Fin N => q.val < (j + 1) * w).inf f
      = min ((Finset.univ.filter fun q : Fin N => q.val < j * w).inf f)
          (Finset.univ.inf fun r : Fin w => f ⟨j * w + r.val, run_lt j hj r⟩) := by
  rw [below_succ j hj, Finset.inf_union, Finset.inf_image]
  rfl

end Runs

end Idealize.ShloMosaic.MinAxis

end
-- ==== Proof.LibColumnStats.lean ====
/-
  Column sums of a clamped affine block, accumulated block by block, on the extended reals, for any number of rows.

  A block of a rows holds activations max (Σ_e x_{p e} · W_{e q} + β_q) 0 (the factors may pass through identity casts
  and changes of float format, which are the identity here). The sum of a block down its rows, cast to a one-row
  matrix and added to a running one-row accumulator, reads at lane q as accumulator + Σ over the a rows; the same for
  the squares. Nothing is rearranged, so nothing needs finiteness.
-/
import proofs.«140366_j72610717106485_2_alg».proof.Proof.LibRowMax
import proofs.«140366_j72610717106485_2_alg».proof.Proof.LibMinAxis
import Idealize.ShloMosaic.Lib.ValueLayout
import Idealize.ShloMosaic.Lib.Pipeline.Value
import Idealize.ShloMosaic.PureOps.Ideal.Laws

noncomputable section

namespace Cert.LibColumnStats

open Idealize.ShloMosaic Idealize.ShloMosaic.ValueIdx Cert.LibRowMax

variable {a k b : ℕ}

/-- The clamped affine block at (p, q), the two factors rounded to a narrower format on the way in. -/
theorem dense_trunc_apply (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ .f32) (W : FVec Ideal ⟨2, ![k, b]⟩ .f32) (β : FVec Ideal ⟨2, ![1, b]⟩ .f32)
    (hx : (⟨2, ![a, k]⟩ : Shape).ShapeCasts ⟨2, ![a, k]⟩) (hW : (⟨2, ![k, b]⟩ : Shape).ShapeCasts ⟨2, ![k, b]⟩)
    (hβ : (⟨2, ![1, b]⟩ : Shape).ShapeCasts ⟨2, ![1, b]⟩) (hlt : FTy.bf16.bits < FTy.f32.bits)
    (hbc : (⟨2, ![1, b]⟩ : Shape).Broadcasts ⟨2, ![a, b]⟩) (p : Fin a) (q : Fin b) :
    maximumf (addf (matmul D none (truncf .bf16 (shapeCast ⟨2, ![a, k]⟩ x hx) hlt) (truncf .bf16 (shapeCast ⟨2, ![k, b]⟩ W hW) hlt)
          (constant ⟨2, ![a, b]⟩ .f32 0x00000000#32))
        (broadcastTo ⟨2, ![a, b]⟩ (shapeCast ⟨2, ![1, b]⟩ β hβ) hbc))
      (broadcast ⟨2, ![a, b]⟩ (Scalar.ofBits (F := Ideal) .f32 0x00000000#32)) (ix2 p q)
    = max (∑ e : Fin k, x (ix2 p e) * W (ix2 e q) + β (ix2 (0 : Fin 1) q)) (Ideal.ofBits .f32 0x00000000#32) := by
  subst hD
  rw [shapeCast_self, shapeCast_self, shapeCast_self]
  show max (FloatOps.matmul (plainDims a k b wf) none (truncf .bf16 x hlt) (truncf .bf16 W hlt)
      (constant ⟨2, ![a, b]⟩ .f32 0x00000000#32) (ix2 p q) + broadcastTo ⟨2, ![a, b]⟩ β hbc (ix2 p q))
      (Ideal.ofBits .f32 0x00000000#32) = _
  rw [matmul_plain_apply wf none (truncf .bf16 x hlt) (truncf .bf16 W hlt) p q, broadcastTo_1b_ab_apply β hbc p q]
  rfl

/-- A block's column sums added to a one-row accumulator, at lane q. -/
theorem colsum_step_apply (h : FVec Ideal ⟨2, ![a, b]⟩ .f32) (acc : FVec Ideal ⟨2, ![1, b]⟩ .f32)
    (hc1 : (⟨2, ![1, b]⟩ : Shape).ShapeCasts ⟨2, ![1, b]⟩) (hc2 : (⟨1, ![b]⟩ : Shape).ShapeCasts ⟨2, ![1, b]⟩)
    (hr : (⟨2, ![a, b]⟩ : Shape).Reduces [0] ⟨1, ![b]⟩) (hφ : FKind.Formats .f32)
    (hacc : (0x00000000#32 : BitVec 32) = FKind.add.neutral .f32 hφ) (u : Fin 1) (q : Fin b) :
    addf (shapeCast ⟨2, ![1, b]⟩ acc hc1)
        (shapeCast ⟨2, ![1, b]⟩ (multiReduction .add [0] ⟨1, ![b]⟩ h 0x00000000#32 hr hφ hacc) hc2) (ix2 u q)
      = acc (ix2 u q) + ∑ d : Fin a, h (ix2 d q) := by
  rw [shapeCast_self]
  show acc (ix2 u q) + shapeCast ⟨2, ![1, b]⟩ (multiReduction .add [0] ⟨1, ![b]⟩ h 0x00000000#32 hr hφ hacc) hc2 (ix2 u q) = _
  rw [shapeCast_a_1a_apply _ hc2 u q, Idealize.ShloMosaic.MinAxis.sum_first_apply h hr hφ hacc q]

/-- The zero row a reset stores reads the zero word. -/
theorem zero_row_apply (u : Fin 1) (q : Fin b) :
    broadcast ⟨2, ![1, b]⟩ (Scalar.ofBits (F := Ideal) .f32 0x00000000#32) (ix2 u q) = Ideal.ofBits .f32 0x00000000#32 := rfl

end Cert.LibColumnStats

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Stats0.lean ====
/-
  What the statistics region leaves in its two one-row outputs: the column sums and the column sums of squares of the
  hidden activations max (z·W + b) 0 over all 100000 rows. The region visits the rows in 20 blocks of 5000; the first
  point stores a zero row and adds its block's sums to it, every later point adds its block's sums to what the point
  before left, and the last point's row is what is written back. Summed over the blocks this is the sum over all rows.
-/
import proofs.«140366_j72610717106485_2_alg».proof.Proof.Gen.KernelIdeal.Frame
import proofs.«140366_j72610717106485_2_alg».proof.Proof.Spec
import proofs.«140366_j72610717106485_2_alg».proof.Proof.SpecRow
import proofs.«140366_j72610717106485_2_alg».proof.Proof.LibColumnStats
import proofs.«140366_j72610717106485_2_alg».proof.Proof.LibBlockSum
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stats0

open Cert.KernelIdeal Cert.KernelIdeal.Gen

theorem hz : (![0, 0] : Fin 2 → Nat) = fun _ => 0 := funext fun a => by fin_cases a <;> rfl

/-! ## What each case of the body leaves, as values -/

section Pieces
variable {F : FTy → Type} [FloatOps F]

/-- A later point: the accumulator row plus the block's column sums. -/
theorem out_B_3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : ¬cond0_0 i)
    (x0 : Vec F S5000x128 .f32) (x1 : Vec F S128x128 .f32) (x2 : Vec F S1x128 .f32) (xo3 xo4 : Vec F S1x128 .f32) :
    out0_B_3 c i a1 h1 a2 h2 a3 h3 a4 h4 a5 h5 hc x0 x1 x2 xo3 xo4 = k0_pay4 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- A later point: the accumulator row plus the block's column sums of squares. -/
theorem out_B_4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : ¬cond0_0 i)
    (x0 : Vec F S5000x128 .f32) (x1 : Vec F S128x128 .f32) (x2 : Vec F S1x128 .f32) (xo3 xo4 : Vec F S1x128 .f32) :
    out0_B_4 c i a1 h1 a2 h2 a3 h3 a4 h4 a5 h5 hc x0 x1 x2 xo3 xo4 = k0_pay5 x0 x1 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- The first point: the zero row plus the block's column sums (the zero row is stored, read back, and added to). -/
theorem out_A_3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : cond0_0 i)
    (x0 : Vec F S5000x128 .f32) (x1 : Vec F S128x128 .f32) (x2 : Vec F S1x128 .f32) :
    out0_A_3 c i a1 h1 a2 h2 a3 h3 a4 h4 a5 h5 hc x0 x1 x2 = k0_pay4 x0 x1 x2 (k0_pay1 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- The first point: the zero row plus the block's column sums of squares. -/
theorem out_A_4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : cond0_0 i)
    (x0 : Vec F S5000x128 .f32) (x1 : Vec F S128x128 .f32) (x2 : Vec F S1x128 .f32) :
    out0_A_4 c i a1 h1 a2 h2 a3 h3 a4 h4 a5 h5 hc x0 x1 x2 = k0_pay5 x0 x1 x2 (k0_pay2 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

variable (V : (c : Dev nD) → (b : Ref sig .tc) → Buf (Elt F) ((c : Thread nD τ).loc b))

/-- The two running rows after point n: started from the zero rows, each point adds its block's sums. -/
def acc (c : Dev nD) : (n : ℕ) → n < cfg0.N → Vec F S1x128 .f32 × Vec F S1x128 .f32
  | 0, h => (k0_pay4 (iblk0 V c 0 ⟨0, h⟩) (iblk0 V c 1 ⟨0, h⟩) (iblk0 V c 2 ⟨0, h⟩) (k0_pay1 (F := F)),
      k0_pay5 (iblk0 V c 0 ⟨0, h⟩) (iblk0 V c 1 ⟨0, h⟩) (iblk0 V c 2 ⟨0, h⟩) (k0_pay2 (F := F)))
  | n + 1, h => (k0_pay4 (iblk0 V c 0 ⟨n + 1, h⟩) (iblk0 V c 1 ⟨n + 1, h⟩) (iblk0 V c 2 ⟨n + 1, h⟩) (acc c n (Nat.lt_of_succ_lt h)).1,
      k0_pay5 (iblk0 V c 0 ⟨n + 1, h⟩) (iblk0 V c 1 ⟨n + 1, h⟩) (iblk0 V c 2 ⟨n + 1, h⟩) (acc c n (Nat.lt_of_succ_lt h)).2)

/-- What the outputs' buffers hold after point n is the pair of running rows: by induction on the point. -/
theorem outsAt_eq (c : Dev nD) : ∀ (n : ℕ) (h : n < cfg0.N), outsAt0 V c n h = acc V c n h
  | 0, h => by
    rw [outsAt0_A V c ⟨0, h⟩ rfl, out_A_3, out_A_4]
    rfl
  | n + 1, h => by
    have hN : cfg0.N = 20 := N_0
    have hB : ¬(⟨n + 1, h⟩ : Fin cfg0.N).val % 20 = 0 := by dsimp only; omega
    rw [outsAt0_B V c ⟨n + 1, h⟩ hB, out_B_3, out_B_4]
    show (k0_pay4 _ _ _ (outsAt0 V c n _).1, k0_pay5 _ _ _ (outsAt0 V c n _).2) = _
    rw [outsAt_eq c n]
    rfl

end Pieces

/-! ## The values, on the extended reals -/

section Value

open Cert.Net

/-- The hidden block at (p, q). -/
theorem pay3_apply (x0 : Vec Ideal S5000x128 .f32) (x1 : Vec Ideal S128x128 .f32) (x2 : Vec Ideal S1x128 .f32)
    (p : Fin 5000) (q : Fin 128) :
    k0_pay3 (F := Ideal) x0 x1 x2 (ix2 p q)
      = max (∑ e : Fin 128, x0 (ix2 p e) * x1 (ix2 e q) + x2 (ix2 (0 : Fin 1) q)) zeroW := by
  unfold k0_pay3
  exact Cert.LibColumnStats.dense_trunc_apply _ dot_S5000x128_S128x128_S5000x128_1_0_0_1_n_n_wf rfl x0 x1 x2 _ _ _ _ _ p q

/-- The accumulator row plus the block's column sums, at lane q. -/
theorem pay4_apply (x0 : Vec Ideal S5000x128 .f32) (x1 : Vec Ideal S128x128 .f32) (x2 : Vec Ideal S1x128 .f32)
    (a : Vec Ideal S1x128 .f32) (u : Fin 1) (q : Fin 128) :
    k0_pay4 (F := Ideal) x0 x1 x2 a (ix2 u q)
      = a (ix2 u q) + ∑ d : Fin 5000, k0_pay3 (F := Ideal) x0 x1 x2 (ix2 d q) := by
  unfold k0_pay4
  exact Cert.LibColumnStats.colsum_step_apply (k0_pay3 (F := Ideal) x0 x1 x2) a _ _ _ _ _ u q

/-- The accumulator row plus the block's column sums of squares, at lane q. -/
theorem pay5_apply (x0 : Vec Ideal S5000x128 .f32) (x1 : Vec Ideal S128x128 .f32) (x2 : Vec Ideal S1x128 .f32)
    (a : Vec Ideal S1x128 .f32) (u : Fin 1) (q : Fin 128) :
    k0_pay5 (F := Ideal) x0 x1 x2 a (ix2 u q)
      = a (ix2 u q) + ∑ d : Fin 5000, k0_pay3 (F := Ideal) x0 x1 x2 (ix2 d q) * k0_pay3 (F := Ideal) x0 x1 x2 (ix2 d q) := by
  unfold k0_pay5
  exact Cert.LibColumnStats.colsum_step_apply
    (mulf (k0_pay3 (F := Ideal) x0 x1 x2) (k0_pay3 (F := Ideal) x0 x1 x2)) a _ _ _ _ _ u q

variable (V : (c : Dev nD) → (b : Ref sig .tc) → Buf (Elt Ideal) ((c : Thread nD τ).loc b))

/-- The index maps over the grid: the row block moves with the point, everything else stays at block (0, 0). -/
theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)

/-- Row j of block t is row 5000·t + j of the array. -/
def rowAt (t : Fin cfg0.N) (j : S5000x128.Idx) : S100000x128.Idx :=
  ix2 (⟨5000 * t.val + (j 0).val, by
    have hN : cfg0.N = 20 := N_0
    have h1 : t.val < cfg0.N := t.isLt
    have h2 : (j 0).val < 5000 := (j 0).isLt
    omega⟩ : Fin 100000) (j 1)

/-- The z block at point t, read off the array. -/
theorem blk0_eq (c : Dev nD) (t : Fin cfg0.N) :
    (iblk0 V c 0 t : Vec Ideal S5000x128 .f32) = fun j => (V c main_v19 : S100000x128.Idx → EReal) (rowAt t j) := by
  funext j
  unfold iblk0
  rw [View.read_apply]
  show V c main_v19 _ = V c main_v19 _
  refine congrArg (V c main_v19) (funext fun a => Fin.ext ?_)
  match a with
  | ⟨0, _⟩ => show win0_0.index t 0 * 5000 + 1 * (j 0).val = 5000 * t.val + (j 0).val; rw [(idx_0 t).1]; omega
  | ⟨1, _⟩ => show win0_0.index t 1 * 128 + 1 * (j 1).val = (j 1).val; rw [(idx_0 t).2]; omega

/-- The weight block is the whole weight matrix. -/
theorem blk1_eq (c : Dev nD) (t : Fin cfg0.N) :
    (iblk0 V c 1 t : Vec Ideal S128x128 .f32) = (V c main_v21 : S128x128.Idx → EReal) := by
  funext j
  unfold iblk0
  rw [View.read_apply]
  show V c main_v21 _ = V c main_v21 _
  refine congrArg (V c main_v21) (funext fun a => Fin.ext ?_)
  match a with
  | ⟨0, _⟩ => show win0_1.index t 0 * 128 + 1 * (j 0).val = (j 0).val; rw [(idx_1 t).1]; omega
  | ⟨1, _⟩ => show win0_1.index t 1 * 128 + 1 * (j 1).val = (j 1).val; rw [(idx_1 t).2]; omega

/-- The bias block is the whole bias row. -/
theorem blk2_eq (c : Dev nD) (t : Fin cfg0.N) :
    (iblk0 V c 2 t : Vec Ideal S1x128 .f32) = (V c main_v24 : S1x128.Idx → EReal) := by
  funext j
  unfold iblk0
  rw [View.read_apply]
  show V c main_v24 _ = V c main_v24 _
  refine congrArg (V c main_v24) (funext fun a => Fin.ext ?_)
  match a with
  | ⟨0, _⟩ => show win0_2.index t 0 * 1 + 1 * (j 0).val = (j 0).val; rw [(idx_2 t).1]; omega
  | ⟨1, _⟩ => show win0_2.index t 1 * 128 + 1 * (j 1).val = (j 1).val; rw [(idx_2 t).2]; omega

/-- The hidden activations of all rows, from the arrays the region finds. -/
def H (c : Dev nD) : Mat 100000 128 :=
  hid (cur (V c main_v19 : S100000x128.Idx → EReal)) (cur (V c main_v21 : S128x128.Idx → EReal)) (row1 (V c main_v24 : S1x128.Idx → EReal))

/-- The same by a natural row number, zero past the last row. -/
def Hn (c : Dev nD) (r : ℕ) (q : Fin 128) : EReal := if hr : r < 100000 then H V c ⟨r, hr⟩ q else 0

/-- The hidden block of point t at (p, q) is the hidden activation of row 5000·t + p. -/
theorem pay3_blk (c : Dev nD) (t : Fin cfg0.N) (p : Fin 5000) (q : Fin 128) :
    k0_pay3 (F := Ideal) (iblk0 V c 0 t) (iblk0 V c 1 t) (iblk0 V c 2 t) (ix2 p q) = Hn V c (5000 * t.val + p.val) q := by
  have hN : cfg0.N = 20 := N_0
  have hlt : 5000 * t.val + p.val < 100000 := by have := t.isLt; have := p.isLt; omega
  refine (pay3_apply (iblk0 V c 0 t) (iblk0 V c 1 t) (iblk0 V c 2 t) p q).trans ?_
  rw [Hn, dif_pos hlt, blk0_eq V c t, blk1_eq V c t, blk2_eq V c t]
  rfl

/-- The running rows after point n, at lane q: zero plus the sums over the rows of the first n + 1 blocks. -/
theorem acc_apply (c : Dev nD) (q : Fin 128) : ∀ (n : ℕ) (h : n < cfg0.N),
    (acc V c n h).1 (ix2 (0 : Fin 1) q) = zeroW + ∑ s ∈ Finset.range (n + 1), ∑ d : Fin 5000, Hn V c (5000 * s + d.val) q
    ∧ (acc V c n h).2 (ix2 (0 : Fin 1) q)
        = zeroW + ∑ s ∈ Finset.range (n + 1), ∑ d : Fin 5000, Hn V c (5000 * s + d.val) q * Hn V c (5000 * s + d.val) q
  | 0, h => by
    constructor
    · show k0_pay4 (F := Ideal) (iblk0 V c 0 ⟨0, h⟩) (iblk0 V c 1 ⟨0, h⟩) (iblk0 V c 2 ⟨0, h⟩) (k0_pay1 (F := Ideal)) (ix2 (0 : Fin 1) q) = _
      refine (pay4_apply _ _ _ _ (0 : Fin 1) q).trans ?_
      rw [Finset.sum_range_one]
      refine congrArg₂ (· + ·) rfl (Finset.sum_congr rfl fun d _ => ?_)
      exact pay3_blk V c ⟨0, h⟩ d q
    · show k0_pay5 (F := Ideal) (iblk0 V c 0 ⟨0, h⟩) (iblk0 V c 1 ⟨0, h⟩) (iblk0 V c 2 ⟨0, h⟩) (k0_pay2 (F := Ideal)) (ix2 (0 : Fin 1) q) = _
      refine (pay5_apply _ _ _ _ (0 : Fin 1) q).trans ?_
      rw [Finset.sum_range_one]
      refine congrArg₂ (· + ·) rfl (Finset.sum_congr rfl fun d _ => ?_)
      rw [pay3_blk V c ⟨0, h⟩ d q]
  | n + 1, h => by
    obtain ⟨ih1, ih2⟩ := acc_apply c q n (Nat.lt_of_succ_lt h)
    constructor
    · show k0_pay4 (F := Ideal) (iblk0 V c 0 ⟨n + 1, h⟩) (iblk0 V c 1 ⟨n + 1, h⟩) (iblk0 V c 2 ⟨n + 1, h⟩)
          (acc V c n (Nat.lt_of_succ_lt h)).1 (ix2 (0 : Fin 1) q) = _
      refine (pay4_apply _ _ _ _ (0 : Fin 1) q).trans ?_
      rw [ih1, Finset.sum_range_succ _ (n + 1), add_assoc]
      refine congrArg₂ (· + ·) rfl (congrArg₂ (· + ·) rfl (Finset.sum_congr rfl fun d _ => ?_))
      exact pay3_blk V c ⟨n + 1, h⟩ d q
    · show k0_pay5 (F := Ideal) (iblk0 V c 0 ⟨n + 1, h⟩) (iblk0 V c 1 ⟨n + 1, h⟩) (iblk0 V c 2 ⟨n + 1, h⟩)
          (acc V c n (Nat.lt_of_succ_lt h)).2 (ix2 (0 : Fin 1) q) = _
      refine (pay5_apply _ _ _ _ (0 : Fin 1) q).trans ?_
      rw [ih2, Finset.sum_range_succ _ (n + 1), add_assoc]
      refine congrArg₂ (· + ·) rfl (congrArg₂ (· + ·) rfl (Finset.sum_congr rfl fun d _ => ?_))
      rw [pay3_blk V c ⟨n + 1, h⟩ d q]

/-- Twenty blocks of 5000 rows are all 100000 rows. -/
theorem blocks_all (f : ℕ → EReal) :
    ∑ s ∈ Finset.range 20, ∑ d : Fin 5000, f (5000 * s + d.val) = ∑ r : Fin 100000, f r.val := by
  rw [Finset.sum_range (fun s => ∑ d : Fin 5000, f (5000 * s + d.val))]
  refine ((Cert.Lib.BlockSum.sum_fin_mul 20 5000 f).trans ?_).symm
  refine Finset.sum_congr rfl fun s _ => Finset.sum_congr rfl fun d _ => ?_
  rw [Nat.add_comm]

/-- The last point's rows: the column sums and the column sums of squares over all rows. -/
theorem acc_last (c : Dev nD) (h : 19 < cfg0.N) (q : Fin 128) :
    (acc V c 19 h).1 (ix2 (0 : Fin 1) q) = colSum (H V c) q ∧ (acc V c 19 h).2 (ix2 (0 : Fin 1) q) = colSumSq (H V c) q := by
  obtain ⟨h1, h2⟩ := acc_apply V c q 19 h
  have z0 : zeroW = 0 := Ideal.ofBits_zero_f32
  constructor
  · rw [h1, z0, zero_add, blocks_all (fun r => Hn V c r q)]
    exact Finset.sum_congr rfl fun r _ => dif_pos r.isLt
  · rw [h2, z0, zero_add, blocks_all (fun r => Hn V c r q * Hn V c r q)]
    refine Finset.sum_congr rfl fun r _ => ?_
    show Hn V c r.val q * Hn V c r.val q = H V c r q * H V c r q
    rw [Hn, dif_pos r.isLt]

end Value

/-! ## What is written back -/

section Final

open Cert.Net

variable (V : (c : Dev nD) → (b : Ref sig .tc) → Buf (Elt Ideal) ((c : Thread nD τ).loc b))

/-- The last point of the grid: the only one whose rows are written back. -/
def tLast : Fin cfg0.N := ⟨19, by rw [show cfg0.N = 20 from N_0]; decide⟩

/-- The column sums as a one-row array. -/
def G3 (c : Dev nD) : Buf (Elt Ideal) ((c : Thread nD τ).loc main_v36_0) :=
  (show S1x128.Idx → EReal from fun i => colSum (H V c) (i 1))
/-- The column sums of squares as a one-row array. -/
def G4 (c : Dev nD) : Buf (Elt Ideal) ((c : Thread nD τ).loc main_v36_1) :=
  (show S1x128.Idx → EReal from fun i => colSumSq (H V c) (i 1))

theorem acc_fst (c : Dev nD) (h : 19 < cfg0.N) : (acc V c 19 h).1 = G3 V c := by
  funext i
  obtain ⟨u, q, rfl⟩ : ∃ (u : Fin 1) (q : Fin 128), i = ix2 u q := ⟨i 0, i 1, eq_ix2 i⟩
  obtain rfl : u = 0 := Subsingleton.elim _ _
  exact (acc_last V c h q).1

theorem acc_snd (c : Dev nD) (h : 19 < cfg0.N) : (acc V c 19 h).2 = G4 V c := by
  funext i
  obtain ⟨u, q, rfl⟩ : ∃ (u : Fin 1) (q : Fin 128), i = ix2 u q := ⟨i 0, i 1, eq_ix2 i⟩
  obtain rfl : u = 0 := Subsingleton.elim _ _
  exact (acc_last V c h q).2

/-- The one write-back of the sums, at the last point. -/
theorem flushed_eq3 (c : Dev nD) (t : Fin cfg0.N) (hf : (cfg0.win 3).flush t = true) :
    (dat0 V c).flushed 3 t = ((cfg0.win 3).blk t).view.read (Elt Ideal) (G3 V c) := by
  have hN : cfg0.N = 20 := N_0
  have h19 : t.val = 19 := by have := (flush0_3 t).mp hf; have := t.isLt; omega
  obtain rfl : t = tLast := Fin.ext h19
  show (cfg0.win 3).cut (grid0.coords tLast) ((dat0 V c).after 3 tLast) = _
  rw [after0_3, outsAt_eq]
  refine (congrArg ((cfg0.win 3).cut (grid0.coords tLast)) (acc_fst V c _)).trans ?_
  have hz' : (fun a => win0_3.index tLast a * main_v36_0.ty.shape.size a) = fun _ => 0 := funext fun a => by fin_cases a <;> decide
  exact (Memref.read_access_unit_zero (Elt Ideal) main_v36_0 hz' (fun a => by rw [congrFun hz' a]; simp) (G3 V c)).symm

/-- The one write-back of the sums of squares, at the last point. -/
theorem flushed_eq4 (c : Dev nD) (t : Fin cfg0.N) (hf : (cfg0.win 4).flush t = true) :
    (dat0 V c).flushed 4 t = ((cfg0.win 4).blk t).view.read (Elt Ideal) (G4 V c) := by
  have hN : cfg0.N = 20 := N_0
  have h19 : t.val = 19 := by have := (flush0_4 t).mp hf; have := t.isLt; omega
  obtain rfl : t = tLast := Fin.ext h19
  show (cfg0.win 4).cut (grid0.coords tLast) ((dat0 V c).after 4 tLast) = _
  rw [after0_4, outsAt_eq]
  refine (congrArg ((cfg0.win 4).cut (grid0.coords tLast)) (acc_snd V c _)).trans ?_
  have hz' : (fun a => win0_4.index tLast a * main_v36_1.ty.shape.size a) = fun _ => 0 := funext fun a => by fin_cases a <;> decide
  exact (Memref.read_access_unit_zero (Elt Ideal) main_v36_1 hz' (fun a => by rw [congrFun hz' a]; simp) (G4 V c)).symm

/-- The first output array ends holding the column sums of the hidden activations over all rows. -/
theorem final3 (c : Dev nD) : (dat0 V c).arrAt 3 cfg0.N = G3 V c :=
  (dat0 V c).arrAt_eq_of_cover 3 (G3 V c) (flushed_eq3 V c) fun i =>
    ⟨tLast, (flush0_3 tLast).mpr rfl, by
      show i ∈ ((View.whole main_v36_0).slice (win0_3.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 128 from by decide +kernel]; omega⟩

/-- The second output array ends holding the column sums of their squares. -/
theorem final4 (c : Dev nD) : (dat0 V c).arrAt 4 cfg0.N = G4 V c :=
  (dat0 V c).arrAt_eq_of_cover 4 (G4 V c) (flushed_eq4 V c) fun i =>
    ⟨tLast, (flush0_4 tLast).mpr rfl, by
      show i ∈ ((View.whole main_v36_1).slice (win0_4.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 128 from by decide +kernel]; omega⟩

end Final

end Cert.KernelIdeal.Stats0

end
-- ==== Proof.Stats2.lean ====
/-
  What the statistics region leaves in its two one-row outputs: the column sums and the column sums of squares of the
  hidden activations max (z·W + b) 0 over all 100000 rows. The region visits the rows in 20 blocks of 5000; the first
  point stores a zero row and adds its block's sums to it, every later point adds its block's sums to what the point
  before left, and the last point's row is what is written back. Summed over the blocks this is the sum over all rows.
-/
import proofs.«140366_j72610717106485_2_alg».proof.Proof.Gen.KernelIdeal.Frame
import proofs.«140366_j72610717106485_2_alg».proof.Proof.Spec
import proofs.«140366_j72610717106485_2_alg».proof.Proof.SpecRow
import proofs.«140366_j72610717106485_2_alg».proof.Proof.LibColumnStats
import proofs.«140366_j72610717106485_2_alg».proof.Proof.LibBlockSum
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stats2

open Cert.KernelIdeal Cert.KernelIdeal.Gen

theorem hz : (![0, 0] : Fin 2 → Nat) = fun _ => 0 := funext fun a => by fin_cases a <;> rfl

/-! ## What each case of the body leaves, as values -/

section Pieces
variable {F : FTy → Type} [FloatOps F]

/-- A later point: the accumulator row plus the block's column sums. -/
theorem out_B_3 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : ¬cond2_0 i)
    (x0 : Vec F S5000x128 .f32) (x1 : Vec F S128x128 .f32) (x2 : Vec F S1x128 .f32) (xo3 xo4 : Vec F S1x128 .f32) :
    out2_B_3 c i a1 h1 a2 h2 a3 h3 a4 h4 a5 h5 hc x0 x1 x2 xo3 xo4 = k2_pay4 x0 x1 x2 xo3 := by
  unfold out2_B_3
  rw [View.read_writes_eq_canon _ _ _ (cover2_B_3 c i a1 h1 a2 h2 a3 h3 a4 h4 a5 h5 hc x0 x1 x2 xo3 xo4)]
  unfold kernelRun2_B
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- A later point: the accumulator row plus the block's column sums of squares. -/
theorem out_B_4 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : ¬cond2_0 i)
    (x0 : Vec F S5000x128 .f32) (x1 : Vec F S128x128 .f32) (x2 : Vec F S1x128 .f32) (xo3 xo4 : Vec F S1x128 .f32) :
    out2_B_4 c i a1 h1 a2 h2 a3 h3 a4 h4 a5 h5 hc x0 x1 x2 xo3 xo4 = k2_pay5 x0 x1 x2 xo4 := by
  unfold out2_B_4
  rw [View.read_writes_eq_canon _ _ _ (cover2_B_4 c i a1 h1 a2 h2 a3 h3 a4 h4 a5 h5 hc x0 x1 x2 xo3 xo4)]
  unfold kernelRun2_B
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- The first point: the zero row plus the block's column sums (the zero row is stored, read back, and added to). -/
theorem out_A_3 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : cond2_0 i)
    (x0 : Vec F S5000x128 .f32) (x1 : Vec F S128x128 .f32) (x2 : Vec F S1x128 .f32) :
    out2_A_3 c i a1 h1 a2 h2 a3 h3 a4 h4 a5 h5 hc x0 x1 x2 = k2_pay4 x0 x1 x2 (k2_pay1 (F := F)) := by
  unfold out2_A_3
  rw [View.read_writes_eq_canon _ _ _ (cover2_A_3 c i a1 h1 a2 h2 a3 h3 a4 h4 a5 h5 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- The first point: the zero row plus the block's column sums of squares. -/
theorem out_A_4 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : cond2_0 i)
    (x0 : Vec F S5000x128 .f32) (x1 : Vec F S128x128 .f32) (x2 : Vec F S1x128 .f32) :
    out2_A_4 c i a1 h1 a2 h2 a3 h3 a4 h4 a5 h5 hc x0 x1 x2 = k2_pay5 x0 x1 x2 (k2_pay2 (F := F)) := by
  unfold out2_A_4
  rw [View.read_writes_eq_canon _ _ _ (cover2_A_4 c i a1 h1 a2 h2 a3 h3 a4 h4 a5 h5 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

variable (V : (c : Dev nD) → (b : Ref sig .tc) → Buf (Elt F) ((c : Thread nD τ).loc b))

/-- The two running rows after point n: started from the zero rows, each point adds its block's sums. -/
def acc (c : Dev nD) : (n : ℕ) → n < cfg2.N → Vec F S1x128 .f32 × Vec F S1x128 .f32
  | 0, h => (k2_pay4 (iblk2 V c 0 ⟨0, h⟩) (iblk2 V c 1 ⟨0, h⟩) (iblk2 V c 2 ⟨0, h⟩) (k2_pay1 (F := F)),
      k2_pay5 (iblk2 V c 0 ⟨0, h⟩) (iblk2 V c 1 ⟨0, h⟩) (iblk2 V c 2 ⟨0, h⟩) (k2_pay2 (F := F)))
  | n + 1, h => (k2_pay4 (iblk2 V c 0 ⟨n + 1, h⟩) (iblk2 V c 1 ⟨n + 1, h⟩) (iblk2 V c 2 ⟨n + 1, h⟩) (acc c n (Nat.lt_of_succ_lt h)).1,
      k2_pay5 (iblk2 V c 0 ⟨n + 1, h⟩) (iblk2 V c 1 ⟨n + 1, h⟩) (iblk2 V c 2 ⟨n + 1, h⟩) (acc c n (Nat.lt_of_succ_lt h)).2)

/-- What the outputs' buffers hold after point n is the pair of running rows: by induction on the point. -/
theorem outsAt_eq (c : Dev nD) : ∀ (n : ℕ) (h : n < cfg2.N), outsAt2 V c n h = acc V c n h
  | 0, h => by
    rw [outsAt2_A V c ⟨0, h⟩ rfl, out_A_3, out_A_4]
    rfl
  | n + 1, h => by
    have hN : cfg2.N = 20 := N_2
    have hB : ¬(⟨n + 1, h⟩ : Fin cfg2.N).val % 20 = 0 := by dsimp only; omega
    rw [outsAt2_B V c ⟨n + 1, h⟩ hB, out_B_3, out_B_4]
    show (k2_pay4 _ _ _ (outsAt2 V c n _).1, k2_pay5 _ _ _ (outsAt2 V c n _).2) = _
    rw [outsAt_eq c n]
    rfl

end Pieces

/-! ## The values, on the extended reals -/

section Value

open Cert.Net

/-- The hidden block at (p, q). -/
theorem pay3_apply (x0 : Vec Ideal S5000x128 .f32) (x1 : Vec Ideal S128x128 .f32) (x2 : Vec Ideal S1x128 .f32)
    (p : Fin 5000) (q : Fin 128) :
    k2_pay3 (F := Ideal) x0 x1 x2 (ix2 p q)
      = max (∑ e : Fin 128, x0 (ix2 p e) * x1 (ix2 e q) + x2 (ix2 (0 : Fin 1) q)) zeroW := by
  unfold k2_pay3
  exact Cert.LibColumnStats.dense_trunc_apply _ dot_S5000x128_S128x128_S5000x128_1_0_0_1_n_n_wf rfl x0 x1 x2 _ _ _ _ _ p q

/-- The accumulator row plus the block's column sums, at lane q. -/
theorem pay4_apply (x0 : Vec Ideal S5000x128 .f32) (x1 : Vec Ideal S128x128 .f32) (x2 : Vec Ideal S1x128 .f32)
    (a : Vec Ideal S1x128 .f32) (u : Fin 1) (q : Fin 128) :
    k2_pay4 (F := Ideal) x0 x1 x2 a (ix2 u q)
      = a (ix2 u q) + ∑ d : Fin 5000, k2_pay3 (F := Ideal) x0 x1 x2 (ix2 d q) := by
  unfold k2_pay4
  exact Cert.LibColumnStats.colsum_step_apply (k2_pay3 (F := Ideal) x0 x1 x2) a _ _ _ _ _ u q

/-- The accumulator row plus the block's column sums of squares, at lane q. -/
theorem pay5_apply (x0 : Vec Ideal S5000x128 .f32) (x1 : Vec Ideal S128x128 .f32) (x2 : Vec Ideal S1x128 .f32)
    (a : Vec Ideal S1x128 .f32) (u : Fin 1) (q : Fin 128) :
    k2_pay5 (F := Ideal) x0 x1 x2 a (ix2 u q)
      = a (ix2 u q) + ∑ d : Fin 5000, k2_pay3 (F := Ideal) x0 x1 x2 (ix2 d q) * k2_pay3 (F := Ideal) x0 x1 x2 (ix2 d q) := by
  unfold k2_pay5
  exact Cert.LibColumnStats.colsum_step_apply
    (mulf (k2_pay3 (F := Ideal) x0 x1 x2) (k2_pay3 (F := Ideal) x0 x1 x2)) a _ _ _ _ _ u q

variable (V : (c : Dev nD) → (b : Ref sig .tc) → Buf (Elt Ideal) ((c : Thread nD τ).loc b))

/-- The index maps over the grid: the row block moves with the point, everything else stays at block (0, 0). -/
theorem idx_0 : ∀ t : Fin cfg2.N, win2_0.index t 0 = t.val ∧ win2_0.index t 1 = 0 :=
  (by decide +kernel : ∀ t : Fin grid2.N, win2_0.index t 0 = t.val ∧ win2_0.index t 1 = 0)
theorem idx_1 : ∀ t : Fin cfg2.N, win2_1.index t 0 = 0 ∧ win2_1.index t 1 = 0 :=
  (by decide +kernel : ∀ t : Fin grid2.N, win2_1.index t 0 = 0 ∧ win2_1.index t 1 = 0)
theorem idx_2 : ∀ t : Fin cfg2.N, win2_2.index t 0 = 0 ∧ win2_2.index t 1 = 0 :=
  (by decide +kernel : ∀ t : Fin grid2.N, win2_2.index t 0 = 0 ∧ win2_2.index t 1 = 0)

/-- Row j of block t is row 5000·t + j of the array. -/
def rowAt (t : Fin cfg2.N) (j : S5000x128.Idx) : S100000x128.Idx :=
  ix2 (⟨5000 * t.val + (j 0).val, by
    have hN : cfg2.N = 20 := N_2
    have h1 : t.val < cfg2.N := t.isLt
    have h2 : (j 0).val < 5000 := (j 0).isLt
    omega⟩ : Fin 100000) (j 1)

/-- The z block at point t, read off the array. -/
theorem blk0_eq (c : Dev nD) (t : Fin cfg2.N) :
    (iblk2 V c 0 t : Vec Ideal S5000x128 .f32) = fun j => (V c main_v55 : S100000x128.Idx → EReal) (rowAt t j) := by
  funext j
  unfold iblk2
  rw [View.read_apply]
  show V c main_v55 _ = V c main_v55 _
  refine congrArg (V c main_v55) (funext fun a => Fin.ext ?_)
  match a with
  | ⟨0, _⟩ => show win2_0.index t 0 * 5000 + 1 * (j 0).val = 5000 * t.val + (j 0).val; rw [(idx_0 t).1]; omega
  | ⟨1, _⟩ => show win2_0.index t 1 * 128 + 1 * (j 1).val = (j 1).val; rw [(idx_0 t).2]; omega

/-- The weight block is the whole weight matrix. -/
theorem blk1_eq (c : Dev nD) (t : Fin cfg2.N) :
    (iblk2 V c 1 t : Vec Ideal S128x128 .f32) = (V c main_v57 : S128x128.Idx → EReal) := by
  funext j
  unfold iblk2
  rw [View.read_apply]
  show V c main_v57 _ = V c main_v57 _
  refine congrArg (V c main_v57) (funext fun a => Fin.ext ?_)
  match a with
  | ⟨0, _⟩ => show win2_1.index t 0 * 128 + 1 * (j 0).val = (j 0).val; rw [(idx_1 t).1]; omega
  | ⟨1, _⟩ => show win2_1.index t 1 * 128 + 1 * (j 1).val = (j 1).val; rw [(idx_1 t).2]; omega

/-- The bias block is the whole bias row. -/
theorem blk2_eq (c : Dev nD) (t : Fin cfg2.N) :
    (iblk2 V c 2 t : Vec Ideal S1x128 .f32) = (V c main_v60 : S1x128.Idx → EReal) := by
  funext j
  unfold iblk2
  rw [View.read_apply]
  show V c main_v60 _ = V c main_v60 _
  refine congrArg (V c main_v60) (funext fun a => Fin.ext ?_)
  match a with
  | ⟨0, _⟩ => show win2_2.index t 0 * 1 + 1 * (j 0).val = (j 0).val; rw [(idx_2 t).1]; omega
  | ⟨1, _⟩ => show win2_2.index t 1 * 128 + 1 * (j 1).val = (j 1).val; rw [(idx_2 t).2]; omega

/-- The hidden activations of all rows, from the arrays the region finds. -/
def H (c : Dev nD) : Mat 100000 128 :=
  hid (cur (V c main_v55 : S100000x128.Idx → EReal)) (cur (V c main_v57 : S128x128.Idx → EReal)) (row1 (V c main_v60 : S1x128.Idx → EReal))

/-- The same by a natural row number, zero past the last row. -/
def Hn (c : Dev nD) (r : ℕ) (q : Fin 128) : EReal := if hr : r < 100000 then H V c ⟨r, hr⟩ q else 0

/-- The hidden block of point t at (p, q) is the hidden activation of row 5000·t + p. -/
theorem pay3_blk (c : Dev nD) (t : Fin cfg2.N) (p : Fin 5000) (q : Fin 128) :
    k2_pay3 (F := Ideal) (iblk2 V c 0 t) (iblk2 V c 1 t) (iblk2 V c 2 t) (ix2 p q) = Hn V c (5000 * t.val + p.val) q := by
  have hN : cfg2.N = 20 := N_2
  have hlt : 5000 * t.val + p.val < 100000 := by have := t.isLt; have := p.isLt; omega
  refine (pay3_apply (iblk2 V c 0 t) (iblk2 V c 1 t) (iblk2 V c 2 t) p q).trans ?_
  rw [Hn, dif_pos hlt, blk0_eq V c t, blk1_eq V c t, blk2_eq V c t]
  rfl

/-- The running rows after point n, at lane q: zero plus the sums over the rows of the first n + 1 blocks. -/
theorem acc_apply (c : Dev nD) (q : Fin 128) : ∀ (n : ℕ) (h : n < cfg2.N),
    (acc V c n h).1 (ix2 (0 : Fin 1) q) = zeroW + ∑ s ∈ Finset.range (n + 1), ∑ d : Fin 5000, Hn V c (5000 * s + d.val) q
    ∧ (acc V c n h).2 (ix2 (0 : Fin 1) q)
        = zeroW + ∑ s ∈ Finset.range (n + 1), ∑ d : Fin 5000, Hn V c (5000 * s + d.val) q * Hn V c (5000 * s + d.val) q
  | 0, h => by
    constructor
    · show k2_pay4 (F := Ideal) (iblk2 V c 0 ⟨0, h⟩) (iblk2 V c 1 ⟨0, h⟩) (iblk2 V c 2 ⟨0, h⟩) (k2_pay1 (F := Ideal)) (ix2 (0 : Fin 1) q) = _
      refine (pay4_apply _ _ _ _ (0 : Fin 1) q).trans ?_
      rw [Finset.sum_range_one]
      refine congrArg₂ (· + ·) rfl (Finset.sum_congr rfl fun d _ => ?_)
      exact pay3_blk V c ⟨0, h⟩ d q
    · show k2_pay5 (F := Ideal) (iblk2 V c 0 ⟨0, h⟩) (iblk2 V c 1 ⟨0, h⟩) (iblk2 V c 2 ⟨0, h⟩) (k2_pay2 (F := Ideal)) (ix2 (0 : Fin 1) q) = _
      refine (pay5_apply _ _ _ _ (0 : Fin 1) q).trans ?_
      rw [Finset.sum_range_one]
      refine congrArg₂ (· + ·) rfl (Finset.sum_congr rfl fun d _ => ?_)
      rw [pay3_blk V c ⟨0, h⟩ d q]
  | n + 1, h => by
    obtain ⟨ih1, ih2⟩ := acc_apply c q n (Nat.lt_of_succ_lt h)
    constructor
    · show k2_pay4 (F := Ideal) (iblk2 V c 0 ⟨n + 1, h⟩) (iblk2 V c 1 ⟨n + 1, h⟩) (iblk2 V c 2 ⟨n + 1, h⟩)
          (acc V c n (Nat.lt_of_succ_lt h)).1 (ix2 (0 : Fin 1) q) = _
      refine (pay4_apply _ _ _ _ (0 : Fin 1) q).trans ?_
      rw [ih1, Finset.sum_range_succ _ (n + 1), add_assoc]
      refine congrArg₂ (· + ·) rfl (congrArg₂ (· + ·) rfl (Finset.sum_congr rfl fun d _ => ?_))
      exact pay3_blk V c ⟨n + 1, h⟩ d q
    · show k2_pay5 (F := Ideal) (iblk2 V c 0 ⟨n + 1, h⟩) (iblk2 V c 1 ⟨n + 1, h⟩) (iblk2 V c 2 ⟨n + 1, h⟩)
          (acc V c n (Nat.lt_of_succ_lt h)).2 (ix2 (0 : Fin 1) q) = _
      refine (pay5_apply _ _ _ _ (0 : Fin 1) q).trans ?_
      rw [ih2, Finset.sum_range_succ _ (n + 1), add_assoc]
      refine congrArg₂ (· + ·) rfl (congrArg₂ (· + ·) rfl (Finset.sum_congr rfl fun d _ => ?_))
      rw [pay3_blk V c ⟨n + 1, h⟩ d q]

/-- Twenty blocks of 5000 rows are all 100000 rows. -/
theorem blocks_all (f : ℕ → EReal) :
    ∑ s ∈ Finset.range 20, ∑ d : Fin 5000, f (5000 * s + d.val) = ∑ r : Fin 100000, f r.val := by
  rw [Finset.sum_range (fun s => ∑ d : Fin 5000, f (5000 * s + d.val))]
  refine ((Cert.Lib.BlockSum.sum_fin_mul 20 5000 f).trans ?_).symm
  refine Finset.sum_congr rfl fun s _ => Finset.sum_congr rfl fun d _ => ?_
  rw [Nat.add_comm]

/-- The last point's rows: the column sums and the column sums of squares over all rows. -/
theorem acc_last (c : Dev nD) (h : 19 < cfg2.N) (q : Fin 128) :
    (acc V c 19 h).1 (ix2 (0 : Fin 1) q) = colSum (H V c) q ∧ (acc V c 19 h).2 (ix2 (0 : Fin 1) q) = colSumSq (H V c) q := by
  obtain ⟨h1, h2⟩ := acc_apply V c q 19 h
  have z0 : zeroW = 0 := Ideal.ofBits_zero_f32
  constructor
  · rw [h1, z0, zero_add, blocks_all (fun r => Hn V c r q)]
    exact Finset.sum_congr rfl fun r _ => dif_pos r.isLt
  · rw [h2, z0, zero_add, blocks_all (fun r => Hn V c r q * Hn V c r q)]
    refine Finset.sum_congr rfl fun r _ => ?_
    show Hn V c r.val q * Hn V c r.val q = H V c r q * H V c r q
    rw [Hn, dif_pos r.isLt]

end Value

/-! ## What is written back -/

section Final

open Cert.Net

variable (V : (c : Dev nD) → (b : Ref sig .tc) → Buf (Elt Ideal) ((c : Thread nD τ).loc b))

/-- The last point of the grid: the only one whose rows are written back. -/
def tLast : Fin cfg2.N := ⟨19, by rw [show cfg2.N = 20 from N_2]; decide⟩

/-- The column sums as a one-row array. -/
def G3 (c : Dev nD) : Buf (Elt Ideal) ((c : Thread nD τ).loc main_v72_0) :=
  (show S1x128.Idx → EReal from fun i => colSum (H V c) (i 1))
/-- The column sums of squares as a one-row array. -/
def G4 (c : Dev nD) : Buf (Elt Ideal) ((c : Thread nD τ).loc main_v72_1) :=
  (show S1x128.Idx → EReal from fun i => colSumSq (H V c) (i 1))

theorem acc_fst (c : Dev nD) (h : 19 < cfg2.N) : (acc V c 19 h).1 = G3 V c := by
  funext i
  obtain ⟨u, q, rfl⟩ : ∃ (u : Fin 1) (q : Fin 128), i = ix2 u q := ⟨i 0, i 1, eq_ix2 i⟩
  obtain rfl : u = 0 := Subsingleton.elim _ _
  exact (acc_last V c h q).1

theorem acc_snd (c : Dev nD) (h : 19 < cfg2.N) : (acc V c 19 h).2 = G4 V c := by
  funext i
  obtain ⟨u, q, rfl⟩ : ∃ (u : Fin 1) (q : Fin 128), i = ix2 u q := ⟨i 0, i 1, eq_ix2 i⟩
  obtain rfl : u = 0 := Subsingleton.elim _ _
  exact (acc_last V c h q).2

/-- The one write-back of the sums, at the last point. -/
theorem flushed_eq3 (c : Dev nD) (t : Fin cfg2.N) (hf : (cfg2.win 3).flush t = true) :
    (dat2 V c).flushed 3 t = ((cfg2.win 3).blk t).view.read (Elt Ideal) (G3 V c) := by
  have hN : cfg2.N = 20 := N_2
  have h19 : t.val = 19 := by have := (flush2_3 t).mp hf; have := t.isLt; omega
  obtain rfl : t = tLast := Fin.ext h19
  show (cfg2.win 3).cut (grid2.coords tLast) ((dat2 V c).after 3 tLast) = _
  rw [after2_3, outsAt_eq]
  refine (congrArg ((cfg2.win 3).cut (grid2.coords tLast)) (acc_fst V c _)).trans ?_
  have hz' : (fun a => win2_3.index tLast a * main_v72_0.ty.shape.size a) = fun _ => 0 := funext fun a => by fin_cases a <;> decide
  exact (Memref.read_access_unit_zero (Elt Ideal) main_v72_0 hz' (fun a => by rw [congrFun hz' a]; simp) (G3 V c)).symm

/-- The one write-back of the sums of squares, at the last point. -/
theorem flushed_eq4 (c : Dev nD) (t : Fin cfg2.N) (hf : (cfg2.win 4).flush t = true) :
    (dat2 V c).flushed 4 t = ((cfg2.win 4).blk t).view.read (Elt Ideal) (G4 V c) := by
  have hN : cfg2.N = 20 := N_2
  have h19 : t.val = 19 := by have := (flush2_4 t).mp hf; have := t.isLt; omega
  obtain rfl : t = tLast := Fin.ext h19
  show (cfg2.win 4).cut (grid2.coords tLast) ((dat2 V c).after 4 tLast) = _
  rw [after2_4, outsAt_eq]
  refine (congrArg ((cfg2.win 4).cut (grid2.coords tLast)) (acc_snd V c _)).trans ?_
  have hz' : (fun a => win2_4.index tLast a * main_v72_1.ty.shape.size a) = fun _ => 0 := funext fun a => by fin_cases a <;> decide
  exact (Memref.read_access_unit_zero (Elt Ideal) main_v72_1 hz' (fun a => by rw [congrFun hz' a]; simp) (G4 V c)).symm

/-- The first output array ends holding the column sums of the hidden activations over all rows. -/
theorem final3 (c : Dev nD) : (dat2 V c).arrAt 3 cfg2.N = G3 V c :=
  (dat2 V c).arrAt_eq_of_cover 3 (G3 V c) (flushed_eq3 V c) fun i =>
    ⟨tLast, (flush2_3 tLast).mpr rfl, by
      show i ∈ ((View.whole main_v72_0).slice (win2_3.rect tLast)).set
      rw [View.set_slice_whole, Rect.mem_set_unit]
      intro a
      have h0 : (i 0 : Nat) < 1 := (i 0).isLt
      have h1 : (i 1 : Nat) < 128 := (i 1).isLt
      match a with
      | ⟨0, _⟩ => show win2_3.index tLast 0 * win2_3.size 0 ≤ (i 0 : Nat) ∧ (i 0 : Nat) < win2_3.index tLast 0 * win2_3.size 0 + win2_3.xsize (grid2.coords tLast) 0
                  rw [show win2_3.index tLast 0 * win2_3.size 0 = 0 from by decide +kernel, show win2_3.xsize (grid2.coords tLast) 0 = 1 from by decide +kernel]; omega
      | ⟨1, _⟩ => show win2_3.index tLast 1 * win2_3.size 1 ≤ (i 1 : Nat) ∧ (i 1 : Nat) < win2_3.index tLast 1 * win2_3.size 1 + win2_3.xsize (grid2.coords tLast) 1
                  rw [show win2_3.index tLast 1 * win2_3.size 1 = 0 from by decide +kernel, show win2_3.xsize (grid2.coords tLast) 1 = 128 from by decide +kernel]; omega⟩

/-- The second output array ends holding the column sums of their squares. -/
theorem final4 (c : Dev nD) : (dat2 V c).arrAt 4 cfg2.N = G4 V c :=
  (dat2 V c).arrAt_eq_of_cover 4 (G4 V c) (flushed_eq4 V c) fun i =>
    ⟨tLast, (flush2_4 tLast).mpr rfl, by
      show i ∈ ((View.whole main_v72_1).slice (win2_4.rect tLast)).set
      rw [View.set_slice_whole, Rect.mem_set_unit]
      intro a
      have h0 : (i 0 : Nat) < 1 := (i 0).isLt
      have h1 : (i 1 : Nat) < 128 := (i 1).isLt
      match a with
      | ⟨0, _⟩ => show win2_4.index tLast 0 * win2_4.size 0 ≤ (i 0 : Nat) ∧ (i 0 : Nat) < win2_4.index tLast 0 * win2_4.size 0 + win2_4.xsize (grid2.coords tLast) 0
                  rw [show win2_4.index tLast 0 * win2_4.size 0 = 0 from by decide +kernel, show win2_4.xsize (grid2.coords tLast) 0 = 1 from by decide +kernel]; omega
      | ⟨1, _⟩ => show win2_4.index tLast 1 * win2_4.size 1 ≤ (i 1 : Nat) ∧ (i 1 : Nat) < win2_4.index tLast 1 * win2_4.size 1 + win2_4.xsize (grid2.coords tLast) 1
                  rw [show win2_4.index tLast 1 * win2_4.size 1 = 0 from by decide +kernel, show win2_4.xsize (grid2.coords tLast) 1 = 128 from by decide +kernel]; omega⟩

end Final

end Cert.KernelIdeal.Stats2

end
-- ==== Proof.Stats4.lean ====
/-
  What the statistics region leaves in its two one-row outputs: the column sums and the column sums of squares of the
  hidden activations max (z·W + b) 0 over all 100000 rows. The region visits the rows in 20 blocks of 5000; the first
  point stores a zero row and adds its block's sums to it, every later point adds its block's sums to what the point
  before left, and the last point's row is what is written back. Summed over the blocks this is the sum over all rows.
-/
import proofs.«140366_j72610717106485_2_alg».proof.Proof.Gen.KernelIdeal.Frame
import proofs.«140366_j72610717106485_2_alg».proof.Proof.Spec
import proofs.«140366_j72610717106485_2_alg».proof.Proof.SpecRow
import proofs.«140366_j72610717106485_2_alg».proof.Proof.LibColumnStats
import proofs.«140366_j72610717106485_2_alg».proof.Proof.LibBlockSum
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stats4

open Cert.KernelIdeal Cert.KernelIdeal.Gen

theorem hz : (![0, 0] : Fin 2 → Nat) = fun _ => 0 := funext fun a => by fin_cases a <;> rfl

/-! ## What each case of the body leaves, as values -/

section Pieces
variable {F : FTy → Type} [FloatOps F]

/-- A later point: the accumulator row plus the block's column sums. -/
theorem out_B_3 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : ¬cond4_0 i)
    (x0 : Vec F S5000x128 .f32) (x1 : Vec F S128x128 .f32) (x2 : Vec F S1x128 .f32) (xo3 xo4 : Vec F S1x128 .f32) :
    out4_B_3 c i a1 h1 a2 h2 a3 h3 a4 h4 a5 h5 hc x0 x1 x2 xo3 xo4 = k4_pay4 x0 x1 x2 xo3 := by
  unfold out4_B_3
  rw [View.read_writes_eq_canon _ _ _ (cover4_B_3 c i a1 h1 a2 h2 a3 h3 a4 h4 a5 h5 hc x0 x1 x2 xo3 xo4)]
  unfold kernelRun4_B
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- A later point: the accumulator row plus the block's column sums of squares. -/
theorem out_B_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : ¬cond4_0 i)
    (x0 : Vec F S5000x128 .f32) (x1 : Vec F S128x128 .f32) (x2 : Vec F S1x128 .f32) (xo3 xo4 : Vec F S1x128 .f32) :
    out4_B_4 c i a1 h1 a2 h2 a3 h3 a4 h4 a5 h5 hc x0 x1 x2 xo3 xo4 = k4_pay5 x0 x1 x2 xo4 := by
  unfold out4_B_4
  rw [View.read_writes_eq_canon _ _ _ (cover4_B_4 c i a1 h1 a2 h2 a3 h3 a4 h4 a5 h5 hc x0 x1 x2 xo3 xo4)]
  unfold kernelRun4_B
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- The first point: the zero row plus the block's column sums (the zero row is stored, read back, and added to). -/
theorem out_A_3 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : cond4_0 i)
    (x0 : Vec F S5000x128 .f32) (x1 : Vec F S128x128 .f32) (x2 : Vec F S1x128 .f32) :
    out4_A_3 c i a1 h1 a2 h2 a3 h3 a4 h4 a5 h5 hc x0 x1 x2 = k4_pay4 x0 x1 x2 (k4_pay1 (F := F)) := by
  unfold out4_A_3
  rw [View.read_writes_eq_canon _ _ _ (cover4_A_3 c i a1 h1 a2 h2 a3 h3 a4 h4 a5 h5 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- The first point: the zero row plus the block's column sums of squares. -/
theorem out_A_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (hc : cond4_0 i)
    (x0 : Vec F S5000x128 .f32) (x1 : Vec F S128x128 .f32) (x2 : Vec F S1x128 .f32) :
    out4_A_4 c i a1 h1 a2 h2 a3 h3 a4 h4 a5 h5 hc x0 x1 x2 = k4_pay5 x0 x1 x2 (k4_pay2 (F := F)) := by
  unfold out4_A_4
  rw [View.read_writes_eq_canon _ _ _ (cover4_A_4 c i a1 h1 a2 h2 a3 h3 a4 h4 a5 h5 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

variable (V : (c : Dev nD) → (b : Ref sig .tc) → Buf (Elt F) ((c : Thread nD τ).loc b))

/-- The two running rows after point n: started from the zero rows, each point adds its block's sums. -/
def acc (c : Dev nD) : (n : ℕ) → n < cfg4.N → Vec F S1x128 .f32 × Vec F S1x128 .f32
  | 0, h => (k4_pay4 (iblk4 V c 0 ⟨0, h⟩) (iblk4 V c 1 ⟨0, h⟩) (iblk4 V c 2 ⟨0, h⟩) (k4_pay1 (F := F)),
      k4_pay5 (iblk4 V c 0 ⟨0, h⟩) (iblk4 V c 1 ⟨0, h⟩) (iblk4 V c 2 ⟨0, h⟩) (k4_pay2 (F := F)))
  | n + 1, h => (k4_pay4 (iblk4 V c 0 ⟨n + 1, h⟩) (iblk4 V c 1 ⟨n + 1, h⟩) (iblk4 V c 2 ⟨n + 1, h⟩) (acc c n (Nat.lt_of_succ_lt h)).1,
      k4_pay5 (iblk4 V c 0 ⟨n + 1, h⟩) (iblk4 V c 1 ⟨n + 1, h⟩) (iblk4 V c 2 ⟨n + 1, h⟩) (acc c n (Nat.lt_of_succ_lt h)).2)

/-- What the outputs' buffers hold after point n is the pair of running rows: by induction on the point. -/
theorem outsAt_eq (c : Dev nD) : ∀ (n : ℕ) (h : n < cfg4.N), outsAt4 V c n h = acc V c n h
  | 0, h => by
    rw [outsAt4_A V c ⟨0, h⟩ rfl, out_A_3, out_A_4]
    rfl
  | n + 1, h => by
    have hN : cfg4.N = 20 := N_4
    have hB : ¬(⟨n + 1, h⟩ : Fin cfg4.N).val % 20 = 0 := by dsimp only; omega
    rw [outsAt4_B V c ⟨n + 1, h⟩ hB, out_B_3, out_B_4]
    show (k4_pay4 _ _ _ (outsAt4 V c n _).1, k4_pay5 _ _ _ (outsAt4 V c n _).2) = _
    rw [outsAt_eq c n]
    rfl

end Pieces

/-! ## The values, on the extended reals -/

section Value

open Cert.Net

/-- The hidden block at (p, q). -/
theorem pay3_apply (x0 : Vec Ideal S5000x128 .f32) (x1 : Vec Ideal S128x128 .f32) (x2 : Vec Ideal S1x128 .f32)
    (p : Fin 5000) (q : Fin 128) :
    k4_pay3 (F := Ideal) x0 x1 x2 (ix2 p q)
      = max (∑ e : Fin 128, x0 (ix2 p e) * x1 (ix2 e q) + x2 (ix2 (0 : Fin 1) q)) zeroW := by
  unfold k4_pay3
  exact Cert.LibColumnStats.dense_trunc_apply _ dot_S5000x128_S128x128_S5000x128_1_0_0_1_n_n_wf rfl x0 x1 x2 _ _ _ _ _ p q

/-- The accumulator row plus the block's column sums, at lane q. -/
theorem pay4_apply (x0 : Vec Ideal S5000x128 .f32) (x1 : Vec Ideal S128x128 .f32) (x2 : Vec Ideal S1x128 .f32)
    (a : Vec Ideal S1x128 .f32) (u : Fin 1) (q : Fin 128) :
    k4_pay4 (F := Ideal) x0 x1 x2 a (ix2 u q)
      = a (ix2 u q) + ∑ d : Fin 5000, k4_pay3 (F := Ideal) x0 x1 x2 (ix2 d q) := by
  unfold k4_pay4
  exact Cert.LibColumnStats.colsum_step_apply (k4_pay3 (F := Ideal) x0 x1 x2) a _ _ _ _ _ u q

/-- The accumulator row plus the block's column sums of squares, at lane q. -/
theorem pay5_apply (x0 : Vec Ideal S5000x128 .f32) (x1 : Vec Ideal S128x128 .f32) (x2 : Vec Ideal S1x128 .f32)
    (a : Vec Ideal S1x128 .f32) (u : Fin 1) (q : Fin 128) :
    k4_pay5 (F := Ideal) x0 x1 x2 a (ix2 u q)
      = a (ix2 u q) + ∑ d : Fin 5000, k4_pay3 (F := Ideal) x0 x1 x2 (ix2 d q) * k4_pay3 (F := Ideal) x0 x1 x2 (ix2 d q) := by
  unfold k4_pay5
  exact Cert.LibColumnStats.colsum_step_apply
    (mulf (k4_pay3 (F := Ideal) x0 x1 x2) (k4_pay3 (F := Ideal) x0 x1 x2)) a _ _ _ _ _ u q

variable (V : (c : Dev nD) → (b : Ref sig .tc) → Buf (Elt Ideal) ((c : Thread nD τ).loc b))

/-- The index maps over the grid: the row block moves with the point, everything else stays at block (0, 0). -/
theorem idx_0 : ∀ t : Fin cfg4.N, win4_0.index t 0 = t.val ∧ win4_0.index t 1 = 0 :=
  (by decide +kernel : ∀ t : Fin grid4.N, win4_0.index t 0 = t.val ∧ win4_0.index t 1 = 0)
theorem idx_1 : ∀ t : Fin cfg4.N, win4_1.index t 0 = 0 ∧ win4_1.index t 1 = 0 :=
  (by decide +kernel : ∀ t : Fin grid4.N, win4_1.index t 0 = 0 ∧ win4_1.index t 1 = 0)
theorem idx_2 : ∀ t : Fin cfg4.N, win4_2.index t 0 = 0 ∧ win4_2.index t 1 = 0 :=
  (by decide +kernel : ∀ t : Fin grid4.N, win4_2.index t 0 = 0 ∧ win4_2.index t 1 = 0)

/-- Row j of block t is row 5000·t + j of the array. -/
def rowAt (t : Fin cfg4.N) (j : S5000x128.Idx) : S100000x128.Idx :=
  ix2 (⟨5000 * t.val + (j 0).val, by
    have hN : cfg4.N = 20 := N_4
    have h1 : t.val < cfg4.N := t.isLt
    have h2 : (j 0).val < 5000 := (j 0).isLt
    omega⟩ : Fin 100000) (j 1)

/-- The z block at point t, read off the array. -/
theorem blk0_eq (c : Dev nD) (t : Fin cfg4.N) :
    (iblk4 V c 0 t : Vec Ideal S5000x128 .f32) = fun j => (V c main_v91 : S100000x128.Idx → EReal) (rowAt t j) := by
  funext j
  unfold iblk4
  rw [View.read_apply]
  show V c main_v91 _ = V c main_v91 _
  refine congrArg (V c main_v91) (funext fun a => Fin.ext ?_)
  match a with
  | ⟨0, _⟩ => show win4_0.index t 0 * 5000 + 1 * (j 0).val = 5000 * t.val + (j 0).val; rw [(idx_0 t).1]; omega
  | ⟨1, _⟩ => show win4_0.index t 1 * 128 + 1 * (j 1).val = (j 1).val; rw [(idx_0 t).2]; omega

/-- The weight block is the whole weight matrix. -/
theorem blk1_eq (c : Dev nD) (t : Fin cfg4.N) :
    (iblk4 V c 1 t : Vec Ideal S128x128 .f32) = (V c main_v93 : S128x128.Idx → EReal) := by
  funext j
  unfold iblk4
  rw [View.read_apply]
  show V c main_v93 _ = V c main_v93 _
  refine congrArg (V c main_v93) (funext fun a => Fin.ext ?_)
  match a with
  | ⟨0, _⟩ => show win4_1.index t 0 * 128 + 1 * (j 0).val = (j 0).val; rw [(idx_1 t).1]; omega
  | ⟨1, _⟩ => show win4_1.index t 1 * 128 + 1 * (j 1).val = (j 1).val; rw [(idx_1 t).2]; omega

/-- The bias block is the whole bias row. -/
theorem blk2_eq (c : Dev nD) (t : Fin cfg4.N) :
    (iblk4 V c 2 t : Vec Ideal S1x128 .f32) = (V c main_v96 : S1x128.Idx → EReal) := by
  funext j
  unfold iblk4
  rw [View.read_apply]
  show V c main_v96 _ = V c main_v96 _
  refine congrArg (V c main_v96) (funext fun a => Fin.ext ?_)
  match a with
  | ⟨0, _⟩ => show win4_2.index t 0 * 1 + 1 * (j 0).val = (j 0).val; rw [(idx_2 t).1]; omega
  | ⟨1, _⟩ => show win4_2.index t 1 * 128 + 1 * (j 1).val = (j 1).val; rw [(idx_2 t).2]; omega

/-- The hidden activations of all rows, from the arrays the region finds. -/
def H (c : Dev nD) : Mat 100000 128 :=
  hid (cur (V c main_v91 : S100000x128.Idx → EReal)) (cur (V c main_v93 : S128x128.Idx → EReal)) (row1 (V c main_v96 : S1x128.Idx → EReal))

/-- The same by a natural row number, zero past the last row. -/
def Hn (c : Dev nD) (r : ℕ) (q : Fin 128) : EReal := if hr : r < 100000 then H V c ⟨r, hr⟩ q else 0

/-- The hidden block of point t at (p, q) is the hidden activation of row 5000·t + p. -/
theorem pay3_blk (c : Dev nD) (t : Fin cfg4.N) (p : Fin 5000) (q : Fin 128) :
    k4_pay3 (F := Ideal) (iblk4 V c 0 t) (iblk4 V c 1 t) (iblk4 V c 2 t) (ix2 p q) = Hn V c (5000 * t.val + p.val) q := by
  have hN : cfg4.N = 20 := N_4
  have hlt : 5000 * t.val + p.val < 100000 := by have := t.isLt; have := p.isLt; omega
  refine (pay3_apply (iblk4 V c 0 t) (iblk4 V c 1 t) (iblk4 V c 2 t) p q).trans ?_
  rw [Hn, dif_pos hlt, blk0_eq V c t, blk1_eq V c t, blk2_eq V c t]
  rfl

/-- The running rows after point n, at lane q: zero plus the sums over the rows of the first n + 1 blocks. -/
theorem acc_apply (c : Dev nD) (q : Fin 128) : ∀ (n : ℕ) (h : n < cfg4.N),
    (acc V c n h).1 (ix2 (0 : Fin 1) q) = zeroW + ∑ s ∈ Finset.range (n + 1), ∑ d : Fin 5000, Hn V c (5000 * s + d.val) q
    ∧ (acc V c n h).2 (ix2 (0 : Fin 1) q)
        = zeroW + ∑ s ∈ Finset.range (n + 1), ∑ d : Fin 5000, Hn V c (5000 * s + d.val) q * Hn V c (5000 * s + d.val) q
  | 0, h => by
    constructor
    · show k4_pay4 (F := Ideal) (iblk4 V c 0 ⟨0, h⟩) (iblk4 V c 1 ⟨0, h⟩) (iblk4 V c 2 ⟨0, h⟩) (k4_pay1 (F := Ideal)) (ix2 (0 : Fin 1) q) = _
      refine (pay4_apply _ _ _ _ (0 : Fin 1) q).trans ?_
      rw [Finset.sum_range_one]
      refine congrArg₂ (· + ·) rfl (Finset.sum_congr rfl fun d _ => ?_)
      exact pay3_blk V c ⟨0, h⟩ d q
    · show k4_pay5 (F := Ideal) (iblk4 V c 0 ⟨0, h⟩) (iblk4 V c 1 ⟨0, h⟩) (iblk4 V c 2 ⟨0, h⟩) (k4_pay2 (F := Ideal)) (ix2 (0 : Fin 1) q) = _
      refine (pay5_apply _ _ _ _ (0 : Fin 1) q).trans ?_
      rw [Finset.sum_range_one]
      refine congrArg₂ (· + ·) rfl (Finset.sum_congr rfl fun d _ => ?_)
      rw [pay3_blk V c ⟨0, h⟩ d q]
  | n + 1, h => by
    obtain ⟨ih1, ih2⟩ := acc_apply c q n (Nat.lt_of_succ_lt h)
    constructor
    · show k4_pay4 (F := Ideal) (iblk4 V c 0 ⟨n + 1, h⟩) (iblk4 V c 1 ⟨n + 1, h⟩) (iblk4 V c 2 ⟨n + 1, h⟩)
          (acc V c n (Nat.lt_of_succ_lt h)).1 (ix2 (0 : Fin 1) q) = _
      refine (pay4_apply _ _ _ _ (0 : Fin 1) q).trans ?_
      rw [ih1, Finset.sum_range_succ _ (n + 1), add_assoc]
      refine congrArg₂ (· + ·) rfl (congrArg₂ (· + ·) rfl (Finset.sum_congr rfl fun d _ => ?_))
      exact pay3_blk V c ⟨n + 1, h⟩ d q
    · show k4_pay5 (F := Ideal) (iblk4 V c 0 ⟨n + 1, h⟩) (iblk4 V c 1 ⟨n + 1, h⟩) (iblk4 V c 2 ⟨n + 1, h⟩)
          (acc V c n (Nat.lt_of_succ_lt h)).2 (ix2 (0 : Fin 1) q) = _
      refine (pay5_apply _ _ _ _ (0 : Fin 1) q).trans ?_
      rw [ih2, Finset.sum_range_succ _ (n + 1), add_assoc]
      refine congrArg₂ (· + ·) rfl (congrArg₂ (· + ·) rfl (Finset.sum_congr rfl fun d _ => ?_))
      rw [pay3_blk V c ⟨n + 1, h⟩ d q]

/-- Twenty blocks of 5000 rows are all 100000 rows. -/
theorem blocks_all (f : ℕ → EReal) :
    ∑ s ∈ Finset.range 20, ∑ d : Fin 5000, f (5000 * s + d.val) = ∑ r : Fin 100000, f r.val := by
  rw [Finset.sum_range (fun s => ∑ d : Fin 5000, f (5000 * s + d.val))]
  refine ((Cert.Lib.BlockSum.sum_fin_mul 20 5000 f).trans ?_).symm
  refine Finset.sum_congr rfl fun s _ => Finset.sum_congr rfl fun d _ => ?_
  rw [Nat.add_comm]

/-- The last point's rows: the column sums and the column sums of squares over all rows. -/
theorem acc_last (c : Dev nD) (h : 19 < cfg4.N) (q : Fin 128) :
    (acc V c 19 h).1 (ix2 (0 : Fin 1) q) = colSum (H V c) q ∧ (acc V c 19 h).2 (ix2 (0 : Fin 1) q) = colSumSq (H V c) q := by
  obtain ⟨h1, h2⟩ := acc_apply V c q 19 h
  have z0 : zeroW = 0 := Ideal.ofBits_zero_f32
  constructor
  · rw [h1, z0, zero_add, blocks_all (fun r => Hn V c r q)]
    exact Finset.sum_congr rfl fun r _ => dif_pos r.isLt
  · rw [h2, z0, zero_add, blocks_all (fun r => Hn V c r q * Hn V c r q)]
    refine Finset.sum_congr rfl fun r _ => ?_
    show Hn V c r.val q * Hn V c r.val q = H V c r q * H V c r q
    rw [Hn, dif_pos r.isLt]

end Value

/-! ## What is written back -/

section Final

open Cert.Net

variable (V : (c : Dev nD) → (b : Ref sig .tc) → Buf (Elt Ideal) ((c : Thread nD τ).loc b))

/-- The last point of the grid: the only one whose rows are written back. -/
def tLast : Fin cfg4.N := ⟨19, by rw [show cfg4.N = 20 from N_4]; decide⟩

/-- The column sums as a one-row array. -/
def G3 (c : Dev nD) : Buf (Elt Ideal) ((c : Thread nD τ).loc main_v108_0) :=
  (show S1x128.Idx → EReal from fun i => colSum (H V c) (i 1))
/-- The column sums of squares as a one-row array. -/
def G4 (c : Dev nD) : Buf (Elt Ideal) ((c : Thread nD τ).loc main_v108_1) :=
  (show S1x128.Idx → EReal from fun i => colSumSq (H V c) (i 1))

theorem acc_fst (c : Dev nD) (h : 19 < cfg4.N) : (acc V c 19 h).1 = G3 V c := by
  funext i
  obtain ⟨u, q, rfl⟩ : ∃ (u : Fin 1) (q : Fin 128), i = ix2 u q := ⟨i 0, i 1, eq_ix2 i⟩
  obtain rfl : u = 0 := Subsingleton.elim _ _
  exact (acc_last V c h q).1

theorem acc_snd (c : Dev nD) (h : 19 < cfg4.N) : (acc V c 19 h).2 = G4 V c := by
  funext i
  obtain ⟨u, q, rfl⟩ : ∃ (u : Fin 1) (q : Fin 128), i = ix2 u q := ⟨i 0, i 1, eq_ix2 i⟩
  obtain rfl : u = 0 := Subsingleton.elim _ _
  exact (acc_last V c h q).2

/-- The one write-back of the sums, at the last point. -/
theorem flushed_eq3 (c : Dev nD) (t : Fin cfg4.N) (hf : (cfg4.win 3).flush t = true) :
    (dat4 V c).flushed 3 t = ((cfg4.win 3).blk t).view.read (Elt Ideal) (G3 V c) := by
  have hN : cfg4.N = 20 := N_4
  have h19 : t.val = 19 := by have := (flush4_3 t).mp hf; have := t.isLt; omega
  obtain rfl : t = tLast := Fin.ext h19
  show (cfg4.win 3).cut (grid4.coords tLast) ((dat4 V c).after 3 tLast) = _
  rw [after4_3, outsAt_eq]
  refine (congrArg ((cfg4.win 3).cut (grid4.coords tLast)) (acc_fst V c _)).trans ?_
  have hz' : (fun a => win4_3.index tLast a * main_v108_0.ty.shape.size a) = fun _ => 0 := funext fun a => by fin_cases a <;> decide
  exact (Memref.read_access_unit_zero (Elt Ideal) main_v108_0 hz' (fun a => by rw [congrFun hz' a]; simp) (G3 V c)).symm

/-- The one write-back of the sums of squares, at the last point. -/
theorem flushed_eq4 (c : Dev nD) (t : Fin cfg4.N) (hf : (cfg4.win 4).flush t = true) :
    (dat4 V c).flushed 4 t = ((cfg4.win 4).blk t).view.read (Elt Ideal) (G4 V c) := by
  have hN : cfg4.N = 20 := N_4
  have h19 : t.val = 19 := by have := (flush4_4 t).mp hf; have := t.isLt; omega
  obtain rfl : t = tLast := Fin.ext h19
  show (cfg4.win 4).cut (grid4.coords tLast) ((dat4 V c).after 4 tLast) = _
  rw [after4_4, outsAt_eq]
  refine (congrArg ((cfg4.win 4).cut (grid4.coords tLast)) (acc_snd V c _)).trans ?_
  have hz' : (fun a => win4_4.index tLast a * main_v108_1.ty.shape.size a) = fun _ => 0 := funext fun a => by fin_cases a <;> decide
  exact (Memref.read_access_unit_zero (Elt Ideal) main_v108_1 hz' (fun a => by rw [congrFun hz' a]; simp) (G4 V c)).symm

/-- The first output array ends holding the column sums of the hidden activations over all rows. -/
theorem final3 (c : Dev nD) : (dat4 V c).arrAt 3 cfg4.N = G3 V c :=
  (dat4 V c).arrAt_eq_of_cover 3 (G3 V c) (flushed_eq3 V c) fun i =>
    ⟨tLast, (flush4_3 tLast).mpr rfl, by
      show i ∈ ((View.whole main_v108_0).slice (win4_3.rect tLast)).set
      rw [View.set_slice_whole, Rect.mem_set_unit]
      intro a
      have h0 : (i 0 : Nat) < 1 := (i 0).isLt
      have h1 : (i 1 : Nat) < 128 := (i 1).isLt
      match a with
      | ⟨0, _⟩ => show win4_3.index tLast 0 * win4_3.size 0 ≤ (i 0 : Nat) ∧ (i 0 : Nat) < win4_3.index tLast 0 * win4_3.size 0 + win4_3.xsize (grid4.coords tLast) 0
                  rw [show win4_3.index tLast 0 * win4_3.size 0 = 0 from by decide +kernel, show win4_3.xsize (grid4.coords tLast) 0 = 1 from by decide +kernel]; omega
      | ⟨1, _⟩ => show win4_3.index tLast 1 * win4_3.size 1 ≤ (i 1 : Nat) ∧ (i 1 : Nat) < win4_3.index tLast 1 * win4_3.size 1 + win4_3.xsize (grid4.coords tLast) 1
                  rw [show win4_3.index tLast 1 * win4_3.size 1 = 0 from by decide +kernel, show win4_3.xsize (grid4.coords tLast) 1 = 128 from by decide +kernel]; omega⟩

/-- The second output array ends holding the column sums of their squares. -/
theorem final4 (c : Dev nD) : (dat4 V c).arrAt 4 cfg4.N = G4 V c :=
  (dat4 V c).arrAt_eq_of_cover 4 (G4 V c) (flushed_eq4 V c) fun i =>
    ⟨tLast, (flush4_4 tLast).mpr rfl, by
      show i ∈ ((View.whole main_v108_1).slice (win4_4.rect tLast)).set
      rw [View.set_slice_whole, Rect.mem_set_unit]
      intro a
      have h0 : (i 0 : Nat) < 1 := (i 0).isLt
      have h1 : (i 1 : Nat) < 128 := (i 1).isLt
      match a with
      | ⟨0, _⟩ => show win4_4.index tLast 0 * win4_4.size 0 ≤ (i 0 : Nat) ∧ (i 0 : Nat) < win4_4.index tLast 0 * win4_4.size 0 + win4_4.xsize (grid4.coords tLast) 0
                  rw [show win4_4.index tLast 0 * win4_4.size 0 = 0 from by decide +kernel, show win4_4.xsize (grid4.coords tLast) 0 = 1 from by decide +kernel]; omega
      | ⟨1, _⟩ => show win4_4.index tLast 1 * win4_4.size 1 ≤ (i 1 : Nat) ∧ (i 1 : Nat) < win4_4.index tLast 1 * win4_4.size 1 + win4_4.xsize (grid4.coords tLast) 1
                  rw [show win4_4.index tLast 1 * win4_4.size 1 = 0 from by decide +kernel, show win4_4.xsize (grid4.coords tLast) 1 = 128 from by decide +kernel]; omega⟩

end Final

end Cert.KernelIdeal.Stats4

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibLayerRow.lean ====
/-
  One layer of the network read at an entry, in the vector unit's spelling, on the extended reals, for any number a of
  rows and feature width b.

  * `pre_apply`: the sum  (x·Wl + bl) + ((((max (z·Wr + br) 0 − μ)·rsqrt (v + ε))·γ + β) + z)  at (p, q); the weights
    and the one-row parameters come through identity casts, the two products take their factors rounded to a narrower
    format (the identity here), rows are broadcast down the a rows.
  * `normRelu_apply`: a matrix divided row by row by max (√(Σ_d o_{p d}²)) ε′ and clamped at 0, at (p, q): the row sum
    of squares is a last-axis reduction kept as a column and broadcast across the lanes.
  Nothing is rearranged, so nothing needs finiteness.
-/
import proofs.«140366_j72610717106485_2_alg».proof.Proof.LibRowMax
import proofs.«140366_j72610717106485_2_alg».proof.Proof.LibColumn
import proofs.«140366_j72610717106485_2_alg».proof.Proof.LibColumnStats
import Idealize.ShloMosaic.Lib.ValueLayout
import Idealize.ShloMosaic.Lib.Pipeline.Value
import Idealize.ShloMosaic.PureOps.Ideal.Laws

noncomputable section

namespace Cert.LibLayerRow

open Idealize.ShloMosaic Idealize.ShloMosaic.ValueIdx Cert.LibRowMax Cert.LibColumn

variable {a k b : ℕ}

/-- A product of two factors rounded on the way in, into a zero accumulator, plus a one-row bias: at (p, q). -/
theorem affine_trunc_apply (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ .f32) (W : FVec Ideal ⟨2, ![k, b]⟩ .f32) (β : FVec Ideal ⟨2, ![1, b]⟩ .f32)
    (hlt : FTy.bf16.bits < FTy.f32.bits) (hbc : (⟨2, ![1, b]⟩ : Shape).Broadcasts ⟨2, ![a, b]⟩) (p : Fin a) (q : Fin b) :
    addf (matmul D none (truncf .bf16 x hlt) (truncf .bf16 W hlt) (constant ⟨2, ![a, b]⟩ .f32 0x00000000#32))
        (broadcastTo ⟨2, ![a, b]⟩ β hbc) (ix2 p q)
      = ∑ e : Fin k, x (ix2 p e) * W (ix2 e q) + β (ix2 (0 : Fin 1) q) := by
  subst hD
  show FloatOps.matmul (plainDims a k b wf) none (truncf .bf16 x hlt) (truncf .bf16 W hlt)
      (constant ⟨2, ![a, b]⟩ .f32 0x00000000#32) (ix2 p q) + broadcastTo ⟨2, ![a, b]⟩ β hbc (ix2 p q) = _
  rw [matmul_plain_apply wf none (truncf .bf16 x hlt) (truncf .bf16 W hlt) p q, broadcastTo_1b_ab_apply β hbc p q]
  rfl

/-- A one-row array broadcast down the rows, at (p, q). -/
theorem row_apply {α : Type} (β : (⟨2, ![1, b]⟩ : Shape).Idx → α) (hbc : (⟨2, ![1, b]⟩ : Shape).Broadcasts ⟨2, ![a, b]⟩)
    (p : Fin a) (q : Fin b) : broadcastTo ⟨2, ![a, b]⟩ β hbc (ix2 p q) = β (ix2 (0 : Fin 1) q) :=
  broadcastTo_1b_ab_apply β hbc p q

/-- The row normalisation with clamp, at (p, q). -/
theorem normRelu_apply (o : FVec Ideal ⟨2, ![a, b]⟩ .f32) (eps : BitVec 32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    maximumf (divf o (broadcastTo ⟨2, ![a, b]⟩
          (maximumf (sqrt (shapeCast ⟨2, ![a, 1]⟩ (multiReduction .add [1] ⟨1, ![a]⟩ (mulf o o) 0x00000000#32 hr hφ hacc) hc))
            (broadcast ⟨2, ![a, 1]⟩ (Scalar.ofBits (F := Ideal) .f32 eps))) hb))
        (broadcast ⟨2, ![a, b]⟩ (Scalar.ofBits (F := Ideal) .f32 0x00000000#32)) (ix2 p q)
      = max (Ideal.div (o (ix2 p q)) (max (Ideal.sqrt (∑ d : Fin b, o (ix2 p d) * o (ix2 p d))) (Ideal.ofBits .f32 eps)))
          (Ideal.ofBits .f32 0x00000000#32) := by
  show max (Ideal.div (o (ix2 p q)) (broadcastTo ⟨2, ![a, b]⟩
      (maximumf (sqrt (shapeCast ⟨2, ![a, 1]⟩ (multiReduction .add [1] ⟨1, ![a]⟩ (mulf o o) 0x00000000#32 hr hφ hacc) hc))
        (broadcast ⟨2, ![a, 1]⟩ (Scalar.ofBits (F := Ideal) .f32 eps))) hb (ix2 p q))) (Ideal.ofBits .f32 0x00000000#32) = _
  rw [broadcastTo_a1_ab_apply _ hb p q]
  show max (Ideal.div (o (ix2 p q)) (max (Ideal.sqrt (shapeCast ⟨2, ![a, 1]⟩
      (multiReduction .add [1] ⟨1, ![a]⟩ (mulf o o) 0x00000000#32 hr hφ hacc) hc (ix2 p (0 : Fin 1)))) (Ideal.ofBits .f32 eps)))
      (Ideal.ofBits .f32 0x00000000#32) = _
  rw [shapeCast_a_a1_apply _ hc p (0 : Fin 1), sum_last_apply (mulf o o) hr hφ hacc p]
  rfl

/-! ## The whole layer as one vector term -/

section Layer
variable {a b : ℕ}

/-- The layer before the row normalisation, as the vector unit computes it from a block of z and x rows, the two
    square weight matrices and the six one-row parameters (biases, scale, shift, mean, variance). -/
def preVec (D : DotDims ⟨2, ![a, b]⟩ ⟨2, ![b, b]⟩ ⟨2, ![a, b]⟩) (hlt : FTy.bf16.bits < FTy.f32.bits)
    (hbc : (⟨2, ![1, b]⟩ : Shape).Broadcasts ⟨2, ![a, b]⟩) (epsV : BitVec 32)
    (z x : FVec Ideal ⟨2, ![a, b]⟩ .f32) (wr : FVec Ideal ⟨2, ![b, b]⟩ .f32) (br : FVec Ideal ⟨2, ![1, b]⟩ .f32)
    (wl : FVec Ideal ⟨2, ![b, b]⟩ .f32) (bl γ β μ v : FVec Ideal ⟨2, ![1, b]⟩ .f32) : FVec Ideal ⟨2, ![a, b]⟩ .f32 :=
  addf (addf (matmul D none (truncf .bf16 x hlt) (truncf .bf16 wl hlt) (constant ⟨2, ![a, b]⟩ .f32 0x00000000#32))
      (broadcastTo ⟨2, ![a, b]⟩ bl hbc))
    (addf (addf (mulf (mulf (subf (maximumf (addf
            (matmul D none (truncf .bf16 z hlt) (truncf .bf16 wr hlt) (constant ⟨2, ![a, b]⟩ .f32 0x00000000#32))
            (broadcastTo ⟨2, ![a, b]⟩ br hbc)) (broadcast ⟨2, ![a, b]⟩ (Scalar.ofBits (F := Ideal) .f32 0x00000000#32)))
          (broadcastTo ⟨2, ![a, b]⟩ μ hbc))
        (broadcastTo ⟨2, ![a, b]⟩ (rsqrt (addf v (broadcast ⟨2, ![1, b]⟩ (Scalar.ofBits (F := Ideal) .f32 epsV)))) hbc))
        (broadcastTo ⟨2, ![a, b]⟩ γ hbc)) (broadcastTo ⟨2, ![a, b]⟩ β hbc)) z)

/-- Its entry (p, q). -/
theorem preVec_apply (D : DotDims ⟨2, ![a, b]⟩ ⟨2, ![b, b]⟩ ⟨2, ![a, b]⟩)
    (wf : DotDims.WF ⟨2, ![a, b]⟩ ⟨2, ![b, b]⟩ ⟨2, ![a, b]⟩ [1] [0] [0] [1] [] []) (hD : D = plainDims a b b wf)
    (hlt : FTy.bf16.bits < FTy.f32.bits) (hbc : (⟨2, ![1, b]⟩ : Shape).Broadcasts ⟨2, ![a, b]⟩) (epsV : BitVec 32)
    (z x : FVec Ideal ⟨2, ![a, b]⟩ .f32) (wr : FVec Ideal ⟨2, ![b, b]⟩ .f32) (br : FVec Ideal ⟨2, ![1, b]⟩ .f32)
    (wl : FVec Ideal ⟨2, ![b, b]⟩ .f32) (bl γ β μ v : FVec Ideal ⟨2, ![1, b]⟩ .f32) (p : Fin a) (q : Fin b) :
    preVec D hlt hbc epsV z x wr br wl bl γ β μ v (ix2 p q)
      = (∑ e : Fin b, x (ix2 p e) * wl (ix2 e q) + bl (ix2 (0 : Fin 1) q))
        + ((((max (∑ e : Fin b, z (ix2 p e) * wr (ix2 e q) + br (ix2 (0 : Fin 1) q)) (Ideal.ofBits .f32 0x00000000#32)
              - μ (ix2 (0 : Fin 1) q)) * Ideal.rsqrt (v (ix2 (0 : Fin 1) q) + Ideal.ofBits .f32 epsV))
            * γ (ix2 (0 : Fin 1) q) + β (ix2 (0 : Fin 1) q)) + z (ix2 p q)) := by
  subst hD
  show (FloatOps.matmul (plainDims a b b wf) none (truncf .bf16 x hlt) (truncf .bf16 wl hlt)
          (constant ⟨2, ![a, b]⟩ .f32 0x00000000#32) (ix2 p q) + broadcastTo ⟨2, ![a, b]⟩ bl hbc (ix2 p q))
      + ((((max (FloatOps.matmul (plainDims a b b wf) none (truncf .bf16 z hlt) (truncf .bf16 wr hlt)
              (constant ⟨2, ![a, b]⟩ .f32 0x00000000#32) (ix2 p q) + broadcastTo ⟨2, ![a, b]⟩ br hbc (ix2 p q))
              (Ideal.ofBits .f32 0x00000000#32) - broadcastTo ⟨2, ![a, b]⟩ μ hbc (ix2 p q))
            * broadcastTo ⟨2, ![a, b]⟩ (rsqrt (addf v (broadcast ⟨2, ![1, b]⟩ (Scalar.ofBits (F := Ideal) .f32 epsV)))) hbc (ix2 p q))
          * broadcastTo ⟨2, ![a, b]⟩ γ hbc (ix2 p q) + broadcastTo ⟨2, ![a, b]⟩ β hbc (ix2 p q)) + z (ix2 p q)) = _
  rw [matmul_plain_apply wf none (truncf .bf16 x hlt) (truncf .bf16 wl hlt) p q,
    matmul_plain_apply wf none (truncf .bf16 z hlt) (truncf .bf16 wr hlt) p q,
    broadcastTo_1b_ab_apply bl hbc p q, broadcastTo_1b_ab_apply br hbc p q, broadcastTo_1b_ab_apply μ hbc p q,
    broadcastTo_1b_ab_apply _ hbc p q, broadcastTo_1b_ab_apply γ hbc p q, broadcastTo_1b_ab_apply β hbc p q]
  rfl

/-- The whole layer: the row normalisation with clamp applied to the sum above. -/
def layerVec (D : DotDims ⟨2, ![a, b]⟩ ⟨2, ![b, b]⟩ ⟨2, ![a, b]⟩) (hlt : FTy.bf16.bits < FTy.f32.bits)
    (hbc : (⟨2, ![1, b]⟩ : Shape).Broadcasts ⟨2, ![a, b]⟩) (epsV epsN : BitVec 32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (z x : FVec Ideal ⟨2, ![a, b]⟩ .f32) (wr : FVec Ideal ⟨2, ![b, b]⟩ .f32) (br : FVec Ideal ⟨2, ![1, b]⟩ .f32)
    (wl : FVec Ideal ⟨2, ![b, b]⟩ .f32) (bl γ β μ v : FVec Ideal ⟨2, ![1, b]⟩ .f32) : FVec Ideal ⟨2, ![a, b]⟩ .f32 :=
  maximumf (divf (preVec D hlt hbc epsV z x wr br wl bl γ β μ v) (broadcastTo ⟨2, ![a, b]⟩
      (maximumf (sqrt (shapeCast ⟨2, ![a, 1]⟩ (multiReduction .add [1] ⟨1, ![a]⟩
          (mulf (preVec D hlt hbc epsV z x wr br wl bl γ β μ v) (preVec D hlt hbc epsV z x wr br wl bl γ β μ v))
          0x00000000#32 hr hφ hacc) hc))
        (broadcast ⟨2, ![a, 1]⟩ (Scalar.ofBits (F := Ideal) .f32 epsN))) hb))
    (broadcast ⟨2, ![a, b]⟩ (Scalar.ofBits (F := Ideal) .f32 0x00000000#32))

/-- Its entry (p, q), in terms of the entries of the sum above. -/
theorem layerVec_apply (D : DotDims ⟨2, ![a, b]⟩ ⟨2, ![b, b]⟩ ⟨2, ![a, b]⟩) (hlt : FTy.bf16.bits < FTy.f32.bits)
    (hbc : (⟨2, ![1, b]⟩ : Shape).Broadcasts ⟨2, ![a, b]⟩) (epsV epsN : BitVec 32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (z x : FVec Ideal ⟨2, ![a, b]⟩ .f32) (wr : FVec Ideal ⟨2, ![b, b]⟩ .f32) (br : FVec Ideal ⟨2, ![1, b]⟩ .f32)
    (wl : FVec Ideal ⟨2, ![b, b]⟩ .f32) (bl γ β μ v : FVec Ideal ⟨2, ![1, b]⟩ .f32) (p : Fin a) (q : Fin b) :
    layerVec D hlt hbc epsV epsN hr hφ hacc hc hb z x wr br wl bl γ β μ v (ix2 p q)
      = max (Ideal.div (preVec D hlt hbc epsV z x wr br wl bl γ β μ v (ix2 p q))
          (max (Ideal.sqrt (∑ d : Fin b, preVec D hlt hbc epsV z x wr br wl bl γ β μ v (ix2 p d)
              * preVec D hlt hbc epsV z x wr br wl bl γ β μ v (ix2 p d))) (Ideal.ofBits .f32 epsN)))
        (Ideal.ofBits .f32 0x00000000#32) :=
  normRelu_apply (preVec D hlt hbc epsV z x wr br wl bl γ β μ v) epsN hr hφ hacc hc hb p q

end Layer

end Cert.LibLayerRow

end
-- ==== Proof.Layer1.lean ====
/-
  What a layer region leaves in its output array: the layer of Spec.lean, row by row, of the arrays the region finds.
  The region visits the 100000 rows in 25 blocks of 4000; at each point it loads the point's rows of z and x and the
  whole weight matrices and one-row parameters, stores the layer of those rows in one covering store, and writes the
  block back. A row of the layer depends only on that row of z and x, so block t of the result is rows
  4000·t … 4000·t + 3999 of the layer of the whole arrays, and the 25 blocks cover the array.
-/
import proofs.«140366_j72610717106485_2_alg».proof.Proof.Gen.KernelIdeal.Frame
import proofs.«140366_j72610717106485_2_alg».proof.Proof.Spec
import proofs.«140366_j72610717106485_2_alg».proof.Proof.SpecRow
import proofs.«140366_j72610717106485_2_alg».proof.Proof.LibLayerRow
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Net

theorem hz : (![0, 0] : Fin 2 → Nat) = fun _ => 0 := funext fun a => by fin_cases a <;> rfl

/-! ## The stored block -/

/-- The one store's payload is the layer's vector term of the ten loaded blocks. -/
theorem out_eq (x0 : Vec Ideal S4000x128 .f32) (x1 : Vec Ideal S4000x128 .f32) (x2 : Vec Ideal S128x128 .f32) (x3 : Vec Ideal S1x128 .f32) (x4 : Vec Ideal S128x128 .f32) (x5 : Vec Ideal S1x128 .f32) (x6 : Vec Ideal S1x128 .f32) (x7 : Vec Ideal S1x128 .f32) (x8 : Vec Ideal S1x128 .f32) (x9 : Vec Ideal S1x128 .f32) :
    out1_10 (F := Ideal) x0 x1 x2 x3 x4 x5 x6 x7 x8 x9
      = Cert.LibLayerRow.layerVec dot_S4000x128_S128x128_S4000x128_1_0_0_1_n_n bitsLt_bf16_f32 broadcasts_S1x128_S4000x128 0x3727C5AC#32 0x2B8CBCCC#32
        reduces_S4000x128_S4000 (.inl rfl) rfl shapeCasts_S4000_S4000x1 broadcasts_S4000x1_S4000x128
        x0 x1 x2 x3 x4 x5 x6 x7 x8 x9 := by
  unfold out1_10
  rw [View.canon_unit_zero hz]
  simp only [View.ld_unit_zero (S := S4000x128) hz, View.ld_unit_zero (S := S128x128) hz, View.ld_unit_zero (S := S1x128) hz]
  unfold k1_pay1 k1_pay2 k1_pay3 k1_pay4 k1_pay5 k1_pay6 k1_pay7 k1_pay8
  simp only [k1_pay2, shapeCast_self]
  unfold Cert.LibLayerRow.layerVec Cert.LibLayerRow.preVec
  rfl

/-- The stored block at (p, q): the layer of the loaded rows. -/
theorem out_apply (x0 : Vec Ideal S4000x128 .f32) (x1 : Vec Ideal S4000x128 .f32) (x2 : Vec Ideal S128x128 .f32) (x3 : Vec Ideal S1x128 .f32) (x4 : Vec Ideal S128x128 .f32) (x5 : Vec Ideal S1x128 .f32) (x6 : Vec Ideal S1x128 .f32) (x7 : Vec Ideal S1x128 .f32) (x8 : Vec Ideal S1x128 .f32) (x9 : Vec Ideal S1x128 .f32) (p : Fin 4000) (q : Fin 128) :
    out1_10 (F := Ideal) x0 x1 x2 x3 x4 x5 x6 x7 x8 x9 (ix2 p q) = layerOf (cur x0) (cur x1) (cur x2) (row1 x3) (cur x4) (row1 x5) (row1 x6) (row1 x7) (row1 x8) (row1 x9) p q := by
  rw [out_eq]
  refine (Cert.LibLayerRow.layerVec_apply dot_S4000x128_S128x128_S4000x128_1_0_0_1_n_n bitsLt_bf16_f32 broadcasts_S1x128_S4000x128 0x3727C5AC#32 0x2B8CBCCC#32
        reduces_S4000x128_S4000 (.inl rfl) rfl shapeCasts_S4000_S4000x1 broadcasts_S4000x1_S4000x128
    x0 x1 x2 x3 x4 x5 x6 x7 x8 x9 p q).trans ?_
  have hpre : ∀ d : Fin 128, Cert.LibLayerRow.preVec dot_S4000x128_S128x128_S4000x128_1_0_0_1_n_n bitsLt_bf16_f32 broadcasts_S1x128_S4000x128 0x3727C5AC#32 x0 x1 x2 x3 x4 x5 x6 x7 x8 x9 (ix2 p d)
      = pre (cur x0) (cur x1) (cur x2) (row1 x3) (cur x4) (row1 x5) (row1 x6) (row1 x7) (row1 x8) (row1 x9) p d := fun d =>
    (Cert.LibLayerRow.preVec_apply _ dot_S4000x128_S128x128_S4000x128_1_0_0_1_n_n_wf rfl _ _ _ x0 x1 x2 x3 x4 x5 x6 x7 x8 x9 p d).trans rfl
  simp only [hpre]
  rfl

/-! ## From blocks to the array -/

variable (V : (c : Dev nD) → (b : Ref sig .tc) → Buf (Elt Ideal) ((c : Thread nD τ).loc b))

/-- The index maps over the grid: the row blocks of z, x and the output move with the point, the rest stay. -/
theorem idx_0 : ∀ t : Fin cfg1.N, win1_0.index t 0 = t.val ∧ win1_0.index t 1 = 0 :=
  (by decide +kernel : ∀ t : Fin grid1.N, win1_0.index t 0 = t.val ∧ win1_0.index t 1 = 0)
theorem idx_1 : ∀ t : Fin cfg1.N, win1_1.index t 0 = t.val ∧ win1_1.index t 1 = 0 :=
  (by decide +kernel : ∀ t : Fin grid1.N, win1_1.index t 0 = t.val ∧ win1_1.index t 1 = 0)
theorem idx_2 : ∀ t : Fin cfg1.N, win1_2.index t 0 = 0 ∧ win1_2.index t 1 = 0 :=
  (by decide +kernel : ∀ t : Fin grid1.N, win1_2.index t 0 = 0 ∧ win1_2.index t 1 = 0)
theorem idx_3 : ∀ t : Fin cfg1.N, win1_3.index t 0 = 0 ∧ win1_3.index t 1 = 0 :=
  (by decide +kernel : ∀ t : Fin grid1.N, win1_3.index t 0 = 0 ∧ win1_3.index t 1 = 0)
theorem idx_4 : ∀ t : Fin cfg1.N, win1_4.index t 0 = 0 ∧ win1_4.index t 1 = 0 :=
  (by decide +kernel : ∀ t : Fin grid1.N, win1_4.index t 0 = 0 ∧ win1_4.index t 1 = 0)
theorem idx_5 : ∀ t : Fin cfg1.N, win1_5.index t 0 = 0 ∧ win1_5.index t 1 = 0 :=
  (by decide +kernel : ∀ t : Fin grid1.N, win1_5.index t 0 = 0 ∧ win1_5.index t 1 = 0)
theorem idx_6 : ∀ t : Fin cfg1.N, win1_6.index t 0 = 0 ∧ win1_6.index t 1 = 0 :=
  (by decide +kernel : ∀ t : Fin grid1.N, win1_6.index t 0 = 0 ∧ win1_6.index t 1 = 0)
theorem idx_7 : ∀ t : Fin cfg1.N, win1_7.index t 0 = 0 ∧ win1_7.index t 1 = 0 :=
  (by decide +kernel : ∀ t : Fin grid1.N, win1_7.index t 0 = 0 ∧ win1_7.index t 1 = 0)
theorem idx_8 : ∀ t : Fin cfg1.N, win1_8.index t 0 = 0 ∧ win1_8.index t 1 = 0 :=
  (by decide +kernel : ∀ t : Fin grid1.N, win1_8.index t 0 = 0 ∧ win1_8.index t 1 = 0)
theorem idx_9 : ∀ t : Fin cfg1.N, win1_9.index t 0 = 0 ∧ win1_9.index t 1 = 0 :=
  (by decide +kernel : ∀ t : Fin grid1.N, win1_9.index t 0 = 0 ∧ win1_9.index t 1 = 0)
theorem idx_10 : ∀ t : Fin cfg1.N, win1_10.index t 0 = t.val ∧ win1_10.index t 1 = 0 :=
  (by decide +kernel : ∀ t : Fin grid1.N, win1_10.index t 0 = t.val ∧ win1_10.index t 1 = 0)

/-- Row j of block t is row 4000·t + j of the array. -/
def rowAt (t : Fin cfg1.N) (j : S4000x128.Idx) : S100000x128.Idx :=
  ix2 (⟨4000 * t.val + (j 0).val, by
    have hN : cfg1.N = 25 := N_1
    have h1 : t.val < cfg1.N := t.isLt
    have h2 : (j 0).val < 4000 := (j 0).isLt
    omega⟩ : Fin 100000) (j 1)

/-- Window 0's block at point t, read off its array: row j of the block is row 4000·t + j. -/
theorem blk0_eq (c : Dev nD) (t : Fin cfg1.N) :
    (iblk1 V c 0 t : Vec Ideal S4000x128 .f32) = fun j => (V c main_v19 : S100000x128.Idx → EReal) (rowAt t j) := by
  funext j
  unfold iblk1
  rw [View.read_apply]
  show V c main_v19 _ = V c main_v19 _
  refine congrArg (V c main_v19) (funext fun a => Fin.ext ?_)
  match a with
  | ⟨0, _⟩ => show win1_0.index t 0 * 4000 + 1 * (j 0).val = 4000 * t.val + (j 0).val; rw [(idx_0 t).1]; omega
  | ⟨1, _⟩ => show win1_0.index t 1 * 128 + 1 * (j 1).val = (j 1).val; rw [(idx_0 t).2]; omega

/-- Window 1's block at point t, read off its array: row j of the block is row 4000·t + j. -/
theorem blk1_eq (c : Dev nD) (t : Fin cfg1.N) :
    (iblk1 V c 1 t : Vec Ideal S4000x128 .f32) = fun j => (V c main_arg0 : S100000x128.Idx → EReal) (rowAt t j) := by
  funext j
  unfold iblk1
  rw [View.read_apply]
  show V c main_arg0 _ = V c main_arg0 _
  refine congrArg (V c main_arg0) (funext fun a => Fin.ext ?_)
  match a with
  | ⟨0, _⟩ => show win1_1.index t 0 * 4000 + 1 * (j 0).val = 4000 * t.val + (j 0).val; rw [(idx_1 t).1]; omega
  | ⟨1, _⟩ => show win1_1.index t 1 * 128 + 1 * (j 1).val = (j 1).val; rw [(idx_1 t).2]; omega

/-- Window 2's block is its whole array at every point. -/
theorem blk2_eq (c : Dev nD) (t : Fin cfg1.N) :
    (iblk1 V c 2 t : Vec Ideal S128x128 .f32) = (V c main_v21 : S128x128.Idx → EReal) := by
  funext j
  unfold iblk1
  rw [View.read_apply]
  show V c main_v21 _ = V c main_v21 _
  refine congrArg (V c main_v21) (funext fun a => Fin.ext ?_)
  match a with
  | ⟨0, _⟩ => show win1_2.index t 0 * 128 + 1 * (j 0).val = (j 0).val; rw [(idx_2 t).1]; omega
  | ⟨1, _⟩ => show win1_2.index t 1 * 128 + 1 * (j 1).val = (j 1).val; rw [(idx_2 t).2]; omega

/-- Window 3's block is its whole array at every point. -/
theorem blk3_eq (c : Dev nD) (t : Fin cfg1.N) :
    (iblk1 V c 3 t : Vec Ideal S1x128 .f32) = (V c main_v24 : S1x128.Idx → EReal) := by
  funext j
  unfold iblk1
  rw [View.read_apply]
  show V c main_v24 _ = V c main_v24 _
  refine congrArg (V c main_v24) (funext fun a => Fin.ext ?_)
  match a with
  | ⟨0, _⟩ => show win1_3.index t 0 * 1 + 1 * (j 0).val = (j 0).val; rw [(idx_3 t).1]; omega
  | ⟨1, _⟩ => show win1_3.index t 1 * 128 + 1 * (j 1).val = (j 1).val; rw [(idx_3 t).2]; omega

/-- Window 4's block is its whole array at every point. -/
theorem blk4_eq (c : Dev nD) (t : Fin cfg1.N) :
    (iblk1 V c 4 t : Vec Ideal S128x128 .f32) = (V c main_v26 : S128x128.Idx → EReal) := by
  funext j
  unfold iblk1
  rw [View.read_apply]
  show V c main_v26 _ = V c main_v26 _
  refine congrArg (V c main_v26) (funext fun a => Fin.ext ?_)
  match a with
  | ⟨0, _⟩ => show win1_4.index t 0 * 128 + 1 * (j 0).val = (j 0).val; rw [(idx_4 t).1]; omega
  | ⟨1, _⟩ => show win1_4.index t 1 * 128 + 1 * (j 1).val = (j 1).val; rw [(idx_4 t).2]; omega

/-- Window 5's block is its whole array at every point. -/
theorem blk5_eq (c : Dev nD) (t : Fin cfg1.N) :
    (iblk1 V c 5 t : Vec Ideal S1x128 .f32) = (V c main_v29 : S1x128.Idx → EReal) := by
  funext j
  unfold iblk1
  rw [View.read_apply]
  show V c main_v29 _ = V c main_v29 _
  refine congrArg (V c main_v29) (funext fun a => Fin.ext ?_)
  match a with
  | ⟨0, _⟩ => show win1_5.index t 0 * 1 + 1 * (j 0).val = (j 0).val; rw [(idx_5 t).1]; omega
  | ⟨1, _⟩ => show win1_5.index t 1 * 128 + 1 * (j 1).val = (j 1).val; rw [(idx_5 t).2]; omega

/-- Window 6's block is its whole array at every point. -/
theorem blk6_eq (c : Dev nD) (t : Fin cfg1.N) :
    (iblk1 V c 6 t : Vec Ideal S1x128 .f32) = (V c main_v32 : S1x128.Idx → EReal) := by
  funext j
  unfold iblk1
  rw [View.read_apply]
  show V c main_v32 _ = V c main_v32 _
  refine congrArg (V c main_v32) (funext fun a => Fin.ext ?_)
  match a with
  | ⟨0, _⟩ => show win1_6.index t 0 * 1 + 1 * (j 0).val = (j 0).val; rw [(idx_6 t).1]; omega
  | ⟨1, _⟩ => show win1_6.index t 1 * 128 + 1 * (j 1).val = (j 1).val; rw [(idx_6 t).2]; omega

/-- Window 7's block is its whole array at every point. -/
theorem blk7_eq (c : Dev nD) (t : Fin cfg1.N) :
    (iblk1 V c 7 t : Vec Ideal S1x128 .f32) = (V c main_v35 : S1x128.Idx → EReal) := by
  funext j
  unfold iblk1
  rw [View.read_apply]
  show V c main_v35 _ = V c main_v35 _
  refine congrArg (V c main_v35) (funext fun a => Fin.ext ?_)
  match a with
  | ⟨0, _⟩ => show win1_7.index t 0 * 1 + 1 * (j 0).val = (j 0).val; rw [(idx_7 t).1]; omega
  | ⟨1, _⟩ => show win1_7.index t 1 * 128 + 1 * (j 1).val = (j 1).val; rw [(idx_7 t).2]; omega

/-- Window 8's block is its whole array at every point. -/
theorem blk8_eq (c : Dev nD) (t : Fin cfg1.N) :
    (iblk1 V c 8 t : Vec Ideal S1x128 .f32) = (V c main_v38 : S1x128.Idx → EReal) := by
  funext j
  unfold iblk1
  rw [View.read_apply]
  show V c main_v38 _ = V c main_v38 _
  refine congrArg (V c main_v38) (funext fun a => Fin.ext ?_)
  match a with
  | ⟨0, _⟩ => show win1_8.index t 0 * 1 + 1 * (j 0).val = (j 0).val; rw [(idx_8 t).1]; omega
  | ⟨1, _⟩ => show win1_8.index t 1 * 128 + 1 * (j 1).val = (j 1).val; rw [(idx_8 t).2]; omega

/-- Window 9's block is its whole array at every point. -/
theorem blk9_eq (c : Dev nD) (t : Fin cfg1.N) :
    (iblk1 V c 9 t : Vec Ideal S1x128 .f32) = (V c main_v44 : S1x128.Idx → EReal) := by
  funext j
  unfold iblk1
  rw [View.read_apply]
  show V c main_v44 _ = V c main_v44 _
  refine congrArg (V c main_v44) (funext fun a => Fin.ext ?_)
  match a with
  | ⟨0, _⟩ => show win1_9.index t 0 * 1 + 1 * (j 0).val = (j 0).val; rw [(idx_9 t).1]; omega
  | ⟨1, _⟩ => show win1_9.index t 1 * 128 + 1 * (j 1).val = (j 1).val; rw [(idx_9 t).2]; omega

/-- The layer of the arrays the region finds, as the output array's contents. -/
def G (c : Dev nD) : Buf (Elt Ideal) ((c : Thread nD τ).loc main_v45) :=
  (show S100000x128.Idx → EReal from uncur (layerOf (cur (V c main_v19 : S100000x128.Idx → EReal)) (cur (V c main_arg0 : S100000x128.Idx → EReal)) (cur (V c main_v21 : S128x128.Idx → EReal)) (row1 (V c main_v24 : S1x128.Idx → EReal)) (cur (V c main_v26 : S128x128.Idx → EReal)) (row1 (V c main_v29 : S1x128.Idx → EReal)) (row1 (V c main_v32 : S1x128.Idx → EReal)) (row1 (V c main_v35 : S1x128.Idx → EReal)) (row1 (V c main_v38 : S1x128.Idx → EReal)) (row1 (V c main_v44 : S1x128.Idx → EReal))))

/-- What point t writes back is block t of the layer of the whole arrays. -/
theorem flushed_eq (c : Dev nD) (t : Fin cfg1.N) :
    (dat1 V c).flushed 10 t = ((cfg1.win 10).blk t).view.read (Elt Ideal) (G V c) := by
  have hN : cfg1.N = 25 := N_1
  show (cfg1.win 10).cut (grid1.coords t) ((dat1 V c).after 10 t) = _
  rw [after1_10]
  funext j
  obtain ⟨p, q, rfl⟩ : ∃ (p : Fin 4000) (q : Fin 128), j = ix2 p q := ⟨j 0, j 1, eq_ix2 j⟩
  show out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p q)
    = G V c (((cfg1.win 10).blk t).view.emb (ix2 p q))
  refine (out_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p q).trans ?_
  have hlt : 4000 * t.val + p.val < 100000 := by have := t.isLt; have := p.isLt; omega
  have e0 : (((cfg1.win 10).blk t).view.emb (ix2 p q)) 0 = (⟨4000 * t.val + p.val, hlt⟩ : Fin 100000) :=
    Fin.ext (by show win1_10.index t 0 * 4000 + 1 * p.val = 4000 * t.val + p.val; rw [(idx_10 t).1]; omega)
  have e1 : (((cfg1.win 10).blk t).view.emb (ix2 p q)) 1 = q :=
    Fin.ext (by show win1_10.index t 1 * 128 + 1 * q.val = q.val; rw [(idx_10 t).2]; omega)
  show _ = layerOf (cur (V c main_v19 : S100000x128.Idx → EReal)) (cur (V c main_arg0 : S100000x128.Idx → EReal)) (cur (V c main_v21 : S128x128.Idx → EReal)) (row1 (V c main_v24 : S1x128.Idx → EReal)) (cur (V c main_v26 : S128x128.Idx → EReal)) (row1 (V c main_v29 : S1x128.Idx → EReal)) (row1 (V c main_v32 : S1x128.Idx → EReal)) (row1 (V c main_v35 : S1x128.Idx → EReal)) (row1 (V c main_v38 : S1x128.Idx → EReal)) (row1 (V c main_v44 : S1x128.Idx → EReal))
      ((((cfg1.win 10).blk t).view.emb (ix2 p q)) 0) ((((cfg1.win 10).blk t).view.emb (ix2 p q)) 1)
  rw [e0, e1, blk2_eq V c t, blk3_eq V c t, blk4_eq V c t, blk5_eq V c t, blk6_eq V c t, blk7_eq V c t, blk8_eq V c t, blk9_eq V c t]
  refine layerOf_row _ _ _ _ _ _ _ _ _ _ _ _ p ⟨4000 * t.val + p.val, hlt⟩ (fun e => ?_) (fun e => ?_) q
  · show iblk1 V c 0 t (ix2 p e) = _
    rw [blk0_eq V c t]; rfl
  · show iblk1 V c 1 t (ix2 p e) = _
    rw [blk1_eq V c t]; rfl

/-- An index of the array is in point t's block iff each coordinate is in the block's range. -/
theorem mem_blk (t : Fin cfg1.N) (i : S100000x128.Idx) :
    i ∈ ((cfg1.win 10).blk t).view.set ↔ ∀ a : Fin 2, win1_10.index t a * S4000x128.size a ≤ (i a).val ∧ (i a).val < win1_10.index t a * S4000x128.size a + S4000x128.size a := by
  show i ∈ ((View.whole main_v45).slice (win1_10.rect t)).set ↔ _
  rw [View.set_slice_whole, Rect.mem_set_unit]
  exact Iff.rfl

/-- The output array ends holding the layer of the arrays the region finds. -/
theorem final (c : Dev nD) : (dat1 V c).arrAt 10 cfg1.N = G V c :=
  (dat1 V c).arrAt_eq_of_cover 10 (G V c) (fun t _ => flushed_eq V c t) fun i => by
    have hN : cfg1.N = 25 := N_1
    have hi0 : (i 0).val < 100000 := (i 0).isLt
    have hi1 : (i 1).val < 128 := (i 1).isLt
    refine ⟨⟨(i 0).val / 4000, by omega⟩, flush1_10 _, ?_⟩
    rw [mem_blk]
    intro a
    match a with
    | ⟨0, _⟩ => show win1_10.index _ 0 * 4000 ≤ (i 0).val ∧ (i 0).val < win1_10.index _ 0 * 4000 + 4000
                rw [(idx_10 _).1]; show (i 0).val / 4000 * 4000 ≤ (i 0).val ∧ (i 0).val < (i 0).val / 4000 * 4000 + 4000; omega
    | ⟨1, _⟩ => show win1_10.index _ 1 * 128 ≤ (i 1).val ∧ (i 1).val < win1_10.index _ 1 * 128 + 128
                rw [(idx_10 _).2]; omega

end Cert.KernelIdeal.Layer1

end
-- ==== Proof.Layer3.lean ====
/-
  What a layer region leaves in its output array: the layer of Spec.lean, row by row, of the arrays the region finds.
  The region visits the 100000 rows in 25 blocks of 4000; at each point it loads the point's rows of z and x and the
  whole weight matrices and one-row parameters, stores the layer of those rows in one covering store, and writes the
  block back. A row of the layer depends only on that row of z and x, so block t of the result is rows
  4000·t … 4000·t + 3999 of the layer of the whole arrays, and the 25 blocks cover the array.
-/
import proofs.«140366_j72610717106485_2_alg».proof.Proof.Gen.KernelIdeal.Frame
import proofs.«140366_j72610717106485_2_alg».proof.Proof.Spec
import proofs.«140366_j72610717106485_2_alg».proof.Proof.SpecRow
import proofs.«140366_j72610717106485_2_alg».proof.Proof.LibLayerRow
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen Cert.Net

theorem hz : (![0, 0] : Fin 2 → Nat) = fun _ => 0 := funext fun a => by fin_cases a <;> rfl

/-! ## The stored block -/

/-- The one store's payload is the layer's vector term of the ten loaded blocks. -/
theorem out_eq (x0 : Vec Ideal S4000x128 .f32) (x1 : Vec Ideal S4000x128 .f32) (x2 : Vec Ideal S128x128 .f32) (x3 : Vec Ideal S1x128 .f32) (x4 : Vec Ideal S128x128 .f32) (x5 : Vec Ideal S1x128 .f32) (x6 : Vec Ideal S1x128 .f32) (x7 : Vec Ideal S1x128 .f32) (x8 : Vec Ideal S1x128 .f32) (x9 : Vec Ideal S1x128 .f32) :
    out3_10 (F := Ideal) x0 x1 x2 x3 x4 x5 x6 x7 x8 x9
      = Cert.LibLayerRow.layerVec dot_S4000x128_S128x128_S4000x128_1_0_0_1_n_n bitsLt_bf16_f32 broadcasts_S1x128_S4000x128 0x3727C5AC#32 0x2B8CBCCC#32
        reduces_S4000x128_S4000 (.inl rfl) rfl shapeCasts_S4000_S4000x1 broadcasts_S4000x1_S4000x128
        x0 x1 x2 x3 x4 x5 x6 x7 x8 x9 := by
  unfold out3_10
  rw [View.canon_unit_zero hz]
  simp only [View.ld_unit_zero (S := S4000x128) hz, View.ld_unit_zero (S := S128x128) hz, View.ld_unit_zero (S := S1x128) hz]
  unfold k3_pay1 k3_pay2 k3_pay3 k3_pay4 k3_pay5 k3_pay6 k3_pay7 k3_pay8
  simp only [k3_pay2, shapeCast_self]
  unfold Cert.LibLayerRow.layerVec Cert.LibLayerRow.preVec
  rfl

/-- The stored block at (p, q): the layer of the loaded rows. -/
theorem out_apply (x0 : Vec Ideal S4000x128 .f32) (x1 : Vec Ideal S4000x128 .f32) (x2 : Vec Ideal S128x128 .f32) (x3 : Vec Ideal S1x128 .f32) (x4 : Vec Ideal S128x128 .f32) (x5 : Vec Ideal S1x128 .f32) (x6 : Vec Ideal S1x128 .f32) (x7 : Vec Ideal S1x128 .f32) (x8 : Vec Ideal S1x128 .f32) (x9 : Vec Ideal S1x128 .f32) (p : Fin 4000) (q : Fin 128) :
    out3_10 (F := Ideal) x0 x1 x2 x3 x4 x5 x6 x7 x8 x9 (ix2 p q) = layerOf (cur x0) (cur x1) (cur x2) (row1 x3) (cur x4) (row1 x5) (row1 x6) (row1 x7) (row1 x8) (row1 x9) p q := by
  rw [out_eq]
  refine (Cert.LibLayerRow.layerVec_apply dot_S4000x128_S128x128_S4000x128_1_0_0_1_n_n bitsLt_bf16_f32 broadcasts_S1x128_S4000x128 0x3727C5AC#32 0x2B8CBCCC#32
        reduces_S4000x128_S4000 (.inl rfl) rfl shapeCasts_S4000_S4000x1 broadcasts_S4000x1_S4000x128
    x0 x1 x2 x3 x4 x5 x6 x7 x8 x9 p q).trans ?_
  have hpre : ∀ d : Fin 128, Cert.LibLayerRow.preVec dot_S4000x128_S128x128_S4000x128_1_0_0_1_n_n bitsLt_bf16_f32 broadcasts_S1x128_S4000x128 0x3727C5AC#32 x0 x1 x2 x3 x4 x5 x6 x7 x8 x9 (ix2 p d)
      = pre (cur x0) (cur x1) (cur x2) (row1 x3) (cur x4) (row1 x5) (row1 x6) (row1 x7) (row1 x8) (row1 x9) p d := fun d =>
    (Cert.LibLayerRow.preVec_apply _ dot_S4000x128_S128x128_S4000x128_1_0_0_1_n_n_wf rfl _ _ _ x0 x1 x2 x3 x4 x5 x6 x7 x8 x9 p d).trans rfl
  simp only [hpre]
  rfl

/-! ## From blocks to the array -/

variable (V : (c : Dev nD) → (b : Ref sig .tc) → Buf (Elt Ideal) ((c : Thread nD τ).loc b))

/-- The index maps over the grid: the row blocks of z, x and the output move with the point, the rest stay. -/
theorem idx_0 : ∀ t : Fin cfg3.N, win3_0.index t 0 = t.val ∧ win3_0.index t 1 = 0 :=
  (by decide +kernel : ∀ t : Fin grid3.N, win3_0.index t 0 = t.val ∧ win3_0.index t 1 = 0)
theorem idx_1 : ∀ t : Fin cfg3.N, win3_1.index t 0 = t.val ∧ win3_1.index t 1 = 0 :=
  (by decide +kernel : ∀ t : Fin grid3.N, win3_1.index t 0 = t.val ∧ win3_1.index t 1 = 0)
theorem idx_2 : ∀ t : Fin cfg3.N, win3_2.index t 0 = 0 ∧ win3_2.index t 1 = 0 :=
  (by decide +kernel : ∀ t : Fin grid3.N, win3_2.index t 0 = 0 ∧ win3_2.index t 1 = 0)
theorem idx_3 : ∀ t : Fin cfg3.N, win3_3.index t 0 = 0 ∧ win3_3.index t 1 = 0 :=
  (by decide +kernel : ∀ t : Fin grid3.N, win3_3.index t 0 = 0 ∧ win3_3.index t 1 = 0)
theorem idx_4 : ∀ t : Fin cfg3.N, win3_4.index t 0 = 0 ∧ win3_4.index t 1 = 0 :=
  (by decide +kernel : ∀ t : Fin grid3.N, win3_4.index t 0 = 0 ∧ win3_4.index t 1 = 0)
theorem idx_5 : ∀ t : Fin cfg3.N, win3_5.index t 0 = 0 ∧ win3_5.index t 1 = 0 :=
  (by decide +kernel : ∀ t : Fin grid3.N, win3_5.index t 0 = 0 ∧ win3_5.index t 1 = 0)
theorem idx_6 : ∀ t : Fin cfg3.N, win3_6.index t 0 = 0 ∧ win3_6.index t 1 = 0 :=
  (by decide +kernel : ∀ t : Fin grid3.N, win3_6.index t 0 = 0 ∧ win3_6.index t 1 = 0)
theorem idx_7 : ∀ t : Fin cfg3.N, win3_7.index t 0 = 0 ∧ win3_7.index t 1 = 0 :=
  (by decide +kernel : ∀ t : Fin grid3.N, win3_7.index t 0 = 0 ∧ win3_7.index t 1 = 0)
theorem idx_8 : ∀ t : Fin cfg3.N, win3_8.index t 0 = 0 ∧ win3_8.index t 1 = 0 :=
  (by decide +kernel : ∀ t : Fin grid3.N, win3_8.index t 0 = 0 ∧ win3_8.index t 1 = 0)
theorem idx_9 : ∀ t : Fin cfg3.N, win3_9.index t 0 = 0 ∧ win3_9.index t 1 = 0 :=
  (by decide +kernel : ∀ t : Fin grid3.N, win3_9.index t 0 = 0 ∧ win3_9.index t 1 = 0)
theorem idx_10 : ∀ t : Fin cfg3.N, win3_10.index t 0 = t.val ∧ win3_10.index t 1 = 0 :=
  (by decide +kernel : ∀ t : Fin grid3.N, win3_10.index t 0 = t.val ∧ win3_10.index t 1 = 0)

/-- Row j of block t is row 4000·t + j of the array. -/
def rowAt (t : Fin cfg3.N) (j : S4000x128.Idx) : S100000x128.Idx :=
  ix2 (⟨4000 * t.val + (j 0).val, by
    have hN : cfg3.N = 25 := N_3
    have h1 : t.val < cfg3.N := t.isLt
    have h2 : (j 0).val < 4000 := (j 0).isLt
    omega⟩ : Fin 100000) (j 1)

/-- Window 0's block at point t, read off its array: row j of the block is row 4000·t + j. -/
theorem blk0_eq (c : Dev nD) (t : Fin cfg3.N) :
    (iblk3 V c 0 t : Vec Ideal S4000x128 .f32) = fun j => (V c main_v55 : S100000x128.Idx → EReal) (rowAt t j) := by
  funext j
  unfold iblk3
  rw [View.read_apply]
  show V c main_v55 _ = V c main_v55 _
  refine congrArg (V c main_v55) (funext fun a => Fin.ext ?_)
  match a with
  | ⟨0, _⟩ => show win3_0.index t 0 * 4000 + 1 * (j 0).val = 4000 * t.val + (j 0).val; rw [(idx_0 t).1]; omega
  | ⟨1, _⟩ => show win3_0.index t 1 * 128 + 1 * (j 1).val = (j 1).val; rw [(idx_0 t).2]; omega

/-- Window 1's block at point t, read off its array: row j of the block is row 4000·t + j. -/
theorem blk1_eq (c : Dev nD) (t : Fin cfg3.N) :
    (iblk3 V c 1 t : Vec Ideal S4000x128 .f32) = fun j => (V c main_v45 : S100000x128.Idx → EReal) (rowAt t j) := by
  funext j
  unfold iblk3
  rw [View.read_apply]
  show V c main_v45 _ = V c main_v45 _
  refine congrArg (V c main_v45) (funext fun a => Fin.ext ?_)
  match a with
  | ⟨0, _⟩ => show win3_1.index t 0 * 4000 + 1 * (j 0).val = 4000 * t.val + (j 0).val; rw [(idx_1 t).1]; omega
  | ⟨1, _⟩ => show win3_1.index t 1 * 128 + 1 * (j 1).val = (j 1).val; rw [(idx_1 t).2]; omega

/-- Window 2's block is its whole array at every point. -/
theorem blk2_eq (c : Dev nD) (t : Fin cfg3.N) :
    (iblk3 V c 2 t : Vec Ideal S128x128 .f32) = (V c main_v57 : S128x128.Idx → EReal) := by
  funext j
  unfold iblk3
  rw [View.read_apply]
  show V c main_v57 _ = V c main_v57 _
  refine congrArg (V c main_v57) (funext fun a => Fin.ext ?_)
  match a with
  | ⟨0, _⟩ => show win3_2.index t 0 * 128 + 1 * (j 0).val = (j 0).val; rw [(idx_2 t).1]; omega
  | ⟨1, _⟩ => show win3_2.index t 1 * 128 + 1 * (j 1).val = (j 1).val; rw [(idx_2 t).2]; omega

/-- Window 3's block is its whole array at every point. -/
theorem blk3_eq (c : Dev nD) (t : Fin cfg3.N) :
    (iblk3 V c 3 t : Vec Ideal S1x128 .f32) = (V c main_v60 : S1x128.Idx → EReal) := by
  funext j
  unfold iblk3
  rw [View.read_apply]
  show V c main_v60 _ = V c main_v60 _
  refine congrArg (V c main_v60) (funext fun a => Fin.ext ?_)
  match a with
  | ⟨0, _⟩ => show win3_3.index t 0 * 1 + 1 * (j 0).val = (j 0).val; rw [(idx_3 t).1]; omega
  | ⟨1, _⟩ => show win3_3.index t 1 * 128 + 1 * (j 1).val = (j 1).val; rw [(idx_3 t).2]; omega

/-- Window 4's block is its whole array at every point. -/
theorem blk4_eq (c : Dev nD) (t : Fin cfg3.N) :
    (iblk3 V c 4 t : Vec Ideal S128x128 .f32) = (V c main_v62 : S128x128.Idx → EReal) := by
  funext j
  unfold iblk3
  rw [View.read_apply]
  show V c main_v62 _ = V c main_v62 _
  refine congrArg (V c main_v62) (funext fun a => Fin.ext ?_)
  match a with
  | ⟨0, _⟩ => show win3_4.index t 0 * 128 + 1 * (j 0).val = (j 0).val; rw [(idx_4 t).1]; omega
  | ⟨1, _⟩ => show win3_4.index t 1 * 128 + 1 * (j 1).val = (j 1).val; rw [(idx_4 t).2]; omega

/-- Window 5's block is its whole array at every point. -/
theorem blk5_eq (c : Dev nD) (t : Fin cfg3.N) :
    (iblk3 V c 5 t : Vec Ideal S1x128 .f32) = (V c main_v65 : S1x128.Idx → EReal) := by
  funext j
  unfold iblk3
  rw [View.read_apply]
  show V c main_v65 _ = V c main_v65 _
  refine congrArg (V c main_v65) (funext fun a => Fin.ext ?_)
  match a with
  | ⟨0, _⟩ => show win3_5.index t 0 * 1 + 1 * (j 0).val = (j 0).val; rw [(idx_5 t).1]; omega
  | ⟨1, _⟩ => show win3_5.index t 1 * 128 + 1 * (j 1).val = (j 1).val; rw [(idx_5 t).2]; omega

/-- Window 6's block is its whole array at every point. -/
theorem blk6_eq (c : Dev nD) (t : Fin cfg3.N) :
    (iblk3 V c 6 t : Vec Ideal S1x128 .f32) = (V c main_v68 : S1x128.Idx → EReal) := by
  funext j
  unfold iblk3
  rw [View.read_apply]
  show V c main_v68 _ = V c main_v68 _
  refine congrArg (V c main_v68) (funext fun a => Fin.ext ?_)
  match a with
  | ⟨0, _⟩ => show win3_6.index t 0 * 1 + 1 * (j 0).val = (j 0).val; rw [(idx_6 t).1]; omega
  | ⟨1, _⟩ => show win3_6.index t 1 * 128 + 1 * (j 1).val = (j 1).val; rw [(idx_6 t).2]; omega

/-- Window 7's block is its whole array at every point. -/
theorem blk7_eq (c : Dev nD) (t : Fin cfg3.N) :
    (iblk3 V c 7 t : Vec Ideal S1x128 .f32) = (V c main_v71 : S1x128.Idx → EReal) := by
  funext j
  unfold iblk3
  rw [View.read_apply]
  show V c main_v71 _ = V c main_v71 _
  refine congrArg (V c main_v71) (funext fun a => Fin.ext ?_)
  match a with
  | ⟨0, _⟩ => show win3_7.index t 0 * 1 + 1 * (j 0).val = (j 0).val; rw [(idx_7 t).1]; omega
  | ⟨1, _⟩ => show win3_7.index t 1 * 128 + 1 * (j 1).val = (j 1).val; rw [(idx_7 t).2]; omega

/-- Window 8's block is its whole array at every point. -/
theorem blk8_eq (c : Dev nD) (t : Fin cfg3.N) :
    (iblk3 V c 8 t : Vec Ideal S1x128 .f32) = (V c main_v74 : S1x128.Idx → EReal) := by
  funext j
  unfold iblk3
  rw [View.read_apply]
  show V c main_v74 _ = V c main_v74 _
  refine congrArg (V c main_v74) (funext fun a => Fin.ext ?_)
  match a with
  | ⟨0, _⟩ => show win3_8.index t 0 * 1 + 1 * (j 0).val = (j 0).val; rw [(idx_8 t).1]; omega
  | ⟨1, _⟩ => show win3_8.index t 1 * 128 + 1 * (j 1).val = (j 1).val; rw [(idx_8 t).2]; omega

/-- Window 9's block is its whole array at every point. -/
theorem blk9_eq (c : Dev nD) (t : Fin cfg3.N) :
    (iblk3 V c 9 t : Vec Ideal S1x128 .f32) = (V c main_v80 : S1x128.Idx → EReal) := by
  funext j
  unfold iblk3
  rw [View.read_apply]
  show V c main_v80 _ = V c main_v80 _
  refine congrArg (V c main_v80) (funext fun a => Fin.ext ?_)
  match a with
  | ⟨0, _⟩ => show win3_9.index t 0 * 1 + 1 * (j 0).val = (j 0).val; rw [(idx_9 t).1]; omega
  | ⟨1, _⟩ => show win3_9.index t 1 * 128 + 1 * (j 1).val = (j 1).val; rw [(idx_9 t).2]; omega

/-- The layer of the arrays the region finds, as the output array's contents. -/
def G (c : Dev nD) : Buf (Elt Ideal) ((c : Thread nD τ).loc main_v81) :=
  (show S100000x128.Idx → EReal from uncur (layerOf (cur (V c main_v55 : S100000x128.Idx → EReal)) (cur (V c main_v45 : S100000x128.Idx → EReal)) (cur (V c main_v57 : S128x128.Idx → EReal)) (row1 (V c main_v60 : S1x128.Idx → EReal)) (cur (V c main_v62 : S128x128.Idx → EReal)) (row1 (V c main_v65 : S1x128.Idx → EReal)) (row1 (V c main_v68 : S1x128.Idx → EReal)) (row1 (V c main_v71 : S1x128.Idx → EReal)) (row1 (V c main_v74 : S1x128.Idx → EReal)) (row1 (V c main_v80 : S1x128.Idx → EReal))))

/-- What point t writes back is block t of the layer of the whole arrays. -/
theorem flushed_eq (c : Dev nD) (t : Fin cfg3.N) :
    (dat3 V c).flushed 10 t = ((cfg3.win 10).blk t).view.read (Elt Ideal) (G V c) := by
  have hN : cfg3.N = 25 := N_3
  show (cfg3.win 10).cut (grid3.coords t) ((dat3 V c).after 10 t) = _
  rw [after3_10]
  funext j
  obtain ⟨p, q, rfl⟩ : ∃ (p : Fin 4000) (q : Fin 128), j = ix2 p q := ⟨j 0, j 1, eq_ix2 j⟩
  show out3_10 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (ix2 p q)
    = G V c (((cfg3.win 10).blk t).view.emb (ix2 p q))
  refine (out_apply (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) p q).trans ?_
  have hlt : 4000 * t.val + p.val < 100000 := by have := t.isLt; have := p.isLt; omega
  have e0 : (((cfg3.win 10).blk t).view.emb (ix2 p q)) 0 = (⟨4000 * t.val + p.val, hlt⟩ : Fin 100000) :=
    Fin.ext (by show win3_10.index t 0 * 4000 + 1 * p.val = 4000 * t.val + p.val; rw [(idx_10 t).1]; omega)
  have e1 : (((cfg3.win 10).blk t).view.emb (ix2 p q)) 1 = q :=
    Fin.ext (by show win3_10.index t 1 * 128 + 1 * q.val = q.val; rw [(idx_10 t).2]; omega)
  show _ = layerOf (cur (V c main_v55 : S100000x128.Idx → EReal)) (cur (V c main_v45 : S100000x128.Idx → EReal)) (cur (V c main_v57 : S128x128.Idx → EReal)) (row1 (V c main_v60 : S1x128.Idx → EReal)) (cur (V c main_v62 : S128x128.Idx → EReal)) (row1 (V c main_v65 : S1x128.Idx → EReal)) (row1 (V c main_v68 : S1x128.Idx → EReal)) (row1 (V c main_v71 : S1x128.Idx → EReal)) (row1 (V c main_v74 : S1x128.Idx → EReal)) (row1 (V c main_v80 : S1x128.Idx → EReal))
      ((((cfg3.win 10).blk t).view.emb (ix2 p q)) 0) ((((cfg3.win 10).blk t).view.emb (ix2 p q)) 1)
  rw [e0, e1, blk2_eq V c t, blk3_eq V c t, blk4_eq V c t, blk5_eq V c t, blk6_eq V c t, blk7_eq V c t, blk8_eq V c t, blk9_eq V c t]
  refine layerOf_row _ _ _ _ _ _ _ _ _ _ _ _ p ⟨4000 * t.val + p.val, hlt⟩ (fun e => ?_) (fun e => ?_) q
  · show iblk3 V c 0 t (ix2 p e) = _
    rw [blk0_eq V c t]; rfl
  · show iblk3 V c 1 t (ix2 p e) = _
    rw [blk1_eq V c t]; rfl

/-- An index of the array is in point t's block iff each coordinate is in the block's range. -/
theorem mem_blk (t : Fin cfg3.N) (i : S100000x128.Idx) :
    i ∈ ((cfg3.win 10).blk t).view.set ↔ ∀ a : Fin 2, win3_10.index t a * S4000x128.size a ≤ (i a).val ∧ (i a).val < win3_10.index t a * S4000x128.size a + S4000x128.size a := by
  show i ∈ ((View.whole main_v81).slice (win3_10.rect t)).set ↔ _
  rw [View.set_slice_whole, Rect.mem_set_unit]
  exact Iff.rfl

/-- The output array ends holding the layer of the arrays the region finds. -/
theorem final (c : Dev nD) : (dat3 V c).arrAt 10 cfg3.N = G V c :=
  (dat3 V c).arrAt_eq_of_cover 10 (G V c) (fun t _ => flushed_eq V c t) fun i => by
    have hN : cfg3.N = 25 := N_3
    have hi0 : (i 0).val < 100000 := (i 0).isLt
    have hi1 : (i 1).val < 128 := (i 1).isLt
    refine ⟨⟨(i 0).val / 4000, by omega⟩, flush3_10 _, ?_⟩
    rw [mem_blk]
    intro a
    match a with
    | ⟨0, _⟩ => show win3_10.index _ 0 * 4000 ≤ (i 0).val ∧ (i 0).val < win3_10.index _ 0 * 4000 + 4000
                rw [(idx_10 _).1]; show (i 0).val / 4000 * 4000 ≤ (i 0).val ∧ (i 0).val < (i 0).val / 4000 * 4000 + 4000; omega
    | ⟨1, _⟩ => show win3_10.index _ 1 * 128 ≤ (i 1).val ∧ (i 1).val < win3_10.index _ 1 * 128 + 128
                rw [(idx_10 _).2]; omega

end Cert.KernelIdeal.Layer3

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.LibLogSoftmax.lean ====
/-
  A row-wise log-softmax of an `[a, b]` matrix along its last axis, read at an entry given by its coordinates, on the
  extended reals, for any extents, in the two spellings programs print:

      (x_{p q} − m_p) − log Σ_d exp (x_{p d} − m_p),     m_p the fold of `max` over row `p` from minus infinity.

  * The vector unit's: the row maximum and the row sum are one-axis reductions kept as a column (`[a] → [a, 1]`) and
    broadcast across the lanes (`vector_apply`).
  * The host's: the row maximum is a reduce from minus infinity, joined once more with minus infinity (which changes
    nothing), the row sum a reduce from zero; both are placed as a column and broadcast (`host_apply`).
  Also the keepdims forms used on the way: a vector placed as a column and spread over the lanes reads the vector
  at the row (`keep_vector_apply`, `keep_host_apply`).
-/
import proofs.«140366_j72610717106485_2_alg».proof.Proof.LibColumn
import proofs.«140366_j72610717106485_2_alg».proof.Proof.LibLastAxis
import proofs.«140366_j72610717106485_2_alg».proof.Proof.LibRowMax
import Idealize.ShloMosaic.Lib.ValueLayout
import Idealize.ShloMosaic.Lib.Pipeline.Value
import Idealize.ShloMosaic.PureOps.Ideal.Laws

noncomputable section

namespace Cert.LibLogSoftmax

open Idealize.ShloMosaic Idealize.ShloMosaic.ValueIdx Cert.LibColumn Cert.LibLastAxis Cert.LibRowMax

variable {α : Type} {a b : ℕ}

/-- A vector `[a]` cast to a column and broadcast over `b` lanes reads, at `(p, q)`, the vector at `p`. -/
theorem keep_vector_apply (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) :=
  (broadcastTo_a1_ab_apply _ hb p q).trans (shapeCast_a_a1_apply v hc p 0)

/-- The host's `[a]` vector placed as a column `[a, 1]` reads, at `(p, u)`, the vector at `p`. -/
theorem broadcastInDim_a_a1_apply (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's vector placed as a column and broadcast over `b` lanes reads, at `(p, q)`, the vector at `p`. -/
theorem keep_host_apply (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (broadcastInDim_a1_ab_apply _ h2 p q).trans (broadcastInDim_a_a1_apply v h1 p 0)

/-- The maximum from minus infinity. -/
theorem max_negInf (y : EReal) : max (Ideal.ofBits .f32 0xFF800000#32) y = y := by
  simp [Ideal.ofBits, Ideal.ieee]

/-- The vector unit's log-softmax along the last axis, at `(p, q)`. -/
theorem vector_apply (x : FVec Ideal ⟨2, ![a, b]⟩ .f32) (hr : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf x (broadcastTo ⟨2, ![a, b]⟩ (shapeCast ⟨2, ![a, 1]⟩
          (multiReduction .maximumf [1] ⟨1, ![a]⟩ x 0xFF800000#32 hr hφ hmax) hc) hb))
      (broadcastTo ⟨2, ![a, b]⟩ (log (shapeCast ⟨2, ![a, 1]⟩
          (multiReduction .add [1] ⟨1, ![a]⟩
            (exp (subf x (broadcastTo ⟨2, ![a, b]⟩ (shapeCast ⟨2, ![a, 1]⟩
              (multiReduction .maximumf [1] ⟨1, ![a]⟩ x 0xFF800000#32 hr hφ hmax) hc) hb)))
            0x00000000#32 hr hφ hadd) hc)) hb) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have e1 : ∀ d : Fin b, broadcastTo ⟨2, ![a, b]⟩ (shapeCast ⟨2, ![a, 1]⟩
        (multiReduction .maximumf [1] ⟨1, ![a]⟩ x 0xFF800000#32 hr hφ hmax) hc) hb (ix2 p d)
      = (Finset.univ : Finset (Fin b)).fold max (Ideal.ofBits .f32 0xFF800000#32) fun d => x (ix2 p d) := fun d =>
    (keep_vector_apply _ hc hb p d).trans (max_last_apply x 0xFF800000#32 hr hφ hmax p)
  have e2 : broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩
            (multiReduction .maximumf [1] ⟨1, ![a]⟩ x 0xFF800000#32 hr hφ hmax) hc) hb)))
          0x00000000#32 hr hφ hadd) hc)) hb (ix2 p q)
      = Ideal.log (∑ d : Fin b, Ideal.exp (x (ix2 p d)
          - (Finset.univ : Finset (Fin b)).fold max (Ideal.ofBits .f32 0xFF800000#32) fun d => x (ix2 p d))) := by
    refine (broadcastTo_a1_ab_apply _ hb p q).trans ?_
    show Ideal.log (shapeCast ⟨2, ![a, 1]⟩ _ hc (ix2 p (0 : Fin 1))) = _
    rw [shapeCast_a_a1_apply _ hc p 0]
    refine congrArg Ideal.log ((sum_last_apply _ hr hφ hadd p).trans (Finset.sum_congr rfl fun d _ => ?_))
    show Ideal.exp (x (ix2 p d) - _) = _
    rw [e1 d]
  show (x (ix2 p q) - _) - _ = _
  rw [e1 q, e2]

/-- The host's log-softmax along the last axis, at `(p, q)`. -/
theorem host_apply (x : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    subf (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu)))))
      (broadcastInDim ⟨2, ![a, b]⟩ ![0, 1] h2 (Host.log (broadcastInDim ⟨2, ![a, 1]⟩ ![0] h1
          (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) hr' hu))))))
            (constant (F := Ideal) ⟨0, ![]⟩ .f32 0x00000000#32) hr' hu)))) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have hlift : ∀ d : Fin b, hr.lift (ix1 p) d = ix2 p d := fun d =>
    funext fun c => Fin.ext (by match c with | ⟨0, _⟩ => rfl | ⟨1, _⟩ => rfl)
  have em : maximumf (broadcastInDim ⟨1, ![a]⟩ ![] h0 (constant (F := Ideal) ⟨0, ![]⟩ .f32 0xFF800000#32))
        (Host.reduce FloatOps.maximumf x (constant (F := Ideal) ⟨0, ![]⟩ .f32 0xFF800000#32) hr' hu) (ix1 p)
      = (Finset.univ : Finset (Fin b)).fold max (Ideal.ofBits .f32 0xFF800000#32) fun d => x (ix2 p d) := by
    show max (broadcastInDim ⟨1, ![a]⟩ ![] h0 (constant (F := Ideal) ⟨0, ![]⟩ .f32 0xFF800000#32) (ix1 p))
        (Host.reduce FloatOps.maximumf x (constant (F := Ideal) ⟨0, ![]⟩ .f32 0xFF800000#32) hr' hu (ix1 p)) = _
    rw [broadcastInDim_apply _ h0 _ (ix1 p) ix0 (fun ax => ax.elim0),
      Host.reduce_eq_fold_single FloatOps.maximumf x _ hr' hr hu (ix1 p)]
    show max (Ideal.ofBits .f32 0xFF800000#32)
        ((Finset.univ : Finset (Fin b)).fold max (Ideal.ofBits .f32 0xFF800000#32) (x ∘ hr.lift (ix1 p))) = _
    rw [max_negInf]
    exact congrArg (Finset.fold max (Ideal.ofBits .f32 0xFF800000#32) · Finset.univ) (funext fun d => congrArg x (hlift d))
  have e1 : ∀ d : Fin b, broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf x (constant (F := Ideal) ⟨0, ![]⟩ .f32 0xFF800000#32) hr' hu))) (ix2 p d)
      = (Finset.univ : Finset (Fin b)).fold max (Ideal.ofBits .f32 0xFF800000#32) fun d => x (ix2 p d) := fun d =>
    (keep_host_apply _ h1 h2 p d).trans em
  have e2 : broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu))))))
          (constant (F := Ideal) ⟨0, ![]⟩ .f32 0x00000000#32) hr' hu))) (ix2 p q)
      = Ideal.log (∑ d : Fin b, Ideal.exp (x (ix2 p d)
          - (Finset.univ : Finset (Fin b)).fold max (Ideal.ofBits .f32 0xFF800000#32) fun d => x (ix2 p d))) := by
    refine (broadcastInDim_a1_ab_apply _ h2 p q).trans ?_
    refine (congrArg Ideal.log (broadcastInDim_a_a1_apply _ h1 p 0)).trans ?_
    refine congrArg Ideal.log ?_
    simp only [Host.reduceAdd, Ideal.hostReduceAdd_def]
    rw [Ideal.hostReduceAdd_single hr' hr]
    show Ideal.ofBits .f32 0x00000000#32 + _ = _
    rw [Ideal.ofBits_zero_f32, zero_add]
    refine Finset.sum_congr rfl fun d _ => ?_
    rw [hlift d]
    show Ideal.exp (x (ix2 p d) - _) = _
    rw [e1 d]
  show (x (ix2 p q) - _) - _ = _
  rw [e1 q, e2]

end Cert.LibLogSoftmax

end
-- ==== Proof.Final5.lean ====
/-
  The last region of the kernel: the third layer (with the mean and variance it is given), the two affine steps of the
  head and the row-wise log-softmax, block by block of 4000 rows.

  First the block: what the body leaves in the output window's buffer from the fourteen input blocks is, entry by
  entry, the specification's head of the specification's layer of those blocks. The body is one covering store of one
  vector term; its layer part is the vector spelling of the layer, its head two products with one-row biases, its
  last part the vector unit's log-softmax. Then the array: the row windows' blocks at point t are rows
  4000·t … 4000·t + 3999 of their arrays and the parameter windows' blocks are the whole arrays; a layer with given
  statistics and the head act row by row, so block t of the result is the result's rows 4000·t … ; the 25 blocks cover
  the 100000 rows (row r is in block r / 4000), so the array ends holding the result.
-/
import proofs.«140366_j72610717106485_2_alg».proof.Proof.Gen.KernelIdeal.Frame
import proofs.«140366_j72610717106485_2_alg».proof.Proof.Spec
import proofs.«140366_j72610717106485_2_alg».proof.Proof.SpecRow
import proofs.«140366_j72610717106485_2_alg».proof.Proof.LibLayerRow
import proofs.«140366_j72610717106485_2_alg».proof.Proof.LibLogSoftmax
import Idealize.ShloMosaic.Lib.Pipeline.Value
import Idealize.ShloMosaic.Lib.Tactic

noncomputable section
namespace Cert.KernelIdeal.Final5

open Idealize.ShloMosaic Idealize.ShloMosaic.ValueIdx Idealize.ShloMosaic.TcCoe
open Cert.KernelIdeal Cert.KernelIdeal.Gen Cert.KernelIdeal.Facts
open Cert.Net Cert.LibLayerRow Cert.LibRowMax

theorem hz : (![0, 0] : Fin 2 → Nat) = fun _ => 0 := funext fun a => by fin_cases a <;> rfl

/-- The layer before the row normalisation, in the vector spelling, is the specification's, entry by entry. -/
theorem preVec_eq (x0 x1 : FVec Ideal S4000x128 .f32) (x2 : FVec Ideal S128x128 .f32) (x3 : FVec Ideal S1x128 .f32)
    (x4 : FVec Ideal S128x128 .f32) (x5 x6 x7 x8 x9 : FVec Ideal S1x128 .f32) (p : Fin 4000) (q : Fin 128) :
    preVec dot_S4000x128_S128x128_S4000x128_1_0_0_1_n_n bitsLt_bf16_f32 broadcasts_S1x128_S4000x128 0x3727C5AC#32
        x0 x1 x2 x3 x4 x5 x6 x7 x8 x9 (ix2 p q)
      = pre (cur x0) (cur x1) (cur x2) (row1 x3) (cur x4) (row1 x5) (row1 x6) (row1 x7) (row1 x8) (row1 x9) p q :=
  preVec_apply dot_S4000x128_S128x128_S4000x128_1_0_0_1_n_n dot_S4000x128_S128x128_S4000x128_1_0_0_1_n_n_wf rfl
    bitsLt_bf16_f32 broadcasts_S1x128_S4000x128 0x3727C5AC#32 x0 x1 x2 x3 x4 x5 x6 x7 x8 x9 p q

/-- The whole layer in the vector spelling is the specification's, entry by entry. -/
theorem layerVec_eq (x0 x1 : FVec Ideal S4000x128 .f32) (x2 : FVec Ideal S128x128 .f32) (x3 : FVec Ideal S1x128 .f32)
    (x4 : FVec Ideal S128x128 .f32) (x5 x6 x7 x8 x9 : FVec Ideal S1x128 .f32) (p : Fin 4000) (q : Fin 128) :
    layerVec dot_S4000x128_S128x128_S4000x128_1_0_0_1_n_n bitsLt_bf16_f32 broadcasts_S1x128_S4000x128 0x3727C5AC#32
        0x2B8CBCCC#32 reduces_S4000x128_S4000 (.inl rfl) rfl shapeCasts_S4000_S4000x1 broadcasts_S4000x1_S4000x128
        x0 x1 x2 x3 x4 x5 x6 x7 x8 x9 (ix2 p q)
      = layerOf (cur x0) (cur x1) (cur x2) (row1 x3) (cur x4) (row1 x5) (row1 x6) (row1 x7) (row1 x8) (row1 x9) p q := by
  refine (layerVec_apply dot_S4000x128_S128x128_S4000x128_1_0_0_1_n_n bitsLt_bf16_f32 broadcasts_S1x128_S4000x128
    0x3727C5AC#32 0x2B8CBCCC#32 reduces_S4000x128_S4000 (.inl rfl) rfl shapeCasts_S4000_S4000x1
    broadcasts_S4000x1_S4000x128 x0 x1 x2 x3 x4 x5 x6 x7 x8 x9 p q).trans ?_
  simp only [preVec_eq]
  rfl

/-- The two affine steps of the head, in the vector spelling, applied to a matrix whose entries are known. -/
theorem headVec_eq (L : FVec Ideal S4000x128 .f32) (M : Mat 4000 128) (hL : ∀ p d, L (ix2 p d) = M p d)
    (x10 : FVec Ideal S128x128 .f32) (x11 : FVec Ideal S1x128 .f32) (x12 : FVec Ideal S128x47 .f32)
    (x13 : FVec Ideal S1x47 .f32) (p : Fin 4000) (q : Fin 47) :
    addf (matmul dot_S4000x128_S128x47_S4000x47_1_0_0_1_n_n none
        (truncf .bf16 (addf (matmul dot_S4000x128_S128x128_S4000x128_1_0_0_1_n_n none (truncf .bf16 L bitsLt_bf16_f32)
            (truncf .bf16 x10 bitsLt_bf16_f32) (constant S4000x128 .f32 0x00000000#32))
          (broadcastTo S4000x128 x11 broadcasts_S1x128_S4000x128)) bitsLt_bf16_f32)
        (truncf .bf16 x12 bitsLt_bf16_f32) (constant S4000x47 .f32 0x00000000#32))
      (broadcastTo S4000x47 x13 broadcasts_S1x47_S4000x47) (ix2 p q)
      = head2 (head1 M (cur x10) (row1 x11)) (cur x12) (row1 x13) p q := by
  refine (affine_trunc_apply dot_S4000x128_S128x47_S4000x47_1_0_0_1_n_n dot_S4000x128_S128x47_S4000x47_1_0_0_1_n_n_wf rfl
    _ x12 x13 bitsLt_bf16_f32 broadcasts_S1x47_S4000x47 p q).trans ?_
  refine congrArg (· + x13 (ix2 (0 : Fin 1) q)) (Finset.sum_congr rfl fun e _ => congrArg (· * x12 (ix2 e q)) ?_)
  refine (affine_trunc_apply dot_S4000x128_S128x128_S4000x128_1_0_0_1_n_n dot_S4000x128_S128x128_S4000x128_1_0_0_1_n_n_wf rfl
    L x10 x11 bitsLt_bf16_f32 broadcasts_S1x128_S4000x128 p e).trans ?_
  exact congrArg (· + x11 (ix2 (0 : Fin 1) e)) (Finset.sum_congr rfl fun d _ => congrArg (· * x10 (ix2 d e)) (hL p d))

/-- Two rows with equal entries have equal log-softmax entries. -/
theorem logSoftmax_congr {b : ℕ} (c : EReal) (f g : Fin b → EReal) (h : ∀ d, f d = g d) (q : Fin b) :
    (f q - (Finset.univ : Finset (Fin b)).fold max c f) - Ideal.log (∑ d, Ideal.exp (f d - (Finset.univ : Finset (Fin b)).fold max c f))
      = (g q - (Finset.univ : Finset (Fin b)).fold max c g) - Ideal.log (∑ d, Ideal.exp (g d - (Finset.univ : Finset (Fin b)).fold max c g)) := by
  obtain rfl : f = g := funext h
  rfl

/-- The vector unit's log-softmax of a matrix whose entries are known. -/
theorem logSoftmaxVec_eq (Y : FVec Ideal S4000x47 .f32) (G : Mat 4000 47) (hY : ∀ p d, Y (ix2 p d) = G p d)
    (p : Fin 4000) (q : Fin 47) :
    subf (subf Y (broadcastTo S4000x47 (shapeCast S4000x1
          (multiReduction .maximumf [1] S4000 Y 0xFF800000#32 reduces_S4000x47_S4000 (.inl rfl) rfl) shapeCasts_S4000_S4000x1)
          broadcasts_S4000x1_S4000x47))
      (broadcastTo S4000x47 (log (shapeCast S4000x1
          (multiReduction .add [1] S4000
            (exp (subf Y (broadcastTo S4000x47 (shapeCast S4000x1
              (multiReduction .maximumf [1] S4000 Y 0xFF800000#32 reduces_S4000x47_S4000 (.inl rfl) rfl) shapeCasts_S4000_S4000x1)
              broadcasts_S4000x1_S4000x47)))
            0x00000000#32 reduces_S4000x47_S4000 (.inl rfl) rfl) shapeCasts_S4000_S4000x1)) broadcasts_S4000x1_S4000x47) (ix2 p q)
      = logSoftmax G p q :=
  (Cert.LibLogSoftmax.vector_apply Y reduces_S4000x47_S4000 (.inl rfl) rfl rfl shapeCasts_S4000_S4000x1
    broadcasts_S4000x1_S4000x47 p q).trans
    (logSoftmax_congr _ (fun d => Y (ix2 p d)) (fun d => G p d) (hY p) q)

theorem out_apply (x0 x1 : Vec Ideal S4000x128 .f32) (x2 : Vec Ideal S128x128 .f32) (x3 : Vec Ideal S1x128 .f32)
    (x4 : Vec Ideal S128x128 .f32) (x5 x6 x7 x8 x9 : Vec Ideal S1x128 .f32) (x10 : Vec Ideal S128x128 .f32)
    (x11 : Vec Ideal S1x128 .f32) (x12 : Vec Ideal S128x47 .f32) (x13 : Vec Ideal S1x47 .f32) (p : Fin 4000) (q : Fin 47) :
    out5_14 (F := Ideal) x0 x1 x2 x3 x4 x5 x6 x7 x8 x9 x10 x11 x12 x13 (ix2 p q)
      = headOf (layerOf (cur x0) (cur x1) (cur x2) (row1 x3) (cur x4) (row1 x5) (row1 x6) (row1 x7) (row1 x8) (row1 x9))
          (cur x10) (row1 x11) (cur x12) (row1 x13) p q := by
  unfold out5_14
  rw [View.canon_unit_zero hz]
  simp only [View.ld_unit_zero (S := S4000x128) hz, View.ld_unit_zero (S := S128x128) hz,
    View.ld_unit_zero (S := S1x128) hz, View.ld_unit_zero (S := S128x47) hz, View.ld_unit_zero (S := S1x47) hz]
  unfold k5_pay1 k5_pay18 k5_pay17 k5_pay14 k5_pay15 k5_pay16 k5_pay2 k5_pay3 k5_pay4 k5_pay5 k5_pay6 k5_pay7 k5_pay8 k5_pay9
    k5_pay10 k5_pay11 k5_pay12 k5_pay13
  simp only [shapeCast_self]
  exact logSoftmaxVec_eq _ _ (fun p d => headVec_eq _ _ (layerVec_eq x0 x1 x2 x3 x4 x5 x6 x7 x8 x9) x10 x11 x12 x13 p d) p q

/-! ## From blocks to the array -/

section Array

open Idealize.ShloMosaic.Pipeline (Dat)

variable (V : (c : Dev nD) → (b : Ref sig .tc) → Buf (Elt Ideal) ((c : Thread nD τ).loc b))

/-- The index maps of the three row windows, decided over the grid: block row t, block column 0. -/
theorem idx_rows : ∀ t : Fin cfg5.N, win5_0.index t (0 : Fin 2) = t.val ∧ win5_0.index t (1 : Fin 2) = 0
    ∧ win5_1.index t (0 : Fin 2) = t.val ∧ win5_1.index t (1 : Fin 2) = 0
    ∧ win5_14.index t (0 : Fin 2) = t.val ∧ win5_14.index t (1 : Fin 2) = 0 :=
  (by decide +kernel : ∀ t : Fin grid5.N, _)

/-- The index maps of the twelve parameter windows: block (0, 0) at every point. -/
theorem idx_const : ∀ t : Fin cfg5.N, win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0
    ∧ win5_10.index t (0 : Fin 2) = 0 ∧ win5_10.index t (1 : Fin 2) = 0
    ∧ win5_11.index t (0 : Fin 2) = 0 ∧ win5_11.index t (1 : Fin 2) = 0
    ∧ win5_12.index t (0 : Fin 2) = 0 ∧ win5_12.index t (1 : Fin 2) = 0
    ∧ win5_13.index t (0 : Fin 2) = 0 ∧ win5_13.index t (1 : Fin 2) = 0 :=
  (by decide +kernel : ∀ t : Fin grid5.N, _)

theorem lt_N (t : Fin cfg5.N) : t.val < 25 := lt_of_lt_of_eq t.isLt (show cfg5.N = 25 from N_5)

/-- Window 2 is the whole array at every point. -/
theorem block2 (c : Dev nD) (t : Fin cfg5.N) : (iblk5 V c 2 t : Vec Ideal S128x128 .f32) = (V c main_v93 : S128x128.Idx → EReal) := by
  have h := idx_const t
  funext j
  unfold iblk5
  rw [View.read_apply]
  show V c main_v93 (((cfg5.win 2).blk t).view.emb j) = V c main_v93 j
  refine congrArg (V c main_v93) (funext fun a => Fin.ext ?_)
  match a with
  | ⟨0, _⟩ => show win5_2.index t (0 : Fin 2) * 128 + 1 * (j 0).val = (j 0).val; omega
  | ⟨1, _⟩ => show win5_2.index t (1 : Fin 2) * 128 + 1 * (j 1).val = (j 1).val; omega

/-- Window 3 is the whole array at every point. -/
theorem block3 (c : Dev nD) (t : Fin cfg5.N) : (iblk5 V c 3 t : Vec Ideal S1x128 .f32) = (V c main_v96 : S1x128.Idx → EReal) := by
  have h := idx_const t
  funext j
  unfold iblk5
  rw [View.read_apply]
  show V c main_v96 (((cfg5.win 3).blk t).view.emb j) = V c main_v96 j
  refine congrArg (V c main_v96) (funext fun a => Fin.ext ?_)
  match a with
  | ⟨0, _⟩ => show win5_3.index t (0 : Fin 2) * 1 + 1 * (j 0).val = (j 0).val; omega
  | ⟨1, _⟩ => show win5_3.index t (1 : Fin 2) * 128 + 1 * (j 1).val = (j 1).val; omega

/-- Window 4 is the whole array at every point. -/
theorem block4 (c : Dev nD) (t : Fin cfg5.N) : (iblk5 V c 4 t : Vec Ideal S128x128 .f32) = (V c main_v98 : S128x128.Idx → EReal) := by
  have h := idx_const t
  funext j
  unfold iblk5
  rw [View.read_apply]
  show V c main_v98 (((cfg5.win 4).blk t).view.emb j) = V c main_v98 j
  refine congrArg (V c main_v98) (funext fun a => Fin.ext ?_)
  match a with
  | ⟨0, _⟩ => show win5_4.index t (0 : Fin 2) * 128 + 1 * (j 0).val = (j 0).val; omega
  | ⟨1, _⟩ => show win5_4.index t (1 : Fin 2) * 128 + 1 * (j 1).val = (j 1).val; omega

/-- Window 5 is the whole array at every point. -/
theorem block5 (c : Dev nD) (t : Fin cfg5.N) : (iblk5 V c 5 t : Vec Ideal S1x128 .f32) = (V c main_v101 : S1x128.Idx → EReal) := by
  have h := idx_const t
  funext j
  unfold iblk5
  rw [View.read_apply]
  show V c main_v101 (((cfg5.win 5).blk t).view.emb j) = V c main_v101 j
  refine congrArg (V c main_v101) (funext fun a => Fin.ext ?_)
  match a with
  | ⟨0, _⟩ => show win5_5.index t (0 : Fin 2) * 1 + 1 * (j 0).val = (j 0).val; omega
  | ⟨1, _⟩ => show win5_5.index t (1 : Fin 2) * 128 + 1 * (j 1).val = (j 1).val; omega

/-- Window 6 is the whole array at every point. -/
theorem block6 (c : Dev nD) (t : Fin cfg5.N) : (iblk5 V c 6 t : Vec Ideal S1x128 .f32) = (V c main_v104 : S1x128.Idx → EReal) := by
  have h := idx_const t
  funext j
  unfold iblk5
  rw [View.read_apply]
  show V c main_v104 (((cfg5.win 6).blk t).view.emb j) = V c main_v104 j
  refine congrArg (V c main_v104) (funext fun a => Fin.ext ?_)
  match a with
  | ⟨0, _⟩ => show win5_6.index t (0 : Fin 2) * 1 + 1 * (j 0).val = (j 0).val; omega
  | ⟨1, _⟩ => show win5_6.index t (1 : Fin 2) * 128 + 1 * (j 1).val = (j 1).val; omega

/-- Window 7 is the whole array at every point. -/
theorem block7 (c : Dev nD) (t : Fin cfg5.N) : (iblk5 V c 7 t : Vec Ideal S1x128 .f32) = (V c main_v107 : S1x128.Idx → EReal) := by
  have h := idx_const t
  funext j
  unfold iblk5
  rw [View.read_apply]
  show V c main_v107 (((cfg5.win 7).blk t).view.emb j) = V c main_v107 j
  refine congrArg (V c main_v107) (funext fun a => Fin.ext ?_)
  match a with
  | ⟨0, _⟩ => show win5_7.index t (0 : Fin 2) * 1 + 1 * (j 0).val = (j 0).val; omega
  | ⟨1, _⟩ => show win5_7.index t (1 : Fin 2) * 128 + 1 * (j 1).val = (j 1).val; omega

/-- Window 8 is the whole array at every point. -/
theorem block8 (c : Dev nD) (t : Fin cfg5.N) : (iblk5 V c 8 t : Vec Ideal S1x128 .f32) = (V c main_v110 : S1x128.Idx → EReal) := by
  have h := idx_const t
  funext j
  unfold iblk5
  rw [View.read_apply]
  show V c main_v110 (((cfg5.win 8).blk t).view.emb j) = V c main_v110 j
  refine congrArg (V c main_v110) (funext fun a => Fin.ext ?_)
  match a with
  | ⟨0, _⟩ => show win5_8.index t (0 : Fin 2) * 1 + 1 * (j 0).val = (j 0).val; omega
  | ⟨1, _⟩ => show win5_8.index t (1 : Fin 2) * 128 + 1 * (j 1).val = (j 1).val; omega

/-- Window 9 is the whole array at every point. -/
theorem block9 (c : Dev nD) (t : Fin cfg5.N) : (iblk5 V c 9 t : Vec Ideal S1x128 .f32) = (V c main_v116 : S1x128.Idx → EReal) := by
  have h := idx_const t
  funext j
  unfold iblk5
  rw [View.read_apply]
  show V c main_v116 (((cfg5.win 9).blk t).view.emb j) = V c main_v116 j
  refine congrArg (V c main_v116) (funext fun a => Fin.ext ?_)
  match a with
  | ⟨0, _⟩ => show win5_9.index t (0 : Fin 2) * 1 + 1 * (j 0).val = (j 0).val; omega
  | ⟨1, _⟩ => show win5_9.index t (1 : Fin 2) * 128 + 1 * (j 1).val = (j 1).val; omega

/-- Window 10 is the whole array at every point. -/
theorem block10 (c : Dev nD) (t : Fin cfg5.N) : (iblk5 V c 10 t : Vec Ideal S128x128 .f32) = (V c main_v6 : S128x128.Idx → EReal) := by
  have h := idx_const t
  funext j
  unfold iblk5
  rw [View.read_apply]
  show V c main_v6 (((cfg5.win 10).blk t).view.emb j) = V c main_v6 j
  refine congrArg (V c main_v6) (funext fun a => Fin.ext ?_)
  match a with
  | ⟨0, _⟩ => show win5_10.index t (0 : Fin 2) * 128 + 1 * (j 0).val = (j 0).val; omega
  | ⟨1, _⟩ => show win5_10.index t (1 : Fin 2) * 128 + 1 * (j 1).val = (j 1).val; omega

/-- Window 11 is the whole array at every point. -/
theorem block11 (c : Dev nD) (t : Fin cfg5.N) : (iblk5 V c 11 t : Vec Ideal S1x128 .f32) = (V c main_v7 : S1x128.Idx → EReal) := by
  have h := idx_const t
  funext j
  unfold iblk5
  rw [View.read_apply]
  show V c main_v7 (((cfg5.win 11).blk t).view.emb j) = V c main_v7 j
  refine congrArg (V c main_v7) (funext fun a => Fin.ext ?_)
  match a with
  | ⟨0, _⟩ => show win5_11.index t (0 : Fin 2) * 1 + 1 * (j 0).val = (j 0).val; omega
  | ⟨1, _⟩ => show win5_11.index t (1 : Fin 2) * 128 + 1 * (j 1).val = (j 1).val; omega

/-- Window 12 is the whole array at every point. -/
theorem block12 (c : Dev nD) (t : Fin cfg5.N) : (iblk5 V c 12 t : Vec Ideal S128x47 .f32) = (V c main_v8 : S128x47.Idx → EReal) := by
  have h := idx_const t
  funext j
  unfold iblk5
  rw [View.read_apply]
  show V c main_v8 (((cfg5.win 12).blk t).view.emb j) = V c main_v8 j
  refine congrArg (V c main_v8) (funext fun a => Fin.ext ?_)
  match a with
  | ⟨0, _⟩ => show win5_12.index t (0 : Fin 2) * 128 + 1 * (j 0).val = (j 0).val; omega
  | ⟨1, _⟩ => show win5_12.index t (1 : Fin 2) * 47 + 1 * (j 1).val = (j 1).val; omega

/-- Window 13 is the whole array at every point. -/
theorem block13 (c : Dev nD) (t : Fin cfg5.N) : (iblk5 V c 13 t : Vec Ideal S1x47 .f32) = (V c main_v9 : S1x47.Idx → EReal) := by
  have h := idx_const t
  funext j
  unfold iblk5
  rw [View.read_apply]
  show V c main_v9 (((cfg5.win 13).blk t).view.emb j) = V c main_v9 j
  refine congrArg (V c main_v9) (funext fun a => Fin.ext ?_)
  match a with
  | ⟨0, _⟩ => show win5_13.index t (0 : Fin 2) * 1 + 1 * (j 0).val = (j 0).val; omega
  | ⟨1, _⟩ => show win5_13.index t (1 : Fin 2) * 47 + 1 * (j 1).val = (j 1).val; omega

/-- Row p of window 0's block at point t is row 4000·t + p of its array. -/
theorem block0_row (c : Dev nD) (t : Fin cfg5.N) (p : Fin 4000) (r : Fin 100000) (hr : r.val = 4000 * t.val + p.val) (e : Fin 128) :
    cur (iblk5 V c 0 t : Vec Ideal S4000x128 .f32) p e = cur (V c main_v91 : S100000x128.Idx → EReal) r e := by
  have h := idx_rows t
  show (iblk5 V c 0 t : Vec Ideal S4000x128 .f32) (ix2 p e) = (V c main_v91 : S100000x128.Idx → EReal) (ix2 r e)
  unfold iblk5
  rw [View.read_apply]
  show V c main_v91 (((cfg5.win 0).blk t).view.emb (ix2 p e)) = V c main_v91 (ix2 r e)
  refine congrArg (V c main_v91) (funext fun a => Fin.ext ?_)
  match a with
  | ⟨0, _⟩ => show win5_0.index t (0 : Fin 2) * 4000 + 1 * p.val = r.val; omega
  | ⟨1, _⟩ => show win5_0.index t (1 : Fin 2) * 128 + 1 * e.val = e.val; omega

/-- Row p of window 1's block at point t is row 4000·t + p of its array. -/
theorem block1_row (c : Dev nD) (t : Fin cfg5.N) (p : Fin 4000) (r : Fin 100000) (hr : r.val = 4000 * t.val + p.val) (e : Fin 128) :
    cur (iblk5 V c 1 t : Vec Ideal S4000x128 .f32) p e = cur (V c main_v81 : S100000x128.Idx → EReal) r e := by
  have h := idx_rows t
  show (iblk5 V c 1 t : Vec Ideal S4000x128 .f32) (ix2 p e) = (V c main_v81 : S100000x128.Idx → EReal) (ix2 r e)
  unfold iblk5
  rw [View.read_apply]
  show V c main_v81 (((cfg5.win 1).blk t).view.emb (ix2 p e)) = V c main_v81 (ix2 r e)
  refine congrArg (V c main_v81) (funext fun a => Fin.ext ?_)
  match a with
  | ⟨0, _⟩ => show win5_1.index t (0 : Fin 2) * 4000 + 1 * p.val = r.val; omega
  | ⟨1, _⟩ => show win5_1.index t (1 : Fin 2) * 128 + 1 * e.val = e.val; omega

/-- What the output array ends holding: the third layer with the given statistics, the head and the log-softmax of the
    arrays the region finds, entry by entry. -/
def result (c : Dev nD) : S100000x47.Idx → EReal :=
  uncur (headOf (layerOf (cur (V c main_v91 : S100000x128.Idx → EReal)) (cur (V c main_v81 : S100000x128.Idx → EReal))
      (cur (V c main_v93 : S128x128.Idx → EReal)) (row1 (V c main_v96 : S1x128.Idx → EReal))
      (cur (V c main_v98 : S128x128.Idx → EReal)) (row1 (V c main_v101 : S1x128.Idx → EReal))
      (row1 (V c main_v104 : S1x128.Idx → EReal)) (row1 (V c main_v107 : S1x128.Idx → EReal))
      (row1 (V c main_v110 : S1x128.Idx → EReal)) (row1 (V c main_v116 : S1x128.Idx → EReal)))
    (cur (V c main_v6 : S128x128.Idx → EReal)) (row1 (V c main_v7 : S1x128.Idx → EReal))
    (cur (V c main_v8 : S128x47.Idx → EReal)) (row1 (V c main_v9 : S1x47.Idx → EReal)))

/-- What point t writes back is block t of the result. -/
theorem flushed_eq (c : Dev nD) (t : Fin cfg5.N) :
    (dat5 V c).flushed 14 t = ((cfg5.win 14).blk t).view.read (Elt Ideal) (result V c) := by
  show (cfg5.win 14).cut (grid5.coords t) ((dat5 V c).after 14 t) = _
  rw [after5_14]
  have h := idx_rows t
  have ht := lt_N t
  funext j
  obtain ⟨p, q, rfl⟩ : ∃ (p : Fin 4000) (q : Fin 47), j = ix2 p q := ⟨j 0, j 1, eq_ix2 j⟩
  rw [View.read_apply]
  show out5_14 (F := Ideal) (iblk5 V c 0 t) (iblk5 V c 1 t) (iblk5 V c 2 t) (iblk5 V c 3 t) (iblk5 V c 4 t) (iblk5 V c 5 t)
      (iblk5 V c 6 t) (iblk5 V c 7 t) (iblk5 V c 8 t) (iblk5 V c 9 t) (iblk5 V c 10 t) (iblk5 V c 11 t) (iblk5 V c 12 t)
      (iblk5 V c 13 t) (ix2 p q) = result V c (((cfg5.win 14).blk t).view.emb (ix2 p q))
  refine (out_apply (iblk5 V c 0 t) (iblk5 V c 1 t) (iblk5 V c 2 t) (iblk5 V c 3 t) (iblk5 V c 4 t) (iblk5 V c 5 t)
      (iblk5 V c 6 t) (iblk5 V c 7 t) (iblk5 V c 8 t) (iblk5 V c 9 t) (iblk5 V c 10 t) (iblk5 V c 11 t) (iblk5 V c 12 t)
      (iblk5 V c 13 t) p q).trans ?_
  rw [block2 V c t, block3 V c t, block4 V c t, block5 V c t, block6 V c t, block7 V c t, block8 V c t, block9 V c t,
    block10 V c t, block11 V c t, block12 V c t, block13 V c t]
  have hr : 4000 * t.val + p.val < 100000 := by have := p.isLt; omega
  have e0 : (((cfg5.win 14).blk t).view.emb (ix2 p q)) 0 = (⟨4000 * t.val + p.val, hr⟩ : Fin 100000) :=
    Fin.ext (by show win5_14.index t (0 : Fin 2) * 4000 + 1 * p.val = 4000 * t.val + p.val; omega)
  have e1 : (((cfg5.win 14).blk t).view.emb (ix2 p q)) 1 = q :=
    Fin.ext (by show win5_14.index t (1 : Fin 2) * 47 + 1 * q.val = q.val; omega)
  show _ = headOf _ _ _ _ _ ((((cfg5.win 14).blk t).view.emb (ix2 p q)) 0) ((((cfg5.win 14).blk t).view.emb (ix2 p q)) 1)
  rw [e0, e1]
  exact headOf_row _ _ _ _ _ _ p ⟨4000 * t.val + p.val, hr⟩
    (fun d => layerOf_row _ _ _ _ _ _ _ _ _ _ _ _ p ⟨4000 * t.val + p.val, hr⟩
      (block0_row V c t p ⟨4000 * t.val + p.val, hr⟩ rfl) (block1_row V c t p ⟨4000 * t.val + p.val, hr⟩ rfl) d) q

/-- An index of the array is in point t's block iff each coordinate is in the block's range on its axis. -/
theorem mem_blk (t : Fin cfg5.N) (i : S100000x47.Idx) :
    i ∈ ((cfg5.win 14).blk t).view.set ↔ ∀ a : Fin 2, win5_14.index t a * S4000x47.size a ≤ (i a).val
      ∧ (i a).val < win5_14.index t a * S4000x47.size a + S4000x47.size a := by
  show i ∈ ((View.whole main_v117).slice (win5_14.rect t)).set ↔ _
  rw [View.set_slice_whole, Rect.mem_set_unit]
  exact Iff.rfl

/-- The output array after the run is the result: row r is written by point r / 4000. -/
theorem final (c : Dev nD) : (dat5 V c).arrAt 14 cfg5.N = result V c :=
  (dat5 V c).arrAt_eq_of_cover 14 (result V c) (fun t _ => flushed_eq V c t) fun i => by
    have hi0 : (i 0).val < 100000 := (i 0).isLt
    have hi1 : (i 1).val < 47 := (i 1).isLt
    have hN : (i 0).val / 4000 < cfg5.N := by rw [show cfg5.N = 25 from N_5]; omega
    obtain ⟨h0, -, -, -, h4, h5⟩ := idx_rows ⟨(i 0).val / 4000, hN⟩
    refine ⟨⟨(i 0).val / 4000, hN⟩, flush5_14 _, ?_⟩
    rw [mem_blk]
    intro a
    match a with
    | ⟨0, _⟩ =>
      show win5_14.index ⟨(i 0).val / 4000, hN⟩ (0 : Fin 2) * 4000 ≤ (i 0).val
        ∧ (i 0).val < win5_14.index ⟨(i 0).val / 4000, hN⟩ (0 : Fin 2) * 4000 + 4000
      rw [h4]; show (i 0).val / 4000 * 4000 ≤ (i 0).val ∧ (i 0).val < (i 0).val / 4000 * 4000 + 4000; omega
    | ⟨1, _⟩ =>
      show win5_14.index ⟨(i 0).val / 4000, hN⟩ (1 : Fin 2) * 47 ≤ (i 1).val
        ∧ (i 1).val < win5_14.index ⟨(i 0).val / 4000, hN⟩ (1 : Fin 2) * 47 + 47
      rw [h5]; omega

end Array

end Cert.KernelIdeal.Final5
end
-- ==== Proof.KHost0.lean ====
/-
  The host operations before the first region: what each buffer a region reads holds, as the operations' composed
  term of the argument arrays (the edge rows, the transposed weights, the first segment sum, layer 0's parameters).
-/
import proofs.«140366_j72610717106485_2_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- What the host operations leave in buffer v1, from the buffers they read. -/
theorem val_v1 (c : Dev nD) : W1 m ρ c (Proc.devRef .tc main_v1)
    = (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) (W0 m ρ c (Proc.devRef .tc main_arg1))) shapeCasts_S1x1600000_S1600000) := by
  show StableHlo.after hostOps0 (W0 m ρ c) (Proc.devRef .tc main_v1) = _
  after_results_simp <;> rfl

/-- What the host operations leave in buffer v3, from the buffers they read. -/
theorem val_v3 (c : Dev nD) : W1 m ρ c (Proc.devRef .tc main_v3)
    = (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) (W0 m ρ c (Proc.devRef .tc main_arg1))) shapeCasts_S1x1600000_S1600000) := by
  show StableHlo.after hostOps0 (W0 m ρ c) (Proc.devRef .tc main_v3) = _
  after_results_simp <;> rfl

/-- What the host operations leave in buffer v4, from the buffers they read. -/
theorem val_v4 (c : Dev nD) : W1 m ρ c (Proc.devRef .tc main_v4)
    = (((transpose S3x128x128 [0, 2, 1] · transposes_S3x128x128_S3x128x128_0_2_1) : (⟨S3x128x128, .f32⟩ : BufTy).Contents (Elt F) → (⟨S3x128x128, .f32⟩ : BufTy).Contents (Elt F)) (W0 m ρ c (Proc.devRef .tc main_arg4))) := by
  show StableHlo.after hostOps0 (W0 m ρ c) (Proc.devRef .tc main_v4) = _
  after_results_simp <;> rfl

/-- What the host operations leave in buffer v5, from the buffers they read. -/
theorem val_v5 (c : Dev nD) : W1 m ρ c (Proc.devRef .tc main_v5)
    = (((transpose S3x128x128 [0, 2, 1] · transposes_S3x128x128_S3x128x128_0_2_1) : (⟨S3x128x128, .f32⟩ : BufTy).Contents (Elt F) → (⟨S3x128x128, .f32⟩ : BufTy).Contents (Elt F)) (W0 m ρ c (Proc.devRef .tc main_arg2))) := by
  show StableHlo.after hostOps0 (W0 m ρ c) (Proc.devRef .tc main_v5) = _
  after_results_simp <;> rfl

/-- What the host operations leave in buffer v6, from the buffers they read. -/
theorem val_v6 (c : Dev nD) : W1 m ρ c (Proc.devRef .tc main_v6)
    = (((transpose S128x128 [1, 0] · transposes_S128x128_S128x128_1_0) : (⟨S128x128, .f32⟩ : BufTy).Contents (Elt F) → (⟨S128x128, .f32⟩ : BufTy).Contents (Elt F)) (W0 m ρ c (Proc.devRef .tc main_arg8))) := by
  show StableHlo.after hostOps0 (W0 m ρ c) (Proc.devRef .tc main_v6) = _
  after_results_simp <;> rfl

/-- What the host operations leave in buffer v7, from the buffers they read. -/
theorem val_v7 (c : Dev nD) : W1 m ρ c (Proc.devRef .tc main_v7)
    = ((broadcastInDim S1x128 ![1] bcast_S128_S1x128_1 : (⟨S128, .f32⟩ : BufTy).Contents (Elt F) → (⟨S1x128, .f32⟩ : BufTy).Contents (Elt F)) (W0 m ρ c (Proc.devRef .tc main_arg9))) := by
  show StableHlo.after hostOps0 (W0 m ρ c) (Proc.devRef .tc main_v7) = _
  after_results_simp <;> rfl

/-- What the host operations leave in buffer v8, from the buffers they read. -/
theorem val_v8 (c : Dev nD) : W1 m ρ c (Proc.devRef .tc main_v8)
    = (((transpose S128x47 [1, 0] · transposes_S47x128_S128x47_1_0) : (⟨S47x128, .f32⟩ : BufTy).Contents (Elt F) → (⟨S128x47, .f32⟩ : BufTy).Contents (Elt F)) (W0 m ρ c (Proc.devRef .tc main_arg10))) := by
  show StableHlo.after hostOps0 (W0 m ρ c) (Proc.devRef .tc main_v8) = _
  after_results_simp <;> rfl

/-- What the host operations leave in buffer v9, from the buffers they read. -/
theorem val_v9 (c : Dev nD) : W1 m ρ c (Proc.devRef .tc main_v9)
    = ((broadcastInDim S1x47 ![1] bcast_S47_S1x47_1 : (⟨S47, .f32⟩ : BufTy).Contents (Elt F) → (⟨S1x47, .f32⟩ : BufTy).Contents (Elt F)) (W0 m ρ c (Proc.devRef .tc main_arg11))) := by
  show StableHlo.after hostOps0 (W0 m ρ c) (Proc.devRef .tc main_v9) = _
  after_results_simp <;> rfl

/-- What the host operations leave in buffer v19, from the buffers they read. -/
theorem val_v19 (c : Dev nD) : W1 m ρ c (Proc.devRef .tc main_v19)
    = (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) (W0 m ρ c (Proc.devRef .tc main_arg1))) shapeCasts_S1x1600000_S1600000)) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (W0 m ρ c (Proc.devRef .tc main_arg0)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) (W0 m ρ c (Proc.devRef .tc main_arg1))) shapeCasts_S1x1600000_S1600000) ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) (W0 m ρ c (Proc.devRef .tc main_arg1))) shapeCasts_S1x1600000_S1600000) ((broadcastInDim S1600000 ![] bcast_S_S1600000 : (⟨S_, .i32⟩ : BufTy).Contents (Elt F) → (⟨S1600000, .i32⟩ : BufTy).Contents (Elt F)) (constantI S_ 32 100000#32))) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) (W0 m ρ c (Proc.devRef .tc main_arg1))) shapeCasts_S1x1600000_S1600000))))) := by
  show StableHlo.after hostOps0 (W0 m ρ c) (Proc.devRef .tc main_v19) = _
  after_results_simp <;> rfl

/-- What the host operations leave in buffer v21, from the buffers they read. -/
theorem val_v21 (c : Dev nD) : W1 m ρ c (Proc.devRef .tc main_v21)
    = (shapeCast S128x128 (((extractStridedSlice S1x128x128 ![0, 0, 0] · slices_S3x128x128_S1x128x128_0_0_0) : (⟨S3x128x128, .f32⟩ : BufTy).Contents (Elt F) → (⟨S1x128x128, .f32⟩ : BufTy).Contents (Elt F)) (((transpose S3x128x128 [0, 2, 1] · transposes_S3x128x128_S3x128x128_0_2_1) : (⟨S3x128x128, .f32⟩ : BufTy).Contents (Elt F) → (⟨S3x128x128, .f32⟩ : BufTy).Contents (Elt F)) (W0 m ρ c (Proc.devRef .tc main_arg4)))) shapeCasts_S1x128x128_S128x128) := by
  show StableHlo.after hostOps0 (W0 m ρ c) (Proc.devRef .tc main_v21) = _
  after_results_simp <;> rfl

/-- What the host operations leave in buffer v24, from the buffers they read. -/
theorem val_v24 (c : Dev nD) : W1 m ρ c (Proc.devRef .tc main_v24)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) (W0 m ρ c (Proc.devRef .tc main_arg5))) shapeCasts_S1x128_S128)) := by
  show StableHlo.after hostOps0 (W0 m ρ c) (Proc.devRef .tc main_v24) = _
  after_results_simp <;> rfl

/-- What the host operations leave in buffer v26, from the buffers they read. -/
theorem val_v26 (c : Dev nD) : W1 m ρ c (Proc.devRef .tc main_v26)
    = (shapeCast S128x128 (((extractStridedSlice S1x128x128 ![0, 0, 0] · slices_S3x128x128_S1x128x128_0_0_0) : (⟨S3x128x128, .f32⟩ : BufTy).Contents (Elt F) → (⟨S1x128x128, .f32⟩ : BufTy).Contents (Elt F)) (((transpose S3x128x128 [0, 2, 1] · transposes_S3x128x128_S3x128x128_0_2_1) : (⟨S3x128x128, .f32⟩ : BufTy).Contents (Elt F) → (⟨S3x128x128, .f32⟩ : BufTy).Contents (Elt F)) (W0 m ρ c (Proc.devRef .tc main_arg2)))) shapeCasts_S1x128x128_S128x128) := by
  show StableHlo.after hostOps0 (W0 m ρ c) (Proc.devRef .tc main_v26) = _
  after_results_simp <;> rfl

/-- What the host operations leave in buffer v29, from the buffers they read. -/
theorem val_v29 (c : Dev nD) : W1 m ρ c (Proc.devRef .tc main_v29)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) (W0 m ρ c (Proc.devRef .tc main_arg3))) shapeCasts_S1x128_S128)) := by
  show StableHlo.after hostOps0 (W0 m ρ c) (Proc.devRef .tc main_v29) = _
  after_results_simp <;> rfl

/-- What the host operations leave in buffer v32, from the buffers they read. -/
theorem val_v32 (c : Dev nD) : W1 m ρ c (Proc.devRef .tc main_v32)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) (W0 m ρ c (Proc.devRef .tc main_arg6))) shapeCasts_S1x128_S128)) := by
  show StableHlo.after hostOps0 (W0 m ρ c) (Proc.devRef .tc main_v32) = _
  after_results_simp <;> rfl

/-- What the host operations leave in buffer v35, from the buffers they read. -/
theorem val_v35 (c : Dev nD) : W1 m ρ c (Proc.devRef .tc main_v35)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) (W0 m ρ c (Proc.devRef .tc main_arg7))) shapeCasts_S1x128_S128)) := by
  show StableHlo.after hostOps0 (W0 m ρ c) (Proc.devRef .tc main_v35) = _
  after_results_simp <;> rfl

end Cert.KernelIdeal.Gen

end
-- ==== Proof.KHost2.lean ====
/-
  The host operations before the third region: the second segment sum and layer 1's parameters, from the buffers
  the operations read.
-/
import proofs.«140366_j72610717106485_2_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- What the host operations leave in buffer v55, from the buffers they read. -/
theorem val_v55 (c : Dev nD) : W5 m ρ c (Proc.devRef .tc main_v55)
    = (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (W4 m ρ c (Proc.devRef .tc main_v3))) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (W4 m ρ c (Proc.devRef .tc main_v45)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (W4 m ρ c (Proc.devRef .tc main_v1)) ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) (W4 m ρ c (Proc.devRef .tc main_v1)) ((broadcastInDim S1600000 ![] bcast_S_S1600000 : (⟨S_, .i32⟩ : BufTy).Contents (Elt F) → (⟨S1600000, .i32⟩ : BufTy).Contents (Elt F)) (constantI S_ 32 100000#32))) (W4 m ρ c (Proc.devRef .tc main_v1)))))) := by
  show StableHlo.after hostOps2 (W4 m ρ c) (Proc.devRef .tc main_v55) = _
  after_results_simp <;> rfl

/-- What the host operations leave in buffer v57, from the buffers they read. -/
theorem val_v57 (c : Dev nD) : W5 m ρ c (Proc.devRef .tc main_v57)
    = (shapeCast S128x128 (((extractStridedSlice S1x128x128 ![1, 0, 0] · slices_S3x128x128_S1x128x128_1_0_0) : (⟨S3x128x128, .f32⟩ : BufTy).Contents (Elt F) → (⟨S1x128x128, .f32⟩ : BufTy).Contents (Elt F)) (W4 m ρ c (Proc.devRef .tc main_v4))) shapeCasts_S1x128x128_S128x128) := by
  show StableHlo.after hostOps2 (W4 m ρ c) (Proc.devRef .tc main_v57) = _
  after_results_simp <;> rfl

/-- What the host operations leave in buffer v60, from the buffers they read. -/
theorem val_v60 (c : Dev nD) : W5 m ρ c (Proc.devRef .tc main_v60)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) (W4 m ρ c (Proc.devRef .tc main_arg5))) shapeCasts_S1x128_S128)) := by
  show StableHlo.after hostOps2 (W4 m ρ c) (Proc.devRef .tc main_v60) = _
  after_results_simp <;> rfl

/-- What the host operations leave in buffer v62, from the buffers they read. -/
theorem val_v62 (c : Dev nD) : W5 m ρ c (Proc.devRef .tc main_v62)
    = (shapeCast S128x128 (((extractStridedSlice S1x128x128 ![1, 0, 0] · slices_S3x128x128_S1x128x128_1_0_0) : (⟨S3x128x128, .f32⟩ : BufTy).Contents (Elt F) → (⟨S1x128x128, .f32⟩ : BufTy).Contents (Elt F)) (W4 m ρ c (Proc.devRef .tc main_v5))) shapeCasts_S1x128x128_S128x128) := by
  show StableHlo.after hostOps2 (W4 m ρ c) (Proc.devRef .tc main_v62) = _
  after_results_simp <;> rfl

/-- What the host operations leave in buffer v65, from the buffers they read. -/
theorem val_v65 (c : Dev nD) : W5 m ρ c (Proc.devRef .tc main_v65)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) (W4 m ρ c (Proc.devRef .tc main_arg3))) shapeCasts_S1x128_S128)) := by
  show StableHlo.after hostOps2 (W4 m ρ c) (Proc.devRef .tc main_v65) = _
  after_results_simp <;> rfl

/-- What the host operations leave in buffer v68, from the buffers they read. -/
theorem val_v68 (c : Dev nD) : W5 m ρ c (Proc.devRef .tc main_v68)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) (W4 m ρ c (Proc.devRef .tc main_arg6))) shapeCasts_S1x128_S128)) := by
  show StableHlo.after hostOps2 (W4 m ρ c) (Proc.devRef .tc main_v68) = _
  after_results_simp <;> rfl

/-- What the host operations leave in buffer v71, from the buffers they read. -/
theorem val_v71 (c : Dev nD) : W5 m ρ c (Proc.devRef .tc main_v71)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) (W4 m ρ c (Proc.devRef .tc main_arg7))) shapeCasts_S1x128_S128)) := by
  show StableHlo.after hostOps2 (W4 m ρ c) (Proc.devRef .tc main_v71) = _
  after_results_simp <;> rfl

end Cert.KernelIdeal.Gen

end
-- ==== Proof.KHost4.lean ====
/-
  The host operations before the fifth region: the third segment sum and layer 2's parameters, from the buffers
  the operations read.
-/
import proofs.«140366_j72610717106485_2_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- What the host operations leave in buffer v91, from the buffers they read. -/
theorem val_v91 (c : Dev nD) : W9 m ρ c (Proc.devRef .tc main_v91)
    = (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (W8 m ρ c (Proc.devRef .tc main_v3))) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (W8 m ρ c (Proc.devRef .tc main_v81)) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (W8 m ρ c (Proc.devRef .tc main_v1)) ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) (W8 m ρ c (Proc.devRef .tc main_v1)) ((broadcastInDim S1600000 ![] bcast_S_S1600000 : (⟨S_, .i32⟩ : BufTy).Contents (Elt F) → (⟨S1600000, .i32⟩ : BufTy).Contents (Elt F)) (constantI S_ 32 100000#32))) (W8 m ρ c (Proc.devRef .tc main_v1)))))) := by
  show StableHlo.after hostOps4 (W8 m ρ c) (Proc.devRef .tc main_v91) = _
  after_results_simp <;> rfl

/-- What the host operations leave in buffer v93, from the buffers they read. -/
theorem val_v93 (c : Dev nD) : W9 m ρ c (Proc.devRef .tc main_v93)
    = (shapeCast S128x128 (((extractStridedSlice S1x128x128 ![2, 0, 0] · slices_S3x128x128_S1x128x128_2_0_0) : (⟨S3x128x128, .f32⟩ : BufTy).Contents (Elt F) → (⟨S1x128x128, .f32⟩ : BufTy).Contents (Elt F)) (W8 m ρ c (Proc.devRef .tc main_v4))) shapeCasts_S1x128x128_S128x128) := by
  show StableHlo.after hostOps4 (W8 m ρ c) (Proc.devRef .tc main_v93) = _
  after_results_simp <;> rfl

/-- What the host operations leave in buffer v96, from the buffers they read. -/
theorem val_v96 (c : Dev nD) : W9 m ρ c (Proc.devRef .tc main_v96)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) (W8 m ρ c (Proc.devRef .tc main_arg5))) shapeCasts_S1x128_S128)) := by
  show StableHlo.after hostOps4 (W8 m ρ c) (Proc.devRef .tc main_v96) = _
  after_results_simp <;> rfl

/-- What the host operations leave in buffer v98, from the buffers they read. -/
theorem val_v98 (c : Dev nD) : W9 m ρ c (Proc.devRef .tc main_v98)
    = (shapeCast S128x128 (((extractStridedSlice S1x128x128 ![2, 0, 0] · slices_S3x128x128_S1x128x128_2_0_0) : (⟨S3x128x128, .f32⟩ : BufTy).Contents (Elt F) → (⟨S1x128x128, .f32⟩ : BufTy).Contents (Elt F)) (W8 m ρ c (Proc.devRef .tc main_v5))) shapeCasts_S1x128x128_S128x128) := by
  show StableHlo.after hostOps4 (W8 m ρ c) (Proc.devRef .tc main_v98) = _
  after_results_simp <;> rfl

/-- What the host operations leave in buffer v101, from the buffers they read. -/
theorem val_v101 (c : Dev nD) : W9 m ρ c (Proc.devRef .tc main_v101)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) (W8 m ρ c (Proc.devRef .tc main_arg3))) shapeCasts_S1x128_S128)) := by
  show StableHlo.after hostOps4 (W8 m ρ c) (Proc.devRef .tc main_v101) = _
  after_results_simp <;> rfl

/-- What the host operations leave in buffer v104, from the buffers they read. -/
theorem val_v104 (c : Dev nD) : W9 m ρ c (Proc.devRef .tc main_v104)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) (W8 m ρ c (Proc.devRef .tc main_arg6))) shapeCasts_S1x128_S128)) := by
  show StableHlo.after hostOps4 (W8 m ρ c) (Proc.devRef .tc main_v104) = _
  after_results_simp <;> rfl

/-- What the host operations leave in buffer v107, from the buffers they read. -/
theorem val_v107 (c : Dev nD) : W9 m ρ c (Proc.devRef .tc main_v107)
    = ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) (W8 m ρ c (Proc.devRef .tc main_arg7))) shapeCasts_S1x128_S128)) := by
  show StableHlo.after hostOps4 (W8 m ρ c) (Proc.devRef .tc main_v107) = _
  after_results_simp <;> rfl

end Cert.KernelIdeal.Gen

end
-- ==== Proof.KHostMV.lean ====
/-
  The host operations after each statistics region: the mean row and the clamped one-pass variance row, from the two
  accumulated rows.
-/
import proofs.«140366_j72610717106485_2_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- What the host operations leave in buffer v38, from the buffers they read. -/
theorem val_v38 (c : Dev nD) : W3 m ρ c (Proc.devRef .tc main_v38)
    = ((Host.divf : (⟨S1x128, .f32⟩ : BufTy).Contents (Elt F) → (⟨S1x128, .f32⟩ : BufTy).Contents (Elt F) → (⟨S1x128, .f32⟩ : BufTy).Contents (Elt F)) (W2 m ρ c (Proc.devRef .tc main_v36_0)) ((broadcastInDim S1x128 ![] bcast_S_S1x128 : (⟨S_, .f32⟩ : BufTy).Contents (Elt F) → (⟨S1x128, .f32⟩ : BufTy).Contents (Elt F)) (constant S_ .f32 0x47C35000#32))) := by
  show StableHlo.after hostOps1 (W2 m ρ c) (Proc.devRef .tc main_v38) = _
  after_results_simp <;> rfl

/-- What the host operations leave in buffer v44, from the buffers they read. -/
theorem val_v44 (c : Dev nD) : W3 m ρ c (Proc.devRef .tc main_v44)
    = ((maximumf : (⟨S1x128, .f32⟩ : BufTy).Contents (Elt F) → (⟨S1x128, .f32⟩ : BufTy).Contents (Elt F) → (⟨S1x128, .f32⟩ : BufTy).Contents (Elt F)) ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W2 m ρ c (Proc.devRef .tc main_v36_1)) ((broadcastInDim S1x128 ![] bcast_S_S1x128 : (⟨S_, .f32⟩ : BufTy).Contents (Elt F) → (⟨S1x128, .f32⟩ : BufTy).Contents (Elt F)) (constant S_ .f32 0x47C35000#32))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W2 m ρ c (Proc.devRef .tc main_v36_0)) ((broadcastInDim S1x128 ![] bcast_S_S1x128 : (⟨S_, .f32⟩ : BufTy).Contents (Elt F) → (⟨S1x128, .f32⟩ : BufTy).Contents (Elt F)) (constant S_ .f32 0x47C35000#32))) ((Host.divf : (⟨S1x128, .f32⟩ : BufTy).Contents (Elt F) → (⟨S1x128, .f32⟩ : BufTy).Contents (Elt F) → (⟨S1x128, .f32⟩ : BufTy).Contents (Elt F)) (W2 m ρ c (Proc.devRef .tc main_v36_0)) ((broadcastInDim S1x128 ![] bcast_S_S1x128 : (⟨S_, .f32⟩ : BufTy).Contents (Elt F) → (⟨S1x128, .f32⟩ : BufTy).Contents (Elt F)) (constant S_ .f32 0x47C35000#32))))) ((broadcastInDim S1x128 ![] bcast_S_S1x128 : (⟨S_, .f32⟩ : BufTy).Contents (Elt F) → (⟨S1x128, .f32⟩ : BufTy).Contents (Elt F)) (constant S_ .f32 0x00000000#32))) := by
  show StableHlo.after hostOps1 (W2 m ρ c) (Proc.devRef .tc main_v44) = _
  after_results_simp <;> rfl

/-- What the host operations leave in buffer v74, from the buffers they read. -/
theorem val_v74 (c : Dev nD) : W7 m ρ c (Proc.devRef .tc main_v74)
    = ((Host.divf : (⟨S1x128, .f32⟩ : BufTy).Contents (Elt F) → (⟨S1x128, .f32⟩ : BufTy).Contents (Elt F) → (⟨S1x128, .f32⟩ : BufTy).Contents (Elt F)) (W6 m ρ c (Proc.devRef .tc main_v72_0)) ((broadcastInDim S1x128 ![] bcast_S_S1x128 : (⟨S_, .f32⟩ : BufTy).Contents (Elt F) → (⟨S1x128, .f32⟩ : BufTy).Contents (Elt F)) (constant S_ .f32 0x47C35000#32))) := by
  show StableHlo.after hostOps3 (W6 m ρ c) (Proc.devRef .tc main_v74) = _
  after_results_simp <;> rfl

/-- What the host operations leave in buffer v80, from the buffers they read. -/
theorem val_v80 (c : Dev nD) : W7 m ρ c (Proc.devRef .tc main_v80)
    = ((maximumf : (⟨S1x128, .f32⟩ : BufTy).Contents (Elt F) → (⟨S1x128, .f32⟩ : BufTy).Contents (Elt F) → (⟨S1x128, .f32⟩ : BufTy).Contents (Elt F)) ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W6 m ρ c (Proc.devRef .tc main_v72_1)) ((broadcastInDim S1x128 ![] bcast_S_S1x128 : (⟨S_, .f32⟩ : BufTy).Contents (Elt F) → (⟨S1x128, .f32⟩ : BufTy).Contents (Elt F)) (constant S_ .f32 0x47C35000#32))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W6 m ρ c (Proc.devRef .tc main_v72_0)) ((broadcastInDim S1x128 ![] bcast_S_S1x128 : (⟨S_, .f32⟩ : BufTy).Contents (Elt F) → (⟨S1x128, .f32⟩ : BufTy).Contents (Elt F)) (constant S_ .f32 0x47C35000#32))) ((Host.divf : (⟨S1x128, .f32⟩ : BufTy).Contents (Elt F) → (⟨S1x128, .f32⟩ : BufTy).Contents (Elt F) → (⟨S1x128, .f32⟩ : BufTy).Contents (Elt F)) (W6 m ρ c (Proc.devRef .tc main_v72_0)) ((broadcastInDim S1x128 ![] bcast_S_S1x128 : (⟨S_, .f32⟩ : BufTy).Contents (Elt F) → (⟨S1x128, .f32⟩ : BufTy).Contents (Elt F)) (constant S_ .f32 0x47C35000#32))))) ((broadcastInDim S1x128 ![] bcast_S_S1x128 : (⟨S_, .f32⟩ : BufTy).Contents (Elt F) → (⟨S1x128, .f32⟩ : BufTy).Contents (Elt F)) (constant S_ .f32 0x00000000#32))) := by
  show StableHlo.after hostOps3 (W6 m ρ c) (Proc.devRef .tc main_v80) = _
  after_results_simp <;> rfl

/-- What the host operations leave in buffer v110, from the buffers they read. -/
theorem val_v110 (c : Dev nD) : W11 m ρ c (Proc.devRef .tc main_v110)
    = ((Host.divf : (⟨S1x128, .f32⟩ : BufTy).Contents (Elt F) → (⟨S1x128, .f32⟩ : BufTy).Contents (Elt F) → (⟨S1x128, .f32⟩ : BufTy).Contents (Elt F)) (W10 m ρ c (Proc.devRef .tc main_v108_0)) ((broadcastInDim S1x128 ![] bcast_S_S1x128 : (⟨S_, .f32⟩ : BufTy).Contents (Elt F) → (⟨S1x128, .f32⟩ : BufTy).Contents (Elt F)) (constant S_ .f32 0x47C35000#32))) := by
  show StableHlo.after hostOps5 (W10 m ρ c) (Proc.devRef .tc main_v110) = _
  after_results_simp <;> rfl

/-- What the host operations leave in buffer v116, from the buffers they read. -/
theorem val_v116 (c : Dev nD) : W11 m ρ c (Proc.devRef .tc main_v116)
    = ((maximumf : (⟨S1x128, .f32⟩ : BufTy).Contents (Elt F) → (⟨S1x128, .f32⟩ : BufTy).Contents (Elt F) → (⟨S1x128, .f32⟩ : BufTy).Contents (Elt F)) ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W10 m ρ c (Proc.devRef .tc main_v108_1)) ((broadcastInDim S1x128 ![] bcast_S_S1x128 : (⟨S_, .f32⟩ : BufTy).Contents (Elt F) → (⟨S1x128, .f32⟩ : BufTy).Contents (Elt F)) (constant S_ .f32 0x47C35000#32))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (W10 m ρ c (Proc.devRef .tc main_v108_0)) ((broadcastInDim S1x128 ![] bcast_S_S1x128 : (⟨S_, .f32⟩ : BufTy).Contents (Elt F) → (⟨S1x128, .f32⟩ : BufTy).Contents (Elt F)) (constant S_ .f32 0x47C35000#32))) ((Host.divf : (⟨S1x128, .f32⟩ : BufTy).Contents (Elt F) → (⟨S1x128, .f32⟩ : BufTy).Contents (Elt F) → (⟨S1x128, .f32⟩ : BufTy).Contents (Elt F)) (W10 m ρ c (Proc.devRef .tc main_v108_0)) ((broadcastInDim S1x128 ![] bcast_S_S1x128 : (⟨S_, .f32⟩ : BufTy).Contents (Elt F) → (⟨S1x128, .f32⟩ : BufTy).Contents (Elt F)) (constant S_ .f32 0x47C35000#32))))) ((broadcastInDim S1x128 ![] bcast_S_S1x128 : (⟨S_, .f32⟩ : BufTy).Contents (Elt F) → (⟨S1x128, .f32⟩ : BufTy).Contents (Elt F)) (constant S_ .f32 0x00000000#32))) := by
  show StableHlo.after hostOps5 (W10 m ρ c) (Proc.devRef .tc main_v116) = _
  after_results_simp <;> rfl

end Cert.KernelIdeal.Gen

end
-- ==== Proof.KKeepA.lean ====
/-
  Buffers that no host operation and no region writes between two boundaries of @main hold there what they held
  before (the first two layers): a region leaves its input arrays and every buffer outside its windows as entered, and a
  stretch of host operations leaves every buffer it does not write.
-/
import proofs.«140366_j72610717106485_2_alg».proof.Proof.Gen.KernelIdeal.Frame
import Idealize.ShloMosaic.Lib.StableHlo.Run
import Idealize.ShloMosaic.Lib.Pipeline.Value

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Buffer v19 is not written between boundaries 1 and 3. -/
theorem keep_v19_3_1 (c : Dev nD) : W3 m ρ c (Proc.devRef .tc main_v19) = W1 m ρ c (Proc.devRef .tc main_v19) :=
  calc W3 m ρ c (Proc.devRef .tc main_v19)
    _ = W2 m ρ c (Proc.devRef .tc main_v19) := StableHlo.after_of_forall_not_mem (b := Proc.devRef .tc main_v19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v19) := (W2_arr m ρ c 0).trans (((dat0 (V1 m ρ) c).arrAt_in 0 rfl _).trans (A_eq0 (V1 m ρ) c 0))

/-- Buffer arg0 is not written between boundaries 0 and 3. -/
theorem keep_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer v21 is not written between boundaries 1 and 3. -/
theorem keep_v21_3_1 (c : Dev nD) : W3 m ρ c (Proc.devRef .tc main_v21) = W1 m ρ c (Proc.devRef .tc main_v21) :=
  calc W3 m ρ c (Proc.devRef .tc main_v21)
    _ = W2 m ρ c (Proc.devRef .tc main_v21) := StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v21) := (W2_arr m ρ c 1).trans (((dat0 (V1 m ρ) c).arrAt_in 1 rfl _).trans (A_eq0 (V1 m ρ) c 1))

/-- Buffer v24 is not written between boundaries 1 and 3. -/
theorem keep_v24_3_1 (c : Dev nD) : W3 m ρ c (Proc.devRef .tc main_v24) = W1 m ρ c (Proc.devRef .tc main_v24) :=
  calc W3 m ρ c (Proc.devRef .tc main_v24)
    _ = W2 m ρ c (Proc.devRef .tc main_v24) := StableHlo.after_of_forall_not_mem (b := Proc.devRef .tc main_v24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v24) := (W2_arr m ρ c 2).trans (((dat0 (V1 m ρ) c).arrAt_in 2 rfl _).trans (A_eq0 (V1 m ρ) c 2))

/-- Buffer v26 is not written between boundaries 1 and 3. -/
theorem keep_v26_3_1 (c : Dev nD) : W3 m ρ c (Proc.devRef .tc main_v26) = W1 m ρ c (Proc.devRef .tc main_v26) :=
  calc W3 m ρ c (Proc.devRef .tc main_v26)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

/-- Buffer v29 is not written between boundaries 1 and 3. -/
theorem keep_v29_3_1 (c : Dev nD) : W3 m ρ c (Proc.devRef .tc main_v29) = W1 m ρ c (Proc.devRef .tc main_v29) :=
  calc W3 m ρ c (Proc.devRef .tc main_v29)
    _ = W2 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v29) := W2_of_ne m ρ c main_v29 (by decide)

/-- Buffer v32 is not written between boundaries 1 and 3. -/
theorem keep_v32_3_1 (c : Dev nD) : W3 m ρ c (Proc.devRef .tc main_v32) = W1 m ρ c (Proc.devRef .tc main_v32) :=
  calc W3 m ρ c (Proc.devRef .tc main_v32)
    _ = W2 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v32) := W2_of_ne m ρ c main_v32 (by decide)

/-- Buffer v35 is not written between boundaries 1 and 3. -/
theorem keep_v35_3_1 (c : Dev nD) : W3 m ρ c (Proc.devRef .tc main_v35) = W1 m ρ c (Proc.devRef .tc main_v35) :=
  calc W3 m ρ c (Proc.devRef .tc main_v35)
    _ = W2 m ρ c (Proc.devRef .tc main_v35) := StableHlo.after_of_forall_not_mem (b := Proc.devRef .tc main_v35) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v35) := W2_of_ne m ρ c main_v35 (by decide)

/-- Buffer v55 is not written between boundaries 5 and 7. -/
theorem keep_v55_7_5 (c : Dev nD) : W7 m ρ c (Proc.devRef .tc main_v55) = W5 m ρ c (Proc.devRef .tc main_v55) :=
  calc W7 m ρ c (Proc.devRef .tc main_v55)
    _ = W6 m ρ c (Proc.devRef .tc main_v55) := StableHlo.after_of_forall_not_mem (b := Proc.devRef .tc main_v55) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v55) := (W6_arr m ρ c 0).trans (((dat2 (V5 m ρ) c).arrAt_in 0 rfl _).trans (A_eq2 (V5 m ρ) c 0))

/-- Buffer v45 is not written between boundaries 4 and 7. -/
theorem keep_v45_7_4 (c : Dev nD) : W7 m ρ c (Proc.devRef .tc main_v45) = W4 m ρ c (Proc.devRef .tc main_v45) :=
  calc W7 m ρ c (Proc.devRef .tc main_v45)
    _ = W6 m ρ c (Proc.devRef .tc main_v45) := StableHlo.after_of_forall_not_mem (b := Proc.devRef .tc main_v45) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v45) := W6_of_ne m ρ c main_v45 (by decide)
    _ = W4 m ρ c (Proc.devRef .tc main_v45) := StableHlo.after_of_forall_not_mem (b := Proc.devRef .tc main_v45) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer v57 is not written between boundaries 5 and 7. -/
theorem keep_v57_7_5 (c : Dev nD) : W7 m ρ c (Proc.devRef .tc main_v57) = W5 m ρ c (Proc.devRef .tc main_v57) :=
  calc W7 m ρ c (Proc.devRef .tc main_v57)
    _ = W6 m ρ c (Proc.devRef .tc main_v57) := StableHlo.after_of_forall_not_mem (b := Proc.devRef .tc main_v57) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v57) := (W6_arr m ρ c 1).trans (((dat2 (V5 m ρ) c).arrAt_in 1 rfl _).trans (A_eq2 (V5 m ρ) c 1))

/-- Buffer v60 is not written between boundaries 5 and 7. -/
theorem keep_v60_7_5 (c : Dev nD) : W7 m ρ c (Proc.devRef .tc main_v60) = W5 m ρ c (Proc.devRef .tc main_v60) :=
  calc W7 m ρ c (Proc.devRef .tc main_v60)
    _ = W6 m ρ c (Proc.devRef .tc main_v60) := StableHlo.after_of_forall_not_mem (b := Proc.devRef .tc main_v60) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v60) := (W6_arr m ρ c 2).trans (((dat2 (V5 m ρ) c).arrAt_in 2 rfl _).trans (A_eq2 (V5 m ρ) c 2))

/-- Buffer v62 is not written between boundaries 5 and 7. -/
theorem keep_v62_7_5 (c : Dev nD) : W7 m ρ c (Proc.devRef .tc main_v62) = W5 m ρ c (Proc.devRef .tc main_v62) :=
  calc W7 m ρ c (Proc.devRef .tc main_v62)
    _ = W6 m ρ c (Proc.devRef .tc main_v62) := StableHlo.after_of_forall_not_mem (b := Proc.devRef .tc main_v62) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v62) := W6_of_ne m ρ c main_v62 (by decide)

/-- Buffer v65 is not written between boundaries 5 and 7. -/
theorem keep_v65_7_5 (c : Dev nD) : W7 m ρ c (Proc.devRef .tc main_v65) = W5 m ρ c (Proc.devRef .tc main_v65) :=
  calc W7 m ρ c (Proc.devRef .tc main_v65)
    _ = W6 m ρ c (Proc.devRef .tc main_v65) := StableHlo.after_of_forall_not_mem (b := Proc.devRef .tc main_v65) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v65) := W6_of_ne m ρ c main_v65 (by decide)

/-- Buffer v68 is not written between boundaries 5 and 7. -/
theorem keep_v68_7_5 (c : Dev nD) : W7 m ρ c (Proc.devRef .tc main_v68) = W5 m ρ c (Proc.devRef .tc main_v68) :=
  calc W7 m ρ c (Proc.devRef .tc main_v68)
    _ = W6 m ρ c (Proc.devRef .tc main_v68) := StableHlo.after_of_forall_not_mem (b := Proc.devRef .tc main_v68) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v68) := W6_of_ne m ρ c main_v68 (by decide)

/-- Buffer v71 is not written between boundaries 5 and 7. -/
theorem keep_v71_7_5 (c : Dev nD) : W7 m ρ c (Proc.devRef .tc main_v71) = W5 m ρ c (Proc.devRef .tc main_v71) :=
  calc W7 m ρ c (Proc.devRef .tc main_v71)
    _ = W6 m ρ c (Proc.devRef .tc main_v71) := StableHlo.after_of_forall_not_mem (b := Proc.devRef .tc main_v71) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v71) := W6_of_ne m ρ c main_v71 (by decide)

/-- Buffer v3 is not written between boundaries 1 and 4. -/
theorem keep_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Buffer v1 is not written between boundaries 1 and 4. -/
theorem keep_v1_4_1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Buffer v4 is not written between boundaries 1 and 4. -/
theorem keep_v4_4_1 (c : Dev nD) : W4 m ρ c (Proc.devRef .tc main_v4) = W1 m ρ c (Proc.devRef .tc main_v4) :=
  calc W4 m ρ c (Proc.devRef .tc main_v4)
    _ = W3 m ρ c (Proc.devRef .tc main_v4) := W4_of_ne m ρ c main_v4 (by decide)
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v4) := W2_of_ne m ρ c main_v4 (by decide)

/-- Buffer arg5 is not written between boundaries 0 and 4. -/
theorem keep_arg5_4_0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer v5 is not written between boundaries 1 and 4. -/
theorem keep_v5_4_1 (c : Dev nD) : W4 m ρ c (Proc.devRef .tc main_v5) = W1 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)

/-- Buffer arg3 is not written between boundaries 0 and 4. -/
theorem keep_arg3_4_0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer arg6 is not written between boundaries 0 and 4. -/
theorem keep_arg6_4_0 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer arg7 is not written between boundaries 0 and 4. -/
theorem keep_arg7_4_0 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Gen

end
-- ==== Proof.KKeepB.lean ====
/-
  Buffers that no host operation and no region writes between two boundaries of @main hold there what they held
  before (the third layer and the head): a region leaves its input arrays and every buffer outside its windows as
  entered, and a stretch of host operations leaves every buffer it does not write.
-/
import proofs.«140366_j72610717106485_2_alg».proof.Proof.Gen.KernelIdeal.Frame
import Idealize.ShloMosaic.Lib.StableHlo.Run
import Idealize.ShloMosaic.Lib.Pipeline.Value

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Buffer v91 is not written between boundaries 9 and 11. -/
theorem keep_v91_11_9 (c : Dev nD) : W11 m ρ c (Proc.devRef .tc main_v91) = W9 m ρ c (Proc.devRef .tc main_v91) :=
  calc W11 m ρ c (Proc.devRef .tc main_v91)
    _ = W10 m ρ c (Proc.devRef .tc main_v91) := StableHlo.after_of_forall_not_mem (b := Proc.devRef .tc main_v91) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v91) := (W10_arr m ρ c 0).trans (((dat4 (V9 m ρ) c).arrAt_in 0 rfl _).trans (A_eq4 (V9 m ρ) c 0))

/-- Buffer v81 is not written between boundaries 8 and 11. -/
theorem keep_v81_11_8 (c : Dev nD) : W11 m ρ c (Proc.devRef .tc main_v81) = W8 m ρ c (Proc.devRef .tc main_v81) :=
  calc W11 m ρ c (Proc.devRef .tc main_v81)
    _ = W10 m ρ c (Proc.devRef .tc main_v81) := StableHlo.after_of_forall_not_mem (b := Proc.devRef .tc main_v81) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v81) := W10_of_ne m ρ c main_v81 (by decide)
    _ = W8 m ρ c (Proc.devRef .tc main_v81) := StableHlo.after_of_forall_not_mem (b := Proc.devRef .tc main_v81) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer v93 is not written between boundaries 9 and 11. -/
theorem keep_v93_11_9 (c : Dev nD) : W11 m ρ c (Proc.devRef .tc main_v93) = W9 m ρ c (Proc.devRef .tc main_v93) :=
  calc W11 m ρ c (Proc.devRef .tc main_v93)
    _ = W10 m ρ c (Proc.devRef .tc main_v93) := StableHlo.after_of_forall_not_mem (b := Proc.devRef .tc main_v93) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v93) := (W10_arr m ρ c 1).trans (((dat4 (V9 m ρ) c).arrAt_in 1 rfl _).trans (A_eq4 (V9 m ρ) c 1))

/-- Buffer v96 is not written between boundaries 9 and 11. -/
theorem keep_v96_11_9 (c : Dev nD) : W11 m ρ c (Proc.devRef .tc main_v96) = W9 m ρ c (Proc.devRef .tc main_v96) :=
  calc W11 m ρ c (Proc.devRef .tc main_v96)
    _ = W10 m ρ c (Proc.devRef .tc main_v96) := StableHlo.after_of_forall_not_mem (b := Proc.devRef .tc main_v96) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v96) := (W10_arr m ρ c 2).trans (((dat4 (V9 m ρ) c).arrAt_in 2 rfl _).trans (A_eq4 (V9 m ρ) c 2))

/-- Buffer v98 is not written between boundaries 9 and 11. -/
theorem keep_v98_11_9 (c : Dev nD) : W11 m ρ c (Proc.devRef .tc main_v98) = W9 m ρ c (Proc.devRef .tc main_v98) :=
  calc W11 m ρ c (Proc.devRef .tc main_v98)
    _ = W10 m ρ c (Proc.devRef .tc main_v98) := StableHlo.after_of_forall_not_mem (b := Proc.devRef .tc main_v98) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v98) := W10_of_ne m ρ c main_v98 (by decide)

/-- Buffer v101 is not written between boundaries 9 and 11. -/
theorem keep_v101_11_9 (c : Dev nD) : W11 m ρ c (Proc.devRef .tc main_v101) = W9 m ρ c (Proc.devRef .tc main_v101) :=
  calc W11 m ρ c (Proc.devRef .tc main_v101)
    _ = W10 m ρ c (Proc.devRef .tc main_v101) := StableHlo.after_of_forall_not_mem (b := Proc.devRef .tc main_v101) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v101) := W10_of_ne m ρ c main_v101 (by decide)

/-- Buffer v104 is not written between boundaries 9 and 11. -/
theorem keep_v104_11_9 (c : Dev nD) : W11 m ρ c (Proc.devRef .tc main_v104) = W9 m ρ c (Proc.devRef .tc main_v104) :=
  calc W11 m ρ c (Proc.devRef .tc main_v104)
    _ = W10 m ρ c (Proc.devRef .tc main_v104) := StableHlo.after_of_forall_not_mem (b := Proc.devRef .tc main_v104) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v104) := W10_of_ne m ρ c main_v104 (by decide)

/-- Buffer v107 is not written between boundaries 9 and 11. -/
theorem keep_v107_11_9 (c : Dev nD) : W11 m ρ c (Proc.devRef .tc main_v107) = W9 m ρ c (Proc.devRef .tc main_v107) :=
  calc W11 m ρ c (Proc.devRef .tc main_v107)
    _ = W10 m ρ c (Proc.devRef .tc main_v107) := StableHlo.after_of_forall_not_mem (b := Proc.devRef .tc main_v107) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v107) := W10_of_ne m ρ c main_v107 (by decide)

/-- Buffer v6 is not written between boundaries 1 and 11. -/
theorem keep_v6_11_1 (c : Dev nD) : W11 m ρ c (Proc.devRef .tc main_v6) = W1 m ρ c (Proc.devRef .tc main_v6) :=
  calc W11 m ρ c (Proc.devRef .tc main_v6)
    _ = W10 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

/-- Buffer v7 is not written between boundaries 1 and 11. -/
theorem keep_v7_11_1 (c : Dev nD) : W11 m ρ c (Proc.devRef .tc main_v7) = W1 m ρ c (Proc.devRef .tc main_v7) :=
  calc W11 m ρ c (Proc.devRef .tc main_v7)
    _ = W10 m ρ c (Proc.devRef .tc main_v7) := StableHlo.after_of_forall_not_mem (b := Proc.devRef .tc main_v7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v7) := W10_of_ne m ρ c main_v7 (by decide)
    _ = W8 m ρ c (Proc.devRef .tc main_v7) := StableHlo.after_of_forall_not_mem (b := Proc.devRef .tc main_v7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v7) := W8_of_ne m ρ c main_v7 (by decide)
    _ = W6 m ρ c (Proc.devRef .tc main_v7) := StableHlo.after_of_forall_not_mem (b := Proc.devRef .tc main_v7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v7) := W6_of_ne m ρ c main_v7 (by decide)
    _ = W4 m ρ c (Proc.devRef .tc main_v7) := StableHlo.after_of_forall_not_mem (b := Proc.devRef .tc main_v7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v7) := W4_of_ne m ρ c main_v7 (by decide)
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v7) := W2_of_ne m ρ c main_v7 (by decide)

/-- Buffer v8 is not written between boundaries 1 and 11. -/
theorem keep_v8_11_1 (c : Dev nD) : W11 m ρ c (Proc.devRef .tc main_v8) = W1 m ρ c (Proc.devRef .tc main_v8) :=
  calc W11 m ρ c (Proc.devRef .tc main_v8)
    _ = W10 m ρ c (Proc.devRef .tc main_v8) := StableHlo.after_of_forall_not_mem (b := Proc.devRef .tc main_v8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v8) := W10_of_ne m ρ c main_v8 (by decide)
    _ = W8 m ρ c (Proc.devRef .tc main_v8) := StableHlo.after_of_forall_not_mem (b := Proc.devRef .tc main_v8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v8) := W8_of_ne m ρ c main_v8 (by decide)
    _ = W6 m ρ c (Proc.devRef .tc main_v8) := StableHlo.after_of_forall_not_mem (b := Proc.devRef .tc main_v8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v8) := W6_of_ne m ρ c main_v8 (by decide)
    _ = W4 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v8) := W4_of_ne m ρ c main_v8 (by decide)
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W2_of_ne m ρ c main_v8 (by decide)

/-- Buffer v9 is not written between boundaries 1 and 11. -/
theorem keep_v9_11_1 (c : Dev nD) : W11 m ρ c (Proc.devRef .tc main_v9) = W1 m ρ c (Proc.devRef .tc main_v9) :=
  calc W11 m ρ c (Proc.devRef .tc main_v9)
    _ = W10 m ρ c (Proc.devRef .tc main_v9) := StableHlo.after_of_forall_not_mem (b := Proc.devRef .tc main_v9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v9) := W10_of_ne m ρ c main_v9 (by decide)
    _ = W8 m ρ c (Proc.devRef .tc main_v9) := StableHlo.after_of_forall_not_mem (b := Proc.devRef .tc main_v9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v9) := W8_of_ne m ρ c main_v9 (by decide)
    _ = W6 m ρ c (Proc.devRef .tc main_v9) := StableHlo.after_of_forall_not_mem (b := Proc.devRef .tc main_v9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v9) := W6_of_ne m ρ c main_v9 (by decide)
    _ = W4 m ρ c (Proc.devRef .tc main_v9) := StableHlo.after_of_forall_not_mem (b := Proc.devRef .tc main_v9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v9) := W4_of_ne m ρ c main_v9 (by decide)
    _ = W2 m ρ c (Proc.devRef .tc main_v9) := StableHlo.after_of_forall_not_mem (b := Proc.devRef .tc main_v9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v9) := W2_of_ne m ρ c main_v9 (by decide)

/-- Buffer v3 is not written between boundaries 1 and 8. -/
theorem keep_v3_8_1 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Buffer v1 is not written between boundaries 1 and 8. -/
theorem keep_v1_8_1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Buffer v4 is not written between boundaries 1 and 8. -/
theorem keep_v4_8_1 (c : Dev nD) : W8 m ρ c (Proc.devRef .tc main_v4) = W1 m ρ c (Proc.devRef .tc main_v4) :=
  calc W8 m ρ c (Proc.devRef .tc main_v4)
    _ = W7 m ρ c (Proc.devRef .tc main_v4) := W8_of_ne m ρ c main_v4 (by decide)
    _ = W6 m ρ c (Proc.devRef .tc main_v4) := StableHlo.after_of_forall_not_mem (b := Proc.devRef .tc main_v4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v4) := W6_of_ne m ρ c main_v4 (by decide)
    _ = W4 m ρ c (Proc.devRef .tc main_v4) := StableHlo.after_of_forall_not_mem (b := Proc.devRef .tc main_v4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v4) := W4_of_ne m ρ c main_v4 (by decide)
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v4) := W2_of_ne m ρ c main_v4 (by decide)

/-- Buffer arg5 is not written between boundaries 0 and 8. -/
theorem keep_arg5_8_0 (c : Dev nD) : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer v5 is not written between boundaries 1 and 8. -/
theorem keep_v5_8_1 (c : Dev nD) : W8 m ρ c (Proc.devRef .tc main_v5) = W1 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)

/-- Buffer arg3 is not written between boundaries 0 and 8. -/
theorem keep_arg3_8_0 (c : Dev nD) : W8 m ρ c (Proc.devRef .tc main_arg3) = W0 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer arg6 is not written between boundaries 0 and 8. -/
theorem keep_arg6_8_0 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer arg7 is not written between boundaries 0 and 8. -/
theorem keep_arg7_8_0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Gen

end
-- ==== Proof.KNet.lean ====
/-
  The idealized kernel's result array as the network of Spec.lean with the one-pass variance.

  @main alternates host operations and regions. Layer by layer: the host forms the segment sum z of the current node
  features and slices the layer's parameters out of the argument arrays; the statistics region leaves the column
  sums and sums of squares of the hidden activations; the host turns them into the mean row and the clamped one-pass
  variance row; the layer region leaves the layer of (z, x, parameters, mean, variance), which is the next layer's
  x. The last region also applies the head and the log-softmax. Every buffer a region or a stretch of host operations
  reads is traced to where it was written; nothing else writes it in between.
-/
import proofs.«140366_j72610717106485_2_alg».proof.Proof.Gen.KernelIdeal.Frame
import proofs.«140366_j72610717106485_2_alg».proof.Proof.Spec
import proofs.«140366_j72610717106485_2_alg».proof.Proof.SpecRow
import proofs.«140366_j72610717106485_2_alg».proof.Proof.HostReads
import proofs.«140366_j72610717106485_2_alg».proof.Proof.Stats0
import proofs.«140366_j72610717106485_2_alg».proof.Proof.Stats2
import proofs.«140366_j72610717106485_2_alg».proof.Proof.Stats4
import proofs.«140366_j72610717106485_2_alg».proof.Proof.Layer1
import proofs.«140366_j72610717106485_2_alg».proof.Proof.Layer3
import proofs.«140366_j72610717106485_2_alg».proof.Proof.Final5
import proofs.«140366_j72610717106485_2_alg».proof.Proof.KHost0
import proofs.«140366_j72610717106485_2_alg».proof.Proof.KHost2
import proofs.«140366_j72610717106485_2_alg».proof.Proof.KHost4
import proofs.«140366_j72610717106485_2_alg».proof.Proof.KHostMV
import proofs.«140366_j72610717106485_2_alg».proof.Proof.KKeepA
import proofs.«140366_j72610717106485_2_alg».proof.Proof.KKeepB

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen Cert.Net

/-! ## Congruences -/

theorem hid_congr {n : ℕ} {z z' : Mat n 128} {w w' : Mat 128 128} {b b' : Row 128} (h0 : z = z') (h1 : w = w') (h2 : b = b') :
    hid z w b = hid z' w' b' := by subst h0 h1 h2; rfl

theorem layerOf_congr {n : ℕ} {z z' x x' : Mat n 128} {wr wr' : Mat 128 128} {br br' : Row 128} {wl wl' : Mat 128 128}
    {bl bl' γ γ' β β' μ μ' v v' : Row 128} (h0 : z = z') (h1 : x = x') (h2 : wr = wr') (h3 : br = br') (h4 : wl = wl')
    (h5 : bl = bl') (h6 : γ = γ') (h7 : β = β') (h8 : μ = μ') (h9 : v = v') :
    layerOf z x wr br wl bl γ β μ v = layerOf z' x' wr' br' wl' bl' γ' β' μ' v' := by
  subst h0 h1 h2 h3 h4 h5 h6 h7 h8 h9; rfl

theorem headOf_congr {n : ℕ} {x x' : Mat n 128} {w1 w1' : Mat 128 128} {b1 b1' : Row 128} {w2 w2' : Mat 128 47} {b2 b2' : Row 47}
    (hx : x = x') (hw1 : w1 = w1') (hb1 : b1 = b1') (hw2 : w2 = w2') (hb2 : b2 = b2') :
    headOf x w1 b1 w2 b2 = headOf x' w1' b1' w2' b2' := by subst hx hw1 hb1 hw2 hb2; rfl

/-! ## The segment sum, as the host forms it -/

/-- The source row of the edge array. -/
def idx0 (E : IVec S2x1600000 32) : IVec S1600000 32 :=
  (shapeCast S1600000 (((extractStridedSlice S1x1600000 ![0, 0] · slices_S2x1600000_S1x1600000_0_0) : (⟨S2x1600000, .i32⟩ : BufTy).Contents (Elt Ideal) → (⟨S1x1600000, .i32⟩ : BufTy).Contents (Elt Ideal)) E) shapeCasts_S1x1600000_S1600000)
/-- The target row of the edge array. -/
def idx1 (E : IVec S2x1600000 32) : IVec S1600000 32 :=
  (shapeCast S1600000 (((extractStridedSlice S1x1600000 ![1, 0] · slices_S2x1600000_S1x1600000_1_0) : (⟨S2x1600000, .i32⟩ : BufTy).Contents (Elt Ideal) → (⟨S1x1600000, .i32⟩ : BufTy).Contents (Elt Ideal)) E) shapeCasts_S1x1600000_S1600000)
/-- Rows of X gathered at the sources (a negative index counting from the end) and added up at the targets. -/
def segOf (i1 i3 : IVec S1600000 32) (X : FVec Ideal S100000x128 .f32) : FVec Ideal S100000x128 .f32 :=
  (((fun x i u => Host.scatterAdd (F := Ideal) scatter_S100000x128_S1600000x1_S1600000x128_1_0_0_1 x i u) : (⟨S100000x128, .f32⟩ : BufTy).Contents (Elt Ideal) → (⟨S1600000x1, .i32⟩ : BufTy).Contents (Elt Ideal) → (⟨S1600000x128, .f32⟩ : BufTy).Contents (Elt Ideal) → (⟨S100000x128, .f32⟩ : BufTy).Contents (Elt Ideal)) ((broadcastInDim S100000x128 ![] bcast_S_S100000x128 : (⟨S_, .f32⟩ : BufTy).Contents (Elt Ideal) → (⟨S100000x128, .f32⟩ : BufTy).Contents (Elt Ideal)) (constant (F := Ideal) S_ .f32 0x00000000#32)) ((broadcastInDim S1600000x1 ![0] bcast_S1600000_S1600000x1_0 : (⟨S1600000, .i32⟩ : BufTy).Contents (Elt Ideal) → (⟨S1600000x1, .i32⟩ : BufTy).Contents (Elt Ideal)) i3) (((fun x i => Host.gather gather_S100000x128_S1600000x1_S1600000x128_1_0_n_n_0_1_1128 x i) : (⟨S100000x128, .f32⟩ : BufTy).Contents (Elt Ideal) → (⟨S1600000x1, .i32⟩ : BufTy).Contents (Elt Ideal) → (⟨S1600000x128, .f32⟩ : BufTy).Contents (Elt Ideal)) X ((broadcastInDim S1600000x1 ![0] bcast_S1600000_S1600000x1_0 : (⟨S1600000, .i32⟩ : BufTy).Contents (Elt Ideal) → (⟨S1600000x1, .i32⟩ : BufTy).Contents (Elt Ideal)) ((select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)) ((cmpi .slt : (⟨S1600000, .i32⟩ : BufTy).Contents (Elt Ideal) → (⟨S1600000, .i32⟩ : BufTy).Contents (Elt Ideal) → (⟨S1600000, .i1⟩ : BufTy).Contents (Elt Ideal)) i1 ((broadcastInDim S1600000 ![] bcast_S_S1600000 : (⟨S_, .i32⟩ : BufTy).Contents (Elt Ideal) → (⟨S1600000, .i32⟩ : BufTy).Contents (Elt Ideal)) (constantI S_ 32 0#32))) ((addi : (⟨S1600000, .i32⟩ : BufTy).Contents (Elt Ideal) → (⟨S1600000, .i32⟩ : BufTy).Contents (Elt Ideal) → (⟨S1600000, .i32⟩ : BufTy).Contents (Elt Ideal)) i1 ((broadcastInDim S1600000 ![] bcast_S_S1600000 : (⟨S_, .i32⟩ : BufTy).Contents (Elt Ideal) → (⟨S1600000, .i32⟩ : BufTy).Contents (Elt Ideal)) (constantI S_ 32 100000#32))) i1))))
/-- The segment sum of the node features X along the edges E. -/
def segK (E : IVec S2x1600000 32) (X : FVec Ideal S100000x128 .f32) : FVec Ideal S100000x128 .f32 :=
  segOf (idx0 E) (idx1 E) X
/-- The same on matrices read by coordinates. -/
def S (E : IVec S2x1600000 32) : Mat 100000 128 → Mat 100000 128 := fun M => cur (segK E (uncur M))

theorem S_cur (E : IVec S2x1600000 32) (X : S100000x128.Idx → EReal) : S E (cur X) = cur (segK E X) := by
  unfold S; rw [uncur_cur]

variable (m : (ℓ : Loc nD τ sig) → Buf (Elt Ideal) ℓ) (ρ : Dev nD → PrngReg) (c : Dev nD)

/-- Layer l's parameters, read off the argument arrays. -/
abbrev P (l : Fin 3) : LayerW :=
  layerW (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) l
/-- The segment sum along the program's edge array. -/
abbrev Sg : Mat 100000 128 → Mat 100000 128 := S (m ((c : Thread nD τ).loc main_arg1))

/-! ## Layer 0 -/

theorem z0 : (W1 m ρ c (Proc.devRef .tc main_v19) : S100000x128.Idx → EReal) = segK (m ((c : Thread nD τ).loc main_arg1)) (m ((c : Thread nD τ).loc main_arg0)) :=
  (val_v19 m ρ c).trans rfl

theorem wr0 : cur (W1 m ρ c (Proc.devRef .tc main_v21) : S128x128.Idx → EReal) = wT (m ((c : Thread nD τ).loc main_arg4)) 0 :=
  (congrArg cur (val_v21 m ρ c)).trans (Cert.HostReads.weight_slice_0 _ _ _ _)
theorem br0 : row1 (W1 m ρ c (Proc.devRef .tc main_v24) : S1x128.Idx → EReal) = rowOf (m ((c : Thread nD τ).loc main_arg5)) 0 :=
  (congrArg row1 (val_v24 m ρ c)).trans (Cert.HostReads.param_row_0 _ _ _ _)
theorem wl0 : cur (W1 m ρ c (Proc.devRef .tc main_v26) : S128x128.Idx → EReal) = wT (m ((c : Thread nD τ).loc main_arg2)) 0 :=
  (congrArg cur (val_v26 m ρ c)).trans (Cert.HostReads.weight_slice_0 _ _ _ _)
theorem bl0 : row1 (W1 m ρ c (Proc.devRef .tc main_v29) : S1x128.Idx → EReal) = rowOf (m ((c : Thread nD τ).loc main_arg3)) 0 :=
  (congrArg row1 (val_v29 m ρ c)).trans (Cert.HostReads.param_row_0 _ _ _ _)
theorem ga0 : row1 (W1 m ρ c (Proc.devRef .tc main_v32) : S1x128.Idx → EReal) = rowOf (m ((c : Thread nD τ).loc main_arg6)) 0 :=
  (congrArg row1 (val_v32 m ρ c)).trans (Cert.HostReads.param_row_0 _ _ _ _)
theorem be0 : row1 (W1 m ρ c (Proc.devRef .tc main_v35) : S1x128.Idx → EReal) = rowOf (m ((c : Thread nD τ).loc main_arg7)) 0 :=
  (congrArg row1 (val_v35 m ρ c)).trans (Cert.HostReads.param_row_0 _ _ _ _)

/-- The hidden activations the statistics region sums are those of the layer's segment sum. -/
theorem hidden0 : Cert.KernelIdeal.Stats0.H (V1 m ρ) c = (hid (Sg m c (cur (m ((c : Thread nD τ).loc main_arg0)))) (P m c 0).wr (P m c 0).br) :=
  (hid_congr (congrArg cur (z0 m ρ c)) (wr0 m ρ c) (br0 m ρ c)).trans
    (congrArg (fun z => hid z (P m c 0).wr (P m c 0).br) (S_cur _ _).symm)

/-- The two accumulated rows, by lane. -/
theorem sum0 : row1 (W2 m ρ c (Proc.devRef .tc main_v36_0) : S1x128.Idx → EReal) = colSum (Cert.KernelIdeal.Stats0.H (V1 m ρ) c) :=
  (congrArg row1 ((W2_arr m ρ c 3).trans (Cert.KernelIdeal.Stats0.final3 (V1 m ρ) c))).trans rfl
theorem sumsq0 : row1 (W2 m ρ c (Proc.devRef .tc main_v36_1) : S1x128.Idx → EReal) = colSumSq (Cert.KernelIdeal.Stats0.H (V1 m ρ) c) :=
  (congrArg row1 ((W2_arr m ρ c 4).trans (Cert.KernelIdeal.Stats0.final4 (V1 m ρ) c))).trans rfl

/-- The mean row. -/
theorem mu0 : row1 (W3 m ρ c (Proc.devRef .tc main_v38) : S1x128.Idx → EReal) = mean (hid (Sg m c (cur (m ((c : Thread nD τ).loc main_arg0)))) (P m c 0).wr (P m c 0).br) :=
  (congrArg row1 (val_v38 m ρ c)).trans
    ((Cert.HostReads.host_mean_eq (Cert.KernelIdeal.Stats0.H (V1 m ρ) c) _ _ (sum0 m ρ c)).trans
      (congrArg mean (hidden0 m ρ c)))

/-- The clamped one-pass variance row. -/
theorem va0 : row1 (W3 m ρ c (Proc.devRef .tc main_v44) : S1x128.Idx → EReal) = varOne (hid (Sg m c (cur (m ((c : Thread nD τ).loc main_arg0)))) (P m c 0).wr (P m c 0).br) :=
  (congrArg row1 (val_v44 m ρ c)).trans
    ((Cert.HostReads.host_varOne_eq (Cert.KernelIdeal.Stats0.H (V1 m ρ) c) _ _ _ (sum0 m ρ c) (sumsq0 m ρ c)).trans
      (congrArg varOne (hidden0 m ρ c)))

/-- The layer region's output array is the layer (one-pass variance) of the node features before it. -/
theorem layer0 : (W4 m ρ c (Proc.devRef .tc main_v45) : S100000x128.Idx → EReal) = uncur (layerOne (Sg m c) (cur (m ((c : Thread nD τ).loc main_arg0))) (P m c 0)) :=
  ((W4_arr m ρ c 10).trans (Cert.KernelIdeal.Layer1.final (V3 m ρ) c)).trans (congrArg uncur ((layerOf_congr
    (h0 := (congrArg cur ((keep_v19_3_1 m ρ c).trans (z0 m ρ c))).trans (S_cur _ _).symm)
    (h1 := congrArg cur (keep_arg0_3_0 m ρ c))
    (h2 := (congrArg cur (keep_v21_3_1 m ρ c)).trans (wr0 m ρ c))
    (h3 := (congrArg row1 (keep_v24_3_1 m ρ c)).trans (br0 m ρ c))
    (h4 := (congrArg cur (keep_v26_3_1 m ρ c)).trans (wl0 m ρ c))
    (h5 := (congrArg row1 (keep_v29_3_1 m ρ c)).trans (bl0 m ρ c))
    (h6 := (congrArg row1 (keep_v32_3_1 m ρ c)).trans (ga0 m ρ c))
    (h7 := (congrArg row1 (keep_v35_3_1 m ρ c)).trans (be0 m ρ c))
    (h8 := mu0 m ρ c)
    (h9 := va0 m ρ c)).trans rfl))

/-- The node features after layer 0. -/
def X1 : S100000x128.Idx → EReal := W4 m ρ c (Proc.devRef .tc main_v45)

theorem cur_X1 : cur (X1 m ρ c) = layerOne (Sg m c) (cur (m ((c : Thread nD τ).loc main_arg0))) (P m c 0) :=
  (congrArg cur (layer0 m ρ c)).trans (cur_uncur _)

/-! ## Layer 1 -/

theorem z1 : (W5 m ρ c (Proc.devRef .tc main_v55) : S100000x128.Idx → EReal) = segK (m ((c : Thread nD τ).loc main_arg1)) (X1 m ρ c) := by
  rw [val_v55 m ρ c, keep_v1_4_1 m ρ c, val_v1 m ρ c, keep_v3_4_1 m ρ c, val_v3 m ρ c]
  rfl

theorem wr1 : cur (W5 m ρ c (Proc.devRef .tc main_v57) : S128x128.Idx → EReal) = wT (m ((c : Thread nD τ).loc main_arg4)) 1 := by
  rw [val_v57 m ρ c, keep_v4_4_1 m ρ c, val_v4 m ρ c]
  exact Cert.HostReads.weight_slice_1 _ _ _ _
theorem br1 : row1 (W5 m ρ c (Proc.devRef .tc main_v60) : S1x128.Idx → EReal) = rowOf (m ((c : Thread nD τ).loc main_arg5)) 1 := by
  rw [val_v60 m ρ c, keep_arg5_4_0 m ρ c]
  exact Cert.HostReads.param_row_1 _ _ _ _
theorem wl1 : cur (W5 m ρ c (Proc.devRef .tc main_v62) : S128x128.Idx → EReal) = wT (m ((c : Thread nD τ).loc main_arg2)) 1 := by
  rw [val_v62 m ρ c, keep_v5_4_1 m ρ c, val_v5 m ρ c]
  exact Cert.HostReads.weight_slice_1 _ _ _ _
theorem bl1 : row1 (W5 m ρ c (Proc.devRef .tc main_v65) : S1x128.Idx → EReal) = rowOf (m ((c : Thread nD τ).loc main_arg3)) 1 := by
  rw [val_v65 m ρ c, keep_arg3_4_0 m ρ c]
  exact Cert.HostReads.param_row_1 _ _ _ _
theorem ga1 : row1 (W5 m ρ c (Proc.devRef .tc main_v68) : S1x128.Idx → EReal) = rowOf (m ((c : Thread nD τ).loc main_arg6)) 1 := by
  rw [val_v68 m ρ c, keep_arg6_4_0 m ρ c]
  exact Cert.HostReads.param_row_1 _ _ _ _
theorem be1 : row1 (W5 m ρ c (Proc.devRef .tc main_v71) : S1x128.Idx → EReal) = rowOf (m ((c : Thread nD τ).loc main_arg7)) 1 := by
  rw [val_v71 m ρ c, keep_arg7_4_0 m ρ c]
  exact Cert.HostReads.param_row_1 _ _ _ _

/-- The hidden activations the statistics region sums are those of the layer's segment sum. -/
theorem hidden1 : Cert.KernelIdeal.Stats2.H (V5 m ρ) c = (hid (Sg m c (cur (X1 m ρ c))) (P m c 1).wr (P m c 1).br) :=
  (hid_congr (congrArg cur (z1 m ρ c)) (wr1 m ρ c) (br1 m ρ c)).trans
    (congrArg (fun z => hid z (P m c 1).wr (P m c 1).br) (S_cur _ _).symm)

/-- The two accumulated rows, by lane. -/
theorem sum1 : row1 (W6 m ρ c (Proc.devRef .tc main_v72_0) : S1x128.Idx → EReal) = colSum (Cert.KernelIdeal.Stats2.H (V5 m ρ) c) :=
  (congrArg row1 ((W6_arr m ρ c 3).trans (Cert.KernelIdeal.Stats2.final3 (V5 m ρ) c))).trans rfl
theorem sumsq1 : row1 (W6 m ρ c (Proc.devRef .tc main_v72_1) : S1x128.Idx → EReal) = colSumSq (Cert.KernelIdeal.Stats2.H (V5 m ρ) c) :=
  (congrArg row1 ((W6_arr m ρ c 4).trans (Cert.KernelIdeal.Stats2.final4 (V5 m ρ) c))).trans rfl

/-- The mean row. -/
theorem mu1 : row1 (W7 m ρ c (Proc.devRef .tc main_v74) : S1x128.Idx → EReal) = mean (hid (Sg m c (cur (X1 m ρ c))) (P m c 1).wr (P m c 1).br) :=
  (congrArg row1 (val_v74 m ρ c)).trans
    ((Cert.HostReads.host_mean_eq (Cert.KernelIdeal.Stats2.H (V5 m ρ) c) _ _ (sum1 m ρ c)).trans
      (congrArg mean (hidden1 m ρ c)))

/-- The clamped one-pass variance row. -/
theorem va1 : row1 (W7 m ρ c (Proc.devRef .tc main_v80) : S1x128.Idx → EReal) = varOne (hid (Sg m c (cur (X1 m ρ c))) (P m c 1).wr (P m c 1).br) :=
  (congrArg row1 (val_v80 m ρ c)).trans
    ((Cert.HostReads.host_varOne_eq (Cert.KernelIdeal.Stats2.H (V5 m ρ) c) _ _ _ (sum1 m ρ c) (sumsq1 m ρ c)).trans
      (congrArg varOne (hidden1 m ρ c)))

/-- The layer region's output array is the layer (one-pass variance) of the node features before it. -/
theorem layer1 : (W8 m ρ c (Proc.devRef .tc main_v81) : S100000x128.Idx → EReal) = uncur (layerOne (Sg m c) (cur (X1 m ρ c)) (P m c 1)) :=
  ((W8_arr m ρ c 10).trans (Cert.KernelIdeal.Layer3.final (V7 m ρ) c)).trans (congrArg uncur ((layerOf_congr
    (h0 := (congrArg cur ((keep_v55_7_5 m ρ c).trans (z1 m ρ c))).trans (S_cur _ _).symm)
    (h1 := congrArg cur (keep_v45_7_4 m ρ c))
    (h2 := (congrArg cur (keep_v57_7_5 m ρ c)).trans (wr1 m ρ c))
    (h3 := (congrArg row1 (keep_v60_7_5 m ρ c)).trans (br1 m ρ c))
    (h4 := (congrArg cur (keep_v62_7_5 m ρ c)).trans (wl1 m ρ c))
    (h5 := (congrArg row1 (keep_v65_7_5 m ρ c)).trans (bl1 m ρ c))
    (h6 := (congrArg row1 (keep_v68_7_5 m ρ c)).trans (ga1 m ρ c))
    (h7 := (congrArg row1 (keep_v71_7_5 m ρ c)).trans (be1 m ρ c))
    (h8 := mu1 m ρ c)
    (h9 := va1 m ρ c)).trans rfl))

/-- The node features after layer 1. -/
def X2 : S100000x128.Idx → EReal := W8 m ρ c (Proc.devRef .tc main_v81)

theorem cur_X2 : cur (X2 m ρ c) = layerOne (Sg m c) (cur (X1 m ρ c)) (P m c 1) :=
  (congrArg cur (layer1 m ρ c)).trans (cur_uncur _)

/-! ## Layer 2 -/

theorem z2 : (W9 m ρ c (Proc.devRef .tc main_v91) : S100000x128.Idx → EReal) = segK (m ((c : Thread nD τ).loc main_arg1)) (X2 m ρ c) := by
  rw [val_v91 m ρ c, keep_v1_8_1 m ρ c, val_v1 m ρ c, keep_v3_8_1 m ρ c, val_v3 m ρ c]
  rfl

theorem wr2 : cur (W9 m ρ c (Proc.devRef .tc main_v93) : S128x128.Idx → EReal) = wT (m ((c : Thread nD τ).loc main_arg4)) 2 := by
  rw [val_v93 m ρ c, keep_v4_8_1 m ρ c, val_v4 m ρ c]
  exact Cert.HostReads.weight_slice_2 _ _ _ _
theorem br2 : row1 (W9 m ρ c (Proc.devRef .tc main_v96) : S1x128.Idx → EReal) = rowOf (m ((c : Thread nD τ).loc main_arg5)) 2 := by
  rw [val_v96 m ρ c, keep_arg5_8_0 m ρ c]
  exact Cert.HostReads.param_row_2 _ _ _ _
theorem wl2 : cur (W9 m ρ c (Proc.devRef .tc main_v98) : S128x128.Idx → EReal) = wT (m ((c : Thread nD τ).loc main_arg2)) 2 := by
  rw [val_v98 m ρ c, keep_v5_8_1 m ρ c, val_v5 m ρ c]
  exact Cert.HostReads.weight_slice_2 _ _ _ _
theorem bl2 : row1 (W9 m ρ c (Proc.devRef .tc main_v101) : S1x128.Idx → EReal) = rowOf (m ((c : Thread nD τ).loc main_arg3)) 2 := by
  rw [val_v101 m ρ c, keep_arg3_8_0 m ρ c]
  exact Cert.HostReads.param_row_2 _ _ _ _
theorem ga2 : row1 (W9 m ρ c (Proc.devRef .tc main_v104) : S1x128.Idx → EReal) = rowOf (m ((c : Thread nD τ).loc main_arg6)) 2 := by
  rw [val_v104 m ρ c, keep_arg6_8_0 m ρ c]
  exact Cert.HostReads.param_row_2 _ _ _ _
theorem be2 : row1 (W9 m ρ c (Proc.devRef .tc main_v107) : S1x128.Idx → EReal) = rowOf (m ((c : Thread nD τ).loc main_arg7)) 2 := by
  rw [val_v107 m ρ c, keep_arg7_8_0 m ρ c]
  exact Cert.HostReads.param_row_2 _ _ _ _

/-- The hidden activations the statistics region sums are those of the layer's segment sum. -/
theorem hidden2 : Cert.KernelIdeal.Stats4.H (V9 m ρ) c = (hid (Sg m c (cur (X2 m ρ c))) (P m c 2).wr (P m c 2).br) :=
  (hid_congr (congrArg cur (z2 m ρ c)) (wr2 m ρ c) (br2 m ρ c)).trans
    (congrArg (fun z => hid z (P m c 2).wr (P m c 2).br) (S_cur _ _).symm)

/-- The two accumulated rows, by lane. -/
theorem sum2 : row1 (W10 m ρ c (Proc.devRef .tc main_v108_0) : S1x128.Idx → EReal) = colSum (Cert.KernelIdeal.Stats4.H (V9 m ρ) c) :=
  (congrArg row1 ((W10_arr m ρ c 3).trans (Cert.KernelIdeal.Stats4.final3 (V9 m ρ) c))).trans rfl
theorem sumsq2 : row1 (W10 m ρ c (Proc.devRef .tc main_v108_1) : S1x128.Idx → EReal) = colSumSq (Cert.KernelIdeal.Stats4.H (V9 m ρ) c) :=
  (congrArg row1 ((W10_arr m ρ c 4).trans (Cert.KernelIdeal.Stats4.final4 (V9 m ρ) c))).trans rfl

/-- The mean row. -/
theorem mu2 : row1 (W11 m ρ c (Proc.devRef .tc main_v110) : S1x128.Idx → EReal) = mean (hid (Sg m c (cur (X2 m ρ c))) (P m c 2).wr (P m c 2).br) :=
  (congrArg row1 (val_v110 m ρ c)).trans
    ((Cert.HostReads.host_mean_eq (Cert.KernelIdeal.Stats4.H (V9 m ρ) c) _ _ (sum2 m ρ c)).trans
      (congrArg mean (hidden2 m ρ c)))

/-- The clamped one-pass variance row. -/
theorem va2 : row1 (W11 m ρ c (Proc.devRef .tc main_v116) : S1x128.Idx → EReal) = varOne (hid (Sg m c (cur (X2 m ρ c))) (P m c 2).wr (P m c 2).br) :=
  (congrArg row1 (val_v116 m ρ c)).trans
    ((Cert.HostReads.host_varOne_eq (Cert.KernelIdeal.Stats4.H (V9 m ρ) c) _ _ _ (sum2 m ρ c) (sumsq2 m ρ c)).trans
      (congrArg varOne (hidden2 m ρ c)))

/-- The last region's output array: the head of the third layer. -/
theorem last : (W12 m ρ c (Proc.devRef .tc main_v117) : S100000x47.Idx → EReal)
    = uncur (headOf (layerOne (Sg m c) (cur (X2 m ρ c)) (P m c 2)) (tr (m ((c : Thread nD τ).loc main_arg8))) (vec (m ((c : Thread nD τ).loc main_arg9))) (tr (m ((c : Thread nD τ).loc main_arg10))) (vec (m ((c : Thread nD τ).loc main_arg11)))) :=
  ((W12_arr m ρ c 14).trans (Cert.KernelIdeal.Final5.final (V11 m ρ) c)).trans (congrArg uncur ((headOf_congr
    (hx := (layerOf_congr
    (h0 := (congrArg cur ((keep_v91_11_9 m ρ c).trans (z2 m ρ c))).trans (S_cur _ _).symm)
    (h1 := congrArg cur (keep_v81_11_8 m ρ c))
    (h2 := (congrArg cur (keep_v93_11_9 m ρ c)).trans (wr2 m ρ c))
    (h3 := (congrArg row1 (keep_v96_11_9 m ρ c)).trans (br2 m ρ c))
    (h4 := (congrArg cur (keep_v98_11_9 m ρ c)).trans (wl2 m ρ c))
    (h5 := (congrArg row1 (keep_v101_11_9 m ρ c)).trans (bl2 m ρ c))
    (h6 := (congrArg row1 (keep_v104_11_9 m ρ c)).trans (ga2 m ρ c))
    (h7 := (congrArg row1 (keep_v107_11_9 m ρ c)).trans (be2 m ρ c))
    (h8 := mu2 m ρ c)
    (h9 := va2 m ρ c)).trans rfl)
    (hw1 := (congrArg cur ((keep_v6_11_1 m ρ c).trans (val_v6 m ρ c))).trans (Cert.HostReads.head_matrix _ _))
    (hb1 := (congrArg row1 ((keep_v7_11_1 m ρ c).trans (val_v7 m ρ c))).trans (Cert.HostReads.head_bias _ _))
    (hw2 := (congrArg cur ((keep_v8_11_1 m ρ c).trans (val_v8 m ρ c))).trans (Cert.HostReads.head_matrix_47 _ _))
    (hb2 := (congrArg row1 ((keep_v9_11_1 m ρ c).trans (val_v9 m ρ c))).trans (Cert.HostReads.head_bias_47 _ _))).trans rfl))

/-- The result array of the idealized kernel: the network with the one-pass variance in every layer. -/
theorem result : (W12 m ρ c (Proc.devRef .tc main_v117) : S100000x47.Idx → EReal)
    = uncur (netOne (Sg m c) (cur (m ((c : Thread nD τ).loc main_arg0))) (P m c 0) (P m c 1) (P m c 2) (tr (m ((c : Thread nD τ).loc main_arg8))) (vec (m ((c : Thread nD τ).loc main_arg9))) (tr (m ((c : Thread nD τ).loc main_arg10))) (vec (m ((c : Thread nD τ).loc main_arg11)))) := by
  rw [last m ρ c, cur_X2 m ρ c, cur_X1 m ρ c]
  rfl

end Cert.KernelIdeal.Hand

end
-- ==== Proof.RefParams.lean ====
/-
  The reference program's parameter reads, entry by entry.

  Each layer slices its own 128 × 128 weight matrix out of a [3, 128, 128] array, drops the unit axis and transposes it,
  and slices its own row out of a [3, 128] array, drops the unit axis and spreads the row over all 100000 rows.
  Read at coordinates these are: entry (e, j) of layer l's transposed matrix is W[l, j, e]; entry (r, j) of layer l's
  spread row is B[l, j]. Also here: the types of the twelve argument arrays, and the segment sum of a feature matrix
  along the edge list, kept whole (which rows it adds depends on the edge values).
-/
import proofs.«140366_j72610717106485_2_alg».proof.Proof.RefReadP
import proofs.«140366_j72610717106485_2_alg».proof.Proof.Spec

noncomputable section

namespace Cert.RefNet

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The argument arrays' types. -/
abbrev TX := (⟨S100000x128, .f32⟩ : BufTy).Contents (Elt Ideal)
abbrev TE := (⟨S2x1600000, .i32⟩ : BufTy).Contents (Elt Ideal)
abbrev TW := (⟨S3x128x128, .f32⟩ : BufTy).Contents (Elt Ideal)
abbrev TB := (⟨S3x128, .f32⟩ : BufTy).Contents (Elt Ideal)
abbrev TW1 := (⟨S128x128, .f32⟩ : BufTy).Contents (Elt Ideal)
abbrev TB1 := (⟨S128, .f32⟩ : BufTy).Contents (Elt Ideal)
abbrev TW2 := (⟨S47x128, .f32⟩ : BufTy).Contents (Elt Ideal)
abbrev TB2 := (⟨S47, .f32⟩ : BufTy).Contents (Elt Ideal)

/-- The segment sum of the rows of X along the edge list E: row v of the result is the sum of the rows X[u] over the
    edges u → v, formed as the program forms it (gather the source rows, scatter-add them onto zero at the targets). -/
def segR (E : IVec Cert.ReferenceIdeal.S2x1600000 32) (X : FVec Ideal Cert.ReferenceIdeal.S100000x128 .f32) :
    FVec Ideal Cert.ReferenceIdeal.S100000x128 .f32 :=
  val_main_v13 (F := Ideal) X E

/-- The segment sum as a map of matrices read by coordinates. -/
def segS (E : TE) : Net.Mat 100000 128 → Net.Mat 100000 128 := fun M => Net.cur (segR E (Net.uncur M))

theorem segS_cur (E : TE) (X : TX) :
    segS E (Net.cur (a := 100000) (b := 128) X) = Net.cur (a := 100000) (b := 128) (segR E X) := by
  unfold segS
  rewrite [Net.uncur_cur]
  rfl

/-- Layer 0's transposed right weight at (e, j) is Wr[0, j, e]. -/
theorem wr0 (x4 : TW) (e j : Fin 128) :
    val_main_v16 (F := Ideal) x4 (ix2 e j) = x4 (ix3 (0 : Fin 3) j e) := by
  rewrite [val_main_v16_apply, val_main_v15_apply, val_main_v14_apply]
  refine congrArg x4 (funext fun a => Fin.ext ?_)
  have he := e.isLt
  have hj := j.isLt
  match a with
  | ⟨0, _⟩ => rfl
  | ⟨1, _⟩ => show (j.val * 128 + e.val) / 128 % 128 = j.val; omega
  | ⟨2, _⟩ => show (j.val * 128 + e.val) % 128 = e.val; omega

/-- Layer 0's right bias, spread over the rows, at (r, j) is br[0, j]. -/
theorem br0 (x5 : TB) (r : Fin 100000) (j : Fin 128) :
    val_main_v21 (F := Ideal) x5 (ix2 r j) = x5 (ix2 (0 : Fin 3) j) := by
  rewrite [val_main_v21_apply, val_main_v20_apply, val_main_v19_apply, val_main_v18_apply]
  refine congrArg x5 (funext fun a => Fin.ext ?_)
  have hj := j.isLt
  match a with
  | ⟨0, _⟩ => rfl
  | ⟨1, _⟩ => show j.val % 128 = j.val; omega

/-- Layer 0's scale, spread over the rows, at (r, j) is gamma[0, j]. -/
theorem ga0 (x6 : TB) (r : Fin 100000) (j : Fin 128) :
    val_main_v46 (F := Ideal) x6 (ix2 r j) = x6 (ix2 (0 : Fin 3) j) := by
  rewrite [val_main_v46_apply, val_main_v45_apply, val_main_v44_apply, val_main_v43_apply]
  refine congrArg x6 (funext fun a => Fin.ext ?_)
  have hj := j.isLt
  match a with
  | ⟨0, _⟩ => rfl
  | ⟨1, _⟩ => show j.val % 128 = j.val; omega

/-- Layer 0's shift, spread over the rows, at (r, j) is beta[0, j]. -/
theorem be0 (x7 : TB) (r : Fin 100000) (j : Fin 128) :
    val_main_v51 (F := Ideal) x7 (ix2 r j) = x7 (ix2 (0 : Fin 3) j) := by
  rewrite [val_main_v51_apply, val_main_v50_apply, val_main_v49_apply, val_main_v48_apply]
  refine congrArg x7 (funext fun a => Fin.ext ?_)
  have hj := j.isLt
  match a with
  | ⟨0, _⟩ => rfl
  | ⟨1, _⟩ => show j.val % 128 = j.val; omega

/-- Layer 0's transposed left weight at (e, j) is Wl[0, j, e]. -/
theorem wl0 (x2 : TW) (e j : Fin 128) :
    val_main_v55 (F := Ideal) x2 (ix2 e j) = x2 (ix3 (0 : Fin 3) j e) := by
  rewrite [val_main_v55_apply, val_main_v54_apply, val_main_v53_apply]
  refine congrArg x2 (funext fun a => Fin.ext ?_)
  have he := e.isLt
  have hj := j.isLt
  match a with
  | ⟨0, _⟩ => rfl
  | ⟨1, _⟩ => show (j.val * 128 + e.val) / 128 % 128 = j.val; omega
  | ⟨2, _⟩ => show (j.val * 128 + e.val) % 128 = e.val; omega

/-- Layer 0's left bias, spread over the rows, at (r, j) is bl[0, j]. -/
theorem bl0 (x3 : TB) (r : Fin 100000) (j : Fin 128) :
    val_main_v60 (F := Ideal) x3 (ix2 r j) = x3 (ix2 (0 : Fin 3) j) := by
  rewrite [val_main_v60_apply, val_main_v59_apply, val_main_v58_apply, val_main_v57_apply]
  refine congrArg x3 (funext fun a => Fin.ext ?_)
  have hj := j.isLt
  match a with
  | ⟨0, _⟩ => rfl
  | ⟨1, _⟩ => show j.val % 128 = j.val; omega

/-- Layer 1's transposed right weight at (e, j) is Wr[1, j, e]. -/
theorem wr1 (x4 : TW) (e j : Fin 128) :
    val_main_v85 (F := Ideal) x4 (ix2 e j) = x4 (ix3 (1 : Fin 3) j e) := by
  rewrite [val_main_v85_apply, val_main_v84_apply, val_main_v83_apply]
  refine congrArg x4 (funext fun a => Fin.ext ?_)
  have he := e.isLt
  have hj := j.isLt
  match a with
  | ⟨0, _⟩ => rfl
  | ⟨1, _⟩ => show (j.val * 128 + e.val) / 128 % 128 = j.val; omega
  | ⟨2, _⟩ => show (j.val * 128 + e.val) % 128 = e.val; omega

/-- Layer 1's right bias, spread over the rows, at (r, j) is br[1, j]. -/
theorem br1 (x5 : TB) (r : Fin 100000) (j : Fin 128) :
    val_main_v90 (F := Ideal) x5 (ix2 r j) = x5 (ix2 (1 : Fin 3) j) := by
  rewrite [val_main_v90_apply, val_main_v89_apply, val_main_v88_apply, val_main_v87_apply]
  refine congrArg x5 (funext fun a => Fin.ext ?_)
  have hj := j.isLt
  match a with
  | ⟨0, _⟩ => rfl
  | ⟨1, _⟩ => show j.val % 128 = j.val; omega

/-- Layer 1's scale, spread over the rows, at (r, j) is gamma[1, j]. -/
theorem ga1 (x6 : TB) (r : Fin 100000) (j : Fin 128) :
    val_main_v115 (F := Ideal) x6 (ix2 r j) = x6 (ix2 (1 : Fin 3) j) := by
  rewrite [val_main_v115_apply, val_main_v114_apply, val_main_v113_apply, val_main_v112_apply]
  refine congrArg x6 (funext fun a => Fin.ext ?_)
  have hj := j.isLt
  match a with
  | ⟨0, _⟩ => rfl
  | ⟨1, _⟩ => show j.val % 128 = j.val; omega

/-- Layer 1's shift, spread over the rows, at (r, j) is beta[1, j]. -/
theorem be1 (x7 : TB) (r : Fin 100000) (j : Fin 128) :
    val_main_v120 (F := Ideal) x7 (ix2 r j) = x7 (ix2 (1 : Fin 3) j) := by
  rewrite [val_main_v120_apply, val_main_v119_apply, val_main_v118_apply, val_main_v117_apply]
  refine congrArg x7 (funext fun a => Fin.ext ?_)
  have hj := j.isLt
  match a with
  | ⟨0, _⟩ => rfl
  | ⟨1, _⟩ => show j.val % 128 = j.val; omega

/-- Layer 1's transposed left weight at (e, j) is Wl[1, j, e]. -/
theorem wl1 (x2 : TW) (e j : Fin 128) :
    val_main_v124 (F := Ideal) x2 (ix2 e j) = x2 (ix3 (1 : Fin 3) j e) := by
  rewrite [val_main_v124_apply, val_main_v123_apply, val_main_v122_apply]
  refine congrArg x2 (funext fun a => Fin.ext ?_)
  have he := e.isLt
  have hj := j.isLt
  match a with
  | ⟨0, _⟩ => rfl
  | ⟨1, _⟩ => show (j.val * 128 + e.val) / 128 % 128 = j.val; omega
  | ⟨2, _⟩ => show (j.val * 128 + e.val) % 128 = e.val; omega

/-- Layer 1's left bias, spread over the rows, at (r, j) is bl[1, j]. -/
theorem bl1 (x3 : TB) (r : Fin 100000) (j : Fin 128) :
    val_main_v129 (F := Ideal) x3 (ix2 r j) = x3 (ix2 (1 : Fin 3) j) := by
  rewrite [val_main_v129_apply, val_main_v128_apply, val_main_v127_apply, val_main_v126_apply]
  refine congrArg x3 (funext fun a => Fin.ext ?_)
  have hj := j.isLt
  match a with
  | ⟨0, _⟩ => rfl
  | ⟨1, _⟩ => show j.val % 128 = j.val; omega

/-- Layer 2's transposed right weight at (e, j) is Wr[2, j, e]. -/
theorem wr2 (x4 : TW) (e j : Fin 128) :
    val_main_v154 (F := Ideal) x4 (ix2 e j) = x4 (ix3 (2 : Fin 3) j e) := by
  rewrite [val_main_v154_apply, val_main_v153_apply, val_main_v152_apply]
  refine congrArg x4 (funext fun a => Fin.ext ?_)
  have he := e.isLt
  have hj := j.isLt
  match a with
  | ⟨0, _⟩ => rfl
  | ⟨1, _⟩ => show (j.val * 128 + e.val) / 128 % 128 = j.val; omega
  | ⟨2, _⟩ => show (j.val * 128 + e.val) % 128 = e.val; omega

/-- Layer 2's right bias, spread over the rows, at (r, j) is br[2, j]. -/
theorem br2 (x5 : TB) (r : Fin 100000) (j : Fin 128) :
    val_main_v159 (F := Ideal) x5 (ix2 r j) = x5 (ix2 (2 : Fin 3) j) := by
  rewrite [val_main_v159_apply, val_main_v158_apply, val_main_v157_apply, val_main_v156_apply]
  refine congrArg x5 (funext fun a => Fin.ext ?_)
  have hj := j.isLt
  match a with
  | ⟨0, _⟩ => rfl
  | ⟨1, _⟩ => show j.val % 128 = j.val; omega

/-- Layer 2's scale, spread over the rows, at (r, j) is gamma[2, j]. -/
theorem ga2 (x6 : TB) (r : Fin 100000) (j : Fin 128) :
    val_main_v184 (F := Ideal) x6 (ix2 r j) = x6 (ix2 (2 : Fin 3) j) := by
  rewrite [val_main_v184_apply, val_main_v183_apply, val_main_v182_apply, val_main_v181_apply]
  refine congrArg x6 (funext fun a => Fin.ext ?_)
  have hj := j.isLt
  match a with
  | ⟨0, _⟩ => rfl
  | ⟨1, _⟩ => show j.val % 128 = j.val; omega

/-- Layer 2's shift, spread over the rows, at (r, j) is beta[2, j]. -/
theorem be2 (x7 : TB) (r : Fin 100000) (j : Fin 128) :
    val_main_v189 (F := Ideal) x7 (ix2 r j) = x7 (ix2 (2 : Fin 3) j) := by
  rewrite [val_main_v189_apply, val_main_v188_apply, val_main_v187_apply, val_main_v186_apply]
  refine congrArg x7 (funext fun a => Fin.ext ?_)
  have hj := j.isLt
  match a with
  | ⟨0, _⟩ => rfl
  | ⟨1, _⟩ => show j.val % 128 = j.val; omega

/-- Layer 2's transposed left weight at (e, j) is Wl[2, j, e]. -/
theorem wl2 (x2 : TW) (e j : Fin 128) :
    val_main_v193 (F := Ideal) x2 (ix2 e j) = x2 (ix3 (2 : Fin 3) j e) := by
  rewrite [val_main_v193_apply, val_main_v192_apply, val_main_v191_apply]
  refine congrArg x2 (funext fun a => Fin.ext ?_)
  have he := e.isLt
  have hj := j.isLt
  match a with
  | ⟨0, _⟩ => rfl
  | ⟨1, _⟩ => show (j.val * 128 + e.val) / 128 % 128 = j.val; omega
  | ⟨2, _⟩ => show (j.val * 128 + e.val) % 128 = e.val; omega

/-- Layer 2's left bias, spread over the rows, at (r, j) is bl[2, j]. -/
theorem bl2 (x3 : TB) (r : Fin 100000) (j : Fin 128) :
    val_main_v198 (F := Ideal) x3 (ix2 r j) = x3 (ix2 (2 : Fin 3) j) := by
  rewrite [val_main_v198_apply, val_main_v197_apply, val_main_v196_apply, val_main_v195_apply]
  refine congrArg x3 (funext fun a => Fin.ext ?_)
  have hj := j.isLt
  match a with
  | ⟨0, _⟩ => rfl
  | ⟨1, _⟩ => show j.val % 128 = j.val; omega

end Cert.RefNet

end
-- ==== Proof.RefLayer0.lean ====
/-
  Layer 0 of the reference program (operations %14–%72), read entry by entry.

  Z is the segment sum the layer starts from and X the matrix the layer is applied to, both kept as the arrays the
  program holds. The hidden activations h = max (Z·Wrᵀ + br) 0, their column mean μ = (Σ_r h)/n and the two-pass
  variance v = (Σ_r (h − μ)²)/n, the sum o = (X·Wlᵀ + bl) + ((((h − μ)·rsqrt (v + ε))·γ + β) + Z), and each row of
  o divided by max ‖row‖₂ ε′ and clamped at 0. Every step is the program's own operation read at coordinates;
  the sums that start from the zero word start from 0.
-/
import proofs.«140366_j72610717106485_2_alg».proof.Proof.RefParams

noncomputable section

namespace Cert.RefNet

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Index equations: the program's composed index maps at coordinates -/

theorem zl_0 (r : Fin 100000) (j k : Fin 128) : lidx_main_v17 (ix2 r j) k = ix2 r k :=
  funext fun a => Fin.ext (by match a with | ⟨0, _⟩ => rfl | ⟨1, _⟩ => rfl)

theorem zr_0 (r : Fin 100000) (j k : Fin 128) : ridx_main_v17 (ix2 r j) k = ix2 k j :=
  funext fun a => Fin.ext (by match a with | ⟨0, _⟩ => rfl | ⟨1, _⟩ => rfl)

theorem ixSum_0 (j : Fin 128) (k : Fin 100000) : idx_main_v24 (ix1 j) k = ix2 k j :=
  funext fun a => Fin.ext (by match a with | ⟨0, _⟩ => rfl | ⟨1, _⟩ => rfl)

theorem ixMu_0 (r : Fin 100000) (j : Fin 128) : idx_main_v27 (idx_main_v28 (ix2 r j)) = ix1 j :=
  funext fun a => Fin.ext (by match a with | ⟨0, _⟩ => rfl)

theorem ixSq_0 (j : Fin 128) (k : Fin 100000) : idx_main_v31 (ix1 j) k = ix2 k j :=
  funext fun a => Fin.ext (by match a with | ⟨0, _⟩ => rfl | ⟨1, _⟩ => rfl)

theorem ixMuB_0 (r : Fin 100000) (j : Fin 128) : idx_main_v34 (idx_main_v35 (ix2 r j)) = ix1 j :=
  funext fun a => Fin.ext (by match a with | ⟨0, _⟩ => rfl)

theorem ixRs_0 (r : Fin 100000) (j : Fin 128) : idx_main_v40 (idx_main_v41 (ix2 r j)) = ix1 j :=
  funext fun a => Fin.ext (by match a with | ⟨0, _⟩ => rfl)

theorem xl_0 (r : Fin 100000) (j k : Fin 128) : lidx_main_v56 (ix2 r j) k = ix2 r k :=
  funext fun a => Fin.ext (by match a with | ⟨0, _⟩ => rfl | ⟨1, _⟩ => rfl)

theorem xr_0 (r : Fin 100000) (j k : Fin 128) : ridx_main_v56 (ix2 r j) k = ix2 k j :=
  funext fun a => Fin.ext (by match a with | ⟨0, _⟩ => rfl | ⟨1, _⟩ => rfl)

theorem ixRow_0 (r : Fin 100000) (k : Fin 128) : idx_main_v65 (ix1 r) k = ix2 r k :=
  funext fun a => Fin.ext (by match a with | ⟨0, _⟩ => rfl | ⟨1, _⟩ => rfl)

theorem ixCol_0 (r : Fin 100000) : idx_main_v66 (ix2 r (0 : Fin 1)) = ix1 r :=
  funext fun a => Fin.ext (by match a with | ⟨0, _⟩ => rfl)

theorem ixKeep_0 (r : Fin 100000) (j : Fin 128) : idx_main_v70 (ix2 r j) = ix2 r (0 : Fin 1) :=
  funext fun a => Fin.ext (by match a with | ⟨0, _⟩ => rfl | ⟨1, _⟩ => rfl)

/-! ## The hidden activations -/

/-- Z·Wrᵀ at (r, j). -/
theorem dotZ_0 (x0 : TX) (x1 : TE) (x4 : TW) (r : Fin 100000) (j : Fin 128) :
    (val_main_v17 (F := Ideal) x0 x1 x4) (ix2 r j) = ∑ e : Fin 128, (val_main_v13 (F := Ideal) x0 x1) (ix2 r e) * x4 (ix3 (0 : Fin 3) j e) := by
  rewrite [val_main_v17_apply]
  refine Finset.sum_congr rfl fun k _ => ?_
  rewrite [zl_0, zr_0, wr0]
  rfl

/-- h = max (Z·Wrᵀ + br) 0 at (r, j). -/
theorem hid_0 (x0 : TX) (x1 : TE) (x4 : TW) (x5 : TB) (r : Fin 100000) (j : Fin 128) :
    (val_main_v23 (F := Ideal) x0 x1 x4 x5) (ix2 r j) = Net.hid (Net.cur (a := 100000) (b := 128) (val_main_v13 (F := Ideal) x0 x1)) (Net.wT x4 0) (Net.rowOf x5 0) r j := by
  rewrite [val_main_v23_apply, val_main_v22_apply, dotZ_0, br0, val_main_call0_v0_apply, val_main_call0_cst_apply]
  rfl

/-! ## The column mean -/

/-- Σ_r h at column j. -/
theorem colsum_0 (x0 : TX) (x1 : TE) (x4 : TW) (x5 : TB) (j : Fin 128) :
    (val_main_v24 (F := Ideal) x0 x1 x4 x5) (ix1 j) = ∑ r : Fin 100000, (val_main_v23 (F := Ideal) x0 x1 x4 x5) (ix2 r j) := by
  rewrite [val_main_v24_apply, val_main_cst_1_apply]
  show Ideal.ofBits .f32 0x00000000#32 + _ = _
  rewrite [Ideal.ofBits_zero_f32, zero_add]
  refine Finset.sum_congr rfl fun k _ => ?_
  rewrite [ixSum_0]
  rfl

/-- μ = (Σ_r h)/n at column j. -/
theorem mean_0 (x0 : TX) (x1 : TE) (x4 : TW) (x5 : TB) (j : Fin 128) :
    (val_main_v26 (F := Ideal) x0 x1 x4 x5) (ix1 j) = Net.mean (Net.cur (a := 100000) (b := 128) (val_main_v23 (F := Ideal) x0 x1 x4 x5)) j := by
  rewrite [val_main_v26_apply, colsum_0, val_main_v25_apply, val_main_cst_2_apply]
  rfl

/-! ## The two-pass variance -/

/-- h − μ at (r, j), the mean spread over the rows. -/
theorem sub_0 (x0 : TX) (x1 : TE) (x4 : TW) (x5 : TB) (r : Fin 100000) (j : Fin 128) :
    (val_main_v29 (F := Ideal) x0 x1 x4 x5) (ix2 r j) = (val_main_v23 (F := Ideal) x0 x1 x4 x5) (ix2 r j) - (val_main_v26 (F := Ideal) x0 x1 x4 x5) (ix1 j) := by
  rewrite [val_main_v29_apply, val_main_v28_apply, val_main_v27_apply, ixMu_0]
  rfl

/-- Σ_r (h − μ)² at column j. -/
theorem sqsum_0 (x0 : TX) (x1 : TE) (x4 : TW) (x5 : TB) (j : Fin 128) :
    (val_main_v31 (F := Ideal) x0 x1 x4 x5) (ix1 j) = ∑ r : Fin 100000, ((val_main_v23 (F := Ideal) x0 x1 x4 x5) (ix2 r j) - (val_main_v26 (F := Ideal) x0 x1 x4 x5) (ix1 j)) * ((val_main_v23 (F := Ideal) x0 x1 x4 x5) (ix2 r j) - (val_main_v26 (F := Ideal) x0 x1 x4 x5) (ix1 j)) := by
  rewrite [val_main_v31_apply, val_main_cst_3_apply]
  show Ideal.ofBits .f32 0x00000000#32 + _ = _
  rewrite [Ideal.ofBits_zero_f32, zero_add]
  refine Finset.sum_congr rfl fun k _ => ?_
  rewrite [ixSq_0, val_main_v30_apply, sub_0]
  rfl

/-- v = (Σ_r (h − μ)²)/n at column j. -/
theorem var_0 (x0 : TX) (x1 : TE) (x4 : TW) (x5 : TB) (j : Fin 128) :
    (val_main_v33 (F := Ideal) x0 x1 x4 x5) (ix1 j) = Net.varTwo (Net.cur (a := 100000) (b := 128) (val_main_v23 (F := Ideal) x0 x1 x4 x5)) j := by
  rewrite [val_main_v33_apply, sqsum_0, val_main_v32_apply, val_main_cst_4_apply, mean_0]
  rfl

/-! ## The sum before the row normalisation -/

/-- X·Wlᵀ at (r, j). -/
theorem dotX_0 (x0 : TX) (x2 : TW) (r : Fin 100000) (j : Fin 128) :
    (val_main_v56 (F := Ideal) x0 x2) (ix2 r j) = ∑ e : Fin 128, x0 (ix2 r e) * x2 (ix3 (0 : Fin 3) j e) := by
  rewrite [val_main_v56_apply]
  refine Finset.sum_congr rfl fun k _ => ?_
  rewrite [xl_0, xr_0, wl0]
  rfl

/-- o = (X·Wlᵀ + bl) + ((((h − μ)·rsqrt (v + ε))·γ + β) + Z) at (r, j). -/
theorem pre_0 (x0 : TX) (x1 : TE) (x2 : TW) (x3 : TB) (x4 : TW) (x5 : TB) (x6 : TB) (x7 : TB) (r : Fin 100000) (j : Fin 128) :
    (val_main_v63 (F := Ideal) x0 x1 x2 x3 x4 x5 x6 x7) (ix2 r j)
      = Net.pre (Net.cur (a := 100000) (b := 128) (val_main_v13 (F := Ideal) x0 x1)) (Net.cur (a := 100000) (b := 128) x0) (Net.wT x4 0) (Net.rowOf x5 0) (Net.wT x2 0) (Net.rowOf x3 0) (Net.rowOf x6 0) (Net.rowOf x7 0)
          (Net.mean (Net.cur (a := 100000) (b := 128) (val_main_v23 (F := Ideal) x0 x1 x4 x5))) (Net.varTwo (Net.cur (a := 100000) (b := 128) (val_main_v23 (F := Ideal) x0 x1 x4 x5))) r j := by
  rewrite [val_main_v63_apply, val_main_v61_apply, dotX_0, bl0, val_main_v62_apply, val_main_v52_apply, val_main_v47_apply, val_main_v42_apply, val_main_v36_apply, val_main_v35_apply, val_main_v34_apply, ixMuB_0,
    val_main_v41_apply, val_main_v40_apply, ixRs_0, val_main_v39_apply, val_main_v38_apply, val_main_v37_apply, val_main_cst_5_apply, ga0, be0, hid_0, mean_0, var_0]
  rfl

/-! ## The row normalisation and the clamp -/

/-- Σ_q o² along row r. -/
theorem rowsq_0 (x0 : TX) (x1 : TE) (x2 : TW) (x3 : TB) (x4 : TW) (x5 : TB) (x6 : TB) (x7 : TB) (r : Fin 100000) :
    (val_main_v65 (F := Ideal) x0 x1 x2 x3 x4 x5 x6 x7) (ix1 r) = ∑ q : Fin 128, (val_main_v63 (F := Ideal) x0 x1 x2 x3 x4 x5 x6 x7) (ix2 r q) * (val_main_v63 (F := Ideal) x0 x1 x2 x3 x4 x5 x6 x7) (ix2 r q) := by
  rewrite [val_main_v65_apply, val_main_cst_6_apply]
  show Ideal.ofBits .f32 0x00000000#32 + _ = _
  rewrite [Ideal.ofBits_zero_f32, zero_add]
  refine Finset.sum_congr rfl fun k _ => ?_
  rewrite [ixRow_0, val_main_v64_apply]
  rfl

/-- max (o / max ‖row‖₂ ε′) 0 at (r, j). -/
theorem norm_0 (x0 : TX) (x1 : TE) (x2 : TW) (x3 : TB) (x4 : TW) (x5 : TB) (x6 : TB) (x7 : TB) (r : Fin 100000) (j : Fin 128) :
    (val_main_v72 (F := Ideal) x0 x1 x2 x3 x4 x5 x6 x7) (ix2 r j) = Net.normRelu (Net.cur (a := 100000) (b := 128) (val_main_v63 (F := Ideal) x0 x1 x2 x3 x4 x5 x6 x7)) r j := by
  rewrite [val_main_v72_apply, val_main_v71_apply, val_main_v70_apply, ixKeep_0, val_main_v69_apply, val_main_v67_apply, val_main_v66_apply, ixCol_0, rowsq_0, val_main_v68_apply, val_main_cst_7_apply,
    val_main_call1_v0_apply, val_main_call1_cst_apply]
  unfold Net.normRelu Net.cur
  simp only [Ideal.maximumf_def, Ideal.hostDivf_def, Ideal.hostUnary_sqrt_def, Ideal.ofBits_def]

/-! ## The layer -/

/-- The layer's output is the specification's two-pass layer applied to X, with the segment sum as the map S. -/
theorem layer_0 (x0 : TX) (x1 : TE) (x2 : TW) (x3 : TB) (x4 : TW) (x5 : TB) (x6 : TB) (x7 : TB) :
    (Net.cur (a := 100000) (b := 128) (val_main_v72 (F := Ideal) x0 x1 x2 x3 x4 x5 x6 x7)) = Net.layerTwo (segS x1) (Net.cur (a := 100000) (b := 128) x0) (Net.layerW x2 x3 x4 x5 x6 x7 0) := by
  have hH : (Net.cur (a := 100000) (b := 128) (val_main_v23 (F := Ideal) x0 x1 x4 x5)) = Net.hid (Net.cur (a := 100000) (b := 128) (val_main_v13 (F := Ideal) x0 x1)) (Net.wT x4 0) (Net.rowOf x5 0) :=
    funext fun r => funext fun j => hid_0 x0 x1 x4 x5 r j
  have hP : (Net.cur (a := 100000) (b := 128) (val_main_v63 (F := Ideal) x0 x1 x2 x3 x4 x5 x6 x7)) = Net.pre (Net.cur (a := 100000) (b := 128) (val_main_v13 (F := Ideal) x0 x1)) (Net.cur (a := 100000) (b := 128) x0) (Net.wT x4 0) (Net.rowOf x5 0) (Net.wT x2 0) (Net.rowOf x3 0) (Net.rowOf x6 0) (Net.rowOf x7 0)
      (Net.mean (Net.cur (a := 100000) (b := 128) (val_main_v23 (F := Ideal) x0 x1 x4 x5))) (Net.varTwo (Net.cur (a := 100000) (b := 128) (val_main_v23 (F := Ideal) x0 x1 x4 x5))) :=
    funext fun r => funext fun j => pre_0 x0 x1 x2 x3 x4 x5 x6 x7 r j
  have hN : (Net.cur (a := 100000) (b := 128) (val_main_v72 (F := Ideal) x0 x1 x2 x3 x4 x5 x6 x7)) = Net.normRelu (Net.cur (a := 100000) (b := 128) (val_main_v63 (F := Ideal) x0 x1 x2 x3 x4 x5 x6 x7)) :=
    funext fun r => funext fun j => norm_0 x0 x1 x2 x3 x4 x5 x6 x7 r j
  have hS : segS x1 (Net.cur (a := 100000) (b := 128) x0) = (Net.cur (a := 100000) (b := 128) (val_main_v13 (F := Ideal) x0 x1)) := segS_cur x1 x0
  rewrite [hN, hP, hH]
  unfold Net.layerTwo Net.layerOf
  rewrite [hS]
  rfl

end Cert.RefNet

end
-- ==== Proof.RefLayer1.lean ====
/-
  Layer 1 of the reference program (operations %83–%141), read entry by entry.

  Z is the segment sum the layer starts from and X the matrix the layer is applied to, both kept as the arrays the
  program holds. The hidden activations h = max (Z·Wrᵀ + br) 0, their column mean μ = (Σ_r h)/n and the two-pass
  variance v = (Σ_r (h − μ)²)/n, the sum o = (X·Wlᵀ + bl) + ((((h − μ)·rsqrt (v + ε))·γ + β) + Z), and each row of
  o divided by max ‖row‖₂ ε′ and clamped at 0. Every step is the program's own operation read at coordinates;
  the sums that start from the zero word start from 0.
-/
import proofs.«140366_j72610717106485_2_alg».proof.Proof.RefParams

noncomputable section

namespace Cert.RefNet

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Index equations: the program's composed index maps at coordinates -/

theorem zl_1 (r : Fin 100000) (j k : Fin 128) : lidx_main_v86 (ix2 r j) k = ix2 r k :=
  funext fun a => Fin.ext (by match a with | ⟨0, _⟩ => rfl | ⟨1, _⟩ => rfl)

theorem zr_1 (r : Fin 100000) (j k : Fin 128) : ridx_main_v86 (ix2 r j) k = ix2 k j :=
  funext fun a => Fin.ext (by match a with | ⟨0, _⟩ => rfl | ⟨1, _⟩ => rfl)

theorem ixSum_1 (j : Fin 128) (k : Fin 100000) : idx_main_v93 (ix1 j) k = ix2 k j :=
  funext fun a => Fin.ext (by match a with | ⟨0, _⟩ => rfl | ⟨1, _⟩ => rfl)

theorem ixMu_1 (r : Fin 100000) (j : Fin 128) : idx_main_v96 (idx_main_v97 (ix2 r j)) = ix1 j :=
  funext fun a => Fin.ext (by match a with | ⟨0, _⟩ => rfl)

theorem ixSq_1 (j : Fin 128) (k : Fin 100000) : idx_main_v100 (ix1 j) k = ix2 k j :=
  funext fun a => Fin.ext (by match a with | ⟨0, _⟩ => rfl | ⟨1, _⟩ => rfl)

theorem ixMuB_1 (r : Fin 100000) (j : Fin 128) : idx_main_v103 (idx_main_v104 (ix2 r j)) = ix1 j :=
  funext fun a => Fin.ext (by match a with | ⟨0, _⟩ => rfl)

theorem ixRs_1 (r : Fin 100000) (j : Fin 128) : idx_main_v109 (idx_main_v110 (ix2 r j)) = ix1 j :=
  funext fun a => Fin.ext (by match a with | ⟨0, _⟩ => rfl)

theorem xl_1 (r : Fin 100000) (j k : Fin 128) : lidx_main_v125 (ix2 r j) k = ix2 r k :=
  funext fun a => Fin.ext (by match a with | ⟨0, _⟩ => rfl | ⟨1, _⟩ => rfl)

theorem xr_1 (r : Fin 100000) (j k : Fin 128) : ridx_main_v125 (ix2 r j) k = ix2 k j :=
  funext fun a => Fin.ext (by match a with | ⟨0, _⟩ => rfl | ⟨1, _⟩ => rfl)

theorem ixRow_1 (r : Fin 100000) (k : Fin 128) : idx_main_v134 (ix1 r) k = ix2 r k :=
  funext fun a => Fin.ext (by match a with | ⟨0, _⟩ => rfl | ⟨1, _⟩ => rfl)

theorem ixCol_1 (r : Fin 100000) : idx_main_v135 (ix2 r (0 : Fin 1)) = ix1 r :=
  funext fun a => Fin.ext (by match a with | ⟨0, _⟩ => rfl)

theorem ixKeep_1 (r : Fin 100000) (j : Fin 128) : idx_main_v139 (ix2 r j) = ix2 r (0 : Fin 1) :=
  funext fun a => Fin.ext (by match a with | ⟨0, _⟩ => rfl | ⟨1, _⟩ => rfl)

/-! ## The hidden activations -/

/-- Z·Wrᵀ at (r, j). -/
theorem dotZ_1 (x0 : TX) (x1 : TE) (x2 : TW) (x3 : TB) (x4 : TW) (x5 : TB) (x6 : TB) (x7 : TB) (r : Fin 100000) (j : Fin 128) :
    (val_main_v86 (F := Ideal) x0 x1 x2 x3 x4 x5 x6 x7) (ix2 r j) = ∑ e : Fin 128, (val_main_v82 (F := Ideal) x0 x1 x2 x3 x4 x5 x6 x7) (ix2 r e) * x4 (ix3 (1 : Fin 3) j e) := by
  rewrite [val_main_v86_apply]
  refine Finset.sum_congr rfl fun k _ => ?_
  rewrite [zl_1, zr_1, wr1]
  rfl

/-- h = max (Z·Wrᵀ + br) 0 at (r, j). -/
theorem hid_1 (x0 : TX) (x1 : TE) (x2 : TW) (x3 : TB) (x4 : TW) (x5 : TB) (x6 : TB) (x7 : TB) (r : Fin 100000) (j : Fin 128) :
    (val_main_v92 (F := Ideal) x0 x1 x2 x3 x4 x5 x6 x7) (ix2 r j) = Net.hid (Net.cur (a := 100000) (b := 128) (val_main_v82 (F := Ideal) x0 x1 x2 x3 x4 x5 x6 x7)) (Net.wT x4 1) (Net.rowOf x5 1) r j := by
  rewrite [val_main_v92_apply, val_main_v91_apply, dotZ_1, br1, val_main_call2_v0_apply, val_main_call2_cst_apply]
  rfl

/-! ## The column mean -/

/-- Σ_r h at column j. -/
theorem colsum_1 (x0 : TX) (x1 : TE) (x2 : TW) (x3 : TB) (x4 : TW) (x5 : TB) (x6 : TB) (x7 : TB) (j : Fin 128) :
    (val_main_v93 (F := Ideal) x0 x1 x2 x3 x4 x5 x6 x7) (ix1 j) = ∑ r : Fin 100000, (val_main_v92 (F := Ideal) x0 x1 x2 x3 x4 x5 x6 x7) (ix2 r j) := by
  rewrite [val_main_v93_apply, val_main_cst_11_apply]
  show Ideal.ofBits .f32 0x00000000#32 + _ = _
  rewrite [Ideal.ofBits_zero_f32, zero_add]
  refine Finset.sum_congr rfl fun k _ => ?_
  rewrite [ixSum_1]
  rfl

/-- μ = (Σ_r h)/n at column j. -/
theorem mean_1 (x0 : TX) (x1 : TE) (x2 : TW) (x3 : TB) (x4 : TW) (x5 : TB) (x6 : TB) (x7 : TB) (j : Fin 128) :
    (val_main_v95 (F := Ideal) x0 x1 x2 x3 x4 x5 x6 x7) (ix1 j) = Net.mean (Net.cur (a := 100000) (b := 128) (val_main_v92 (F := Ideal) x0 x1 x2 x3 x4 x5 x6 x7)) j := by
  rewrite [val_main_v95_apply, colsum_1, val_main_v94_apply, val_main_cst_12_apply]
  rfl

/-! ## The two-pass variance -/

/-- h − μ at (r, j), the mean spread over the rows. -/
theorem sub_1 (x0 : TX) (x1 : TE) (x2 : TW) (x3 : TB) (x4 : TW) (x5 : TB) (x6 : TB) (x7 : TB) (r : Fin 100000) (j : Fin 128) :
    (val_main_v98 (F := Ideal) x0 x1 x2 x3 x4 x5 x6 x7) (ix2 r j) = (val_main_v92 (F := Ideal) x0 x1 x2 x3 x4 x5 x6 x7) (ix2 r j) - (val_main_v95 (F := Ideal) x0 x1 x2 x3 x4 x5 x6 x7) (ix1 j) := by
  rewrite [val_main_v98_apply, val_main_v97_apply, val_main_v96_apply, ixMu_1]
  rfl

/-- Σ_r (h − μ)² at column j. -/
theorem sqsum_1 (x0 : TX) (x1 : TE) (x2 : TW) (x3 : TB) (x4 : TW) (x5 : TB) (x6 : TB) (x7 : TB) (j : Fin 128) :
    (val_main_v100 (F := Ideal) x0 x1 x2 x3 x4 x5 x6 x7) (ix1 j) = ∑ r : Fin 100000, ((val_main_v92 (F := Ideal) x0 x1 x2 x3 x4 x5 x6 x7) (ix2 r j) - (val_main_v95 (F := Ideal) x0 x1 x2 x3 x4 x5 x6 x7) (ix1 j)) * ((val_main_v92 (F := Ideal) x0 x1 x2 x3 x4 x5 x6 x7) (ix2 r j) - (val_main_v95 (F := Ideal) x0 x1 x2 x3 x4 x5 x6 x7) (ix1 j)) := by
  rewrite [val_main_v100_apply, val_main_cst_13_apply]
  show Ideal.ofBits .f32 0x00000000#32 + _ = _
  rewrite [Ideal.ofBits_zero_f32, zero_add]
  refine Finset.sum_congr rfl fun k _ => ?_
  rewrite [ixSq_1, val_main_v99_apply, sub_1]
  rfl

/-- v = (Σ_r (h − μ)²)/n at column j. -/
theorem var_1 (x0 : TX) (x1 : TE) (x2 : TW) (x3 : TB) (x4 : TW) (x5 : TB) (x6 : TB) (x7 : TB) (j : Fin 128) :
    (val_main_v102 (F := Ideal) x0 x1 x2 x3 x4 x5 x6 x7) (ix1 j) = Net.varTwo (Net.cur (a := 100000) (b := 128) (val_main_v92 (F := Ideal) x0 x1 x2 x3 x4 x5 x6 x7)) j := by
  rewrite [val_main_v102_apply, sqsum_1, val_main_v101_apply, val_main_cst_14_apply, mean_1]
  rfl

/-! ## The sum before the row normalisation -/

/-- X·Wlᵀ at (r, j). -/
theorem dotX_1 (x0 : TX) (x1 : TE) (x2 : TW) (x3 : TB) (x4 : TW) (x5 : TB) (x6 : TB) (x7 : TB) (r : Fin 100000) (j : Fin 128) :
    (val_main_v125 (F := Ideal) x0 x1 x2 x3 x4 x5 x6 x7) (ix2 r j) = ∑ e : Fin 128, (val_main_v72 (F := Ideal) x0 x1 x2 x3 x4 x5 x6 x7) (ix2 r e) * x2 (ix3 (1 : Fin 3) j e) := by
  rewrite [val_main_v125_apply]
  refine Finset.sum_congr rfl fun k _ => ?_
  rewrite [xl_1, xr_1, wl1]
  rfl

/-- o = (X·Wlᵀ + bl) + ((((h − μ)·rsqrt (v + ε))·γ + β) + Z) at (r, j). -/
theorem pre_1 (x0 : TX) (x1 : TE) (x2 : TW) (x3 : TB) (x4 : TW) (x5 : TB) (x6 : TB) (x7 : TB) (r : Fin 100000) (j : Fin 128) :
    (val_main_v132 (F := Ideal) x0 x1 x2 x3 x4 x5 x6 x7) (ix2 r j)
      = Net.pre (Net.cur (a := 100000) (b := 128) (val_main_v82 (F := Ideal) x0 x1 x2 x3 x4 x5 x6 x7)) (Net.cur (a := 100000) (b := 128) (val_main_v72 (F := Ideal) x0 x1 x2 x3 x4 x5 x6 x7)) (Net.wT x4 1) (Net.rowOf x5 1) (Net.wT x2 1) (Net.rowOf x3 1) (Net.rowOf x6 1) (Net.rowOf x7 1)
          (Net.mean (Net.cur (a := 100000) (b := 128) (val_main_v92 (F := Ideal) x0 x1 x2 x3 x4 x5 x6 x7))) (Net.varTwo (Net.cur (a := 100000) (b := 128) (val_main_v92 (F := Ideal) x0 x1 x2 x3 x4 x5 x6 x7))) r j := by
  rewrite [val_main_v132_apply, val_main_v130_apply, dotX_1, bl1, val_main_v131_apply, val_main_v121_apply, val_main_v116_apply, val_main_v111_apply, val_main_v105_apply, val_main_v104_apply, val_main_v103_apply, ixMuB_1,
    val_main_v110_apply, val_main_v109_apply, ixRs_1, val_main_v108_apply, val_main_v107_apply, val_main_v106_apply, val_main_cst_15_apply, ga1, be1, hid_1, mean_1, var_1]
  rfl

/-! ## The row normalisation and the clamp -/

/-- Σ_q o² along row r. -/
theorem rowsq_1 (x0 : TX) (x1 : TE) (x2 : TW) (x3 : TB) (x4 : TW) (x5 : TB) (x6 : TB) (x7 : TB) (r : Fin 100000) :
    (val_main_v134 (F := Ideal) x0 x1 x2 x3 x4 x5 x6 x7) (ix1 r) = ∑ q : Fin 128, (val_main_v132 (F := Ideal) x0 x1 x2 x3 x4 x5 x6 x7) (ix2 r q) * (val_main_v132 (F := Ideal) x0 x1 x2 x3 x4 x5 x6 x7) (ix2 r q) := by
  rewrite [val_main_v134_apply, val_main_cst_16_apply]
  show Ideal.ofBits .f32 0x00000000#32 + _ = _
  rewrite [Ideal.ofBits_zero_f32, zero_add]
  refine Finset.sum_congr rfl fun k _ => ?_
  rewrite [ixRow_1, val_main_v133_apply]
  rfl

/-- max (o / max ‖row‖₂ ε′) 0 at (r, j). -/
theorem norm_1 (x0 : TX) (x1 : TE) (x2 : TW) (x3 : TB) (x4 : TW) (x5 : TB) (x6 : TB) (x7 : TB) (r : Fin 100000) (j : Fin 128) :
    (val_main_v141 (F := Ideal) x0 x1 x2 x3 x4 x5 x6 x7) (ix2 r j) = Net.normRelu (Net.cur (a := 100000) (b := 128) (val_main_v132 (F := Ideal) x0 x1 x2 x3 x4 x5 x6 x7)) r j := by
  rewrite [val_main_v141_apply, val_main_v140_apply, val_main_v139_apply, ixKeep_1, val_main_v138_apply, val_main_v136_apply, val_main_v135_apply, ixCol_1, rowsq_1, val_main_v137_apply, val_main_cst_17_apply,
    val_main_call3_v0_apply, val_main_call3_cst_apply]
  unfold Net.normRelu Net.cur
  simp only [Ideal.maximumf_def, Ideal.hostDivf_def, Ideal.hostUnary_sqrt_def, Ideal.ofBits_def]

/-! ## The layer -/

/-- This layer's segment sum is the segment sum of the previous layer's output: the same gather and scatter-add,
    with the same edge arithmetic, applied to that matrix. -/
theorem seg_1 (x0 : TX) (x1 : TE) (x2 : TW) (x3 : TB) (x4 : TW) (x5 : TB) (x6 : TB) (x7 : TB) :
    (val_main_v82 (F := Ideal) x0 x1 x2 x3 x4 x5 x6 x7) = segR x1 (val_main_v72 (F := Ideal) x0 x1 x2 x3 x4 x5 x6 x7) := rfl

/-- The layer's output is the specification's two-pass layer applied to X, with the segment sum as the map S. -/
theorem layer_1 (x0 : TX) (x1 : TE) (x2 : TW) (x3 : TB) (x4 : TW) (x5 : TB) (x6 : TB) (x7 : TB) :
    (Net.cur (a := 100000) (b := 128) (val_main_v141 (F := Ideal) x0 x1 x2 x3 x4 x5 x6 x7)) = Net.layerTwo (segS x1) (Net.cur (a := 100000) (b := 128) (val_main_v72 (F := Ideal) x0 x1 x2 x3 x4 x5 x6 x7)) (Net.layerW x2 x3 x4 x5 x6 x7 1) := by
  have hH : (Net.cur (a := 100000) (b := 128) (val_main_v92 (F := Ideal) x0 x1 x2 x3 x4 x5 x6 x7)) = Net.hid (Net.cur (a := 100000) (b := 128) (val_main_v82 (F := Ideal) x0 x1 x2 x3 x4 x5 x6 x7)) (Net.wT x4 1) (Net.rowOf x5 1) :=
    funext fun r => funext fun j => hid_1 x0 x1 x2 x3 x4 x5 x6 x7 r j
  have hP : (Net.cur (a := 100000) (b := 128) (val_main_v132 (F := Ideal) x0 x1 x2 x3 x4 x5 x6 x7)) = Net.pre (Net.cur (a := 100000) (b := 128) (val_main_v82 (F := Ideal) x0 x1 x2 x3 x4 x5 x6 x7)) (Net.cur (a := 100000) (b := 128) (val_main_v72 (F := Ideal) x0 x1 x2 x3 x4 x5 x6 x7)) (Net.wT x4 1) (Net.rowOf x5 1) (Net.wT x2 1) (Net.rowOf x3 1) (Net.rowOf x6 1) (Net.rowOf x7 1)
      (Net.mean (Net.cur (a := 100000) (b := 128) (val_main_v92 (F := Ideal) x0 x1 x2 x3 x4 x5 x6 x7))) (Net.varTwo (Net.cur (a := 100000) (b := 128) (val_main_v92 (F := Ideal) x0 x1 x2 x3 x4 x5 x6 x7))) :=
    funext fun r => funext fun j => pre_1 x0 x1 x2 x3 x4 x5 x6 x7 r j
  have hN : (Net.cur (a := 100000) (b := 128) (val_main_v141 (F := Ideal) x0 x1 x2 x3 x4 x5 x6 x7)) = Net.normRelu (Net.cur (a := 100000) (b := 128) (val_main_v132 (F := Ideal) x0 x1 x2 x3 x4 x5 x6 x7)) :=
    funext fun r => funext fun j => norm_1 x0 x1 x2 x3 x4 x5 x6 x7 r j
  have hS : segS x1 (Net.cur (a := 100000) (b := 128) (val_main_v72 (F := Ideal) x0 x1 x2 x3 x4 x5 x6 x7)) = (Net.cur (a := 100000) (b := 128) (val_main_v82 (F := Ideal) x0 x1 x2 x3 x4 x5 x6 x7)) := by
      rewrite [seg_1 x0 x1 x2 x3 x4 x5 x6 x7]
      exact segS_cur x1 _
  rewrite [hN, hP, hH]
  unfold Net.layerTwo Net.layerOf
  rewrite [hS]
  rfl

end Cert.RefNet

end
-- ==== Proof.RefLayer2.lean ====
/-
  Layer 2 of the reference program (operations %152–%210), read entry by entry.

  Z is the segment sum the layer starts from and X the matrix the layer is applied to, both kept as the arrays the
  program holds. The hidden activations h = max (Z·Wrᵀ + br) 0, their column mean μ = (Σ_r h)/n and the two-pass
  variance v = (Σ_r (h − μ)²)/n, the sum o = (X·Wlᵀ + bl) + ((((h − μ)·rsqrt (v + ε))·γ + β) + Z), and each row of
  o divided by max ‖row‖₂ ε′ and clamped at 0. Every step is the program's own operation read at coordinates;
  the sums that start from the zero word start from 0.
-/
import proofs.«140366_j72610717106485_2_alg».proof.Proof.RefParams

noncomputable section

namespace Cert.RefNet

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Index equations: the program's composed index maps at coordinates -/

theorem zl_2 (r : Fin 100000) (j k : Fin 128) : lidx_main_v155 (ix2 r j) k = ix2 r k :=
  funext fun a => Fin.ext (by match a with | ⟨0, _⟩ => rfl | ⟨1, _⟩ => rfl)

theorem zr_2 (r : Fin 100000) (j k : Fin 128) : ridx_main_v155 (ix2 r j) k = ix2 k j :=
  funext fun a => Fin.ext (by match a with | ⟨0, _⟩ => rfl | ⟨1, _⟩ => rfl)

theorem ixSum_2 (j : Fin 128) (k : Fin 100000) : idx_main_v162 (ix1 j) k = ix2 k j :=
  funext fun a => Fin.ext (by match a with | ⟨0, _⟩ => rfl | ⟨1, _⟩ => rfl)

theorem ixMu_2 (r : Fin 100000) (j : Fin 128) : idx_main_v165 (idx_main_v166 (ix2 r j)) = ix1 j :=
  funext fun a => Fin.ext (by match a with | ⟨0, _⟩ => rfl)

theorem ixSq_2 (j : Fin 128) (k : Fin 100000) : idx_main_v169 (ix1 j) k = ix2 k j :=
  funext fun a => Fin.ext (by match a with | ⟨0, _⟩ => rfl | ⟨1, _⟩ => rfl)

theorem ixMuB_2 (r : Fin 100000) (j : Fin 128) : idx_main_v172 (idx_main_v173 (ix2 r j)) = ix1 j :=
  funext fun a => Fin.ext (by match a with | ⟨0, _⟩ => rfl)

theorem ixRs_2 (r : Fin 100000) (j : Fin 128) : idx_main_v178 (idx_main_v179 (ix2 r j)) = ix1 j :=
  funext fun a => Fin.ext (by match a with | ⟨0, _⟩ => rfl)

theorem xl_2 (r : Fin 100000) (j k : Fin 128) : lidx_main_v194 (ix2 r j) k = ix2 r k :=
  funext fun a => Fin.ext (by match a with | ⟨0, _⟩ => rfl | ⟨1, _⟩ => rfl)

theorem xr_2 (r : Fin 100000) (j k : Fin 128) : ridx_main_v194 (ix2 r j) k = ix2 k j :=
  funext fun a => Fin.ext (by match a with | ⟨0, _⟩ => rfl | ⟨1, _⟩ => rfl)

theorem ixRow_2 (r : Fin 100000) (k : Fin 128) : idx_main_v203 (ix1 r) k = ix2 r k :=
  funext fun a => Fin.ext (by match a with | ⟨0, _⟩ => rfl | ⟨1, _⟩ => rfl)

theorem ixCol_2 (r : Fin 100000) : idx_main_v204 (ix2 r (0 : Fin 1)) = ix1 r :=
  funext fun a => Fin.ext (by match a with | ⟨0, _⟩ => rfl)

theorem ixKeep_2 (r : Fin 100000) (j : Fin 128) : idx_main_v208 (ix2 r j) = ix2 r (0 : Fin 1) :=
  funext fun a => Fin.ext (by match a with | ⟨0, _⟩ => rfl | ⟨1, _⟩ => rfl)

/-! ## The hidden activations -/

/-- Z·Wrᵀ at (r, j). -/
theorem dotZ_2 (x0 : TX) (x1 : TE) (x2 : TW) (x3 : TB) (x4 : TW) (x5 : TB) (x6 : TB) (x7 : TB) (r : Fin 100000) (j : Fin 128) :
    (val_main_v155 (F := Ideal) x0 x1 x2 x3 x4 x5 x6 x7) (ix2 r j) = ∑ e : Fin 128, (val_main_v151 (F := Ideal) x0 x1 x2 x3 x4 x5 x6 x7) (ix2 r e) * x4 (ix3 (2 : Fin 3) j e) := by
  rewrite [val_main_v155_apply]
  refine Finset.sum_congr rfl fun k _ => ?_
  rewrite [zl_2, zr_2, wr2]
  rfl

/-- h = max (Z·Wrᵀ + br) 0 at (r, j). -/
theorem hid_2 (x0 : TX) (x1 : TE) (x2 : TW) (x3 : TB) (x4 : TW) (x5 : TB) (x6 : TB) (x7 : TB) (r : Fin 100000) (j : Fin 128) :
    (val_main_v161 (F := Ideal) x0 x1 x2 x3 x4 x5 x6 x7) (ix2 r j) = Net.hid (Net.cur (a := 100000) (b := 128) (val_main_v151 (F := Ideal) x0 x1 x2 x3 x4 x5 x6 x7)) (Net.wT x4 2) (Net.rowOf x5 2) r j := by
  rewrite [val_main_v161_apply, val_main_v160_apply, dotZ_2, br2, val_main_call4_v0_apply, val_main_call4_cst_apply]
  rfl

/-! ## The column mean -/

/-- Σ_r h at column j. -/
theorem colsum_2 (x0 : TX) (x1 : TE) (x2 : TW) (x3 : TB) (x4 : TW) (x5 : TB) (x6 : TB) (x7 : TB) (j : Fin 128) :
    (val_main_v162 (F := Ideal) x0 x1 x2 x3 x4 x5 x6 x7) (ix1 j) = ∑ r : Fin 100000, (val_main_v161 (F := Ideal) x0 x1 x2 x3 x4 x5 x6 x7) (ix2 r j) := by
  rewrite [val_main_v162_apply, val_main_cst_21_apply]
  show Ideal.ofBits .f32 0x00000000#32 + _ = _
  rewrite [Ideal.ofBits_zero_f32, zero_add]
  refine Finset.sum_congr rfl fun k _ => ?_
  rewrite [ixSum_2]
  rfl

/-- μ = (Σ_r h)/n at column j. -/
theorem mean_2 (x0 : TX) (x1 : TE) (x2 : TW) (x3 : TB) (x4 : TW) (x5 : TB) (x6 : TB) (x7 : TB) (j : Fin 128) :
    (val_main_v164 (F := Ideal) x0 x1 x2 x3 x4 x5 x6 x7) (ix1 j) = Net.mean (Net.cur (a := 100000) (b := 128) (val_main_v161 (F := Ideal) x0 x1 x2 x3 x4 x5 x6 x7)) j := by
  rewrite [val_main_v164_apply, colsum_2, val_main_v163_apply, val_main_cst_22_apply]
  rfl

/-! ## The two-pass variance -/

/-- h − μ at (r, j), the mean spread over the rows. -/
theorem sub_2 (x0 : TX) (x1 : TE) (x2 : TW) (x3 : TB) (x4 : TW) (x5 : TB) (x6 : TB) (x7 : TB) (r : Fin 100000) (j : Fin 128) :
    (val_main_v167 (F := Ideal) x0 x1 x2 x3 x4 x5 x6 x7) (ix2 r j) = (val_main_v161 (F := Ideal) x0 x1 x2 x3 x4 x5 x6 x7) (ix2 r j) - (val_main_v164 (F := Ideal) x0 x1 x2 x3 x4 x5 x6 x7) (ix1 j) := by
  rewrite [val_main_v167_apply, val_main_v166_apply, val_main_v165_apply, ixMu_2]
  rfl

/-- Σ_r (h − μ)² at column j. -/
theorem sqsum_2 (x0 : TX) (x1 : TE) (x2 : TW) (x3 : TB) (x4 : TW) (x5 : TB) (x6 : TB) (x7 : TB) (j : Fin 128) :
    (val_main_v169 (F := Ideal) x0 x1 x2 x3 x4 x5 x6 x7) (ix1 j) = ∑ r : Fin 100000, ((val_main_v161 (F := Ideal) x0 x1 x2 x3 x4 x5 x6 x7) (ix2 r j) - (val_main_v164 (F := Ideal) x0 x1 x2 x3 x4 x5 x6 x7) (ix1 j)) * ((val_main_v161 (F := Ideal) x0 x1 x2 x3 x4 x5 x6 x7) (ix2 r j) - (val_main_v164 (F := Ideal) x0 x1 x2 x3 x4 x5 x6 x7) (ix1 j)) := by
  rewrite [val_main_v169_apply, val_main_cst_23_apply]
  show Ideal.ofBits .f32 0x00000000#32 + _ = _
  rewrite [Ideal.ofBits_zero_f32, zero_add]
  refine Finset.sum_congr rfl fun k _ => ?_
  rewrite [ixSq_2, val_main_v168_apply, sub_2]
  rfl

/-- v = (Σ_r (h − μ)²)/n at column j. -/
theorem var_2 (x0 : TX) (x1 : TE) (x2 : TW) (x3 : TB) (x4 : TW) (x5 : TB) (x6 : TB) (x7 : TB) (j : Fin 128) :
    (val_main_v171 (F := Ideal) x0 x1 x2 x3 x4 x5 x6 x7) (ix1 j) = Net.varTwo (Net.cur (a := 100000) (b := 128) (val_main_v161 (F := Ideal) x0 x1 x2 x3 x4 x5 x6 x7)) j := by
  rewrite [val_main_v171_apply, sqsum_2, val_main_v170_apply, val_main_cst_24_apply, mean_2]
  rfl

/-! ## The sum before the row normalisation -/

/-- X·Wlᵀ at (r, j). -/
theorem dotX_2 (x0 : TX) (x1 : TE) (x2 : TW) (x3 : TB) (x4 : TW) (x5 : TB) (x6 : TB) (x7 : TB) (r : Fin 100000) (j : Fin 128) :
    (val_main_v194 (F := Ideal) x0 x1 x2 x3 x4 x5 x6 x7) (ix2 r j) = ∑ e : Fin 128, (val_main_v141 (F := Ideal) x0 x1 x2 x3 x4 x5 x6 x7) (ix2 r e) * x2 (ix3 (2 : Fin 3) j e) := by
  rewrite [val_main_v194_apply]
  refine Finset.sum_congr rfl fun k _ => ?_
  rewrite [xl_2, xr_2, wl2]
  rfl

/-- o = (X·Wlᵀ + bl) + ((((h − μ)·rsqrt (v + ε))·γ + β) + Z) at (r, j). -/
theorem pre_2 (x0 : TX) (x1 : TE) (x2 : TW) (x3 : TB) (x4 : TW) (x5 : TB) (x6 : TB) (x7 : TB) (r : Fin 100000) (j : Fin 128) :
    (val_main_v201 (F := Ideal) x0 x1 x2 x3 x4 x5 x6 x7) (ix2 r j)
      = Net.pre (Net.cur (a := 100000) (b := 128) (val_main_v151 (F := Ideal) x0 x1 x2 x3 x4 x5 x6 x7)) (Net.cur (a := 100000) (b := 128) (val_main_v141 (F := Ideal) x0 x1 x2 x3 x4 x5 x6 x7)) (Net.wT x4 2) (Net.rowOf x5 2) (Net.wT x2 2) (Net.rowOf x3 2) (Net.rowOf x6 2) (Net.rowOf x7 2)
          (Net.mean (Net.cur (a := 100000) (b := 128) (val_main_v161 (F := Ideal) x0 x1 x2 x3 x4 x5 x6 x7))) (Net.varTwo (Net.cur (a := 100000) (b := 128) (val_main_v161 (F := Ideal) x0 x1 x2 x3 x4 x5 x6 x7))) r j := by
  rewrite [val_main_v201_apply, val_main_v199_apply, dotX_2, bl2, val_main_v200_apply, val_main_v190_apply, val_main_v185_apply, val_main_v180_apply, val_main_v174_apply, val_main_v173_apply, val_main_v172_apply, ixMuB_2,
    val_main_v179_apply, val_main_v178_apply, ixRs_2, val_main_v177_apply, val_main_v176_apply, val_main_v175_apply, val_main_cst_25_apply, ga2, be2, hid_2, mean_2, var_2]
  rfl

/-! ## The row normalisation and the clamp -/

/-- Σ_q o² along row r. -/
theorem rowsq_2 (x0 : TX) (x1 : TE) (x2 : TW) (x3 : TB) (x4 : TW) (x5 : TB) (x6 : TB) (x7 : TB) (r : Fin 100000) :
    (val_main_v203 (F := Ideal) x0 x1 x2 x3 x4 x5 x6 x7) (ix1 r) = ∑ q : Fin 128, (val_main_v201 (F := Ideal) x0 x1 x2 x3 x4 x5 x6 x7) (ix2 r q) * (val_main_v201 (F := Ideal) x0 x1 x2 x3 x4 x5 x6 x7) (ix2 r q) := by
  rewrite [val_main_v203_apply, val_main_cst_26_apply]
  show Ideal.ofBits .f32 0x00000000#32 + _ = _
  rewrite [Ideal.ofBits_zero_f32, zero_add]
  refine Finset.sum_congr rfl fun k _ => ?_
  rewrite [ixRow_2, val_main_v202_apply]
  rfl

/-- max (o / max ‖row‖₂ ε′) 0 at (r, j). -/
theorem norm_2 (x0 : TX) (x1 : TE) (x2 : TW) (x3 : TB) (x4 : TW) (x5 : TB) (x6 : TB) (x7 : TB) (r : Fin 100000) (j : Fin 128) :
    (val_main_v210 (F := Ideal) x0 x1 x2 x3 x4 x5 x6 x7) (ix2 r j) = Net.normRelu (Net.cur (a := 100000) (b := 128) (val_main_v201 (F := Ideal) x0 x1 x2 x3 x4 x5 x6 x7)) r j := by
  rewrite [val_main_v210_apply, val_main_v209_apply, val_main_v208_apply, ixKeep_2, val_main_v207_apply, val_main_v205_apply, val_main_v204_apply, ixCol_2, rowsq_2, val_main_v206_apply, val_main_cst_27_apply,
    val_main_call5_v0_apply, val_main_call5_cst_apply]
  unfold Net.normRelu Net.cur
  simp only [Ideal.maximumf_def, Ideal.hostDivf_def, Ideal.hostUnary_sqrt_def, Ideal.ofBits_def]

/-! ## The layer -/

/-- This layer's segment sum is the segment sum of the previous layer's output: the same gather and scatter-add,
    with the same edge arithmetic, applied to that matrix. -/
theorem seg_2 (x0 : TX) (x1 : TE) (x2 : TW) (x3 : TB) (x4 : TW) (x5 : TB) (x6 : TB) (x7 : TB) :
    (val_main_v151 (F := Ideal) x0 x1 x2 x3 x4 x5 x6 x7) = segR x1 (val_main_v141 (F := Ideal) x0 x1 x2 x3 x4 x5 x6 x7) := rfl

/-- The layer's output is the specification's two-pass layer applied to X, with the segment sum as the map S. -/
theorem layer_2 (x0 : TX) (x1 : TE) (x2 : TW) (x3 : TB) (x4 : TW) (x5 : TB) (x6 : TB) (x7 : TB) :
    (Net.cur (a := 100000) (b := 128) (val_main_v210 (F := Ideal) x0 x1 x2 x3 x4 x5 x6 x7)) = Net.layerTwo (segS x1) (Net.cur (a := 100000) (b := 128) (val_main_v141 (F := Ideal) x0 x1 x2 x3 x4 x5 x6 x7)) (Net.layerW x2 x3 x4 x5 x6 x7 2) := by
  have hH : (Net.cur (a := 100000) (b := 128) (val_main_v161 (F := Ideal) x0 x1 x2 x3 x4 x5 x6 x7)) = Net.hid (Net.cur (a := 100000) (b := 128) (val_main_v151 (F := Ideal) x0 x1 x2 x3 x4 x5 x6 x7)) (Net.wT x4 2) (Net.rowOf x5 2) :=
    funext fun r => funext fun j => hid_2 x0 x1 x2 x3 x4 x5 x6 x7 r j
  have hP : (Net.cur (a := 100000) (b := 128) (val_main_v201 (F := Ideal) x0 x1 x2 x3 x4 x5 x6 x7)) = Net.pre (Net.cur (a := 100000) (b := 128) (val_main_v151 (F := Ideal) x0 x1 x2 x3 x4 x5 x6 x7)) (Net.cur (a := 100000) (b := 128) (val_main_v141 (F := Ideal) x0 x1 x2 x3 x4 x5 x6 x7)) (Net.wT x4 2) (Net.rowOf x5 2) (Net.wT x2 2) (Net.rowOf x3 2) (Net.rowOf x6 2) (Net.rowOf x7 2)
      (Net.mean (Net.cur (a := 100000) (b := 128) (val_main_v161 (F := Ideal) x0 x1 x2 x3 x4 x5 x6 x7))) (Net.varTwo (Net.cur (a := 100000) (b := 128) (val_main_v161 (F := Ideal) x0 x1 x2 x3 x4 x5 x6 x7))) :=
    funext fun r => funext fun j => pre_2 x0 x1 x2 x3 x4 x5 x6 x7 r j
  have hN : (Net.cur (a := 100000) (b := 128) (val_main_v210 (F := Ideal) x0 x1 x2 x3 x4 x5 x6 x7)) = Net.normRelu (Net.cur (a := 100000) (b := 128) (val_main_v201 (F := Ideal) x0 x1 x2 x3 x4 x5 x6 x7)) :=
    funext fun r => funext fun j => norm_2 x0 x1 x2 x3 x4 x5 x6 x7 r j
  have hS : segS x1 (Net.cur (a := 100000) (b := 128) (val_main_v141 (F := Ideal) x0 x1 x2 x3 x4 x5 x6 x7)) = (Net.cur (a := 100000) (b := 128) (val_main_v151 (F := Ideal) x0 x1 x2 x3 x4 x5 x6 x7)) := by
      rewrite [seg_2 x0 x1 x2 x3 x4 x5 x6 x7]
      exact segS_cur x1 _
  rewrite [hN, hP, hH]
  unfold Net.layerTwo Net.layerOf
  rewrite [hS]
  rfl

end Cert.RefNet

end
-- ==== Proof.RefHead.lean ====
/-
  The head of the reference program (operations %211–%221), read entry by entry.

  Y is the third layer's output, kept as the array the program holds. Two affine steps, y₁ = Y·W1ᵀ + b1 and
  y₂ = y₁·W2ᵀ + b2, then the row-wise log-softmax (y₂ − m) − log Σ exp (y₂ − m), m the row maximum folded from
  minus infinity (the program joins the fold once more with minus infinity, which changes nothing).
-/
import proofs.«140366_j72610717106485_2_alg».proof.Proof.RefParams
import proofs.«140366_j72610717106485_2_alg».proof.Proof.LibLogSoftmax

noncomputable section

namespace Cert.RefNet

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Index equations -/

theorem h1l (r : Fin 100000) (e k : Fin 128) : lidx_main_v212 (ix2 r e) k = ix2 r k :=
  funext fun a => Fin.ext (by match a with | ⟨0, _⟩ => rfl | ⟨1, _⟩ => rfl)

theorem h1r (r : Fin 100000) (e k : Fin 128) : idx_main_v211 (ridx_main_v212 (ix2 r e) k) = ix2 e k :=
  funext fun a => Fin.ext (by match a with | ⟨0, _⟩ => rfl | ⟨1, _⟩ => rfl)

theorem h1b (r : Fin 100000) (e : Fin 128) : idx_main_v213 (idx_main_v214 (ix2 r e)) = ix1 e :=
  funext fun a => Fin.ext (by match a with | ⟨0, _⟩ => rfl)

theorem h2l (r : Fin 100000) (j : Fin 47) (k : Fin 128) : lidx_main_v217 (ix2 r j) k = ix2 r k :=
  funext fun a => Fin.ext (by match a with | ⟨0, _⟩ => rfl | ⟨1, _⟩ => rfl)

theorem h2r (r : Fin 100000) (j : Fin 47) (k : Fin 128) : idx_main_v216 (ridx_main_v217 (ix2 r j) k) = ix2 j k :=
  funext fun a => Fin.ext (by match a with | ⟨0, _⟩ => rfl | ⟨1, _⟩ => rfl)

theorem h2b (r : Fin 100000) (j : Fin 47) : idx_main_v218 (idx_main_v219 (ix2 r j)) = ix1 j :=
  funext fun a => Fin.ext (by match a with | ⟨0, _⟩ => rfl)

/-! ## The two affine steps -/

/-- Y·W1ᵀ at (r, e). -/
theorem dotY1 (x0 : TX) (x1 : TE) (x2 : TW) (x3 : TB) (x4 : TW) (x5 : TB) (x6 : TB) (x7 : TB) (x8 : TW1) (r : Fin 100000) (e : Fin 128) :
    (val_main_v212 (F := Ideal) x0 x1 x2 x3 x4 x5 x6 x7 x8) (ix2 r e) = ∑ d : Fin 128, (val_main_v210 (F := Ideal) x0 x1 x2 x3 x4 x5 x6 x7) (ix2 r d) * x8 (ix2 e d) := by
  rewrite [val_main_v212_apply]
  refine Finset.sum_congr rfl fun k _ => ?_
  rewrite [h1l, val_main_v211_apply, h1r]
  rfl

/-- y₁ = Y·W1ᵀ + b1 at (r, e). -/
theorem head1_eq (x0 : TX) (x1 : TE) (x2 : TW) (x3 : TB) (x4 : TW) (x5 : TB) (x6 : TB) (x7 : TB) (x8 : TW1) (x9 : TB1) (r : Fin 100000) (e : Fin 128) :
    (val_main_v215 (F := Ideal) x0 x1 x2 x3 x4 x5 x6 x7 x8 x9) (ix2 r e) = Net.head1 (Net.cur (a := 100000) (b := 128) (val_main_v210 (F := Ideal) x0 x1 x2 x3 x4 x5 x6 x7)) (Net.tr x8) (Net.vec x9) r e := by
  rewrite [val_main_v215_apply, dotY1, val_main_v214_apply, val_main_v213_apply, h1b]
  rfl

/-- y₁·W2ᵀ at (r, j). -/
theorem dotY2 (x0 : TX) (x1 : TE) (x2 : TW) (x3 : TB) (x4 : TW) (x5 : TB) (x6 : TB) (x7 : TB) (x8 : TW1) (x9 : TB1) (x10 : TW2) (r : Fin 100000) (j : Fin 47) :
    (val_main_v217 (F := Ideal) x0 x1 x2 x3 x4 x5 x6 x7 x8 x9 x10) (ix2 r j) = ∑ e : Fin 128, (val_main_v215 (F := Ideal) x0 x1 x2 x3 x4 x5 x6 x7 x8 x9) (ix2 r e) * x10 (ix2 j e) := by
  rewrite [val_main_v217_apply]
  refine Finset.sum_congr rfl fun k _ => ?_
  rewrite [h2l, val_main_v216_apply, h2r]
  rfl

/-- y₂ = y₁·W2ᵀ + b2 at (r, j). -/
theorem head2_eq (x0 : TX) (x1 : TE) (x2 : TW) (x3 : TB) (x4 : TW) (x5 : TB) (x6 : TB) (x7 : TB) (x8 : TW1) (x9 : TB1) (x10 : TW2) (x11 : TB2) (r : Fin 100000) (j : Fin 47) :
    (val_main_v220 (F := Ideal) x0 x1 x2 x3 x4 x5 x6 x7 x8 x9 x10 x11) (ix2 r j) = Net.head2 (Net.cur (a := 100000) (b := 128) (val_main_v215 (F := Ideal) x0 x1 x2 x3 x4 x5 x6 x7 x8 x9)) (Net.tr x10) (Net.vec x11) r j := by
  rewrite [val_main_v220_apply, dotY2, val_main_v219_apply, val_main_v218_apply, h2b]
  rfl

/-! ## The row-wise log-softmax -/

/-- (y₂ − m) − log Σ exp (y₂ − m) at (r, j). -/
theorem logSoftmax_eq (x0 : TX) (x1 : TE) (x2 : TW) (x3 : TB) (x4 : TW) (x5 : TB) (x6 : TB) (x7 : TB) (x8 : TW1) (x9 : TB1) (x10 : TW2) (x11 : TB2) (r : Fin 100000) (j : Fin 47) :
    (val_main_v221 (F := Ideal) x0 x1 x2 x3 x4 x5 x6 x7 x8 x9 x10 x11) (ix2 r j) = Net.logSoftmax (Net.cur (a := 100000) (b := 47) (val_main_v220 (F := Ideal) x0 x1 x2 x3 x4 x5 x6 x7 x8 x9 x10 x11)) r j := by
  unfold val_main_v221 val_main_call6_v10 val_main_call6_v9 val_main_call6_v8 val_main_call6_v7 val_main_call6_v6
    val_main_call6_v5 val_main_call6_v4 val_main_call6_v3 val_main_call6_v2 val_main_call6_v1 val_main_call6_v0
    val_main_call6_cst val_main_call6_cst_0 val_main_call6_cst_1
  exact Cert.LibLogSoftmax.host_apply (a := 100000) (b := 47) (val_main_v220 (F := Ideal) x0 x1 x2 x3 x4 x5 x6 x7 x8 x9 x10 x11)
    reducesTo_S100000x47_S100000_d1 (by decide) h_S_ bcast_S_S100000 bcast_S100000_S100000x1_0
    bcast_S100000x1_S100000x47_0_1 r j

/-! ## The head -/

/-- The program's result is the specification's head applied to Y. -/
theorem head_eq (x0 : TX) (x1 : TE) (x2 : TW) (x3 : TB) (x4 : TW) (x5 : TB) (x6 : TB) (x7 : TB) (x8 : TW1) (x9 : TB1) (x10 : TW2) (x11 : TB2) :
    (Net.cur (a := 100000) (b := 47) (val_main_v221 (F := Ideal) x0 x1 x2 x3 x4 x5 x6 x7 x8 x9 x10 x11)) = Net.headOf (Net.cur (a := 100000) (b := 128) (val_main_v210 (F := Ideal) x0 x1 x2 x3 x4 x5 x6 x7)) (Net.tr x8) (Net.vec x9) (Net.tr x10) (Net.vec x11) := by
  have h1 : (Net.cur (a := 100000) (b := 128) (val_main_v215 (F := Ideal) x0 x1 x2 x3 x4 x5 x6 x7 x8 x9)) = Net.head1 (Net.cur (a := 100000) (b := 128) (val_main_v210 (F := Ideal) x0 x1 x2 x3 x4 x5 x6 x7)) (Net.tr x8) (Net.vec x9) :=
    funext fun r => funext fun e => head1_eq x0 x1 x2 x3 x4 x5 x6 x7 x8 x9 r e
  have h2 : (Net.cur (a := 100000) (b := 47) (val_main_v220 (F := Ideal) x0 x1 x2 x3 x4 x5 x6 x7 x8 x9 x10 x11)) = Net.head2 (Net.cur (a := 100000) (b := 128) (val_main_v215 (F := Ideal) x0 x1 x2 x3 x4 x5 x6 x7 x8 x9)) (Net.tr x10) (Net.vec x11) :=
    funext fun r => funext fun j => head2_eq x0 x1 x2 x3 x4 x5 x6 x7 x8 x9 x10 x11 r j
  have h3 : (Net.cur (a := 100000) (b := 47) (val_main_v221 (F := Ideal) x0 x1 x2 x3 x4 x5 x6 x7 x8 x9 x10 x11)) = Net.logSoftmax (Net.cur (a := 100000) (b := 47) (val_main_v220 (F := Ideal) x0 x1 x2 x3 x4 x5 x6 x7 x8 x9 x10 x11)) :=
    funext fun r => funext fun j => logSoftmax_eq x0 x1 x2 x3 x4 x5 x6 x7 x8 x9 x10 x11 r j
  rewrite [h3, h2, h1]
  rfl

end Cert.RefNet

end
-- ==== Proof.RefResult.lean ====
/-
  The reference program's result is the specification's network with the two-pass variance in every layer.

  The three layers and the head are chained: each layer's output array, read by coordinates, is the matrix the next
  layer (or the head) is applied to; the segment sum along the edge list is the same map S in every layer.
-/
import proofs.«140366_j72610717106485_2_alg».proof.Proof.RefLayer0
import proofs.«140366_j72610717106485_2_alg».proof.Proof.RefLayer1
import proofs.«140366_j72610717106485_2_alg».proof.Proof.RefLayer2
import proofs.«140366_j72610717106485_2_alg».proof.Proof.RefHead

noncomputable section

namespace Cert.RefNet

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The result array, index by index, is the two-pass network of the argument arrays. -/
theorem result_eq (x0 : TX) (x1 : TE) (x2 : TW) (x3 : TB) (x4 : TW) (x5 : TB) (x6 : TB) (x7 : TB) (x8 : TW1) (x9 : TB1) (x10 : TW2) (x11 : TB2) :
    val_main_v221 (F := Ideal) x0 x1 x2 x3 x4 x5 x6 x7 x8 x9 x10 x11
      = Net.uncur (Net.netTwo (fun X => Net.cur (segR x1 (Net.uncur X))) (Net.cur x0)
          (Net.layerW x2 x3 x4 x5 x6 x7 0) (Net.layerW x2 x3 x4 x5 x6 x7 1) (Net.layerW x2 x3 x4 x5 x6 x7 2)
          (Net.tr x8) (Net.vec x9) (Net.tr x10) (Net.vec x11)) := by
  refine (Net.uncur_cur (a := 100000) (b := 47) _).symm.trans (congrArg Net.uncur ?_)
  rewrite [head_eq, layer_2, layer_1, layer_0]
  rfl

end Cert.RefNet

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.RefRunH.lean ====
/-
  The reference program's run, stage by stage.

  The program is a straight line of 278 host operations. Its buffer contents after the line are the fold of the
  operations' results over the launch contents. The result array's composed term, written out with every reuse
  inlined, is too large to state, because each layer reads the previous layer's output many times; so the line is cut
  into five stretches (layer 1, layer 2, layer 3, the two affine steps, the log-softmax) and read back one stretch at
  a time, from ARBITRARY contents W: after a stretch, the stretch's output buffer holds the stretch's operations
  applied to what W holds at the buffers the stretch reads, and every buffer the stretch does not write holds what W
  held. The read-backs are then chained, each stretch's output kept as ONE named value (the read module's nested
  definitions), so no term grows. Last, the run itself: every execution ends with the result array at that value of
  the launch contents and the twelve argument arrays unchanged, hence (by the index-by-index reading of the value)
  at the specification's two-pass network.
-/
import proofs.«140366_j72610717106485_2_alg».proof.Proof.RefOpsP
import proofs.«140366_j72610717106485_2_alg».proof.Proof.RefReadP
import proofs.«140366_j72610717106485_2_alg».proof.Proof.RefResult
import proofs.«140366_j72610717106485_2_alg».proof.Proof.LibStretch

noncomputable section

namespace Cert.RefNet

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

open Cert.ReferenceIdeal.Value

variable {F : FTy → Type} [FloatOps F]

/-! ## The five stretches -/

/-- Layer 1: the operations up to the one that writes the first layer's output. -/
def ops1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg4 main_v14 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v14 main_v15 rfl shapeCasts_S1x128x128_S128x128,
    unary main_v15 main_v16 ((transpose S128x128 [1, 0] · transposes_S128x128_S128x128_1_0) : (⟨S128x128, .f32⟩ : BufTy).Contents (Elt F) → (⟨S128x128, .f32⟩ : BufTy).Contents (Elt F)),
    binary main_v13 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v17 main_v21 main_v22 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v22) (TRef.of (T := ⟨S100000x128, .f32⟩) main_call0_v0) (TRef.of (T := ⟨S100000x128, .f32⟩) main_v23) maximumf,
    nullary main_cst_1 (constant S_ .f32 0x00000000#32),
    binary main_v23 main_cst_1 main_v24 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v25 (broadcastInDim S128 ![] bcast_S_S128 : (⟨S_, .f32⟩ : BufTy).Contents (Elt F) → (⟨S128, .f32⟩ : BufTy).Contents (Elt F)),
    binary main_v24 main_v25 main_v26 (Host.divf : (⟨S128, .f32⟩ : BufTy).Contents (Elt F) → (⟨S128, .f32⟩ : BufTy).Contents (Elt F) → (⟨S128, .f32⟩ : BufTy).Contents (Elt F)),
    unary main_v26 main_v27 (broadcastInDim S1x128 ![1] bcast_S128_S1x128_1 : (⟨S128, .f32⟩ : BufTy).Contents (Elt F) → (⟨S1x128, .f32⟩ : BufTy).Contents (Elt F)),
    unary main_v27 main_v28 (broadcastInDim S100000x128 ![0, 1] bcast_S1x128_S100000x128_0_1 : (⟨S1x128, .f32⟩ : BufTy).Contents (Elt F) → (⟨S100000x128, .f32⟩ : BufTy).Contents (Elt F)),
    binary main_v23 main_v28 main_v29 (subf : (⟨S100000x128, .f32⟩ : BufTy).Contents (Elt F) → (⟨S100000x128, .f32⟩ : BufTy).Contents (Elt F) → (⟨S100000x128, .f32⟩ : BufTy).Contents (Elt F)),
    binary main_v29 main_v29 main_v30 (mulf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x00000000#32),
    binary main_v30 main_cst_3 main_v31 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_4 (constant S_ .f32 0x47C35000#32),
    unary main_cst_4 main_v32 (broadcastInDim S128 ![] bcast_S_S128 : (⟨S_, .f32⟩ : BufTy).Contents (Elt F) → (⟨S128, .f32⟩ : BufTy).Contents (Elt F)),
    binary main_v31 main_v32 main_v33 (Host.divf : (⟨S128, .f32⟩ : BufTy).Contents (Elt F) → (⟨S128, .f32⟩ : BufTy).Contents (Elt F) → (⟨S128, .f32⟩ : BufTy).Contents (Elt F)),
    unary main_v26 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v23 main_v35 main_v36 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v37 (broadcastInDim S128 ![] bcast_S_S128 : (⟨S_, .f32⟩ : BufTy).Contents (Elt F) → (⟨S128, .f32⟩ : BufTy).Contents (Elt F)),
    binary main_v33 main_v37 main_v38 (addf : (⟨S128, .f32⟩ : BufTy).Contents (Elt F) → (⟨S128, .f32⟩ : BufTy).Contents (Elt F) → (⟨S128, .f32⟩ : BufTy).Contents (Elt F)),
    unary main_v38 main_v39 (Host.rsqrt : (⟨S128, .f32⟩ : BufTy).Contents (Elt F) → (⟨S128, .f32⟩ : BufTy).Contents (Elt F)),
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v36 main_v41 main_v42 (mulf : (⟨S100000x128, .f32⟩ : BufTy).Contents (Elt F) → (⟨S100000x128, .f32⟩ : BufTy).Contents (Elt F) → (⟨S100000x128, .f32⟩ : BufTy).Contents (Elt F)),
    unary main_arg6 main_v43 ((extractStridedSlice S1x128 ![0, 0] · slices_S3x128_S1x128_0_0) : (⟨S3x128, .f32⟩ : BufTy).Contents (Elt F) → (⟨S1x128, .f32⟩ : BufTy).Contents (Elt F)),
    reshape main_v43 main_v44 rfl shapeCasts_S1x128_S128,
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v42 main_v46 main_v47 (mulf : (⟨S100000x128, .f32⟩ : BufTy).Contents (Elt F) → (⟨S100000x128, .f32⟩ : BufTy).Contents (Elt F) → (⟨S100000x128, .f32⟩ : BufTy).Contents (Elt F)),
    unary main_arg7 main_v48 ((extractStridedSlice S1x128 ![0, 0] · slices_S3x128_S1x128_0_0) : (⟨S3x128, .f32⟩ : BufTy).Contents (Elt F) → (⟨S1x128, .f32⟩ : BufTy).Contents (Elt F)),
    reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v47 main_v51 main_v52 (addf : (⟨S100000x128, .f32⟩ : BufTy).Contents (Elt F) → (⟨S100000x128, .f32⟩ : BufTy).Contents (Elt F) → (⟨S100000x128, .f32⟩ : BufTy).Contents (Elt F)),
    unary main_arg2 main_v53 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v53 main_v54 rfl shapeCasts_S1x128x128_S128x128,
    unary main_v54 main_v55 ((transpose S128x128 [1, 0] · transposes_S128x128_S128x128_1_0) : (⟨S128x128, .f32⟩ : BufTy).Contents (Elt F) → (⟨S128x128, .f32⟩ : BufTy).Contents (Elt F)),
    binary main_arg0 main_v55 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v57 ((extractStridedSlice S1x128 ![0, 0] · slices_S3x128_S1x128_0_0) : (⟨S3x128, .f32⟩ : BufTy).Contents (Elt F) → (⟨S1x128, .f32⟩ : BufTy).Contents (Elt F)),
    reshape main_v57 main_v58 rfl shapeCasts_S1x128_S128,
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v56 main_v60 main_v61 (addf : (⟨S100000x128, .f32⟩ : BufTy).Contents (Elt F) → (⟨S100000x128, .f32⟩ : BufTy).Contents (Elt F) → (⟨S100000x128, .f32⟩ : BufTy).Contents (Elt F)),
    binary main_v52 main_v13 main_v62 (addf : (⟨S100000x128, .f32⟩ : BufTy).Contents (Elt F) → (⟨S100000x128, .f32⟩ : BufTy).Contents (Elt F) → (⟨S100000x128, .f32⟩ : BufTy).Contents (Elt F)),
    binary main_v61 main_v62 main_v63 (addf : (⟨S100000x128, .f32⟩ : BufTy).Contents (Elt F) → (⟨S100000x128, .f32⟩ : BufTy).Contents (Elt F) → (⟨S100000x128, .f32⟩ : BufTy).Contents (Elt F)),
    binary main_v63 main_v63 main_v64 (mulf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v64 main_cst_6 main_v65 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v65 main_v66 (broadcastInDim S100000x1 ![0] bcast_S100000_S100000x1_0 : (⟨S100000, .f32⟩ : BufTy).Contents (Elt F) → (⟨S100000x1, .f32⟩ : BufTy).Contents (Elt F)),
    unary main_v66 main_v67 (Host.sqrt : (⟨S100000x1, .f32⟩ : BufTy).Contents (Elt F) → (⟨S100000x1, .f32⟩ : BufTy).Contents (Elt F)),
    nullary main_cst_7 (constant S_ .f32 0x2B8CBCCC#32),
    unary main_cst_7 main_v68 (broadcastInDim S100000x1 ![] bcast_S_S100000x1 : (⟨S_, .f32⟩ : BufTy).Contents (Elt F) → (⟨S100000x1, .f32⟩ : BufTy).Contents (Elt F)),
    binary main_v67 main_v68 main_v69 (maximumf : (⟨S100000x1, .f32⟩ : BufTy).Contents (Elt F) → (⟨S100000x1, .f32⟩ : BufTy).Contents (Elt F) → (⟨S100000x1, .f32⟩ : BufTy).Contents (Elt F)),
    unary main_v69 main_v70 (broadcastInDim S100000x128 ![0, 1] bcast_S100000x1_S100000x128_0_1 : (⟨S100000x1, .f32⟩ : BufTy).Contents (Elt F) → (⟨S100000x128, .f32⟩ : BufTy).Contents (Elt F)),
    binary main_v63 main_v70 main_v71 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v71) (TRef.of (T := ⟨S100000x128, .f32⟩) main_call1_v0) (TRef.of (T := ⟨S100000x128, .f32⟩) main_v72) maximumf ]

/-- Layer 2. -/
def ops2 : List (HloOp τ sig (Elt F)) :=
  [ nullary main_c_8 (constantI S_ 32 0#32),
    unary main_c_8 main_v73 (broadcastInDim S1600000 ![] bcast_S_S1600000 : (⟨S_, .i32⟩ : BufTy).Contents (Elt F) → (⟨S1600000, .i32⟩ : BufTy).Contents (Elt F)),
    binary main_v1 main_v73 main_v74 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v75 (broadcastInDim S1600000 ![] bcast_S_S1600000 : (⟨S_, .i32⟩ : BufTy).Contents (Elt F) → (⟨S1600000, .i32⟩ : BufTy).Contents (Elt F)),
    binary main_v1 main_v75 main_v76 (addi : (⟨S1600000, .i32⟩ : BufTy).Contents (Elt F) → (⟨S1600000, .i32⟩ : BufTy).Contents (Elt F) → (⟨S1600000, .i32⟩ : BufTy).Contents (Elt F)),
    ternary main_v74 main_v76 main_v1 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v77 main_v78 (broadcastInDim S1600000x1 ![0] bcast_S1600000_S1600000x1_0 : (⟨S1600000, .i32⟩ : BufTy).Contents (Elt F) → (⟨S1600000x1, .i32⟩ : BufTy).Contents (Elt F)),
    binary main_v72 main_v78 main_v79 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v80 (broadcastInDim S100000x128 ![] bcast_S_S100000x128 : (⟨S_, .f32⟩ : BufTy).Contents (Elt F) → (⟨S100000x128, .f32⟩ : BufTy).Contents (Elt F)),
    unary main_v3 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg4 main_v83 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v83 main_v84 rfl shapeCasts_S1x128x128_S128x128,
    unary main_v84 main_v85 ((transpose S128x128 [1, 0] · transposes_S128x128_S128x128_1_0) : (⟨S128x128, .f32⟩ : BufTy).Contents (Elt F) → (⟨S128x128, .f32⟩ : BufTy).Contents (Elt F)),
    binary main_v82 main_v85 main_v86 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v87 ((extractStridedSlice S1x128 ![1, 0] · slices_S3x128_S1x128_1_0) : (⟨S3x128, .f32⟩ : BufTy).Contents (Elt F) → (⟨S1x128, .f32⟩ : BufTy).Contents (Elt F)),
    reshape main_v87 main_v88 rfl shapeCasts_S1x128_S128,
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S100000x128 ![0, 1] bcast_S1x128_S100000x128_0_1 : (⟨S1x128, .f32⟩ : BufTy).Contents (Elt F) → (⟨S100000x128, .f32⟩ : BufTy).Contents (Elt F)),
    binary main_v86 main_v90 main_v91 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v91) (TRef.of (T := ⟨S100000x128, .f32⟩) main_call2_v0) (TRef.of (T := ⟨S100000x128, .f32⟩) main_v92) maximumf,
    nullary main_cst_11 (constant S_ .f32 0x00000000#32),
    binary main_v92 main_cst_11 main_v93 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v94 (broadcastInDim S128 ![] bcast_S_S128 : (⟨S_, .f32⟩ : BufTy).Contents (Elt F) → (⟨S128, .f32⟩ : BufTy).Contents (Elt F)),
    binary main_v93 main_v94 main_v95 (Host.divf : (⟨S128, .f32⟩ : BufTy).Contents (Elt F) → (⟨S128, .f32⟩ : BufTy).Contents (Elt F) → (⟨S128, .f32⟩ : BufTy).Contents (Elt F)),
    unary main_v95 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v92 main_v97 main_v98 (subf : (⟨S100000x128, .f32⟩ : BufTy).Contents (Elt F) → (⟨S100000x128, .f32⟩ : BufTy).Contents (Elt F) → (⟨S100000x128, .f32⟩ : BufTy).Contents (Elt F)),
    binary main_v98 main_v98 main_v99 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x00000000#32),
    binary main_v99 main_cst_13 main_v100 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_14 (constant S_ .f32 0x47C35000#32),
    unary main_cst_14 main_v101 (broadcastInDim S128 ![] bcast_S_S128 : (⟨S_, .f32⟩ : BufTy).Contents (Elt F) → (⟨S128, .f32⟩ : BufTy).Contents (Elt F)),
    binary main_v100 main_v101 main_v102 (Host.divf : (⟨S128, .f32⟩ : BufTy).Contents (Elt F) → (⟨S128, .f32⟩ : BufTy).Contents (Elt F) → (⟨S128, .f32⟩ : BufTy).Contents (Elt F)),
    unary main_v95 main_v103 (broadcastInDim S1x128 ![1] bcast_S128_S1x128_1 : (⟨S128, .f32⟩ : BufTy).Contents (Elt F) → (⟨S1x128, .f32⟩ : BufTy).Contents (Elt F)),
    unary main_v103 main_v104 (broadcastInDim S100000x128 ![0, 1] bcast_S1x128_S100000x128_0_1 : (⟨S1x128, .f32⟩ : BufTy).Contents (Elt F) → (⟨S100000x128, .f32⟩ : BufTy).Contents (Elt F)),
    binary main_v92 main_v104 main_v105 (subf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3727C5AC#32),
    unary main_cst_15 main_v106 (broadcastInDim S128 ![] bcast_S_S128 : (⟨S_, .f32⟩ : BufTy).Contents (Elt F) → (⟨S128, .f32⟩ : BufTy).Contents (Elt F)),
    binary main_v102 main_v106 main_v107 (addf : (⟨S128, .f32⟩ : BufTy).Contents (Elt F) → (⟨S128, .f32⟩ : BufTy).Contents (Elt F) → (⟨S128, .f32⟩ : BufTy).Contents (Elt F)),
    unary main_v107 main_v108 (Host.rsqrt : (⟨S128, .f32⟩ : BufTy).Contents (Elt F) → (⟨S128, .f32⟩ : BufTy).Contents (Elt F)),
    unary main_v108 main_v109 (broadcastInDim S1x128 ![1] bcast_S128_S1x128_1 : (⟨S128, .f32⟩ : BufTy).Contents (Elt F) → (⟨S1x128, .f32⟩ : BufTy).Contents (Elt F)),
    unary main_v109 main_v110 (broadcastInDim S100000x128 ![0, 1] bcast_S1x128_S100000x128_0_1 : (⟨S1x128, .f32⟩ : BufTy).Contents (Elt F) → (⟨S100000x128, .f32⟩ : BufTy).Contents (Elt F)),
    binary main_v105 main_v110 main_v111 (mulf : (⟨S100000x128, .f32⟩ : BufTy).Contents (Elt F) → (⟨S100000x128, .f32⟩ : BufTy).Contents (Elt F) → (⟨S100000x128, .f32⟩ : BufTy).Contents (Elt F)),
    unary main_arg6 main_v112 ((extractStridedSlice S1x128 ![1, 0] · slices_S3x128_S1x128_1_0) : (⟨S3x128, .f32⟩ : BufTy).Contents (Elt F) → (⟨S1x128, .f32⟩ : BufTy).Contents (Elt F)),
    reshape main_v112 main_v113 rfl shapeCasts_S1x128_S128,
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v111 main_v115 main_v116 (mulf : (⟨S100000x128, .f32⟩ : BufTy).Contents (Elt F) → (⟨S100000x128, .f32⟩ : BufTy).Contents (Elt F) → (⟨S100000x128, .f32⟩ : BufTy).Contents (Elt F)),
    unary main_arg7 main_v117 ((extractStridedSlice S1x128 ![1, 0] · slices_S3x128_S1x128_1_0) : (⟨S3x128, .f32⟩ : BufTy).Contents (Elt F) → (⟨S1x128, .f32⟩ : BufTy).Contents (Elt F)),
    reshape main_v117 main_v118 rfl shapeCasts_S1x128_S128,
    unary main_v118 main_v119 (broadcastInDim S1x128 ![1] bcast_S128_S1x128_1 : (⟨S128, .f32⟩ : BufTy).Contents (Elt F) → (⟨S1x128, .f32⟩ : BufTy).Contents (Elt F)),
    unary main_v119 main_v120 (broadcastInDim S100000x128 ![0, 1] bcast_S1x128_S100000x128_0_1 : (⟨S1x128, .f32⟩ : BufTy).Contents (Elt F) → (⟨S100000x128, .f32⟩ : BufTy).Contents (Elt F)),
    binary main_v116 main_v120 main_v121 (addf : (⟨S100000x128, .f32⟩ : BufTy).Contents (Elt F) → (⟨S100000x128, .f32⟩ : BufTy).Contents (Elt F) → (⟨S100000x128, .f32⟩ : BufTy).Contents (Elt F)),
    unary main_arg2 main_v122 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v122 main_v123 rfl shapeCasts_S1x128x128_S128x128,
    unary main_v123 main_v124 ((transpose S128x128 [1, 0] · transposes_S128x128_S128x128_1_0) : (⟨S128x128, .f32⟩ : BufTy).Contents (Elt F) → (⟨S128x128, .f32⟩ : BufTy).Contents (Elt F)),
    binary main_v72 main_v124 main_v125 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v126 ((extractStridedSlice S1x128 ![1, 0] · slices_S3x128_S1x128_1_0) : (⟨S3x128, .f32⟩ : BufTy).Contents (Elt F) → (⟨S1x128, .f32⟩ : BufTy).Contents (Elt F)),
    reshape main_v126 main_v127 rfl shapeCasts_S1x128_S128,
    unary main_v127 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v125 main_v129 main_v130 (addf : (⟨S100000x128, .f32⟩ : BufTy).Contents (Elt F) → (⟨S100000x128, .f32⟩ : BufTy).Contents (Elt F) → (⟨S100000x128, .f32⟩ : BufTy).Contents (Elt F)),
    binary main_v121 main_v82 main_v131 (addf : (⟨S100000x128, .f32⟩ : BufTy).Contents (Elt F) → (⟨S100000x128, .f32⟩ : BufTy).Contents (Elt F) → (⟨S100000x128, .f32⟩ : BufTy).Contents (Elt F)),
    binary main_v130 main_v131 main_v132 (addf : (⟨S100000x128, .f32⟩ : BufTy).Contents (Elt F) → (⟨S100000x128, .f32⟩ : BufTy).Contents (Elt F) → (⟨S100000x128, .f32⟩ : BufTy).Contents (Elt F)),
    binary main_v132 main_v132 main_v133 (mulf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    binary main_v133 main_cst_16 main_v134 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v134 main_v135 (broadcastInDim S100000x1 ![0] bcast_S100000_S100000x1_0 : (⟨S100000, .f32⟩ : BufTy).Contents (Elt F) → (⟨S100000x1, .f32⟩ : BufTy).Contents (Elt F)),
    unary main_v135 main_v136 (Host.sqrt : (⟨S100000x1, .f32⟩ : BufTy).Contents (Elt F) → (⟨S100000x1, .f32⟩ : BufTy).Contents (Elt F)),
    nullary main_cst_17 (constant S_ .f32 0x2B8CBCCC#32),
    unary main_cst_17 main_v137 (broadcastInDim S100000x1 ![] bcast_S_S100000x1 : (⟨S_, .f32⟩ : BufTy).Contents (Elt F) → (⟨S100000x1, .f32⟩ : BufTy).Contents (Elt F)),
    binary main_v136 main_v137 main_v138 (maximumf : (⟨S100000x1, .f32⟩ : BufTy).Contents (Elt F) → (⟨S100000x1, .f32⟩ : BufTy).Contents (Elt F) → (⟨S100000x1, .f32⟩ : BufTy).Contents (Elt F)),
    unary main_v138 main_v139 (broadcastInDim S100000x128 ![0, 1] bcast_S100000x1_S100000x128_0_1 : (⟨S100000x1, .f32⟩ : BufTy).Contents (Elt F) → (⟨S100000x128, .f32⟩ : BufTy).Contents (Elt F)),
    binary main_v132 main_v139 main_v140 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v140) (TRef.of (T := ⟨S100000x128, .f32⟩) main_call3_v0) (TRef.of (T := ⟨S100000x128, .f32⟩) main_v141) maximumf ]

/-- Layer 3. -/
def ops3 : List (HloOp τ sig (Elt F)) :=
  [ nullary main_c_18 (constantI S_ 32 0#32),
    unary main_c_18 main_v142 (broadcastInDim S1600000 ![] bcast_S_S1600000 : (⟨S_, .i32⟩ : BufTy).Contents (Elt F) → (⟨S1600000, .i32⟩ : BufTy).Contents (Elt F)),
    binary main_v1 main_v142 main_v143 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v144 (broadcastInDim S1600000 ![] bcast_S_S1600000 : (⟨S_, .i32⟩ : BufTy).Contents (Elt F) → (⟨S1600000, .i32⟩ : BufTy).Contents (Elt F)),
    binary main_v1 main_v144 main_v145 (addi : (⟨S1600000, .i32⟩ : BufTy).Contents (Elt F) → (⟨S1600000, .i32⟩ : BufTy).Contents (Elt F) → (⟨S1600000, .i32⟩ : BufTy).Contents (Elt F)),
    ternary main_v143 main_v145 main_v1 main_v146 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v146 main_v147 (broadcastInDim S1600000x1 ![0] bcast_S1600000_S1600000x1_0 : (⟨S1600000, .i32⟩ : BufTy).Contents (Elt F) → (⟨S1600000x1, .i32⟩ : BufTy).Contents (Elt F)),
    binary main_v141 main_v147 main_v148 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_20 (constant S_ .f32 0x00000000#32),
    unary main_cst_20 main_v149 (broadcastInDim S100000x128 ![] bcast_S_S100000x128 : (⟨S_, .f32⟩ : BufTy).Contents (Elt F) → (⟨S100000x128, .f32⟩ : BufTy).Contents (Elt F)),
    unary main_v3 main_v150 (broadcastInDim S1600000x1 ![0] bcast_S1600000_S1600000x1_0 : (⟨S1600000, .i32⟩ : BufTy).Contents (Elt F) → (⟨S1600000x1, .i32⟩ : BufTy).Contents (Elt F)),
    ternary main_v149 main_v150 main_v148 main_v151 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg4 main_v152 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v152 main_v153 rfl shapeCasts_S1x128x128_S128x128,
    unary main_v153 main_v154 ((transpose S128x128 [1, 0] · transposes_S128x128_S128x128_1_0) : (⟨S128x128, .f32⟩ : BufTy).Contents (Elt F) → (⟨S128x128, .f32⟩ : BufTy).Contents (Elt F)),
    binary main_v151 main_v154 main_v155 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v156 ((extractStridedSlice S1x128 ![2, 0] · slices_S3x128_S1x128_2_0) : (⟨S3x128, .f32⟩ : BufTy).Contents (Elt F) → (⟨S1x128, .f32⟩ : BufTy).Contents (Elt F)),
    reshape main_v156 main_v157 rfl shapeCasts_S1x128_S128,
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S100000x128 ![0, 1] bcast_S1x128_S100000x128_0_1 : (⟨S1x128, .f32⟩ : BufTy).Contents (Elt F) → (⟨S100000x128, .f32⟩ : BufTy).Contents (Elt F)),
    binary main_v155 main_v159 main_v160 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v160) (TRef.of (T := ⟨S100000x128, .f32⟩) main_call4_v0) (TRef.of (T := ⟨S100000x128, .f32⟩) main_v161) maximumf,
    nullary main_cst_21 (constant S_ .f32 0x00000000#32),
    binary main_v161 main_cst_21 main_v162 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_22 (constant S_ .f32 0x47C35000#32),
    unary main_cst_22 main_v163 (broadcastInDim S128 ![] bcast_S_S128 : (⟨S_, .f32⟩ : BufTy).Contents (Elt F) → (⟨S128, .f32⟩ : BufTy).Contents (Elt F)),
    binary main_v162 main_v163 main_v164 (Host.divf : (⟨S128, .f32⟩ : BufTy).Contents (Elt F) → (⟨S128, .f32⟩ : BufTy).Contents (Elt F) → (⟨S128, .f32⟩ : BufTy).Contents (Elt F)),
    unary main_v164 main_v165 (broadcastInDim S1x128 ![1] bcast_S128_S1x128_1 : (⟨S128, .f32⟩ : BufTy).Contents (Elt F) → (⟨S1x128, .f32⟩ : BufTy).Contents (Elt F)),
    unary main_v165 main_v166 (broadcastInDim S100000x128 ![0, 1] bcast_S1x128_S100000x128_0_1 : (⟨S1x128, .f32⟩ : BufTy).Contents (Elt F) → (⟨S100000x128, .f32⟩ : BufTy).Contents (Elt F)),
    binary main_v161 main_v166 main_v167 (subf : (⟨S100000x128, .f32⟩ : BufTy).Contents (Elt F) → (⟨S100000x128, .f32⟩ : BufTy).Contents (Elt F) → (⟨S100000x128, .f32⟩ : BufTy).Contents (Elt F)),
    binary main_v167 main_v167 main_v168 (mulf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x00000000#32),
    binary main_v168 main_cst_23 main_v169 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_24 (constant S_ .f32 0x47C35000#32),
    unary main_cst_24 main_v170 (broadcastInDim S128 ![] bcast_S_S128 : (⟨S_, .f32⟩ : BufTy).Contents (Elt F) → (⟨S128, .f32⟩ : BufTy).Contents (Elt F)),
    binary main_v169 main_v170 main_v171 (Host.divf : (⟨S128, .f32⟩ : BufTy).Contents (Elt F) → (⟨S128, .f32⟩ : BufTy).Contents (Elt F) → (⟨S128, .f32⟩ : BufTy).Contents (Elt F)),
    unary main_v164 main_v172 (broadcastInDim S1x128 ![1] bcast_S128_S1x128_1 : (⟨S128, .f32⟩ : BufTy).Contents (Elt F) → (⟨S1x128, .f32⟩ : BufTy).Contents (Elt F)),
    unary main_v172 main_v173 (broadcastInDim S100000x128 ![0, 1] bcast_S1x128_S100000x128_0_1 : (⟨S1x128, .f32⟩ : BufTy).Contents (Elt F) → (⟨S100000x128, .f32⟩ : BufTy).Contents (Elt F)),
    binary main_v161 main_v173 main_v174 (subf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v175 (broadcastInDim S128 ![] bcast_S_S128 : (⟨S_, .f32⟩ : BufTy).Contents (Elt F) → (⟨S128, .f32⟩ : BufTy).Contents (Elt F)),
    binary main_v171 main_v175 main_v176 (addf : (⟨S128, .f32⟩ : BufTy).Contents (Elt F) → (⟨S128, .f32⟩ : BufTy).Contents (Elt F) → (⟨S128, .f32⟩ : BufTy).Contents (Elt F)),
    unary main_v176 main_v177 (Host.rsqrt : (⟨S128, .f32⟩ : BufTy).Contents (Elt F) → (⟨S128, .f32⟩ : BufTy).Contents (Elt F)),
    unary main_v177 main_v178 (broadcastInDim S1x128 ![1] bcast_S128_S1x128_1 : (⟨S128, .f32⟩ : BufTy).Contents (Elt F) → (⟨S1x128, .f32⟩ : BufTy).Contents (Elt F)),
    unary main_v178 main_v179 (broadcastInDim S100000x128 ![0, 1] bcast_S1x128_S100000x128_0_1 : (⟨S1x128, .f32⟩ : BufTy).Contents (Elt F) → (⟨S100000x128, .f32⟩ : BufTy).Contents (Elt F)),
    binary main_v174 main_v179 main_v180 (mulf : (⟨S100000x128, .f32⟩ : BufTy).Contents (Elt F) → (⟨S100000x128, .f32⟩ : BufTy).Contents (Elt F) → (⟨S100000x128, .f32⟩ : BufTy).Contents (Elt F)),
    unary main_arg6 main_v181 ((extractStridedSlice S1x128 ![2, 0] · slices_S3x128_S1x128_2_0) : (⟨S3x128, .f32⟩ : BufTy).Contents (Elt F) → (⟨S1x128, .f32⟩ : BufTy).Contents (Elt F)),
    reshape main_v181 main_v182 rfl shapeCasts_S1x128_S128,
    unary main_v182 main_v183 (broadcastInDim S1x128 ![1] bcast_S128_S1x128_1 : (⟨S128, .f32⟩ : BufTy).Contents (Elt F) → (⟨S1x128, .f32⟩ : BufTy).Contents (Elt F)),
    unary main_v183 main_v184 (broadcastInDim S100000x128 ![0, 1] bcast_S1x128_S100000x128_0_1 : (⟨S1x128, .f32⟩ : BufTy).Contents (Elt F) → (⟨S100000x128, .f32⟩ : BufTy).Contents (Elt F)),
    binary main_v180 main_v184 main_v185 (mulf : (⟨S100000x128, .f32⟩ : BufTy).Contents (Elt F) → (⟨S100000x128, .f32⟩ : BufTy).Contents (Elt F) → (⟨S100000x128, .f32⟩ : BufTy).Contents (Elt F)),
    unary main_arg7 main_v186 ((extractStridedSlice S1x128 ![2, 0] · slices_S3x128_S1x128_2_0) : (⟨S3x128, .f32⟩ : BufTy).Contents (Elt F) → (⟨S1x128, .f32⟩ : BufTy).Contents (Elt F)),
    reshape main_v186 main_v187 rfl shapeCasts_S1x128_S128,
    unary main_v187 main_v188 (broadcastInDim S1x128 ![1] bcast_S128_S1x128_1 : (⟨S128, .f32⟩ : BufTy).Contents (Elt F) → (⟨S1x128, .f32⟩ : BufTy).Contents (Elt F)),
    unary main_v188 main_v189 (broadcastInDim S100000x128 ![0, 1] bcast_S1x128_S100000x128_0_1 : (⟨S1x128, .f32⟩ : BufTy).Contents (Elt F) → (⟨S100000x128, .f32⟩ : BufTy).Contents (Elt F)),
    binary main_v185 main_v189 main_v190 (addf : (⟨S100000x128, .f32⟩ : BufTy).Contents (Elt F) → (⟨S100000x128, .f32⟩ : BufTy).Contents (Elt F) → (⟨S100000x128, .f32⟩ : BufTy).Contents (Elt F)),
    unary main_arg2 main_v191 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v191 main_v192 rfl shapeCasts_S1x128x128_S128x128,
    unary main_v192 main_v193 ((transpose S128x128 [1, 0] · transposes_S128x128_S128x128_1_0) : (⟨S128x128, .f32⟩ : BufTy).Contents (Elt F) → (⟨S128x128, .f32⟩ : BufTy).Contents (Elt F)),
    binary main_v141 main_v193 main_v194 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v195 ((extractStridedSlice S1x128 ![2, 0] · slices_S3x128_S1x128_2_0) : (⟨S3x128, .f32⟩ : BufTy).Contents (Elt F) → (⟨S1x128, .f32⟩ : BufTy).Contents (Elt F)),
    reshape main_v195 main_v196 rfl shapeCasts_S1x128_S128,
    unary main_v196 main_v197 (broadcastInDim S1x128 ![1] bcast_S128_S1x128_1 : (⟨S128, .f32⟩ : BufTy).Contents (Elt F) → (⟨S1x128, .f32⟩ : BufTy).Contents (Elt F)),
    unary main_v197 main_v198 (broadcastInDim S100000x128 ![0, 1] bcast_S1x128_S100000x128_0_1 : (⟨S1x128, .f32⟩ : BufTy).Contents (Elt F) → (⟨S100000x128, .f32⟩ : BufTy).Contents (Elt F)),
    binary main_v194 main_v198 main_v199 (addf : (⟨S100000x128, .f32⟩ : BufTy).Contents (Elt F) → (⟨S100000x128, .f32⟩ : BufTy).Contents (Elt F) → (⟨S100000x128, .f32⟩ : BufTy).Contents (Elt F)),
    binary main_v190 main_v151 main_v200 (addf : (⟨S100000x128, .f32⟩ : BufTy).Contents (Elt F) → (⟨S100000x128, .f32⟩ : BufTy).Contents (Elt F) → (⟨S100000x128, .f32⟩ : BufTy).Contents (Elt F)),
    binary main_v199 main_v200 main_v201 (addf : (⟨S100000x128, .f32⟩ : BufTy).Contents (Elt F) → (⟨S100000x128, .f32⟩ : BufTy).Contents (Elt F) → (⟨S100000x128, .f32⟩ : BufTy).Contents (Elt F)),
    binary main_v201 main_v201 main_v202 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v202 main_cst_26 main_v203 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v203 main_v204 (broadcastInDim S100000x1 ![0] bcast_S100000_S100000x1_0 : (⟨S100000, .f32⟩ : BufTy).Contents (Elt F) → (⟨S100000x1, .f32⟩ : BufTy).Contents (Elt F)),
    unary main_v204 main_v205 (Host.sqrt : (⟨S100000x1, .f32⟩ : BufTy).Contents (Elt F) → (⟨S100000x1, .f32⟩ : BufTy).Contents (Elt F)),
    nullary main_cst_27 (constant S_ .f32 0x2B8CBCCC#32),
    unary main_cst_27 main_v206 (broadcastInDim S100000x1 ![] bcast_S_S100000x1 : (⟨S_, .f32⟩ : BufTy).Contents (Elt F) → (⟨S100000x1, .f32⟩ : BufTy).Contents (Elt F)),
    binary main_v205 main_v206 main_v207 (maximumf : (⟨S100000x1, .f32⟩ : BufTy).Contents (Elt F) → (⟨S100000x1, .f32⟩ : BufTy).Contents (Elt F) → (⟨S100000x1, .f32⟩ : BufTy).Contents (Elt F)),
    unary main_v207 main_v208 (broadcastInDim S100000x128 ![0, 1] bcast_S100000x1_S100000x128_0_1 : (⟨S100000x1, .f32⟩ : BufTy).Contents (Elt F) → (⟨S100000x128, .f32⟩ : BufTy).Contents (Elt F)),
    binary main_v201 main_v208 main_v209 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v209) (TRef.of (T := ⟨S100000x128, .f32⟩) main_call5_v0) (TRef.of (T := ⟨S100000x128, .f32⟩) main_v210) maximumf ]

/-- The two affine steps of the head. -/
def ops4 : List (HloOp τ sig (Elt F)) :=
  [ unary main_arg8 main_v211 ((transpose S128x128 [1, 0] · transposes_S128x128_S128x128_1_0) : (⟨S128x128, .f32⟩ : BufTy).Contents (Elt F) → (⟨S128x128, .f32⟩ : BufTy).Contents (Elt F)),
    binary main_v210 main_v211 main_v212 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v213 (broadcastInDim S1x128 ![1] bcast_S128_S1x128_1 : (⟨S128, .f32⟩ : BufTy).Contents (Elt F) → (⟨S1x128, .f32⟩ : BufTy).Contents (Elt F)),
    unary main_v213 main_v214 (broadcastInDim S100000x128 ![0, 1] bcast_S1x128_S100000x128_0_1 : (⟨S1x128, .f32⟩ : BufTy).Contents (Elt F) → (⟨S100000x128, .f32⟩ : BufTy).Contents (Elt F)),
    binary main_v212 main_v214 main_v215 (addf : (⟨S100000x128, .f32⟩ : BufTy).Contents (Elt F) → (⟨S100000x128, .f32⟩ : BufTy).Contents (Elt F) → (⟨S100000x128, .f32⟩ : BufTy).Contents (Elt F)),
    unary main_arg10 main_v216 ((transpose S128x47 [1, 0] · transposes_S47x128_S128x47_1_0) : (⟨S47x128, .f32⟩ : BufTy).Contents (Elt F) → (⟨S128x47, .f32⟩ : BufTy).Contents (Elt F)),
    binary main_v215 main_v216 main_v217 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    unary main_arg11 main_v218 (broadcastInDim S1x47 ![1] bcast_S47_S1x47_1 : (⟨S47, .f32⟩ : BufTy).Contents (Elt F) → (⟨S1x47, .f32⟩ : BufTy).Contents (Elt F)),
    unary main_v218 main_v219 (broadcastInDim S100000x47 ![0, 1] bcast_S1x47_S100000x47_0_1 : (⟨S1x47, .f32⟩ : BufTy).Contents (Elt F) → (⟨S100000x47, .f32⟩ : BufTy).Contents (Elt F)),
    binary main_v217 main_v219 main_v220 (addf : (⟨S100000x47, .f32⟩ : BufTy).Contents (Elt F) → (⟨S100000x47, .f32⟩ : BufTy).Contents (Elt F) → (⟨S100000x47, .f32⟩ : BufTy).Contents (Elt F)) ]

/-- The row-wise log-softmax. -/
def ops5 : List (HloOp τ sig (Elt F)) :=
  [ TRef.nullary (TRef.of (T := ⟨S_, .f32⟩) main_call6_cst) (constant S_ .f32 0xFF800000#32),
    TRef.binary (TRef.of (T := ⟨S100000x47, .f32⟩) main_v220) (TRef.of (T := ⟨S_, .f32⟩) main_call6_cst) (TRef.of (T := ⟨S100000, .f32⟩) main_call6_v0) (fun x v => Host.reduce FloatOps.maximumf x v reducesTo_S100000x47_S100000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S100000, .f32⟩) main_call6_v1) (broadcastInDim S100000 ![] bcast_S_S100000),
    TRef.binary (TRef.of (T := ⟨S100000, .f32⟩) main_call6_v1) (TRef.of (T := ⟨S100000, .f32⟩) main_call6_v0) (TRef.of (T := ⟨S100000, .f32⟩) main_call6_v2) maximumf,
    TRef.unary (TRef.of (T := ⟨S100000, .f32⟩) main_call6_v2) (TRef.of (T := ⟨S100000x1, .f32⟩) main_call6_v3) (broadcastInDim S100000x1 ![0] bcast_S100000_S100000x1_0),
    TRef.unary (TRef.of (T := ⟨S100000x1, .f32⟩) main_call6_v3) (TRef.of (T := ⟨S100000x47, .f32⟩) main_call6_v4) (broadcastInDim S100000x47 ![0, 1] bcast_S100000x1_S100000x47_0_1),
    TRef.binary (TRef.of (T := ⟨S100000x47, .f32⟩) main_v220) (TRef.of (T := ⟨S100000x47, .f32⟩) main_call6_v4) (TRef.of (T := ⟨S100000x47, .f32⟩) main_call6_v5) subf,
    TRef.unary (TRef.of (T := ⟨S100000x47, .f32⟩) main_call6_v5) (TRef.of (T := ⟨S100000x47, .f32⟩) main_call6_v6) Host.exp,
    TRef.nullary (TRef.of (T := ⟨S_, .f32⟩) main_call6_cst_1) (constant S_ .f32 0x00000000#32),
    TRef.binary (TRef.of (T := ⟨S100000x47, .f32⟩) main_call6_v6) (TRef.of (T := ⟨S_, .f32⟩) main_call6_cst_1) (TRef.of (T := ⟨S100000, .f32⟩) main_call6_v7) (fun x v => Host.reduceAdd x v reducesTo_S100000x47_S100000_d1 h_S_),
    TRef.unary (TRef.of (T := ⟨S100000, .f32⟩) main_call6_v7) (TRef.of (T := ⟨S100000x1, .f32⟩) main_call6_v8) (broadcastInDim S100000x1 ![0] bcast_S100000_S100000x1_0),
    TRef.unary (TRef.of (T := ⟨S100000x1, .f32⟩) main_call6_v8) (TRef.of (T := ⟨S100000x1, .f32⟩) main_call6_v9) Host.log,
    TRef.unary (TRef.of (T := ⟨S100000x1, .f32⟩) main_call6_v9) (TRef.of (T := ⟨S100000x47, .f32⟩) main_call6_v10) (broadcastInDim S100000x47 ![0, 1] bcast_S100000x1_S100000x47_0_1),
    TRef.binary (TRef.of (T := ⟨S100000x47, .f32⟩) main_call6_v5) (TRef.of (T := ⟨S100000x47, .f32⟩) main_call6_v10) (TRef.of (T := ⟨S100000x47, .f32⟩) main_v221) subf ]

/-- The line is the five stretches in order. -/
theorem ops_split : (ops : List (HloOp τ sig (Elt F))) = ops1 ++ (ops2 ++ (ops3 ++ (ops4 ++ ops5))) := rfl

/-! ## What a stretch leaves alone -/

theorem keep1_a0 (W : Valuation τ sig (Elt F)) : after ops1 W (Proc.devRef .tc main_arg0) = W (Proc.devRef .tc main_arg0) := by
  unfold ops1
  after_results_simp <;> rfl

theorem keep1_a1 (W : Valuation τ sig (Elt F)) : after ops1 W (Proc.devRef .tc main_arg1) = W (Proc.devRef .tc main_arg1) := by
  unfold ops1
  after_results_simp <;> rfl

theorem keep1_a2 (W : Valuation τ sig (Elt F)) : after ops1 W (Proc.devRef .tc main_arg2) = W (Proc.devRef .tc main_arg2) := by
  unfold ops1
  after_results_simp <;> rfl

theorem keep1_a3 (W : Valuation τ sig (Elt F)) : after ops1 W (Proc.devRef .tc main_arg3) = W (Proc.devRef .tc main_arg3) := by
  unfold ops1
  after_results_simp <;> rfl

theorem keep1_a4 (W : Valuation τ sig (Elt F)) : after ops1 W (Proc.devRef .tc main_arg4) = W (Proc.devRef .tc main_arg4) := by
  unfold ops1
  after_results_simp <;> rfl

theorem keep1_a5 (W : Valuation τ sig (Elt F)) : after ops1 W (Proc.devRef .tc main_arg5) = W (Proc.devRef .tc main_arg5) := by
  unfold ops1
  after_results_simp <;> rfl

theorem keep1_a6 (W : Valuation τ sig (Elt F)) : after ops1 W (Proc.devRef .tc main_arg6) = W (Proc.devRef .tc main_arg6) := by
  unfold ops1
  after_results_simp <;> rfl

theorem keep1_a7 (W : Valuation τ sig (Elt F)) : after ops1 W (Proc.devRef .tc main_arg7) = W (Proc.devRef .tc main_arg7) := by
  unfold ops1
  after_results_simp <;> rfl

theorem keep1_a8 (W : Valuation τ sig (Elt F)) : after ops1 W (Proc.devRef .tc main_arg8) = W (Proc.devRef .tc main_arg8) := by
  unfold ops1
  after_results_simp <;> rfl

theorem keep1_a9 (W : Valuation τ sig (Elt F)) : after ops1 W (Proc.devRef .tc main_arg9) = W (Proc.devRef .tc main_arg9) := by
  unfold ops1
  after_results_simp <;> rfl

theorem keep1_a10 (W : Valuation τ sig (Elt F)) : after ops1 W (Proc.devRef .tc main_arg10) = W (Proc.devRef .tc main_arg10) := by
  unfold ops1
  after_results_simp <;> rfl

theorem keep1_a11 (W : Valuation τ sig (Elt F)) : after ops1 W (Proc.devRef .tc main_arg11) = W (Proc.devRef .tc main_arg11) := by
  unfold ops1
  after_results_simp <;> rfl

theorem keep2_a0 (W : Valuation τ sig (Elt F)) : after ops2 W (Proc.devRef .tc main_arg0) = W (Proc.devRef .tc main_arg0) := by
  unfold ops2
  after_results_simp <;> rfl

theorem keep2_a1 (W : Valuation τ sig (Elt F)) : after ops2 W (Proc.devRef .tc main_arg1) = W (Proc.devRef .tc main_arg1) := by
  unfold ops2
  after_results_simp <;> rfl

theorem keep2_a2 (W : Valuation τ sig (Elt F)) : after ops2 W (Proc.devRef .tc main_arg2) = W (Proc.devRef .tc main_arg2) := by
  unfold ops2
  after_results_simp <;> rfl

theorem keep2_a3 (W : Valuation τ sig (Elt F)) : after ops2 W (Proc.devRef .tc main_arg3) = W (Proc.devRef .tc main_arg3) := by
  unfold ops2
  after_results_simp <;> rfl

theorem keep2_a4 (W : Valuation τ sig (Elt F)) : after ops2 W (Proc.devRef .tc main_arg4) = W (Proc.devRef .tc main_arg4) := by
  unfold ops2
  after_results_simp <;> rfl

theorem keep2_a5 (W : Valuation τ sig (Elt F)) : after ops2 W (Proc.devRef .tc main_arg5) = W (Proc.devRef .tc main_arg5) := by
  unfold ops2
  after_results_simp <;> rfl

theorem keep2_a6 (W : Valuation τ sig (Elt F)) : after ops2 W (Proc.devRef .tc main_arg6) = W (Proc.devRef .tc main_arg6) := by
  unfold ops2
  after_results_simp <;> rfl

theorem keep2_a7 (W : Valuation τ sig (Elt F)) : after ops2 W (Proc.devRef .tc main_arg7) = W (Proc.devRef .tc main_arg7) := by
  unfold ops2
  after_results_simp <;> rfl

theorem keep2_a8 (W : Valuation τ sig (Elt F)) : after ops2 W (Proc.devRef .tc main_arg8) = W (Proc.devRef .tc main_arg8) := by
  unfold ops2
  after_results_simp <;> rfl

theorem keep2_a9 (W : Valuation τ sig (Elt F)) : after ops2 W (Proc.devRef .tc main_arg9) = W (Proc.devRef .tc main_arg9) := by
  unfold ops2
  after_results_simp <;> rfl

theorem keep2_a10 (W : Valuation τ sig (Elt F)) : after ops2 W (Proc.devRef .tc main_arg10) = W (Proc.devRef .tc main_arg10) := by
  unfold ops2
  after_results_simp <;> rfl

theorem keep2_a11 (W : Valuation τ sig (Elt F)) : after ops2 W (Proc.devRef .tc main_arg11) = W (Proc.devRef .tc main_arg11) := by
  unfold ops2
  after_results_simp <;> rfl

theorem keep3_a0 (W : Valuation τ sig (Elt F)) : after ops3 W (Proc.devRef .tc main_arg0) = W (Proc.devRef .tc main_arg0) := by
  unfold ops3
  after_results_simp <;> rfl

theorem keep3_a1 (W : Valuation τ sig (Elt F)) : after ops3 W (Proc.devRef .tc main_arg1) = W (Proc.devRef .tc main_arg1) := by
  unfold ops3
  after_results_simp <;> rfl

theorem keep3_a2 (W : Valuation τ sig (Elt F)) : after ops3 W (Proc.devRef .tc main_arg2) = W (Proc.devRef .tc main_arg2) := by
  unfold ops3
  after_results_simp <;> rfl

theorem keep3_a3 (W : Valuation τ sig (Elt F)) : after ops3 W (Proc.devRef .tc main_arg3) = W (Proc.devRef .tc main_arg3) := by
  unfold ops3
  after_results_simp <;> rfl

theorem keep3_a4 (W : Valuation τ sig (Elt F)) : after ops3 W (Proc.devRef .tc main_arg4) = W (Proc.devRef .tc main_arg4) := by
  unfold ops3
  after_results_simp <;> rfl

theorem keep3_a5 (W : Valuation τ sig (Elt F)) : after ops3 W (Proc.devRef .tc main_arg5) = W (Proc.devRef .tc main_arg5) := by
  unfold ops3
  after_results_simp <;> rfl

theorem keep3_a6 (W : Valuation τ sig (Elt F)) : after ops3 W (Proc.devRef .tc main_arg6) = W (Proc.devRef .tc main_arg6) := by
  unfold ops3
  after_results_simp <;> rfl

theorem keep3_a7 (W : Valuation τ sig (Elt F)) : after ops3 W (Proc.devRef .tc main_arg7) = W (Proc.devRef .tc main_arg7) := by
  unfold ops3
  after_results_simp <;> rfl

theorem keep3_a8 (W : Valuation τ sig (Elt F)) : after ops3 W (Proc.devRef .tc main_arg8) = W (Proc.devRef .tc main_arg8) := by
  unfold ops3
  after_results_simp <;> rfl

theorem keep3_a9 (W : Valuation τ sig (Elt F)) : after ops3 W (Proc.devRef .tc main_arg9) = W (Proc.devRef .tc main_arg9) := by
  unfold ops3
  after_results_simp <;> rfl

theorem keep3_a10 (W : Valuation τ sig (Elt F)) : after ops3 W (Proc.devRef .tc main_arg10) = W (Proc.devRef .tc main_arg10) := by
  unfold ops3
  after_results_simp <;> rfl

theorem keep3_a11 (W : Valuation τ sig (Elt F)) : after ops3 W (Proc.devRef .tc main_arg11) = W (Proc.devRef .tc main_arg11) := by
  unfold ops3
  after_results_simp <;> rfl

theorem keep4_a0 (W : Valuation τ sig (Elt F)) : after ops4 W (Proc.devRef .tc main_arg0) = W (Proc.devRef .tc main_arg0) := by
  unfold ops4
  after_results_simp <;> rfl

theorem keep4_a1 (W : Valuation τ sig (Elt F)) : after ops4 W (Proc.devRef .tc main_arg1) = W (Proc.devRef .tc main_arg1) := by
  unfold ops4
  after_results_simp <;> rfl

theorem keep4_a2 (W : Valuation τ sig (Elt F)) : after ops4 W (Proc.devRef .tc main_arg2) = W (Proc.devRef .tc main_arg2) := by
  unfold ops4
  after_results_simp <;> rfl

theorem keep4_a3 (W : Valuation τ sig (Elt F)) : after ops4 W (Proc.devRef .tc main_arg3) = W (Proc.devRef .tc main_arg3) := by
  unfold ops4
  after_results_simp <;> rfl

theorem keep4_a4 (W : Valuation τ sig (Elt F)) : after ops4 W (Proc.devRef .tc main_arg4) = W (Proc.devRef .tc main_arg4) := by
  unfold ops4
  after_results_simp <;> rfl

theorem keep4_a5 (W : Valuation τ sig (Elt F)) : after ops4 W (Proc.devRef .tc main_arg5) = W (Proc.devRef .tc main_arg5) := by
  unfold ops4
  after_results_simp <;> rfl

theorem keep4_a6 (W : Valuation τ sig (Elt F)) : after ops4 W (Proc.devRef .tc main_arg6) = W (Proc.devRef .tc main_arg6) := by
  unfold ops4
  after_results_simp <;> rfl

theorem keep4_a7 (W : Valuation τ sig (Elt F)) : after ops4 W (Proc.devRef .tc main_arg7) = W (Proc.devRef .tc main_arg7) := by
  unfold ops4
  after_results_simp <;> rfl

theorem keep4_a8 (W : Valuation τ sig (Elt F)) : after ops4 W (Proc.devRef .tc main_arg8) = W (Proc.devRef .tc main_arg8) := by
  unfold ops4
  after_results_simp <;> rfl

theorem keep4_a9 (W : Valuation τ sig (Elt F)) : after ops4 W (Proc.devRef .tc main_arg9) = W (Proc.devRef .tc main_arg9) := by
  unfold ops4
  after_results_simp <;> rfl

theorem keep4_a10 (W : Valuation τ sig (Elt F)) : after ops4 W (Proc.devRef .tc main_arg10) = W (Proc.devRef .tc main_arg10) := by
  unfold ops4
  after_results_simp <;> rfl

theorem keep4_a11 (W : Valuation τ sig (Elt F)) : after ops4 W (Proc.devRef .tc main_arg11) = W (Proc.devRef .tc main_arg11) := by
  unfold ops4
  after_results_simp <;> rfl

theorem keep5_a0 (W : Valuation τ sig (Elt F)) : after ops5 W (Proc.devRef .tc main_arg0) = W (Proc.devRef .tc main_arg0) := by
  unfold ops5
  after_results_simp <;> rfl

theorem keep5_a1 (W : Valuation τ sig (Elt F)) : after ops5 W (Proc.devRef .tc main_arg1) = W (Proc.devRef .tc main_arg1) := by
  unfold ops5
  after_results_simp <;> rfl

theorem keep5_a2 (W : Valuation τ sig (Elt F)) : after ops5 W (Proc.devRef .tc main_arg2) = W (Proc.devRef .tc main_arg2) := by
  unfold ops5
  after_results_simp <;> rfl

theorem keep5_a3 (W : Valuation τ sig (Elt F)) : after ops5 W (Proc.devRef .tc main_arg3) = W (Proc.devRef .tc main_arg3) := by
  unfold ops5
  after_results_simp <;> rfl

theorem keep5_a4 (W : Valuation τ sig (Elt F)) : after ops5 W (Proc.devRef .tc main_arg4) = W (Proc.devRef .tc main_arg4) := by
  unfold ops5
  after_results_simp <;> rfl

theorem keep5_a5 (W : Valuation τ sig (Elt F)) : after ops5 W (Proc.devRef .tc main_arg5) = W (Proc.devRef .tc main_arg5) := by
  unfold ops5
  after_results_simp <;> rfl

theorem keep5_a6 (W : Valuation τ sig (Elt F)) : after ops5 W (Proc.devRef .tc main_arg6) = W (Proc.devRef .tc main_arg6) := by
  unfold ops5
  after_results_simp <;> rfl

theorem keep5_a7 (W : Valuation τ sig (Elt F)) : after ops5 W (Proc.devRef .tc main_arg7) = W (Proc.devRef .tc main_arg7) := by
  unfold ops5
  after_results_simp <;> rfl

theorem keep5_a8 (W : Valuation τ sig (Elt F)) : after ops5 W (Proc.devRef .tc main_arg8) = W (Proc.devRef .tc main_arg8) := by
  unfold ops5
  after_results_simp <;> rfl

theorem keep5_a9 (W : Valuation τ sig (Elt F)) : after ops5 W (Proc.devRef .tc main_arg9) = W (Proc.devRef .tc main_arg9) := by
  unfold ops5
  after_results_simp <;> rfl

theorem keep5_a10 (W : Valuation τ sig (Elt F)) : after ops5 W (Proc.devRef .tc main_arg10) = W (Proc.devRef .tc main_arg10) := by
  unfold ops5
  after_results_simp <;> rfl

theorem keep5_a11 (W : Valuation τ sig (Elt F)) : after ops5 W (Proc.devRef .tc main_arg11) = W (Proc.devRef .tc main_arg11) := by
  unfold ops5
  after_results_simp <;> rfl

theorem keep2_v1 (W : Valuation τ sig (Elt F)) : after ops2 W (Proc.devRef .tc main_v1) = W (Proc.devRef .tc main_v1) := by
  unfold ops2
  after_results_simp <;> rfl

theorem keep2_v3 (W : Valuation τ sig (Elt F)) : after ops2 W (Proc.devRef .tc main_v3) = W (Proc.devRef .tc main_v3) := by
  unfold ops2
  after_results_simp <;> rfl

theorem keep3_v1 (W : Valuation τ sig (Elt F)) : after ops3 W (Proc.devRef .tc main_v1) = W (Proc.devRef .tc main_v1) := by
  unfold ops3
  after_results_simp <;> rfl

theorem keep3_v3 (W : Valuation τ sig (Elt F)) : after ops3 W (Proc.devRef .tc main_v3) = W (Proc.devRef .tc main_v3) := by
  unfold ops3
  after_results_simp <;> rfl

/-! ## What each stretch writes, from what it reads -/

/-- After layer 1's stretch the source row of the edge list is the program's slice of the edge array. -/
theorem stage1_v1 (W : Valuation τ sig (Elt F)) :
    after ops1 W (Proc.devRef .tc main_v1) = val_main_v1 (F := F) (W (Proc.devRef .tc main_arg1)) := by
  unfold ops1
  after_results_simp <;> rfl

/-- After layer 1's stretch the target row of the edge list is the program's slice of the edge array. -/
theorem stage1_v3 (W : Valuation τ sig (Elt F)) :
    after ops1 W (Proc.devRef .tc main_v3) = val_main_v3 (F := F) (W (Proc.devRef .tc main_arg1)) := by
  unfold ops1
  after_results_simp <;> rfl

set_option maxHeartbeats 1600000 in
/-- After layer 1's stretch the layer's output buffer holds layer 1 of the arguments. -/
theorem stage1 (W : Valuation τ sig (Elt F)) :
    after ops1 W (Proc.devRef .tc main_v72) = val_main_v72 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold ops1
  after_results_simp <;> rfl

set_option maxHeartbeats 1600000 in
/-- After layer 2's stretch, from contents that hold layer 1's output and the two edge rows, the layer's output
    buffer holds layer 2. -/
theorem stage2 (W : Valuation τ sig (Elt F)) (x0 : (⟨S100000x128, .f32⟩ : BufTy).Contents (Elt F))
    (x1 : (⟨S2x1600000, .i32⟩ : BufTy).Contents (Elt F))
    (h72 : W (Proc.devRef .tc main_v72) = val_main_v72 (F := F) x0 x1 (W (Proc.devRef .tc main_arg2)) (W (Proc.devRef .tc main_arg3)) (W (Proc.devRef .tc main_arg4)) (W (Proc.devRef .tc main_arg5)) (W (Proc.devRef .tc main_arg6)) (W (Proc.devRef .tc main_arg7)))
    (h1 : W (Proc.devRef .tc main_v1) = val_main_v1 (F := F) x1) (h3 : W (Proc.devRef .tc main_v3) = val_main_v3 (F := F) x1) :
    after ops2 W (Proc.devRef .tc main_v141) = val_main_v141 (F := F) x0 x1 (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold ops2
  after_results_simp
  rewrite [h72, h1, h3]
  rfl

set_option maxHeartbeats 1600000 in
/-- After layer 3's stretch, from contents that hold layer 2's output and the two edge rows, the layer's output
    buffer holds layer 3. -/
theorem stage3 (W : Valuation τ sig (Elt F)) (x0 : (⟨S100000x128, .f32⟩ : BufTy).Contents (Elt F))
    (x1 : (⟨S2x1600000, .i32⟩ : BufTy).Contents (Elt F))
    (h141 : W (Proc.devRef .tc main_v141) = val_main_v141 (F := F) x0 x1 (W (Proc.devRef .tc main_arg2)) (W (Proc.devRef .tc main_arg3)) (W (Proc.devRef .tc main_arg4)) (W (Proc.devRef .tc main_arg5)) (W (Proc.devRef .tc main_arg6)) (W (Proc.devRef .tc main_arg7)))
    (h1 : W (Proc.devRef .tc main_v1) = val_main_v1 (F := F) x1) (h3 : W (Proc.devRef .tc main_v3) = val_main_v3 (F := F) x1) :
    after ops3 W (Proc.devRef .tc main_v210) = val_main_v210 (F := F) x0 x1 (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold ops3
  after_results_simp
  rewrite [h141, h1, h3]
  rfl

set_option maxHeartbeats 1600000 in
/-- After the affine steps' stretch, from contents that hold layer 3's output, their output buffer holds the
    second affine step. -/
theorem stage4 (W : Valuation τ sig (Elt F)) (x0 : (⟨S100000x128, .f32⟩ : BufTy).Contents (Elt F))
    (x1 : (⟨S2x1600000, .i32⟩ : BufTy).Contents (Elt F))
    (x2 : (⟨S3x128x128, .f32⟩ : BufTy).Contents (Elt F)) (x3 : (⟨S3x128, .f32⟩ : BufTy).Contents (Elt F))
    (x4 : (⟨S3x128x128, .f32⟩ : BufTy).Contents (Elt F)) (x5 x6 x7 : (⟨S3x128, .f32⟩ : BufTy).Contents (Elt F))
    (h210 : W (Proc.devRef .tc main_v210) = val_main_v210 (F := F) x0 x1 x2 x3 x4 x5 x6 x7) :
    after ops4 W (Proc.devRef .tc main_v220) = val_main_v220 (F := F) x0 x1 x2 x3 x4 x5 x6 x7 (W (Proc.devRef .tc main_arg8)) (W (Proc.devRef .tc main_arg9)) (W (Proc.devRef .tc main_arg10)) (W (Proc.devRef .tc main_arg11)) := by
  unfold ops4
  after_results_simp
  rewrite [h210]
  rfl

set_option maxHeartbeats 1600000 in
/-- After the log-softmax's stretch, from contents that hold the second affine step, the result buffer holds the
    result. Each of the stretch's operations carries its value to its buffer's type and the next reads it back: the
    pairs cancel. -/
theorem stage5 (W : Valuation τ sig (Elt F)) (x0 : (⟨S100000x128, .f32⟩ : BufTy).Contents (Elt F))
    (x1 : (⟨S2x1600000, .i32⟩ : BufTy).Contents (Elt F))
    (x2 : (⟨S3x128x128, .f32⟩ : BufTy).Contents (Elt F)) (x3 : (⟨S3x128, .f32⟩ : BufTy).Contents (Elt F))
    (x4 : (⟨S3x128x128, .f32⟩ : BufTy).Contents (Elt F)) (x5 x6 x7 : (⟨S3x128, .f32⟩ : BufTy).Contents (Elt F))
    (x8 : (⟨S128x128, .f32⟩ : BufTy).Contents (Elt F)) (x9 : (⟨S128, .f32⟩ : BufTy).Contents (Elt F)) (x10 : (⟨S47x128, .f32⟩ : BufTy).Contents (Elt F)) (x11 : (⟨S47, .f32⟩ : BufTy).Contents (Elt F))
    (h220 : W (Proc.devRef .tc main_v220) = val_main_v220 (F := F) x0 x1 x2 x3 x4 x5 x6 x7 x8 x9 x10 x11) :
    after ops5 W (Proc.devRef .tc main_v221) = val_main_v221 (F := F) x0 x1 x2 x3 x4 x5 x6 x7 x8 x9 x10 x11 := by
  unfold ops5
  after_results_simp
  rewrite [h220]
  simp only [Cert.LibStretch.ofBuf_toBuf]
  unfold val_main_v221 val_main_call6_v10 val_main_call6_v9 val_main_call6_v8 val_main_call6_v7 val_main_call6_v6
    val_main_call6_v5 val_main_call6_v4 val_main_call6_v3 val_main_call6_v2 val_main_call6_v1 val_main_call6_v0
    val_main_call6_cst val_main_call6_cst_0 val_main_call6_cst_1
  rfl

/-! ## The whole line -/

set_option maxHeartbeats 1600000 in
/-- After the whole line, from any contents V, the result buffer holds the result of V's argument arrays. -/
theorem after_ops_result (V : Valuation τ sig (Elt F)) :
    after ops V (Proc.devRef .tc main_v221) = val_main_v221 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [ops_split, Cert.LibStretch.after_append, Cert.LibStretch.after_append, Cert.LibStretch.after_append,
    Cert.LibStretch.after_append]
  have h72 := stage1 V
  have e1 := stage1_v1 V
  have e3 := stage1_v3 V
  rewrite [← keep1_a2 V, ← keep1_a3 V, ← keep1_a4 V, ← keep1_a5 V, ← keep1_a6 V, ← keep1_a7 V] at h72
  have h141 := stage2 (after ops1 V) (V (Proc.devRef .tc main_arg0)) (V (Proc.devRef .tc main_arg1)) h72 e1 e3
  have e1' := (keep2_v1 (after ops1 V)).trans e1
  have e3' := (keep2_v3 (after ops1 V)).trans e3
  rewrite [← keep2_a2 (after ops1 V), ← keep2_a3 (after ops1 V), ← keep2_a4 (after ops1 V), ← keep2_a5 (after ops1 V),
    ← keep2_a6 (after ops1 V), ← keep2_a7 (after ops1 V)] at h141
  have h210 := stage3 (after ops2 (after ops1 V)) (V (Proc.devRef .tc main_arg0)) (V (Proc.devRef .tc main_arg1)) h141 e1' e3'
  rewrite [keep2_a2, keep2_a3, keep2_a4, keep2_a5, keep2_a6, keep2_a7, keep1_a2, keep1_a3, keep1_a4, keep1_a5, keep1_a6,
    keep1_a7] at h210
  have h220 := stage4 (after ops3 (after ops2 (after ops1 V))) _ _ _ _ _ _ _ _ h210
  rewrite [keep3_a8, keep3_a9, keep3_a10, keep3_a11, keep2_a8, keep2_a9, keep2_a10, keep2_a11, keep1_a8, keep1_a9, keep1_a10,
    keep1_a11] at h220
  exact stage5 (after ops4 (after ops3 (after ops2 (after ops1 V)))) _ _ _ _ _ _ _ _ _ _ _ _ h220

/-- After the whole line argument 0's buffer holds what it held. -/
theorem after_ops_a0 (V : Valuation τ sig (Elt F)) : after ops V (Proc.devRef .tc main_arg0) = V (Proc.devRef .tc main_arg0) := by
  rewrite [ops_split, Cert.LibStretch.after_append, Cert.LibStretch.after_append, Cert.LibStretch.after_append,
    Cert.LibStretch.after_append, keep5_a0, keep4_a0, keep3_a0, keep2_a0, keep1_a0]
  rfl

/-- After the whole line argument 1's buffer holds what it held. -/
theorem after_ops_a1 (V : Valuation τ sig (Elt F)) : after ops V (Proc.devRef .tc main_arg1) = V (Proc.devRef .tc main_arg1) := by
  rewrite [ops_split, Cert.LibStretch.after_append, Cert.LibStretch.after_append, Cert.LibStretch.after_append,
    Cert.LibStretch.after_append, keep5_a1, keep4_a1, keep3_a1, keep2_a1, keep1_a1]
  rfl

/-- After the whole line argument 2's buffer holds what it held. -/
theorem after_ops_a2 (V : Valuation τ sig (Elt F)) : after ops V (Proc.devRef .tc main_arg2) = V (Proc.devRef .tc main_arg2) := by
  rewrite [ops_split, Cert.LibStretch.after_append, Cert.LibStretch.after_append, Cert.LibStretch.after_append,
    Cert.LibStretch.after_append, keep5_a2, keep4_a2, keep3_a2, keep2_a2, keep1_a2]
  rfl

/-- After the whole line argument 3's buffer holds what it held. -/
theorem after_ops_a3 (V : Valuation τ sig (Elt F)) : after ops V (Proc.devRef .tc main_arg3) = V (Proc.devRef .tc main_arg3) := by
  rewrite [ops_split, Cert.LibStretch.after_append, Cert.LibStretch.after_append, Cert.LibStretch.after_append,
    Cert.LibStretch.after_append, keep5_a3, keep4_a3, keep3_a3, keep2_a3, keep1_a3]
  rfl

/-- After the whole line argument 4's buffer holds what it held. -/
theorem after_ops_a4 (V : Valuation τ sig (Elt F)) : after ops V (Proc.devRef .tc main_arg4) = V (Proc.devRef .tc main_arg4) := by
  rewrite [ops_split, Cert.LibStretch.after_append, Cert.LibStretch.after_append, Cert.LibStretch.after_append,
    Cert.LibStretch.after_append, keep5_a4, keep4_a4, keep3_a4, keep2_a4, keep1_a4]
  rfl

/-- After the whole line argument 5's buffer holds what it held. -/
theorem after_ops_a5 (V : Valuation τ sig (Elt F)) : after ops V (Proc.devRef .tc main_arg5) = V (Proc.devRef .tc main_arg5) := by
  rewrite [ops_split, Cert.LibStretch.after_append, Cert.LibStretch.after_append, Cert.LibStretch.after_append,
    Cert.LibStretch.after_append, keep5_a5, keep4_a5, keep3_a5, keep2_a5, keep1_a5]
  rfl

/-- After the whole line argument 6's buffer holds what it held. -/
theorem after_ops_a6 (V : Valuation τ sig (Elt F)) : after ops V (Proc.devRef .tc main_arg6) = V (Proc.devRef .tc main_arg6) := by
  rewrite [ops_split, Cert.LibStretch.after_append, Cert.LibStretch.after_append, Cert.LibStretch.after_append,
    Cert.LibStretch.after_append, keep5_a6, keep4_a6, keep3_a6, keep2_a6, keep1_a6]
  rfl

/-- After the whole line argument 7's buffer holds what it held. -/
theorem after_ops_a7 (V : Valuation τ sig (Elt F)) : after ops V (Proc.devRef .tc main_arg7) = V (Proc.devRef .tc main_arg7) := by
  rewrite [ops_split, Cert.LibStretch.after_append, Cert.LibStretch.after_append, Cert.LibStretch.after_append,
    Cert.LibStretch.after_append, keep5_a7, keep4_a7, keep3_a7, keep2_a7, keep1_a7]
  rfl

/-- After the whole line argument 8's buffer holds what it held. -/
theorem after_ops_a8 (V : Valuation τ sig (Elt F)) : after ops V (Proc.devRef .tc main_arg8) = V (Proc.devRef .tc main_arg8) := by
  rewrite [ops_split, Cert.LibStretch.after_append, Cert.LibStretch.after_append, Cert.LibStretch.after_append,
    Cert.LibStretch.after_append, keep5_a8, keep4_a8, keep3_a8, keep2_a8, keep1_a8]
  rfl

/-- After the whole line argument 9's buffer holds what it held. -/
theorem after_ops_a9 (V : Valuation τ sig (Elt F)) : after ops V (Proc.devRef .tc main_arg9) = V (Proc.devRef .tc main_arg9) := by
  rewrite [ops_split, Cert.LibStretch.after_append, Cert.LibStretch.after_append, Cert.LibStretch.after_append,
    Cert.LibStretch.after_append, keep5_a9, keep4_a9, keep3_a9, keep2_a9, keep1_a9]
  rfl

/-- After the whole line argument 10's buffer holds what it held. -/
theorem after_ops_a10 (V : Valuation τ sig (Elt F)) : after ops V (Proc.devRef .tc main_arg10) = V (Proc.devRef .tc main_arg10) := by
  rewrite [ops_split, Cert.LibStretch.after_append, Cert.LibStretch.after_append, Cert.LibStretch.after_append,
    Cert.LibStretch.after_append, keep5_a10, keep4_a10, keep3_a10, keep2_a10, keep1_a10]
  rfl

/-- After the whole line argument 11's buffer holds what it held. -/
theorem after_ops_a11 (V : Valuation τ sig (Elt F)) : after ops V (Proc.devRef .tc main_arg11) = V (Proc.devRef .tc main_arg11) := by
  rewrite [ops_split, Cert.LibStretch.after_append, Cert.LibStretch.after_append, Cert.LibStretch.after_append,
    Cert.LibStretch.after_append, keep5_a11, keep4_a11, keep3_a11, keep2_a11, keep1_a11]
  rfl

/-! ## The run -/

/-- Every weakly fair execution of the reference program, from any memory with zero counters, terminates with the
    result array at the program's value of the launch contents and the argument arrays unchanged. -/
theorem run_val (m' : (ℓ : Loc nD τ sig) → Buf (Elt Ideal) ℓ) (ρ' : Dev nD → PrngReg) :
    θ_run Cert.ReferenceIdeal.defs (onTc (τ := τ) (Cert.ReferenceIdeal.main (F := Ideal))) ⟨m', fun _ => 0, ρ'⟩ fun r => ∀ c : Dev nD,
      r.2.mem ((c.tc : Thread nD τ).loc main_v221)
        = val_main_v221 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run Cert.ReferenceIdeal.defs _ _).mono
    (fun _ h c => ⟨(h c main_v221).trans (after_ops_result (launchContents m' c)),
      (h c main_arg0).trans (after_ops_a0 (launchContents m' c)),
      (h c main_arg1).trans (after_ops_a1 (launchContents m' c)),
      (h c main_arg2).trans (after_ops_a2 (launchContents m' c)),
      (h c main_arg3).trans (after_ops_a3 (launchContents m' c)),
      (h c main_arg4).trans (after_ops_a4 (launchContents m' c)),
      (h c main_arg5).trans (after_ops_a5 (launchContents m' c)),
      (h c main_arg6).trans (after_ops_a6 (launchContents m' c)),
      (h c main_arg7).trans (after_ops_a7 (launchContents m' c)),
      (h c main_arg8).trans (after_ops_a8 (launchContents m' c)),
      (h c main_arg9).trans (after_ops_a9 (launchContents m' c)),
      (h c main_arg10).trans (after_ops_a10 (launchContents m' c)),
      (h c main_arg11).trans (after_ops_a11 (launchContents m' c))⟩)
    (run_seq scopedRefs_eq scopedSems_eq Cert.ReferenceIdeal.defs Cert.ReferenceIdeal.main (fun _ => ops) main_eq
      (fun _ => ops_sub) m' ρ')

/-- The run ends with the specification's two-pass network of the launch contents in the result array and the
    arguments as they were. -/
theorem run_ref (m' : (ℓ : Loc nD τ sig) → Buf (Elt Ideal) ℓ) (ρ' : Dev nD → PrngReg) :
    θ_run Cert.ReferenceIdeal.defs (onTc (τ := τ) (Cert.ReferenceIdeal.main (F := Ideal))) ⟨m', fun _ => 0, ρ'⟩ fun r => ∀ c : Dev nD,
      r.2.mem ((c.tc : Thread nD τ).loc main_v221)
        = Net.uncur (Net.netTwo (fun X => Net.cur (segR (m' ((c.tc : Thread nD τ).loc main_arg1) : TE) (Net.uncur X)))
            (Net.cur (a := 100000) (b := 128) (m' ((c.tc : Thread nD τ).loc main_arg0) : TX))
            (Net.layerW (m' ((c.tc : Thread nD τ).loc main_arg2) : TW) (m' ((c.tc : Thread nD τ).loc main_arg3) : TB) (m' ((c.tc : Thread nD τ).loc main_arg4) : TW) (m' ((c.tc : Thread nD τ).loc main_arg5) : TB) (m' ((c.tc : Thread nD τ).loc main_arg6) : TB) (m' ((c.tc : Thread nD τ).loc main_arg7) : TB) 0)
            (Net.layerW (m' ((c.tc : Thread nD τ).loc main_arg2) : TW) (m' ((c.tc : Thread nD τ).loc main_arg3) : TB) (m' ((c.tc : Thread nD τ).loc main_arg4) : TW) (m' ((c.tc : Thread nD τ).loc main_arg5) : TB) (m' ((c.tc : Thread nD τ).loc main_arg6) : TB) (m' ((c.tc : Thread nD τ).loc main_arg7) : TB) 1)
            (Net.layerW (m' ((c.tc : Thread nD τ).loc main_arg2) : TW) (m' ((c.tc : Thread nD τ).loc main_arg3) : TB) (m' ((c.tc : Thread nD τ).loc main_arg4) : TW) (m' ((c.tc : Thread nD τ).loc main_arg5) : TB) (m' ((c.tc : Thread nD τ).loc main_arg6) : TB) (m' ((c.tc : Thread nD τ).loc main_arg7) : TB) 2)
            (Net.tr (m' ((c.tc : Thread nD τ).loc main_arg8) : TW1)) (Net.vec (m' ((c.tc : Thread nD τ).loc main_arg9) : TB1)) (Net.tr (m' ((c.tc : Thread nD τ).loc main_arg10) : TW2)) (Net.vec (m' ((c.tc : Thread nD τ).loc main_arg11) : TB2)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run Cert.ReferenceIdeal.defs _ _).mono
    (fun _ h c => ⟨(h c).1.trans (result_eq _ _ _ _ _ _ _ _ _ _ _ _), (h c).2⟩) (run_val m' ρ')

/-- The run leaves the twelve argument arrays as they were. -/
theorem frame_ref (m' : (ℓ : Loc nD τ sig) → Buf (Elt Ideal) ℓ) (ρ' : Dev nD → PrngReg) :
    θ_run Cert.ReferenceIdeal.defs (onTc (τ := τ) (Cert.ReferenceIdeal.main (F := Ideal))) ⟨m', fun _ => 0, ρ'⟩ fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run Cert.ReferenceIdeal.defs _ _).mono (fun _ h c => (h c).2) (run_val m' ρ')

end Cert.RefNet

end
-- ==== Proof.NetConsts.lean ====
/-
  The literal words of the network as extended reals: zero is 0, the row count is the real 100000, and the two
  epsilons are positive reals.
-/
import proofs.«140366_j72610717106485_2_alg».proof.Proof.Spec
import Idealize.ShloMosaic.PureOps.Ideal.Laws

noncomputable section

namespace Cert.Net

open Idealize.ShloMosaic

/-- The zero word is 0. -/
theorem zeroW_eq : zeroW = 0 := Ideal.ofBits_zero_f32

/-- The row-count word is the real 100000 = (2^23 + 4411392) · 2^(-7). -/
theorem cntW_eq : cntW = ((100000 : ℝ) : EReal) := by
  simp [Ideal.ofBits, Ideal.ieee, -EReal.coe_mul]; norm_num

/-- The variance epsilon is a positive real. -/
theorem epsVar_pos : ∃ e : ℝ, 0 < e ∧ epsVar = (e : EReal) := by
  refine ⟨_, ?_, by simp [Ideal.ofBits, Ideal.ieee, -EReal.coe_mul]; rfl⟩
  positivity

/-- The norm epsilon is a positive real. -/
theorem epsNorm_pos : ∃ e : ℝ, 0 < e ∧ epsNorm = (e : EReal) := by
  refine ⟨_, ?_, by simp [Ideal.ofBits, Ideal.ieee, -EReal.coe_mul]; rfl⟩
  positivity

end Cert.Net

end
-- ==== Proof.LibFeatureFold.lean ====
/-
  The nine-feature fold. For real data, the contraction of the masked feature vector
  [x, y, z, e, x - cx, y - cy, cx, cy, zc] with nine real weights equals the mask times a five-term
  combination with folded weights (w0 + w4, w1 + w5, w6 - w4, w7 - w5) plus a per-pillar offset; both
  are the same real number. Also: extended reals that are reals are closed under +, -, *, negation,
  max, min and finite sums, and the coercion of a finite real sum is the sum of the coercions.
-/
import Idealize.ShloMosaic.PureOps.Ideal
import Mathlib.Algebra.BigOperators.Fin
import Mathlib.Tactic.Ring

noncomputable section

namespace Cert.Lib.FeatureFold

open Idealize.ShloMosaic

/-! ### Extended reals that are reals -/

/-- An extended real that is (the coercion of) a real. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Division of a real by a nonzero real is a real. -/
theorem IsReal.div_coe {a : EReal} (ha : IsReal a) {n : ℝ} (hn : n ≠ 0) : IsReal (Ideal.div a (n : EReal)) := by
  rw [Ideal.div_coe hn]; exact ha.mul (isReal_coe _)

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of two real vectors, read on the extended reals, is the real contraction. -/
theorem coe_sum_mul {ι : Type*} (s : Finset ι) (f g : ι → ℝ) :
    (∑ i ∈ s, (f i : EReal) * (g i : EReal)) = ((∑ i ∈ s, f i * g i : ℝ) : EReal) := by
  simp only [← EReal.coe_mul, ← coe_sum]

/-! ### The fold -/

/-- A sum over nine indices, written out. -/
theorem sum_fin9 {M : Type*} [AddCommMonoid M] (g : Fin 9 → M) :
    ∑ i, g i = g 0 + g 1 + g 2 + g 3 + g 4 + g 5 + g 6 + g 7 + g 8 := by
  rw [Fin.sum_univ_castSucc, Fin.sum_univ_eight]
  rfl

/-- The folded form as a real: mask times (five folded terms plus the per-pillar offset). -/
def foldR (x y z e cx cy zc mk : ℝ) (w : Fin 9 → ℝ) : ℝ :=
  mk * ((((x * (w 0 + w 4) + y * (w 1 + w 5)) + z * w 2) + e * w 3)
    + ((cx * (w 6 - w 4) + cy * (w 7 - w 5)) + zc * w 8))

/-- The nine-term contraction of the masked features with the weights, over the reals. -/
theorem concat_real (x y z e cx cy zc mk : ℝ) (w : Fin 9 → ℝ) :
    (∑ i : Fin 9, ((![x, y, z, e, x - cx, y - cy, cx, cy, zc] : Fin 9 → ℝ) i * mk) * w i)
      = foldR x y z e cx cy zc mk w := by
  rw [sum_fin9]
  show (x * mk) * w 0 + (y * mk) * w 1 + (z * mk) * w 2 + (e * mk) * w 3 + ((x - cx) * mk) * w 4
      + ((y - cy) * mk) * w 5 + (cx * mk) * w 6 + (cy * mk) * w 7 + (zc * mk) * w 8 = _
  unfold foldR
  ring

/-- The nine-term contraction on the extended reals is the real folded value. -/
theorem concat_ereal (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = ((foldR x y z e cx cy zc mk w : ℝ) : EReal) := by
  rw [sum_fin9]
  show ((x : EReal) * (mk : EReal)) * (w 0 : EReal) + ((y : EReal) * (mk : EReal)) * (w 1 : EReal)
      + ((z : EReal) * (mk : EReal)) * (w 2 : EReal) + ((e : EReal) * (mk : EReal)) * (w 3 : EReal)
      + (((x : EReal) - (cx : EReal)) * (mk : EReal)) * (w 4 : EReal)
      + (((y : EReal) - (cy : EReal)) * (mk : EReal)) * (w 5 : EReal)
      + ((cx : EReal) * (mk : EReal)) * (w 6 : EReal) + ((cy : EReal) * (mk : EReal)) * (w 7 : EReal)
      + ((zc : EReal) * (mk : EReal)) * (w 8 : EReal) = _
  simp only [← EReal.coe_mul, ← EReal.coe_add, ← EReal.coe_sub]
  exact congrArg _ (by unfold foldR; ring)

/-- The folded spelling on the extended reals is the same real. -/
theorem folded_ereal (x y z e cx cy zc mk : ℝ) (w : Fin 9 → ℝ) :
    (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal)))
      = ((foldR x y z e cx cy zc mk w : ℝ) : EReal) := by
  simp only [← EReal.coe_mul, ← EReal.coe_add, ← EReal.coe_sub]
  rfl

/-- The fold: the nine-term contraction equals the folded spelling, on the extended reals. -/
theorem concat_eq_folded (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal))) :=
  (concat_ereal x y z e cx cy zc mk w).trans (folded_ereal x y z e cx cy zc mk w).symm

/-- The folded value is a real. -/
theorem concat_isReal (x y z e cx cy zc mk : ℝ) (w : Fin 9 → ℝ) :
    IsReal (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal)) :=
  ⟨_, concat_ereal x y z e cx cy zc mk w⟩

end Cert.Lib.FeatureFold

end
-- ==== Proof.LibBatchMoments.lean ====
/-
  Batch statistics on the extended reals.

  A batch-normalisation layer needs the mean and the variance of a column of finite numbers.  Two spellings of
  the variance occur side by side: the one-pass form, (sum of squares)/n - mean^2, which a streaming kernel
  accumulates, and the two-pass form, (sum of squared deviations from the mean)/n, which a textbook program
  computes.  On real data they are the same number; on the extended reals the identity needs every entry to be
  a real (a single infinity breaks distributivity), so it is stated for coerced real data.  Division is the
  ideal instance's division `Ideal.div`, which for a nonzero real divisor is multiplication by the reciprocal.

  Also here: the straight-through spelling `x + (sign x - x)` of the sign of a real, and the sign written with
  two selections (`if 0 < |x| then (if x < 0 then -1 else 1) else x`), both equal to `Ideal.sign x`.
-/
import Idealize.ShloMosaic.PureOps.Ideal
import Mathlib.Algebra.BigOperators.Field
import Mathlib.Tactic.FieldSimp
import Mathlib.Tactic.Ring

noncomputable section

namespace Cert.Lib.BatchMoments

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Ideal division of a real by a nonzero real is the real quotient. -/
theorem div_coe_coe (x n : ℝ) (hn : n ≠ 0) : Ideal.div (x : EReal) (n : EReal) = ((x / n : ℝ) : EReal) := by
  rw [Ideal.div_coe hn, ← EReal.coe_mul, mul_one_div]

/-- One-pass and two-pass variance agree on real data: with `S = ∑ h` and `n` the number of entries,
    `(∑ h²)/n - (S/n)² = (∑ (h - S/n)²)/n`. -/
theorem real_var {ι : Type*} [Fintype ι] (h : ι → ℝ) (n : ℝ) (hn : n ≠ 0) (hc : (Fintype.card ι : ℝ) = n) :
    (∑ i, h i * h i) / n - ((∑ i, h i) / n) * ((∑ i, h i) / n)
      = (∑ i, (h i - (∑ j, h j) / n) * (h i - (∑ j, h j) / n)) / n := by
  set S := ∑ i, h i with hS
  have e : ∀ i, (h i - S / n) * (h i - S / n) = h i * h i - 2 * (S / n) * h i + (S / n) * (S / n) := by
    intro i; ring
  simp_rw [e, Finset.sum_add_distrib, Finset.sum_sub_distrib, ← Finset.mul_sum, Finset.sum_const,
    Finset.card_univ, nsmul_eq_mul, hc, ← hS]
  field_simp
  ring

/-- The same on the extended reals, for coerced real data, in the ideal instance's operations: the one-pass
    variance `div (∑ h·h) n - div S n · div S n` is the two-pass variance `div (∑ (h - μ)·(h - μ)) n`,
    `μ = div S n`. -/
theorem ereal_var {ι : Type*} [Fintype ι] (h : ι → ℝ) (n : ℝ) (hn : n ≠ 0) (hc : (Fintype.card ι : ℝ) = n) :
    Ideal.div (∑ i, (h i : EReal) * (h i : EReal)) (n : EReal)
        - Ideal.div (∑ i, (h i : EReal)) (n : EReal) * Ideal.div (∑ i, (h i : EReal)) (n : EReal)
      = Ideal.div (∑ i, ((h i : EReal) - Ideal.div (∑ j, (h j : EReal)) (n : EReal))
            * ((h i : EReal) - Ideal.div (∑ j, (h j : EReal)) (n : EReal))) (n : EReal) := by
  simp only [← EReal.coe_mul, ← coe_sum, div_coe_coe _ _ hn, ← EReal.coe_sub]
  exact congrArg _ (real_var h n hn hc)

/-- The mean of coerced real data is a real: `div (∑ h) n = ((∑ h)/n : ℝ)`. -/
theorem ereal_mean {ι : Type*} [Fintype ι] (h : ι → ℝ) (n : ℝ) (hn : n ≠ 0) :
    Ideal.div (∑ i, (h i : EReal)) (n : EReal) = (((∑ i, h i) / n : ℝ) : EReal) := by
  rw [← coe_sum, div_coe_coe _ _ hn]

/-- The straight-through spelling of a function's value at a real: `x + (s - x) = s` for reals `x`, `s`. -/
theorem straight_through (x s : ℝ) : (x : EReal) + ((s : EReal) - (x : EReal)) = (s : EReal) := by
  rw [← EReal.coe_sub, ← EReal.coe_add]
  exact congrArg _ (by ring)

/-- The straight-through sign of a real is its sign. -/
theorem straight_through_sign (x : ℝ) :
    (x : EReal) + (Ideal.sign (x : EReal) - (x : EReal)) = Ideal.sign (x : EReal) := by
  rw [Ideal.sign_coe]
  exact straight_through x _

/-- The sign of an extended real written with two selections: where `0 < |x|` it is `-1` below zero and `1`
    above, and elsewhere (only at `0`) it is `x` itself. -/
theorem sign_by_selects (x : EReal) :
    (if 0 < max x (-x) then (if x < 0 then (-1 : EReal) else 1) else x) = Ideal.sign x := by
  induction x using EReal.rec with
  | bot => rw [Ideal.sign_bot]; simp
  | top => rw [Ideal.sign_top]; simp
  | coe r =>
    rw [Ideal.sign_coe]
    rcases lt_trichotomy r 0 with hr | hr | hr
    · have h1 : (0 : EReal) < max (r : EReal) (-(r : EReal)) := by
        rw [lt_max_iff]; right; rw [← EReal.coe_neg]; exact_mod_cast neg_pos.mpr hr
      have h2 : (r : EReal) < 0 := by exact_mod_cast hr
      rw [if_pos h1, if_pos h2, sign_neg hr]; simp
    · subst hr; simp
    · have h1 : (0 : EReal) < max (r : EReal) (-(r : EReal)) := by
        rw [lt_max_iff]; left; exact_mod_cast hr
      have h2 : ¬ (r : EReal) < 0 := by
        rw [not_lt]; exact_mod_cast hr.le
      rw [if_pos h1, if_neg h2, sign_pos hr]; simp

end Cert.Lib.BatchMoments

end
-- ==== Proof.LibMoments.lean ====
/-
  Mean and variance of finite real data, read on the extended reals: the mean and the (one-pass or two-pass)
  biased variance are reals, the variance is nonnegative, and the reciprocal square root of
  variance + eps is a real for every real eps > 0.
-/
import proofs.«140366_j72610717106485_2_alg».proof.Proof.LibBatchMoments

noncomputable section

namespace Cert.Lib.Moments

open Idealize.ShloMosaic Cert.Lib.BatchMoments

variable {ι : Type*} [Fintype ι]

/-- The real mean of the data. -/
def rmean (x : ι → ℝ) (n : ℝ) : ℝ := (∑ i, x i) / n

/-- The real biased variance of the data, in its two-pass form: the mean of the squared deviations. -/
def rvar (x : ι → ℝ) (n : ℝ) : ℝ := (∑ i, (x i - rmean x n) * (x i - rmean x n)) / n

/-- A nonzero real that is the cardinality of a finite type is positive. -/
theorem pos_of_card {n : ℝ} (hn : n ≠ 0) (hc : (Fintype.card ι : ℝ) = n) : 0 < n := by
  have h0 : (0 : ℝ) ≤ (Fintype.card ι : ℝ) := Nat.cast_nonneg _
  rw [hc] at h0
  exact lt_of_le_of_ne h0 hn.symm

/-- The variance is nonnegative (a mean of squares over a positive count). -/
theorem rvar_nonneg (x : ι → ℝ) {n : ℝ} (hn : 0 < n) : 0 ≤ rvar x n :=
  div_nonneg (Finset.sum_nonneg fun i _ => mul_self_nonneg _) hn.le

/-- The sum of the coerced data is the coerced real sum. -/
theorem esum (x : ι → ℝ) : (∑ i, (x i : EReal)) = ((∑ i, x i : ℝ) : EReal) := (coe_sum _ _).symm

/-- The sum of the coerced squares is the coerced real sum of squares. -/
theorem esumsq (x : ι → ℝ) : (∑ i, (x i : EReal) * (x i : EReal)) = ((∑ i, x i * x i : ℝ) : EReal) := by
  simp only [← EReal.coe_mul, ← coe_sum]

/-- The mean on the extended reals is the real mean. -/
theorem emean (x : ι → ℝ) {n : ℝ} (hn : n ≠ 0) :
    Ideal.div (∑ i, (x i : EReal)) (n : EReal) = ((rmean x n : ℝ) : EReal) := ereal_mean x n hn

/-- The two-pass variance on the extended reals is the real variance. -/
theorem evar_two_pass (x : ι → ℝ) {n : ℝ} (hn : n ≠ 0) :
    Ideal.div (∑ i, ((x i : EReal) - Ideal.div (∑ j, (x j : EReal)) (n : EReal))
        * ((x i : EReal) - Ideal.div (∑ j, (x j : EReal)) (n : EReal))) (n : EReal) = ((rvar x n : ℝ) : EReal) := by
  simp only [← EReal.coe_mul, ← coe_sum, div_coe_coe _ _ hn, ← EReal.coe_sub]
  rfl

/-- The one-pass variance (mean of squares minus squared mean) on the extended reals is the real variance. -/
theorem evar_one_pass (x : ι → ℝ) {n : ℝ} (hn : n ≠ 0) (hc : (Fintype.card ι : ℝ) = n) :
    Ideal.div (∑ i, (x i : EReal) * (x i : EReal)) (n : EReal)
        - Ideal.div (∑ i, (x i : EReal)) (n : EReal) * Ideal.div (∑ i, (x i : EReal)) (n : EReal)
      = ((rvar x n : ℝ) : EReal) :=
  (ereal_var x n hn hc).trans (evar_two_pass x hn)

/-- The reciprocal square root of a positive real is the real reciprocal of the real square root. -/
theorem rsqrt_pos {v : ℝ} (hv : 0 < v) : Ideal.rsqrt (v : EReal) = (((Real.sqrt v)⁻¹ : ℝ) : EReal) := by
  rw [Ideal.rsqrt_coe, if_neg (not_lt.2 hv.le), if_neg hv.ne']

/-- The reciprocal square root of (nonnegative real + positive real) is a real. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add]
  exact rsqrt_pos (add_pos_of_nonneg_of_pos hv he)

/-- The normalising factor of the data: rsqrt (variance + eps) is a real, for the one-pass variance. -/
theorem rsqrt_evar_one_pass (x : ι → ℝ) {n eps : ℝ} (hn : n ≠ 0) (hc : (Fintype.card ι : ℝ) = n) (he : 0 < eps) :
    Ideal.rsqrt ((Ideal.div (∑ i, (x i : EReal) * (x i : EReal)) (n : EReal)
        - Ideal.div (∑ i, (x i : EReal)) (n : EReal) * Ideal.div (∑ i, (x i : EReal)) (n : EReal)) + (eps : EReal))
      = (((Real.sqrt (rvar x n + eps))⁻¹ : ℝ) : EReal) := by
  rw [evar_one_pass x hn hc]
  exact rsqrt_add_eps (rvar_nonneg x (pos_of_card hn hc)) he

/-- The same for the two-pass variance. -/
theorem rsqrt_evar_two_pass (x : ι → ℝ) {n eps : ℝ} (hn : n ≠ 0) (hc : (Fintype.card ι : ℝ) = n) (he : 0 < eps) :
    Ideal.rsqrt (Ideal.div (∑ i, ((x i : EReal) - Ideal.div (∑ j, (x j : EReal)) (n : EReal))
        * ((x i : EReal) - Ideal.div (∑ j, (x j : EReal)) (n : EReal))) (n : EReal) + (eps : EReal))
      = (((Real.sqrt (rvar x n + eps))⁻¹ : ℝ) : EReal) := by
  rw [evar_two_pass x hn]
  exact rsqrt_add_eps (rvar_nonneg x (pos_of_card hn hc)) he

end Cert.Lib.Moments

end
-- ==== Proof.NetReal.lean ====
/-
  On real data the two networks agree.

  For a column of n real numbers h the one-pass variance max (Σh²/n − μ², 0) and the two-pass variance Σ(h − μ)²/n
  are the same real number: Σh²/n − μ² = Σ(h − μ)²/n is a mean of squares, hence nonnegative, so the clamp at zero
  does nothing. A layer maps real data to real data: sums, products, differences and maxima of reals are reals;
  the mean divides a real by the nonzero real n; rsqrt (v + ε) with v ≥ 0 and ε > 0 real is a real; the divisor
  max (√(Σo²)) ε′ is a positive real. So the equality of the variances holds at each of the three layers in turn.
-/
import proofs.«140366_j72610717106485_2_alg».proof.Proof.NetConsts
import proofs.«140366_j72610717106485_2_alg».proof.Proof.LibFeatureFold
import proofs.«140366_j72610717106485_2_alg».proof.Proof.LibMoments

noncomputable section

namespace Cert.Net

open Idealize.ShloMosaic Cert.Lib.FeatureFold Cert.Lib.Moments

/-- Every entry of the six parameter fields of a layer is a real. -/
structure LayerW.Real (P : LayerW) : Prop where
  wr : ∀ e j, IsReal (P.wr e j)
  br : ∀ j, IsReal (P.br j)
  wl : ∀ e j, IsReal (P.wl e j)
  bl : ∀ j, IsReal (P.bl j)
  γ : ∀ j, IsReal (P.γ j)
  β : ∀ j, IsReal (P.β j)

theorem isReal_zeroW : IsReal zeroW := by rw [zeroW_eq]; exact isReal_zero

/-- The real 100000 is not zero, is positive, and is the number of rows. -/
theorem cnt_ne : (100000 : ℝ) ≠ 0 := by norm_num
theorem cnt_pos : (0 : ℝ) < 100000 := by norm_num
theorem cnt_card : (Fintype.card (Fin 100000) : ℝ) = 100000 := by
  rw [Fintype.card_fin]; norm_num

/-! ### The hidden activations are real -/

theorem hid_real {n : ℕ} (z : Mat n 128) (w : Mat 128 128) (b : Row 128) (hz : ∀ r j, IsReal (z r j))
    (hw : ∀ e j, IsReal (w e j)) (hb : ∀ j, IsReal (b j)) : ∀ r j, IsReal (hid z w b r j) := fun r j =>
  (((IsReal.sum _ _ fun e _ => (hz r e).mul (hw e j)).add (hb j)).max isReal_zeroW :)

/-! ### Mean and the two variances of real data -/

/-- The mean of coerced real columns is the real mean. -/
theorem mean_coe (g : Fin 100000 → Fin 128 → ℝ) (j : Fin 128) :
    mean (fun r j => (g r j : EReal)) j = ((rmean (fun r => g r j) 100000 : ℝ) : EReal) := by
  show Ideal.div (∑ r : Fin 100000, (g r j : EReal)) cntW = _
  rw [cntW_eq]
  exact emean (fun r => g r j) cnt_ne

/-- The two-pass variance of coerced real columns is the real variance. -/
theorem varTwo_coe (g : Fin 100000 → Fin 128 → ℝ) (j : Fin 128) :
    varTwo (fun r j => (g r j : EReal)) j = ((rvar (fun r => g r j) 100000 : ℝ) : EReal) := by
  show Ideal.div (∑ r : Fin 100000, ((g r j : EReal) - Ideal.div (∑ r : Fin 100000, (g r j : EReal)) cntW)
      * ((g r j : EReal) - Ideal.div (∑ r : Fin 100000, (g r j : EReal)) cntW)) cntW = _
  rw [cntW_eq]
  exact evar_two_pass (fun r => g r j) cnt_ne

/-- The one-pass clamped variance of coerced real columns is the real variance: the clamp does nothing, the
    variance being a mean of squares. -/
theorem varOne_coe (g : Fin 100000 → Fin 128 → ℝ) (j : Fin 128) :
    varOne (fun r j => (g r j : EReal)) j = ((rvar (fun r => g r j) 100000 : ℝ) : EReal) := by
  show max (Ideal.div (∑ r : Fin 100000, (g r j : EReal) * (g r j : EReal)) cntW
      - Ideal.div (∑ r : Fin 100000, (g r j : EReal)) cntW * Ideal.div (∑ r : Fin 100000, (g r j : EReal)) cntW) zeroW = _
  rw [cntW_eq, zeroW_eq, evar_one_pass (fun r => g r j) cnt_ne cnt_card]
  exact max_eq_left (EReal.coe_nonneg.mpr (rvar_nonneg _ cnt_pos))

/-- Real data is the coercion of a real matrix. -/
theorem exists_coe {a b : ℕ} (h : Mat a b) (hh : ∀ r j, IsReal (h r j)) :
    ∃ g : Fin a → Fin b → ℝ, h = fun r j => (g r j : EReal) := by
  choose g hg using hh
  exact ⟨g, funext fun r => funext fun j => hg r j⟩

/-- On real data the one-pass clamped variance is the two-pass variance. -/
theorem varOne_eq_varTwo (h : Mat 100000 128) (hh : ∀ r j, IsReal (h r j)) : varOne h = varTwo h := by
  obtain ⟨g, rfl⟩ := exists_coe h hh
  exact funext fun j => (varOne_coe g j).trans (varTwo_coe g j).symm

theorem mean_real (h : Mat 100000 128) (hh : ∀ r j, IsReal (h r j)) : ∀ j, IsReal (mean h j) := by
  obtain ⟨g, rfl⟩ := exists_coe h hh
  exact fun j => ⟨_, mean_coe g j⟩

/-- The two-pass variance of real data is a nonnegative real. -/
theorem varTwo_nonneg (h : Mat 100000 128) (hh : ∀ r j, IsReal (h r j)) :
    ∀ j, ∃ t : ℝ, 0 ≤ t ∧ varTwo h j = (t : EReal) := by
  obtain ⟨g, rfl⟩ := exists_coe h hh
  exact fun j => ⟨_, rvar_nonneg _ cnt_pos, varTwo_coe g j⟩

/-! ### A layer keeps real data real -/

/-- The divisor max (√t) ε of a row is a positive real, for every real t and every real ε > 0. -/
theorem max_sqrt_pos (t e : ℝ) (he : 0 < e) :
    ∃ d : ℝ, 0 < d ∧ max (Ideal.sqrt (t : EReal)) (e : EReal) = (d : EReal) := by
  rw [Ideal.sqrt_coe]
  split_ifs
  · exact ⟨e, he, max_eq_right bot_le⟩
  · exact ⟨max (Real.sqrt t) e, lt_max_of_lt_right he, (EReal.coe_strictMono.monotone.map_max).symm⟩

theorem pre_real {n : ℕ} (z x : Mat n 128) (wr : Mat 128 128) (br : Row 128) (wl : Mat 128 128) (bl γ β μ v : Row 128)
    (hz : ∀ r j, IsReal (z r j)) (hx : ∀ r j, IsReal (x r j)) (hwr : ∀ e j, IsReal (wr e j)) (hbr : ∀ j, IsReal (br j))
    (hwl : ∀ e j, IsReal (wl e j)) (hbl : ∀ j, IsReal (bl j)) (hγ : ∀ j, IsReal (γ j)) (hβ : ∀ j, IsReal (β j))
    (hμ : ∀ j, IsReal (μ j)) (hv : ∀ j, ∃ t : ℝ, 0 ≤ t ∧ v j = (t : EReal)) :
    ∀ r j, IsReal (pre z x wr br wl bl γ β μ v r j) := by
  intro r j
  have hrs : IsReal (Ideal.rsqrt (v j + epsVar)) := by
    obtain ⟨t, ht0, htv⟩ := hv j
    obtain ⟨e, he, hee⟩ := epsVar_pos
    rw [htv, hee, rsqrt_add_eps ht0 he]
    exact isReal_coe _
  exact (((IsReal.sum _ _ fun e _ => (hx r e).mul (hwl e j)).add (hbl j)).add
    ((((((hid_real z wr br hz hwr hbr r j).sub (hμ j)).mul hrs).mul (hγ j)).add (hβ j)).add (hz r j)) :)

theorem normRelu_real {n : ℕ} (o : Mat n 128) (ho : ∀ r j, IsReal (o r j)) : ∀ r j, IsReal (normRelu o r j) := by
  intro r j
  obtain ⟨t, ht⟩ : IsReal (∑ q : Fin 128, o r q * o r q) := IsReal.sum _ _ fun q _ => (ho r q).mul (ho r q)
  obtain ⟨e, he, hee⟩ := epsNorm_pos
  obtain ⟨d, hd, hde⟩ := max_sqrt_pos t e he
  show IsReal (max (Ideal.div (o r j) (max (Ideal.sqrt (∑ q : Fin 128, o r q * o r q)) epsNorm)) zeroW)
  rw [ht, hee, hde]
  exact ((ho r j).div_coe hd.ne').max isReal_zeroW

theorem layerOf_real {n : ℕ} (z x : Mat n 128) (wr : Mat 128 128) (br : Row 128) (wl : Mat 128 128) (bl γ β μ v : Row 128)
    (hz : ∀ r j, IsReal (z r j)) (hx : ∀ r j, IsReal (x r j)) (hwr : ∀ e j, IsReal (wr e j)) (hbr : ∀ j, IsReal (br j))
    (hwl : ∀ e j, IsReal (wl e j)) (hbl : ∀ j, IsReal (bl j)) (hγ : ∀ j, IsReal (γ j)) (hβ : ∀ j, IsReal (β j))
    (hμ : ∀ j, IsReal (μ j)) (hv : ∀ j, ∃ t : ℝ, 0 ≤ t ∧ v j = (t : EReal)) :
    ∀ r j, IsReal (layerOf z x wr br wl bl γ β μ v r j) :=
  normRelu_real _ (pre_real z x wr br wl bl γ β μ v hz hx hwr hbr hwl hbl hγ hβ hμ hv)

/-! ### One layer -/

/-- On real data, with a real segment sum, the two layers agree. -/
theorem layerOne_eq_layerTwo (S : Mat 100000 128 → Mat 100000 128) (x : Mat 100000 128) (P : LayerW)
    (hz : ∀ r j, IsReal (S x r j)) (hP : P.Real) : layerOne S x P = layerTwo S x P := by
  unfold layerOne layerTwo
  rw [varOne_eq_varTwo _ (hid_real (S x) P.wr P.br hz hP.wr hP.br)]

/-- On real data, with a real segment sum, the two-pass layer is real. -/
theorem layerTwo_real (S : Mat 100000 128 → Mat 100000 128) (x : Mat 100000 128) (P : LayerW)
    (hz : ∀ r j, IsReal (S x r j)) (hx : ∀ r j, IsReal (x r j)) (hP : P.Real) :
    ∀ r j, IsReal (layerTwo S x P r j) :=
  layerOf_real (S x) x P.wr P.br P.wl P.bl P.γ P.β _ _ hz hx hP.wr hP.br hP.wl hP.bl hP.γ hP.β
    (mean_real _ (hid_real (S x) P.wr P.br hz hP.wr hP.br))
    (varTwo_nonneg _ (hid_real (S x) P.wr P.br hz hP.wr hP.br))

/-- On real data the one-pass layer is real, when the segment sum keeps real data real. -/
theorem layerOne_real (S : Mat 100000 128 → Mat 100000 128)
    (hS : ∀ x, (∀ r j, IsReal (x r j)) → ∀ r j, IsReal (S x r j))
    (x : Mat 100000 128) (hx : ∀ r j, IsReal (x r j)) (P : LayerW) (hP : P.Real) :
    ∀ r j, IsReal (layerOne S x P r j) := by
  rw [layerOne_eq_layerTwo S x P (hS x hx) hP]
  exact layerTwo_real S x P (hS x hx) hx hP

/-! ### Three layers and the head -/

/-- On real inputs and real parameters, with a segment sum that keeps real data real, the network with the
    one-pass variance is the network with the two-pass variance. -/
theorem netOne_eq_netTwo (S : Mat 100000 128 → Mat 100000 128)
    (hS : ∀ x, (∀ r j, IsReal (x r j)) → ∀ r j, IsReal (S x r j))
    (x : Mat 100000 128) (hx : ∀ r j, IsReal (x r j)) (P0 P1 P2 : LayerW) (hP0 : P0.Real) (hP1 : P1.Real) (hP2 : P2.Real)
    (w1 : Mat 128 128) (b1 : Row 128) (w2 : Mat 128 47) (b2 : Row 47) :
    netOne S x P0 P1 P2 w1 b1 w2 b2 = netTwo S x P0 P1 P2 w1 b1 w2 b2 := by
  have e0 := layerOne_eq_layerTwo S x P0 (hS x hx) hP0
  have h0 := layerTwo_real S x P0 (hS x hx) hx hP0
  have e1 := layerOne_eq_layerTwo S (layerTwo S x P0) P1 (hS _ h0) hP1
  have h1 := layerTwo_real S (layerTwo S x P0) P1 (hS _ h0) h0 hP1
  have e2 := layerOne_eq_layerTwo S (layerTwo S (layerTwo S x P0) P1) P2 (hS _ h1) hP2
  unfold netOne netTwo
  rw [e0, e1, e2]

end Cert.Net

end
-- ==== Proof.SegReal.lean ====
/-
  The segment sum keeps real data real.

  A scatter with an add body returns, at each index, the initial entry plus the sum of the update entries landing
  there: a finite sum of reals added to a real. A gather returns, at each index, one entry of its operand, so a gather
  of a real array is real whatever its dimension numbers. The zero array, the zero word broadcast from a scalar,
  reads the zero word at every index, and the zero word is the real 0.
-/
import Idealize.ShloMosaic.PureOps.Ideal
import Idealize.ShloMosaic.PureOps.Ideal.Laws
import proofs.«140366_j72610717106485_2_alg».proof.Proof.LibFeatureFold

noncomputable section

namespace Cert.Net

open Idealize.ShloMosaic Cert.Lib.FeatureFold

/-- A scatter-add of real updates into a real array is real at every index. -/
theorem scatterAdd_isReal {s si su : Shape} (d : ScatterDims s si su) {w : ℕ} (init : s.Idx → EReal) (idx : IVec si w)
    (upd : su.Idx → EReal) (hi : ∀ t, IsReal (init t)) (hu : ∀ u, IsReal (upd u)) :
    ∀ t, IsReal (Ideal.hostScatterAdd d init idx upd t) := fun t =>
  ((hi t).add (IsReal.sum _ _ fun u _ => hu u) :)

/-- A gather of a real array is real at every index, for any dimension numbers: each result entry is an operand
    entry. -/
theorem gather_isReal {s si t : Shape} (d : GatherDims s si t) {w : ℕ} (x : s.Idx → EReal) (idx : IVec si w)
    (hx : ∀ i, IsReal (x i)) : ∀ j, IsReal (Host.gather d x idx j) := fun j => hx (d.operandIdx j idx)

/-- The zero word broadcast from a scalar to any shape is real at every index. -/
theorem zeros_isReal {t : Shape} (dims : Fin (⟨0, ![]⟩ : Shape).rank → Fin t.rank)
    (h0 : (⟨0, ![]⟩ : Shape).BroadcastsInDim t dims) :
    ∀ j, IsReal (broadcastInDim t dims h0 (constant (F := Ideal) ⟨0, ![]⟩ .f32 0x00000000#32) j) := fun j => by
  show IsReal (Ideal.ofBits .f32 0x00000000#32)
  rw [Ideal.ofBits_zero_f32]
  exact isReal_zero

end Cert.Net

end
-- ==== Proof.PreReal.lean ====
/-
  The precondition makes every float input real.

  The predicate is a conjunction, one conjunct per float array: every entry x of the array has |x| < +∞, where
  |x| = max x (−x). On the extended reals |−∞| = |+∞| = +∞, so the strict inequality leaves exactly the reals.
-/
import proofs.«140366_j72610717106485_2_alg».proof.Pre_finite_inputs
import proofs.«140366_j72610717106485_2_alg».proof.Proof.Gen.Pre_finite_inputs
import proofs.«140366_j72610717106485_2_alg».proof.Proof.LibFeatureFold
import Idealize.ShloMosaic.Lib.ReduceAll
import Idealize.ShloMosaic.Lib.ValueIdx
import Idealize.ShloMosaic.PureOps.Ideal

noncomputable section

namespace Cert.Net

open Idealize.ShloMosaic Cert.Lib.FeatureFold Cert.Pre_finite_inputs

/-- The rank-0 shape has one index. -/
instance subsingleton_scalar_idx : Subsingleton S_.Idx := ⟨fun a b => funext fun d => d.elim0⟩

/-- The word 0x7F800000 is +∞. -/
theorem ofBits_inf : Ideal.ofBits .f32 0x7F800000#32 = ⊤ := by simp [Ideal.ofBits, Ideal.ieee]

/-- An extended real with |x| < +∞ is a real. -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- One conjunct: if the conjunction over all entries of |a| < +∞ is 1 then every entry of a is a real. -/
theorem all_real {s : Shape} {axes : List (Fin s.rank)} (a : FVec Ideal s .f32) (hb : S_.BroadcastsInDim s ![])
    (hr : s.ReducesTo axes S_) (hS : 0 < S_.numel) (init : IVec S_ 1) (j : S_.Idx)
    (e : Host.reduce IntOp.andi (cmpf .olt (Host.absf a) (broadcastInDim s ![] hb (constant S_ .f32 0x7F800000#32)))
      init hr hS j = 1#1) :
    ∀ i, IsReal (a i) := fun i =>
  isReal_of_abs_lt (a i) (Host.reduce_andi_all _ init hr hS j e i)

/-- A conjunction of two one-bit arrays that is 1 at an index has both 1 there. -/
theorem andi_split {s : Shape} {x y : IVec s 1} {j : s.Idx} (h : andi x y j = 1#1) : x j = 1#1 ∧ y j = 1#1 :=
  IntOp.andi_eq_one.1 h

variable [Facts]

/-- If the predicate is all ones then every entry of each of the eleven float arrays is a real. -/
theorem inputs_real (a0 : FVec Ideal S100000x128 .f32) (a1 : IVec S2x1600000 32) (a2 : FVec Ideal S3x128x128 .f32)
    (a3 : FVec Ideal S3x128 .f32) (a4 : FVec Ideal S3x128x128 .f32) (a5 a6 a7 : FVec Ideal S3x128 .f32)
    (a8 : FVec Ideal S128x128 .f32) (a9 : FVec Ideal S128 .f32) (a10 : FVec Ideal S47x128 .f32) (a11 : FVec Ideal S47 .f32)
    (h : Cert.Pre_finite_inputs.fn (F := Ideal) a0 a1 a2 a3 a4 a5 a6 a7 a8 a9 a10 a11 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have h0 := congrFun h ValueIdx.ix0
  dsimp only [fn, fn_part1, fn_part2, fn_part3] at h0
  obtain ⟨h0, e11⟩ := andi_split h0
  obtain ⟨h0, e10⟩ := andi_split h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨e0, e2⟩ := andi_split h0
  exact ⟨all_real a0 _ _ _ _ _ e0, all_real a2 _ _ _ _ _ e2, all_real a3 _ _ _ _ _ e3, all_real a4 _ _ _ _ _ e4,
    all_real a5 _ _ _ _ _ e5, all_real a6 _ _ _ _ _ e6, all_real a7 _ _ _ _ _ e7, all_real a8 _ _ _ _ _ e8,
    all_real a9 _ _ _ _ _ e9, all_real a10 _ _ _ _ _ e10, all_real a11 _ _ _ _ _ e11⟩

end Cert.Net

end
-- ==== Proof.Bridge.lean ====
/-
  The two idealized programs end with equal results.

  The kernel's result array is the network with the one-pass clamped variance (three regions accumulate Σh and Σh²),
  the reference's the network with the two-pass variance. Both form the segment sum of neighbour rows with the same
  host operations, a gather of rows added up by a scatter onto zeros; it sends real-valued features to real-valued
  features, being finite sums of entries. The precondition makes every float argument real-valued, so the hidden
  activations of every layer are real-valued, on which max (Σh²/n − μ², 0) = Σ(h − μ)²/n; hence the two networks agree.
-/
import proofs.«140366_j72610717106485_2_alg».proof.Defs
import proofs.«140366_j72610717106485_2_alg».proof.Proof.KRun
import proofs.«140366_j72610717106485_2_alg».proof.Proof.KNet
import proofs.«140366_j72610717106485_2_alg».proof.Proof.RefRunH
import proofs.«140366_j72610717106485_2_alg».proof.Proof.NetReal
import proofs.«140366_j72610717106485_2_alg».proof.Proof.SegReal
import proofs.«140366_j72610717106485_2_alg».proof.Proof.PreReal

set_option maxRecDepth 16384

noncomputable section

open Idealize.ShloMosaic Idealize.ShloMosaic.TcCoe Idealize.SL.Sem Idealize.ShloMosaic.ValueIdx

namespace Cert.Proof.Bridge

open Cert.Net Cert.Lib.FeatureFold

/-- The kernel's and the reference's segment sums are one function: the same operations, spelt in two programs. -/
theorem seg_eq (E : IVec Cert.KernelIdeal.S2x1600000 32) (X : FVec Ideal Cert.KernelIdeal.S100000x128 .f32) :
    Cert.KernelIdeal.Hand.segK E X = Cert.RefNet.segR E X := rfl

/-- A scatter-add of real updates into a real array, in the host's spelling, is real at every index. -/
theorem hostScatterAdd_isReal {s si su : Shape} (d : ScatterDims s si su) {w : ℕ} (init : FVec Ideal s .f32) (idx : IVec si w)
    (upd : FVec Ideal su .f32) (hi : ∀ t, IsReal (init t)) (hu : ∀ u, IsReal (upd u)) :
    ∀ t, IsReal (Host.scatterAdd (F := Ideal) d init idx upd t) :=
  scatterAdd_isReal d init idx upd hi hu

/-- The segment sum keeps real-valued features real-valued: every entry is a finite sum of gathered entries. -/
theorem seg_real (E : IVec Cert.KernelIdeal.S2x1600000 32) (x : Mat 100000 128) (hx : ∀ r j, IsReal (x r j)) :
    ∀ r j, IsReal (Cert.KernelIdeal.Hand.S E x r j) := by
  intro r j
  unfold Cert.KernelIdeal.Hand.S Cert.KernelIdeal.Hand.segK Cert.KernelIdeal.Hand.segOf cur
  have hg : ∀ i : Cert.KernelIdeal.S100000x128.Idx, IsReal (uncur x i) := fun i => hx (i 0) (i 1)
  have hz := zeros_isReal (t := Cert.KernelIdeal.S100000x128) ![] Cert.KernelIdeal.Facts₀.bcast_S_S100000x128
  have hgg := gather_isReal Cert.KernelIdeal.gather_S100000x128_S1600000x1_S1600000x128_1_0_n_n_0_1_1128 (w := 32) (uncur x)
  exact hostScatterAdd_isReal _ _ _ _ hz (hgg _ hg) _

/-- Real-valued argument arrays give real-valued layer parameters. -/
theorem layerW_real (Wl : (⟨3, ![3, 128, 128]⟩ : Shape).Idx → EReal) (bl : (⟨2, ![3, 128]⟩ : Shape).Idx → EReal)
    (Wr : (⟨3, ![3, 128, 128]⟩ : Shape).Idx → EReal) (br γ β : (⟨2, ![3, 128]⟩ : Shape).Idx → EReal)
    (hWl : ∀ i, IsReal (Wl i)) (hbl : ∀ i, IsReal (bl i)) (hWr : ∀ i, IsReal (Wr i)) (hbr : ∀ i, IsReal (br i))
    (hγ : ∀ i, IsReal (γ i)) (hβ : ∀ i, IsReal (β i)) (l : Fin 3) : (layerW Wl bl Wr br γ β l).Real :=
  { wr := fun e j => hWr _, br := fun j => hbr _, wl := fun e j => hWl _, bl := fun j => hbl _,
    γ := fun j => hγ _, β := fun j => hβ _ }

/-- The algebraic claim. -/
theorem algebraic : Cert.algebraic_KernelIdeal_ReferenceIdeal := by
  intro m ρ m' ρ' hpre hagree
  refine ⟨fun c => (show Cert.KernelIdeal.S100000x47.Idx → EReal from
      uncur (netOne (Cert.KernelIdeal.Hand.Sg m c) (cur (m ((c.tc : Thread Cert.KernelIdeal.nD Cert.KernelIdeal.τ).loc Cert.KernelIdeal.main_arg0))) (Cert.KernelIdeal.Hand.P m c 0) (Cert.KernelIdeal.Hand.P m c 1)
        (Cert.KernelIdeal.Hand.P m c 2) (tr (m ((c.tc : Thread Cert.KernelIdeal.nD Cert.KernelIdeal.τ).loc Cert.KernelIdeal.main_arg8))) (vec (m ((c.tc : Thread Cert.KernelIdeal.nD Cert.KernelIdeal.τ).loc Cert.KernelIdeal.main_arg9))) (tr (m ((c.tc : Thread Cert.KernelIdeal.nD Cert.KernelIdeal.τ).loc Cert.KernelIdeal.main_arg10))) (vec (m ((c.tc : Thread Cert.KernelIdeal.nD Cert.KernelIdeal.τ).loc Cert.KernelIdeal.main_arg11))))), ?_, ?_⟩
  · exact (θ_run Cert.KernelIdeal.defs _ _).mono
      (fun r h c => ⟨(h c).1.trans (Cert.KernelIdeal.Hand.result m ρ c), (h c).2⟩) (Cert.KernelIdeal.Gen.run_value m ρ)
  · refine (θ_run Cert.ReferenceIdeal.defs _ _).mono (fun r h c => ⟨(h c).1.trans ?_, (h c).2⟩) (Cert.RefNet.run_ref m' ρ')
    obtain ⟨a0, a1, a2, a3, a4, a5, a6, a7, a8, a9, a10, a11⟩ := hagree c
    obtain ⟨r0, r2, r3, r4, r5, r6, r7, r8, r9, r10, r11⟩ := inputs_real _ _ _ _ _ _ _ _ _ _ _ _ (hpre c)
    rw [a0, a1, a2, a3, a4, a5, a6, a7, a8, a9, a10, a11]
    have hS : (fun X : Mat 100000 128 => cur (Cert.RefNet.segR (m ((c.tc : Thread Cert.KernelIdeal.nD Cert.KernelIdeal.τ).loc Cert.KernelIdeal.main_arg1)) (uncur X))) = Cert.KernelIdeal.Hand.Sg m c :=
      funext fun X => congrArg cur (seg_eq _ _).symm
    rw [hS]
    refine congrArg uncur ?_
    exact (netOne_eq_netTwo (Cert.KernelIdeal.Hand.Sg m c) (seg_real _) _ (fun r j => r0 _)
      _ _ _ (layerW_real _ _ _ _ _ _ r2 r3 r4 r5 r6 r7 0) (layerW_real _ _ _ _ _ _ r2 r3 r4 r5 r6 r7 1)
      (layerW_real _ _ _ _ _ _ r2 r3 r4 r5 r6 r7 2) _ _ _ _).symm

end Cert.Proof.Bridge

end
-- ==== Proof.lean ====
/-
  The certificate's claim: the three programs run, terminate without fault and leave their arguments unchanged; the
  idealization rewrote nothing; and the idealized kernel and the idealized reference, run from memories agreeing on the
  arguments, end with equal results as extended reals.

  The network is three graph layers and a head over 100000 nodes with 128 features (Proof/Spec.lean). The kernel
  computes it in six regions: per layer one that accumulates the column sums Σh and Σh² of the hidden activations over
  20 row blocks, and one that applies the layer (the last also the head and the log-softmax) over 25 row blocks; the
  host forms the segment sums and the mean and variance rows between them. The reference computes it whole. The two
  differ only in how the variance is formed (one pass and clamped, against two passes), which agree on the real-valued
  data the precondition guarantees (Proof/Bridge.lean).
-/
import proofs.«140366_j72610717106485_2_alg».proof.Defs
import proofs.«140366_j72610717106485_2_alg».proof.Proof.Gen.Kernel
import proofs.«140366_j72610717106485_2_alg».proof.Proof.Gen.Kernel.Skeleton
import proofs.«140366_j72610717106485_2_alg».proof.Proof.Gen.Kernel.Launch
import proofs.«140366_j72610717106485_2_alg».proof.Proof.Gen.Kernel.Points
import proofs.«140366_j72610717106485_2_alg».proof.Proof.Gen.Kernel.Frame
import proofs.«140366_j72610717106485_2_alg».proof.Proof.Gen.KernelIdeal
import proofs.«140366_j72610717106485_2_alg».proof.Proof.Gen.KernelIdeal.Skeleton
import proofs.«140366_j72610717106485_2_alg».proof.Proof.Gen.KernelIdeal.Launch
import proofs.«140366_j72610717106485_2_alg».proof.Proof.Gen.KernelIdeal.Points
import proofs.«140366_j72610717106485_2_alg».proof.Proof.Gen.KernelIdeal.Frame
import proofs.«140366_j72610717106485_2_alg».proof.Proof.Gen.ReferenceIdeal
import proofs.«140366_j72610717106485_2_alg».proof.Proof.Gen.Pre_finite_inputs
import proofs.«140366_j72610717106485_2_alg».proof.Proof.Bridge
import Idealize.ShloMosaic.Adequacy
import Idealize.ShloMosaic.Init

noncomputable section

namespace Cert.Proof

open Idealize.ShloMosaic Idealize.SL.Sem Cert.Kernel

/-- The word-level kernel's frame. -/
theorem frame_k : Cert.frame_Kernel := fun m ρ _ => Cert.Kernel.Gen.frame m ρ
/-- The idealized kernel's frame. -/
theorem frame_ki : Cert.frame_KernelIdeal := fun m ρ _ => Cert.KernelIdeal.Gen.frame m ρ
/-- The reference's frame: its run with the result dropped. -/
theorem frame_ri : Cert.frame_ReferenceIdeal := fun m ρ _ => Cert.RefNet.frame_ref m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
